-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v190) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x256 : Shape := ⟨2, ![20000, 256]⟩
abbrev S320000x128 : Shape := ⟨2, ![320000, 128]⟩
abbrev S2x320000 : Shape := ⟨2, ![2, 320000]⟩
abbrev S2x256x640 : Shape := ⟨3, ![2, 256, 640]⟩
abbrev S2x256 : Shape := ⟨2, ![2, 256]⟩
abbrev S2x256x256 : Shape := ⟨3, ![2, 256, 256]⟩
abbrev S2x1024x256 : Shape := ⟨3, ![2, 1024, 256]⟩
abbrev S2x1024 : Shape := ⟨2, ![2, 1024]⟩
abbrev S256x256 : Shape := ⟨2, ![256, 256]⟩
abbrev S256 : Shape := ⟨1, ![256]⟩
abbrev S_ : Shape := ⟨0, ![]⟩

class Facts : Prop where
  bcast_S_S20000x256 : S_.BroadcastsInDim S20000x256 (![] : Fin 0 → Fin S20000x256.rank)
  reducesTo_S20000x256_S_d0_1 : S20000x256.ReducesTo [0, 1] S_
  h_S_ : 0 < S_.numel
  bcast_S_S320000x128 : S_.BroadcastsInDim S320000x128 (![] : Fin 0 → Fin S320000x128.rank)
  reducesTo_S320000x128_S_d0_1 : S320000x128.ReducesTo [0, 1] S_
  bcast_S_S2x256x640 : S_.BroadcastsInDim S2x256x640 (![] : Fin 0 → Fin S2x256x640.rank)
  reducesTo_S2x256x640_S_d0_1_2 : S2x256x640.ReducesTo [0, 1, 2] S_
  bcast_S_S2x256 : S_.BroadcastsInDim S2x256 (![] : Fin 0 → Fin S2x256.rank)
  reducesTo_S2x256_S_d0_1 : S2x256.ReducesTo [0, 1] S_
  bcast_S_S2x256x256 : S_.BroadcastsInDim S2x256x256 (![] : Fin 0 → Fin S2x256x256.rank)
  reducesTo_S2x256x256_S_d0_1_2 : S2x256x256.ReducesTo [0, 1, 2] S_
  bcast_S_S2x1024x256 : S_.BroadcastsInDim S2x1024x256 (![] : Fin 0 → Fin S2x1024x256.rank)
  reducesTo_S2x1024x256_S_d0_1_2 : S2x1024x256.ReducesTo [0, 1, 2] S_
  bcast_S_S2x1024 : S_.BroadcastsInDim S2x1024 (![] : Fin 0 → Fin S2x1024.rank)
  reducesTo_S2x1024_S_d0_1 : S2x1024.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S2x320000 : S_.BroadcastsInDim S2x320000 (![] : Fin 0 → Fin S2x320000.rank)
  reducesTo_S2x320000_S_d0_1 : S2x320000.ReducesTo [0, 1] S_

variable [Facts]

def fn_part4 {F : FTy → Type} [FloatOps F] (main_arg2 : IVec S2x320000 32) (main_v63 : IVec S_ 1) (main_v67 : IVec S_ 1) : IVec S_ 1 :=
  let main_v68 : IVec S_ 1 := andi main_v63 main_v67
  let main_c_26 : IVec S_ 32 := constantI S_ 32 0#32
  let main_v69 : IVec S2x320000 32 := broadcastInDim S2x320000 ![] bcast_S_S2x320000 main_c_26
  let main_v70 : IVec S2x320000 1 := cmpi .sge main_arg2 main_v69
  let main_c_27 : IVec S_ 1 := constantI S_ 1 1#1
  let main_v71 : IVec S_ 1 := (fun x v => Host.reduce IntOp.andi x v reducesTo_S2x320000_S_d0_1 h_S_) main_v70 main_c_27
  let main_v72 : IVec S_ 1 := andi main_v68 main_v71
  let main_c_28 : IVec S_ 32 := constantI S_ 32 20000#32
  let main_v73 : IVec S2x320000 32 := broadcastInDim S2x320000 ![] bcast_S_S2x320000 main_c_28
  let main_v74 : IVec S2x320000 1 := cmpi .slt main_arg2 main_v73
  let main_c_29 : IVec S_ 1 := constantI S_ 1 1#1
  let main_v75 : IVec S_ 1 := (fun x v => Host.reduce IntOp.andi x v reducesTo_S2x320000_S_d0_1 h_S_) main_v74 main_c_29
  let main_v76 : IVec S_ 1 := andi main_v72 main_v75
  main_v76

def fn_part3 {F : FTy → Type} [FloatOps F] (main_arg2 : IVec S2x320000 32) (main_arg12 : FVec F S256 .f32) (main_arg13 : FVec F S256x256 .f32) (main_arg14 : FVec F S256 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x256 .f32 := Host.absf main_arg13
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256 .f32 := Host.absf main_arg14
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg2 main_v63 main_v67

def fn_part2 {F : FTy → Type} [FloatOps F] (main_arg2 : IVec S2x320000 32) (main_arg8 : FVec F S2x1024x256 .f32) (main_arg9 : FVec F S2x1024 .f32) (main_arg10 : FVec F S2x1024 .f32) (main_arg11 : FVec F S256x256 .f32) (main_arg12 : FVec F S256 .f32) (main_arg13 : FVec F S256x256 .f32) (main_arg14 : FVec F S256 .f32) (main_v33 : IVec S_ 1) : IVec S_ 1 :=
  let main_v34 : FVec F S2x1024x256 .f32 := Host.absf main_arg8
  let main_cst_12 : FVec F S_ .f32 := constant S_ .f32 0x7F800000#32
  let main_v35 : FVec F S2x1024x256 .f32 := broadcastInDim S2x1024x256 ![] bcast_S_S2x1024x256 main_cst_12
  let main_v36 : IVec S2x1024x256 1 := cmpf .olt main_v34 main_v35
  let main_c_13 : IVec S_ 1 := constantI S_ 1 1#1
  let main_v37 : IVec S_ 1 := (fun x v => Host.reduce IntOp.andi x v reducesTo_S2x1024x256_S_d0_1_2 h_S_) main_v36 main_c_13
  let main_v38 : IVec S_ 1 := andi main_v33 main_v37
  let main_v39 : FVec F S2x1024 .f32 := Host.absf main_arg9
  let main_cst_14 : FVec F S_ .f32 := constant S_ .f32 0x7F800000#32
  let main_v40 : FVec F S2x1024 .f32 := broadcastInDim S2x1024 ![] bcast_S_S2x1024 main_cst_14
  let main_v41 : IVec S2x1024 1 := cmpf .olt main_v39 main_v40
  let main_c_15 : IVec S_ 1 := constantI S_ 1 1#1
  let main_v42 : IVec S_ 1 := (fun x v => Host.reduce IntOp.andi x v reducesTo_S2x1024_S_d0_1 h_S_) main_v41 main_c_15
  let main_v43 : IVec S_ 1 := andi main_v38 main_v42
  let main_v44 : FVec F S2x1024 .f32 := Host.absf main_arg10
  let main_cst_16 : FVec F S_ .f32 := constant S_ .f32 0x7F800000#32
  let main_v45 : FVec F S2x1024 .f32 := broadcastInDim S2x1024 ![] bcast_S_S2x1024 main_cst_16
  let main_v46 : IVec S2x1024 1 := cmpf .olt main_v44 main_v45
  let main_c_17 : IVec S_ 1 := constantI S_ 1 1#1
  let main_v47 : IVec S_ 1 := (fun x v => Host.reduce IntOp.andi x v reducesTo_S2x1024_S_d0_1 h_S_) main_v46 main_c_17
  let main_v48 : IVec S_ 1 := andi main_v43 main_v47
  let main_v49 : FVec F S256x256 .f32 := Host.absf main_arg11
  let main_cst_18 : FVec F S_ .f32 := constant S_ .f32 0x7F800000#32
  let main_v50 : FVec F S256x256 .f32 := broadcastInDim S256x256 ![] bcast_S_S256x256 main_cst_18
  fn_part3 (F := F) main_arg2 main_arg12 main_arg13 main_arg14 main_v48 main_v49 main_v50

def fn_part1 {F : FTy → Type} [FloatOps F] (main_arg2 : IVec S2x320000 32) (main_arg5 : FVec F S2x256x256 .f32) (main_arg6 : FVec F S2x256 .f32) (main_arg7 : FVec F S2x1024x256 .f32) (main_arg8 : FVec F S2x1024x256 .f32) (main_arg9 : FVec F S2x1024 .f32) (main_arg10 : FVec F S2x1024 .f32) (main_arg11 : FVec F S256x256 .f32) (main_arg12 : FVec F S256 .f32) (main_arg13 : FVec F S256x256 .f32) (main_arg14 : FVec F S256 .f32) (main_v13 : IVec S_ 1) (main_v16 : IVec S2x256 1) : IVec S_ 1 :=
  let main_c_5 : IVec S_ 1 := constantI S_ 1 1#1
  let main_v17 : IVec S_ 1 := (fun x v => Host.reduce IntOp.andi x v reducesTo_S2x256_S_d0_1 h_S_) main_v16 main_c_5
  let main_v18 : IVec S_ 1 := andi main_v13 main_v17
  let main_v19 : FVec F S2x256x256 .f32 := Host.absf main_arg5
  let main_cst_6 : FVec F S_ .f32 := constant S_ .f32 0x7F800000#32
  let main_v20 : FVec F S2x256x256 .f32 := broadcastInDim S2x256x256 ![] bcast_S_S2x256x256 main_cst_6
  let main_v21 : IVec S2x256x256 1 := cmpf .olt main_v19 main_v20
  let main_c_7 : IVec S_ 1 := constantI S_ 1 1#1
  let main_v22 : IVec S_ 1 := (fun x v => Host.reduce IntOp.andi x v reducesTo_S2x256x256_S_d0_1_2 h_S_) main_v21 main_c_7
  let main_v23 : IVec S_ 1 := andi main_v18 main_v22
  let main_v24 : FVec F S2x256 .f32 := Host.absf main_arg6
  let main_cst_8 : FVec F S_ .f32 := constant S_ .f32 0x7F800000#32
  let main_v25 : FVec F S2x256 .f32 := broadcastInDim S2x256 ![] bcast_S_S2x256 main_cst_8
  let main_v26 : IVec S2x256 1 := cmpf .olt main_v24 main_v25
  let main_c_9 : IVec S_ 1 := constantI S_ 1 1#1
  let main_v27 : IVec S_ 1 := (fun x v => Host.reduce IntOp.andi x v reducesTo_S2x256_S_d0_1 h_S_) main_v26 main_c_9
  let main_v28 : IVec S_ 1 := andi main_v23 main_v27
  let main_v29 : FVec F S2x1024x256 .f32 := Host.absf main_arg7
  let main_cst_10 : FVec F S_ .f32 := constant S_ .f32 0x7F800000#32
  let main_v30 : FVec F S2x1024x256 .f32 := broadcastInDim S2x1024x256 ![] bcast_S_S2x1024x256 main_cst_10
  let main_v31 : IVec S2x1024x256 1 := cmpf .olt main_v29 main_v30
  let main_c_11 : IVec S_ 1 := constantI S_ 1 1#1
  let main_v32 : IVec S_ 1 := (fun x v => Host.reduce IntOp.andi x v reducesTo_S2x1024x256_S_d0_1_2 h_S_) main_v31 main_c_11
  let main_v33 : IVec S_ 1 := andi main_v28 main_v32
  fn_part2 (F := F) main_arg2 main_arg8 main_arg9 main_arg10 main_arg11 main_arg12 main_arg13 main_arg14 main_v33

def fn {F : FTy → Type} [FloatOps F] (main_arg0 : FVec F S20000x256 .f32) (main_arg1 : FVec F S320000x128 .f32) (main_arg2 : IVec S2x320000 32) (main_arg3 : FVec F S2x256x640 .f32) (main_arg4 : FVec F S2x256 .f32) (main_arg5 : FVec F S2x256x256 .f32) (main_arg6 : FVec F S2x256 .f32) (main_arg7 : FVec F S2x1024x256 .f32) (main_arg8 : FVec F S2x1024x256 .f32) (main_arg9 : FVec F S2x1024 .f32) (main_arg10 : FVec F S2x1024 .f32) (main_arg11 : FVec F S256x256 .f32) (main_arg12 : FVec F S256 .f32) (main_arg13 : FVec F S256x256 .f32) (main_arg14 : FVec F S256 .f32) : IVec S_ 1 :=
  let main_v0 : FVec F S20000x256 .f32 := Host.absf main_arg0
  let main_cst : FVec F S_ .f32 := constant S_ .f32 0x7F800000#32
  let main_v1 : FVec F S20000x256 .f32 := broadcastInDim S20000x256 ![] bcast_S_S20000x256 main_cst
  let main_v2 : IVec S20000x256 1 := cmpf .olt main_v0 main_v1
  let main_c : IVec S_ 1 := constantI S_ 1 1#1
  let main_v3 : IVec S_ 1 := (fun x v => Host.reduce IntOp.andi x v reducesTo_S20000x256_S_d0_1 h_S_) main_v2 main_c
  let main_v4 : FVec F S320000x128 .f32 := Host.absf main_arg1
  let main_cst_0 : FVec F S_ .f32 := constant S_ .f32 0x7F800000#32
  let main_v5 : FVec F S320000x128 .f32 := broadcastInDim S320000x128 ![] bcast_S_S320000x128 main_cst_0
  let main_v6 : IVec S320000x128 1 := cmpf .olt main_v4 main_v5
  let main_c_1 : IVec S_ 1 := constantI S_ 1 1#1
  let main_v7 : IVec S_ 1 := (fun x v => Host.reduce IntOp.andi x v reducesTo_S320000x128_S_d0_1 h_S_) main_v6 main_c_1
  let main_v8 : IVec S_ 1 := andi main_v3 main_v7
  let main_v9 : FVec F S2x256x640 .f32 := Host.absf main_arg3
  let main_cst_2 : FVec F S_ .f32 := constant S_ .f32 0x7F800000#32
  let main_v10 : FVec F S2x256x640 .f32 := broadcastInDim S2x256x640 ![] bcast_S_S2x256x640 main_cst_2
  let main_v11 : IVec S2x256x640 1 := cmpf .olt main_v9 main_v10
  let main_c_3 : IVec S_ 1 := constantI S_ 1 1#1
  let main_v12 : IVec S_ 1 := (fun x v => Host.reduce IntOp.andi x v reducesTo_S2x256x640_S_d0_1_2 h_S_) main_v11 main_c_3
  let main_v13 : IVec S_ 1 := andi main_v8 main_v12
  let main_v14 : FVec F S2x256 .f32 := Host.absf main_arg4
  let main_cst_4 : FVec F S_ .f32 := constant S_ .f32 0x7F800000#32
  let main_v15 : FVec F S2x256 .f32 := broadcastInDim S2x256 ![] bcast_S_S2x256 main_cst_4
  let main_v16 : IVec S2x256 1 := cmpf .olt main_v14 main_v15
  fn_part1 (F := F) main_arg2 main_arg5 main_arg6 main_arg7 main_arg8 main_arg9 main_arg10 main_arg11 main_arg12 main_arg13 main_arg14 main_v13 main_v16
-- ==== Kernel.lean ====
abbrev S20000x256 : Shape := ⟨2, ![20000, 256]⟩
abbrev S320000x128 : Shape := ⟨2, ![320000, 128]⟩
abbrev S2x320000 : Shape := ⟨2, ![2, 320000]⟩
abbrev S2x256x640 : Shape := ⟨3, ![2, 256, 640]⟩
abbrev S2x256 : Shape := ⟨2, ![2, 256]⟩
abbrev S2x256x256 : Shape := ⟨3, ![2, 256, 256]⟩
abbrev S2x1024x256 : Shape := ⟨3, ![2, 1024, 256]⟩
abbrev S2x1024 : Shape := ⟨2, ![2, 1024]⟩
abbrev S256x256 : Shape := ⟨2, ![256, 256]⟩
abbrev S256 : Shape := ⟨1, ![256]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S1 : Shape := ⟨1, ![1]⟩
abbrev S1x1 : Shape := ⟨2, ![1, 1]⟩
abbrev S320000x256 : Shape := ⟨2, ![320000, 256]⟩
abbrev S1x256x640 : Shape := ⟨3, ![1, 256, 640]⟩
abbrev S256x640 : Shape := ⟨2, ![256, 640]⟩
abbrev S1x256 : Shape := ⟨2, ![1, 256]⟩
abbrev S1x256x256 : Shape := ⟨3, ![1, 256, 256]⟩
abbrev S4000x256 : Shape := ⟨2, ![4000, 256]⟩
abbrev S4000x128 : Shape := ⟨2, ![4000, 128]⟩
abbrev S4000x640 : Shape := ⟨2, ![4000, 640]⟩
abbrev S640x256 : Shape := ⟨2, ![640, 256]⟩
abbrev S1x1024x256 : Shape := ⟨3, ![1, 1024, 256]⟩
abbrev S1024x256 : Shape := ⟨2, ![1024, 256]⟩
abbrev S1x1024 : Shape := ⟨2, ![1, 1024]⟩
abbrev S1024 : Shape := ⟨1, ![1024]⟩
abbrev S2000x256 : Shape := ⟨2, ![2000, 256]⟩
abbrev S256x1024 : Shape := ⟨2, ![256, 1024]⟩
abbrev S2000x1024 : Shape := ⟨2, ![2000, 1024]⟩

abbrev nBuf : Space → Nat
  | .hbm => 171
  | .vmem => 59
  | .smem => 0
  | _ => 0

abbrev hbmTy0_0 (i : Nat) : BufTy := match i % 128 with
  | 0 => ⟨S20000x256, .f32⟩
  | 1 => ⟨S320000x128, .f32⟩
  | 2 => ⟨S2x320000, .i32⟩
  | 3 => ⟨S2x256x640, .f32⟩
  | 4 => ⟨S2x256, .f32⟩
  | 5 => ⟨S2x256x256, .f32⟩
  | 6 => ⟨S2x256, .f32⟩
  | 7 => ⟨S2x1024x256, .f32⟩
  | 8 => ⟨S2x1024x256, .f32⟩
  | 9 => ⟨S2x1024, .f32⟩
  | 10 => ⟨S2x1024, .f32⟩
  | 11 => ⟨S256x256, .f32⟩
  | 12 => ⟨S256, .f32⟩
  | 13 => ⟨S256x256, .f32⟩
  | 14 => ⟨S256, .f32⟩
  | 15 => ⟨S1x320000, .i32⟩
  | 16 => ⟨S320000, .i32⟩
  | 17 => ⟨S1x320000, .i32⟩
  | 18 => ⟨S320000, .i32⟩
  | 19 => ⟨S_, .f32⟩
  | 20 => ⟨S20000x256, .f32⟩
  | 21 => ⟨S_, .i32⟩
  | 22 => ⟨S320000, .i32⟩
  | 23 => ⟨S320000, .i1⟩
  | 24 => ⟨S_, .i32⟩
  | 25 => ⟨S320000, .i32⟩
  | 26 => ⟨S320000, .i32⟩
  | 27 => ⟨S320000, .i32⟩
  | 28 => ⟨S320000x1, .i32⟩
  | 29 => ⟨S1, .i32⟩
  | 30 => ⟨S_, .i32⟩
  | 31 => ⟨S320000x1, .i32⟩
  | 32 => ⟨S320000x1, .i1⟩
  | 33 => ⟨S1x1, .i32⟩
  | 34 => ⟨S320000x1, .i32⟩
  | 35 => ⟨S320000x1, .i1⟩
  | 36 => ⟨S320000x1, .i1⟩
  | 37 => ⟨S_, .i1⟩
  | 38 => ⟨S320000, .i1⟩
  | 39 => ⟨S320000x256, .f32⟩
  | 40 => ⟨S320000x256, .i1⟩
  | 41 => ⟨S_, .f32⟩
  | 42 => ⟨S320000x256, .f32⟩
  | 43 => ⟨S320000x256, .f32⟩
  | 44 => ⟨S_, .i32⟩
  | 45 => ⟨S320000, .i32⟩
  | 46 => ⟨S320000, .i1⟩
  | 47 => ⟨S_, .i32⟩
  | 48 => ⟨S320000, .i32⟩
  | 49 => ⟨S320000, .i32⟩
  | 50 => ⟨S320000, .i32⟩
  | 51 => ⟨S320000x1, .i32⟩
  | 52 => ⟨S1, .i32⟩
  | 53 => ⟨S_, .i32⟩
  | 54 => ⟨S320000x1, .i32⟩
  | 55 => ⟨S320000x1, .i1⟩
  | 56 => ⟨S1x1, .i32⟩
  | 57 => ⟨S320000x1, .i32⟩
  | 58 => ⟨S320000x1, .i1⟩
  | 59 => ⟨S320000x1, .i1⟩
  | 60 => ⟨S_, .i1⟩
  | 61 => ⟨S320000, .i1⟩
  | 62 => ⟨S320000x256, .f32⟩
  | 63 => ⟨S320000x256, .i1⟩
  | 64 => ⟨S_, .f32⟩
  | 65 => ⟨S320000x256, .f32⟩
  | 66 => ⟨S320000x256, .f32⟩
  | 67 => ⟨S1x256x640, .f32⟩
  | 68 => ⟨S256x640, .f32⟩
  | 69 => ⟨S1x256, .f32⟩
  | 70 => ⟨S256, .f32⟩
  | 71 => ⟨S1x256x256, .f32⟩
  | 72 => ⟨S256x256, .f32⟩
  | 73 => ⟨S1x256, .f32⟩
  | 74 => ⟨S256, .f32⟩
  | 75 => ⟨S1x256, .f32⟩
  | 76 => ⟨S1x256, .f32⟩
  | 77 => ⟨S320000x256, .f32⟩
  | 78 => ⟨S_, .f32⟩
  | 79 => ⟨S20000x256, .f32⟩
  | 80 => ⟨S320000x1, .i32⟩
  | 81 => ⟨S20000x256, .f32⟩
  | 82 => ⟨S1x1024x256, .f32⟩
  | 83 => ⟨S1024x256, .f32⟩
  | 84 => ⟨S1x1024x256, .f32⟩
  | 85 => ⟨S1024x256, .f32⟩
  | 86 => ⟨S1x1024, .f32⟩
  | 87 => ⟨S1024, .f32⟩
  | 88 => ⟨S1x1024, .f32⟩
  | 89 => ⟨S1024, .f32⟩
  | 90 => ⟨S1x1024, .f32⟩
  | 91 => ⟨S1x1024, .f32⟩
  | 92 => ⟨S20000x256, .f32⟩
  | 93 => ⟨S20000x256, .f32⟩
  | 94 => ⟨S_, .i32⟩
  | 95 => ⟨S320000, .i32⟩
  | 96 => ⟨S320000, .i1⟩
  | 97 => ⟨S_, .i32⟩
  | 98 => ⟨S320000, .i32⟩
  | 99 => ⟨S320000, .i32⟩
  | 100 => ⟨S320000, .i32⟩
  | 101 => ⟨S320000x1, .i32⟩
  | 102 => ⟨S1, .i32⟩
  | 103 => ⟨S_, .i32⟩
  | 104 => ⟨S320000x1, .i32⟩
  | 105 => ⟨S320000x1, .i1⟩
  | 106 => ⟨S1x1, .i32⟩
  | 107 => ⟨S320000x1, .i32⟩
  | 108 => ⟨S320000x1, .i1⟩
  | 109 => ⟨S320000x1, .i1⟩
  | 110 => ⟨S_, .i1⟩
  | 111 => ⟨S320000, .i1⟩
  | 112 => ⟨S320000x256, .f32⟩
  | 113 => ⟨S320000x256, .i1⟩
  | 114 => ⟨S_, .f32⟩
  | 115 => ⟨S320000x256, .f32⟩
  | 116 => ⟨S320000x256, .f32⟩
  | 117 => ⟨S_, .i32⟩
  | 118 => ⟨S320000, .i32⟩
  | 119 => ⟨S320000, .i1⟩
  | 120 => ⟨S_, .i32⟩
  | 121 => ⟨S320000, .i32⟩
  | 122 => ⟨S320000, .i32⟩
  | 123 => ⟨S320000, .i32⟩
  | 124 => ⟨S320000x1, .i32⟩
  | 125 => ⟨S1, .i32⟩
  | 126 => ⟨S_, .i32⟩
  | 127 => ⟨S320000x1, .i32⟩
  | _ => ⟨S20000x256, .f32⟩

abbrev hbmTy0_1 (i : Nat) : BufTy := match i % 128 with
  | 0 => ⟨S320000x1, .i1⟩
  | 1 => ⟨S1x1, .i32⟩
  | 2 => ⟨S320000x1, .i32⟩
  | 3 => ⟨S320000x1, .i1⟩
  | 4 => ⟨S320000x1, .i1⟩
  | 5 => ⟨S_, .i1⟩
  | 6 => ⟨S320000, .i1⟩
  | 7 => ⟨S320000x256, .f32⟩
  | 8 => ⟨S320000x256, .i1⟩
  | 9 => ⟨S_, .f32⟩
  | 10 => ⟨S320000x256, .f32⟩
  | 11 => ⟨S320000x256, .f32⟩
  | 12 => ⟨S1x256x640, .f32⟩
  | 13 => ⟨S256x640, .f32⟩
  | 14 => ⟨S1x256, .f32⟩
  | 15 => ⟨S256, .f32⟩
  | 16 => ⟨S1x256x256, .f32⟩
  | 17 => ⟨S256x256, .f32⟩
  | 18 => ⟨S1x256, .f32⟩
  | 19 => ⟨S256, .f32⟩
  | 20 => ⟨S1x256, .f32⟩
  | 21 => ⟨S1x256, .f32⟩
  | 22 => ⟨S320000x256, .f32⟩
  | 23 => ⟨S_, .f32⟩
  | 24 => ⟨S20000x256, .f32⟩
  | 25 => ⟨S320000x1, .i32⟩
  | 26 => ⟨S20000x256, .f32⟩
  | 27 => ⟨S1x1024x256, .f32⟩
  | 28 => ⟨S1024x256, .f32⟩
  | 29 => ⟨S1x1024x256, .f32⟩
  | 30 => ⟨S1024x256, .f32⟩
  | 31 => ⟨S1x1024, .f32⟩
  | 32 => ⟨S1024, .f32⟩
  | 33 => ⟨S1x1024, .f32⟩
  | 34 => ⟨S1024, .f32⟩
  | 35 => ⟨S1x1024, .f32⟩
  | 36 => ⟨S1x1024, .f32⟩
  | 37 => ⟨S20000x256, .f32⟩
  | 38 => ⟨S20000x256, .f32⟩
  | 39 => ⟨S1x256, .f32⟩
  | 40 => ⟨S1x256, .f32⟩
  | 41 => ⟨S1x256, .f32⟩
  | 42 => ⟨S256, .f32⟩
  | _ => ⟨S20000x256, .f32⟩

abbrev hbmTy (i : Nat) : BufTy := match i / 128 with
  | 0 => hbmTy0_0 i
  | 1 => hbmTy0_1 i
  | _ => ⟨S20000x256, .f32⟩

abbrev bufTy : (tb : Table) → Fin (tcTables nBuf tb) → BufTy
  | .hbm, ⟨i, _⟩ => hbmTy i
  | .local _ .vmem, ⟨0, _⟩ => ⟨S4000x256, .f32⟩
  | .local _ .vmem, ⟨1, _⟩ => ⟨S4000x256, .f32⟩
  | .local _ .vmem, ⟨2, _⟩ => ⟨S4000x256, .f32⟩
  | .local _ .vmem, ⟨3, _⟩ => ⟨S4000x256, .f32⟩
  | .local _ .vmem, ⟨4, _⟩ => ⟨S4000x128, .f32⟩
  | .local _ .vmem, ⟨5, _⟩ => ⟨S4000x128, .f32⟩
  | .local _ .vmem, ⟨6, _⟩ => ⟨S256x640, .f32⟩
  | .local _ .vmem, ⟨7, _⟩ => ⟨S1x256, .f32⟩
  | .local _ .vmem, ⟨8, _⟩ => ⟨S256x256, .f32⟩
  | .local _ .vmem, ⟨9, _⟩ => ⟨S1x256, .f32⟩
  | .local _ .vmem, ⟨10, _⟩ => ⟨S4000x256, .f32⟩
  | .local _ .vmem, ⟨11, _⟩ => ⟨S4000x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S2000x256, .f32⟩
  | .local _ .vmem, ⟨18, _⟩ => ⟨S1024x256, .f32⟩
  | .local _ .vmem, ⟨19, _⟩ => ⟨S1024x256, .f32⟩
  | .local _ .vmem, ⟨20, _⟩ => ⟨S1x1024, .f32⟩
  | .local _ .vmem, ⟨21, _⟩ => ⟨S1x1024, .f32⟩
  | .local _ .vmem, ⟨22, _⟩ => ⟨S2000x256, .f32⟩
  | .local _ .vmem, ⟨23, _⟩ => ⟨S2000x256, .f32⟩
  | .local _ .vmem, ⟨24, _⟩ => ⟨S2000x256, .f32⟩
  | .local _ .vmem, ⟨25, _⟩ => ⟨S2000x256, .f32⟩
  | .local _ .vmem, ⟨26, _⟩ => ⟨S4000x256, .f32⟩
  | .local _ .vmem, ⟨27, _⟩ => ⟨S4000x256, .f32⟩
  | .local _ .vmem, ⟨28, _⟩ => ⟨S4000x256, .f32⟩
  | .local _ .vmem, ⟨29, _⟩ => ⟨S4000x256, .f32⟩
  | .local _ .vmem, ⟨30, _⟩ => ⟨S4000x128, .f32⟩
  | .local _ .vmem, ⟨31, _⟩ => ⟨S4000x128, .f32⟩
  | .local _ .vmem, ⟨32, _⟩ => ⟨S256x640, .f32⟩
  | .local _ .vmem, ⟨33, _⟩ => ⟨S1x256, .f32⟩
  | .local _ .vmem, ⟨34, _⟩ => ⟨S256x256, .f32⟩
  | .local _ .vmem, ⟨35, _⟩ => ⟨S1x256, .f32⟩
  | .local _ .vmem, ⟨36, _⟩ => ⟨S4000x256, .f32⟩
  | .local _ .vmem, ⟨37, _⟩ => ⟨S4000x256, .f32⟩
  | .local _ .vmem, ⟨38, _⟩ => ⟨S2000x256, .f32⟩
  | .local _ .vmem, ⟨39, _⟩ => ⟨S2000x256, .f32⟩
  | .local _ .vmem, ⟨40, _⟩ => ⟨S2000x256, .f32⟩
  | .local _ .vmem, ⟨41, _⟩ => ⟨S2000x256, .f32⟩
  | .local _ .vmem, ⟨42, _⟩ => ⟨S2000x256, .f32⟩
  | .local _ .vmem, ⟨43, _⟩ => ⟨S2000x256, .f32⟩
  | .local _ .vmem, ⟨44, _⟩ => ⟨S1024x256, .f32⟩
  | .local _ .vmem, ⟨45, _⟩ => ⟨S1024x256, .f32⟩
  | .local _ .vmem, ⟨46, _⟩ => ⟨S1x1024, .f32⟩
  | .local _ .vmem, ⟨47, _⟩ => ⟨S1x1024, .f32⟩
  | .local _ .vmem, ⟨48, _⟩ => ⟨S2000x256, .f32⟩
  | .local _ .vmem, ⟨49, _⟩ => ⟨S2000x256, .f32⟩
  | .local _ .vmem, ⟨50, _⟩ => ⟨S2000x256, .f32⟩
  | .local _ .vmem, ⟨51, _⟩ => ⟨S2000x256, .f32⟩
  | .local _ .vmem, ⟨52, _⟩ => ⟨S2000x256, .f32⟩
  | .local _ .vmem, ⟨53, _⟩ => ⟨S2000x256, .f32⟩
  | .local _ .vmem, ⟨54, _⟩ => ⟨S256x256, .f32⟩
  | .local _ .vmem, ⟨55, _⟩ => ⟨S1x256, .f32⟩
  | .local _ .vmem, ⟨56, _⟩ => ⟨S256x256, .f32⟩
  | .local _ .vmem, ⟨57, _⟩ => ⟨S1x256, .f32⟩
  | .local _ .vmem, ⟨58, _⟩ => ⟨S1x256, .f32⟩
  | _, _ => ⟨S20000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | _, _ => false

abbrev semScoped : Fin 0 → Bool
  | ⟨_, h⟩ => absurd h (Nat.not_lt_zero _)

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  ofTc nBuf bufTy 0 59 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_call0_cst : Ref sig .tc := ⟨.hbm, 41, rfl⟩
abbrev main_call0_v15 : Ref sig .tc := ⟨.hbm, 42, rfl⟩
abbrev main_v5 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_c_1 : Ref sig .tc := ⟨.hbm, 52, rfl⟩
abbrev main_call1_c_2 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_3 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_call1_cst : Ref sig .tc := ⟨.hbm, 64, rfl⟩
abbrev main_call1_v15 : Ref sig .tc := ⟨.hbm, 65, rfl⟩
abbrev main_v6 : Ref sig .tc := ⟨.hbm, 66, rfl⟩
abbrev main_v7 : Ref sig .tc := ⟨.hbm, 67, rfl⟩
abbrev main_v8 : Ref sig .tc := ⟨.hbm, 68, rfl⟩
abbrev main_v9 : Ref sig .tc := ⟨.hbm, 69, rfl⟩
abbrev main_v10 : Ref sig .tc := ⟨.hbm, 70, rfl⟩
abbrev main_v11 : Ref sig .tc := ⟨.hbm, 71, rfl⟩
abbrev main_v12 : Ref sig .tc := ⟨.hbm, 72, rfl⟩
abbrev main_v13 : Ref sig .tc := ⟨.hbm, 73, rfl⟩
abbrev main_v14 : Ref sig .tc := ⟨.hbm, 74, rfl⟩
abbrev main_v15 : Ref sig .tc := ⟨.hbm, 75, rfl⟩
abbrev main_v16 : Ref sig .tc := ⟨.hbm, 76, rfl⟩
abbrev main_v17 : Ref sig .tc := ⟨.hbm, 77, rfl⟩
abbrev main_cst_0 : Ref sig .tc := ⟨.hbm, 78, rfl⟩
abbrev main_v18 : Ref sig .tc := ⟨.hbm, 79, rfl⟩
abbrev main_v19 : Ref sig .tc := ⟨.hbm, 80, rfl⟩
abbrev main_v20 : Ref sig .tc := ⟨.hbm, 81, rfl⟩
abbrev main_v21 : Ref sig .tc := ⟨.hbm, 82, rfl⟩
abbrev main_v22 : Ref sig .tc := ⟨.hbm, 83, rfl⟩
abbrev main_v23 : Ref sig .tc := ⟨.hbm, 84, rfl⟩
abbrev main_v24 : Ref sig .tc := ⟨.hbm, 85, rfl⟩
abbrev main_v25 : Ref sig .tc := ⟨.hbm, 86, rfl⟩
abbrev main_v26 : Ref sig .tc := ⟨.hbm, 87, rfl⟩
abbrev main_v27 : Ref sig .tc := ⟨.hbm, 88, rfl⟩
abbrev main_v28 : Ref sig .tc := ⟨.hbm, 89, rfl⟩
abbrev main_v29 : Ref sig .tc := ⟨.hbm, 90, rfl⟩
abbrev main_v30 : Ref sig .tc := ⟨.hbm, 91, rfl⟩
abbrev main_v31_0 : Ref sig .tc := ⟨.hbm, 92, rfl⟩
abbrev main_v31_1 : Ref sig .tc := ⟨.hbm, 93, rfl⟩
abbrev main_call2_c : Ref sig .tc := ⟨.hbm, 94, rfl⟩
abbrev main_call2_v0 : Ref sig .tc := ⟨.hbm, 95, rfl⟩
abbrev main_call2_v1 : Ref sig .tc := ⟨.hbm, 96, rfl⟩
abbrev main_call2_c_0 : Ref sig .tc := ⟨.hbm, 97, rfl⟩
abbrev main_call2_v2 : Ref sig .tc := ⟨.hbm, 98, rfl⟩
abbrev main_call2_v3 : Ref sig .tc := ⟨.hbm, 99, rfl⟩
abbrev main_call2_v4 : Ref sig .tc := ⟨.hbm, 100, rfl⟩
abbrev main_call2_v5 : Ref sig .tc := ⟨.hbm, 101, rfl⟩
abbrev main_call2_c_1 : Ref sig .tc := ⟨.hbm, 102, rfl⟩
abbrev main_call2_c_2 : Ref sig .tc := ⟨.hbm, 103, rfl⟩
abbrev main_call2_v6 : Ref sig .tc := ⟨.hbm, 104, rfl⟩
abbrev main_call2_v7 : Ref sig .tc := ⟨.hbm, 105, rfl⟩
abbrev main_call2_v8 : Ref sig .tc := ⟨.hbm, 106, rfl⟩
abbrev main_call2_v9 : Ref sig .tc := ⟨.hbm, 107, rfl⟩
abbrev main_call2_v10 : Ref sig .tc := ⟨.hbm, 108, rfl⟩
abbrev main_call2_v11 : Ref sig .tc := ⟨.hbm, 109, rfl⟩
abbrev main_call2_c_3 : Ref sig .tc := ⟨.hbm, 110, rfl⟩
abbrev main_call2_v12 : Ref sig .tc := ⟨.hbm, 111, rfl⟩
abbrev main_call2_v13 : Ref sig .tc := ⟨.hbm, 112, rfl⟩
abbrev main_call2_v14 : Ref sig .tc := ⟨.hbm, 113, rfl⟩
abbrev main_call2_cst : Ref sig .tc := ⟨.hbm, 114, rfl⟩
abbrev main_call2_v15 : Ref sig .tc := ⟨.hbm, 115, rfl⟩
abbrev main_v32 : Ref sig .tc := ⟨.hbm, 116, rfl⟩
abbrev main_call3_c : Ref sig .tc := ⟨.hbm, 117, rfl⟩
abbrev main_call3_v0 : Ref sig .tc := ⟨.hbm, 118, rfl⟩
abbrev main_call3_v1 : Ref sig .tc := ⟨.hbm, 119, rfl⟩
abbrev main_call3_c_0 : Ref sig .tc := ⟨.hbm, 120, rfl⟩
abbrev main_call3_v2 : Ref sig .tc := ⟨.hbm, 121, rfl⟩
abbrev main_call3_v3 : Ref sig .tc := ⟨.hbm, 122, rfl⟩
abbrev main_call3_v4 : Ref sig .tc := ⟨.hbm, 123, rfl⟩
abbrev main_call3_v5 : Ref sig .tc := ⟨.hbm, 124, rfl⟩
abbrev main_call3_c_1 : Ref sig .tc := ⟨.hbm, 125, rfl⟩
abbrev main_call3_c_2 : Ref sig .tc := ⟨.hbm, 126, rfl⟩
abbrev main_call3_v6 : Ref sig .tc := ⟨.hbm, 127, rfl⟩
abbrev main_call3_v7 : Ref sig .tc := ⟨.hbm, 128, rfl⟩
abbrev main_call3_v8 : Ref sig .tc := ⟨.hbm, 129, rfl⟩
abbrev main_call3_v9 : Ref sig .tc := ⟨.hbm, 130, rfl⟩
abbrev main_call3_v10 : Ref sig .tc := ⟨.hbm, 131, rfl⟩
abbrev main_call3_v11 : Ref sig .tc := ⟨.hbm, 132, rfl⟩
abbrev main_call3_c_3 : Ref sig .tc := ⟨.hbm, 133, rfl⟩
abbrev main_call3_v12 : Ref sig .tc := ⟨.hbm, 134, rfl⟩
abbrev main_call3_v13 : Ref sig .tc := ⟨.hbm, 135, rfl⟩
abbrev main_call3_v14 : Ref sig .tc := ⟨.hbm, 136, rfl⟩
abbrev main_call3_cst : Ref sig .tc := ⟨.hbm, 137, rfl⟩
abbrev main_call3_v15 : Ref sig .tc := ⟨.hbm, 138, rfl⟩
abbrev main_v33 : Ref sig .tc := ⟨.hbm, 139, rfl⟩
abbrev main_v34 : Ref sig .tc := ⟨.hbm, 140, rfl⟩
abbrev main_v35 : Ref sig .tc := ⟨.hbm, 141, rfl⟩
abbrev main_v36 : Ref sig .tc := ⟨.hbm, 142, rfl⟩
abbrev main_v37 : Ref sig .tc := ⟨.hbm, 143, rfl⟩
abbrev main_v38 : Ref sig .tc := ⟨.hbm, 144, rfl⟩
abbrev main_v39 : Ref sig .tc := ⟨.hbm, 145, rfl⟩
abbrev main_v40 : Ref sig .tc := ⟨.hbm, 146, rfl⟩
abbrev main_v41 : Ref sig .tc := ⟨.hbm, 147, rfl⟩
abbrev main_v42 : Ref sig .tc := ⟨.hbm, 148, rfl⟩
abbrev main_v43 : Ref sig .tc := ⟨.hbm, 149, rfl⟩
abbrev main_v44 : Ref sig .tc := ⟨.hbm, 150, rfl⟩
abbrev main_cst_1 : Ref sig .tc := ⟨.hbm, 151, rfl⟩
abbrev main_v45 : Ref sig .tc := ⟨.hbm, 152, rfl⟩
abbrev main_v46 : Ref sig .tc := ⟨.hbm, 153, rfl⟩
abbrev main_v47 : Ref sig .tc := ⟨.hbm, 154, rfl⟩
abbrev main_v48 : Ref sig .tc := ⟨.hbm, 155, rfl⟩
abbrev main_v49 : Ref sig .tc := ⟨.hbm, 156, rfl⟩
abbrev main_v50 : Ref sig .tc := ⟨.hbm, 157, rfl⟩
abbrev main_v51 : Ref sig .tc := ⟨.hbm, 158, rfl⟩
abbrev main_v52 : Ref sig .tc := ⟨.hbm, 159, rfl⟩
abbrev main_v53 : Ref sig .tc := ⟨.hbm, 160, rfl⟩
abbrev main_v54 : Ref sig .tc := ⟨.hbm, 161, rfl⟩
abbrev main_v55 : Ref sig .tc := ⟨.hbm, 162, rfl⟩
abbrev main_v56 : Ref sig .tc := ⟨.hbm, 163, rfl⟩
abbrev main_v57 : Ref sig .tc := ⟨.hbm, 164, rfl⟩
abbrev main_v58_0 : Ref sig .tc := ⟨.hbm, 165, rfl⟩
abbrev main_v58_1 : Ref sig .tc := ⟨.hbm, 166, rfl⟩
abbrev main_v59 : Ref sig .tc := ⟨.hbm, 167, rfl⟩
abbrev main_v60 : Ref sig .tc := ⟨.hbm, 168, rfl⟩
abbrev main_v61 : Ref sig .tc := ⟨.hbm, 169, rfl⟩
abbrev main_v62 : Ref sig .tc := ⟨.hbm, 170, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc1_stg8_0 : Ref sig .tc := ⟨.vmem, 24, rfl⟩
abbrev cc1_stg8_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg2_1 : Ref sig .tc := ⟨.vmem, 31, rfl⟩
abbrev cc2_stg3_0 : Ref sig .tc := ⟨.vmem, 32, rfl⟩
abbrev cc2_stg4_0 : Ref sig .tc := ⟨.vmem, 33, rfl⟩
abbrev cc2_stg5_0 : Ref sig .tc := ⟨.vmem, 34, rfl⟩
abbrev cc2_stg6_0 : Ref sig .tc := ⟨.vmem, 35, rfl⟩
abbrev cc2_stg7_0 : Ref sig .tc := ⟨.vmem, 36, rfl⟩
abbrev cc2_stg7_1 : Ref sig .tc := ⟨.vmem, 37, rfl⟩
abbrev cc3_stg0_0 : Ref sig .tc := ⟨.vmem, 38, rfl⟩
abbrev cc3_stg0_1 : Ref sig .tc := ⟨.vmem, 39, rfl⟩
abbrev cc3_stg1_0 : Ref sig .tc := ⟨.vmem, 40, rfl⟩
abbrev cc3_stg1_1 : Ref sig .tc := ⟨.vmem, 41, rfl⟩
abbrev cc3_stg2_0 : Ref sig .tc := ⟨.vmem, 42, rfl⟩
abbrev cc3_stg2_1 : Ref sig .tc := ⟨.vmem, 43, rfl⟩
abbrev cc3_stg3_0 : Ref sig .tc := ⟨.vmem, 44, rfl⟩
abbrev cc3_stg4_0 : Ref sig .tc := ⟨.vmem, 45, rfl⟩
abbrev cc3_stg5_0 : Ref sig .tc := ⟨.vmem, 46, rfl⟩
abbrev cc3_stg6_0 : Ref sig .tc := ⟨.vmem, 47, rfl⟩
abbrev cc3_stg7_0 : Ref sig .tc := ⟨.vmem, 48, rfl⟩
abbrev cc3_stg7_1 : Ref sig .tc := ⟨.vmem, 49, rfl⟩
abbrev cc3_stg8_0 : Ref sig .tc := ⟨.vmem, 50, rfl⟩
abbrev cc3_stg8_1 : Ref sig .tc := ⟨.vmem, 51, rfl⟩
abbrev cc4_stg0_0 : Ref sig .tc := ⟨.vmem, 52, rfl⟩
abbrev cc4_stg0_1 : Ref sig .tc := ⟨.vmem, 53, rfl⟩
abbrev cc4_stg1_0 : Ref sig .tc := ⟨.vmem, 54, rfl⟩
abbrev cc4_stg2_0 : Ref sig .tc := ⟨.vmem, 55, rfl⟩
abbrev cc4_stg3_0 : Ref sig .tc := ⟨.vmem, 56, rfl⟩
abbrev cc4_stg4_0 : Ref sig .tc := ⟨.vmem, 57, rfl⟩
abbrev cc4_stg5_0 : Ref sig .tc := ⟨.vmem, 58, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem7_1 : DmaSem sig := 23
abbrev cc1_sem8_0 : DmaSem sig := 24
abbrev cc1_sem8_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem2_1 : DmaSem sig := 31
abbrev cc2_sem3_0 : DmaSem sig := 32
abbrev cc2_sem4_0 : DmaSem sig := 33
abbrev cc2_sem5_0 : DmaSem sig := 34
abbrev cc2_sem6_0 : DmaSem sig := 35
abbrev cc2_sem7_0 : DmaSem sig := 36
abbrev cc2_sem7_1 : DmaSem sig := 37
abbrev cc3_sem0_0 : DmaSem sig := 38
abbrev cc3_sem0_1 : DmaSem sig := 39
abbrev cc3_sem1_0 : DmaSem sig := 40
abbrev cc3_sem1_1 : DmaSem sig := 41
abbrev cc3_sem2_0 : DmaSem sig := 42
abbrev cc3_sem2_1 : DmaSem sig := 43
abbrev cc3_sem3_0 : DmaSem sig := 44
abbrev cc3_sem4_0 : DmaSem sig := 45
abbrev cc3_sem5_0 : DmaSem sig := 46
abbrev cc3_sem6_0 : DmaSem sig := 47
abbrev cc3_sem7_0 : DmaSem sig := 48
abbrev cc3_sem7_1 : DmaSem sig := 49
abbrev cc3_sem8_0 : DmaSem sig := 50
abbrev cc3_sem8_1 : DmaSem sig := 51
abbrev cc4_sem0_0 : DmaSem sig := 52
abbrev cc4_sem0_1 : DmaSem sig := 53
abbrev cc4_sem1_0 : DmaSem sig := 54
abbrev cc4_sem2_0 : DmaSem sig := 55
abbrev cc4_sem3_0 : DmaSem sig := 56
abbrev cc4_sem4_0 : DmaSem sig := 57
abbrev cc4_sem5_0 : DmaSem sig := 58

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1024x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S2000x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![80], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x640 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S4000x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1024x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1024x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x1024 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x1024 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S2000x256 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S2000x256 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S20000x256 : S_.BroadcastsInDim S20000x256 (![] : Fin 0 → Fin S20000x256.rank)
  bcast_S_S320000 : S_.BroadcastsInDim S320000 (![] : Fin 0 → Fin S320000.rank)
  bcast_S320000_S320000x1_0 : S320000.BroadcastsInDim S320000x1 (![0] : Fin 1 → Fin S320000x1.rank)
  bcast_S_S320000x1 : S_.BroadcastsInDim S320000x1 (![] : Fin 0 → Fin S320000x1.rank)
  bcast_S1_S1x1_1 : S1.BroadcastsInDim S1x1 (![1] : Fin 1 → Fin S1x1.rank)
  bcast_S1x1_S320000x1_0_1 : S1x1.BroadcastsInDim S320000x1 (![0, 1] : Fin 2 → Fin S320000x1.rank)
  reducesTo_S320000x1_S320000_d1 : S320000x1.ReducesTo [1] S320000
  h_S_ : 0 < S_.numel
  bcast_S320000_S320000x256_0 : S320000.BroadcastsInDim S320000x256 (![0] : Fin 1 → Fin S320000x256.rank)
  bcast_S_S320000x256 : S_.BroadcastsInDim S320000x256 (![] : Fin 0 → Fin S320000x256.rank)
  slices_S2x256x640_S1x256x640_0_0_0 : S2x256x640.Slices ![0, 0, 0] S1x256x640
  shapeCasts_S1x256x640_S256x640 : S1x256x640.ShapeCasts S256x640
  slices_S2x256_S1x256_0_0 : S2x256.Slices ![0, 0] S1x256
  shapeCasts_S1x256_S256 : S1x256.ShapeCasts S256
  slices_S2x256x256_S1x256x256_0_0_0 : S2x256x256.Slices ![0, 0, 0] S1x256x256
  shapeCasts_S1x256x256_S256x256 : S1x256x256.ShapeCasts S256x256
  shapeCasts_S256_S1x256 : S256.ShapeCasts S1x256
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  bitsLt_bf16_f32 : FTy.bits .bf16 < FTy.bits .f32
  inb_S4000x128_S4000x128_0_0 : ∀ a, (![0, 0] : Fin 2 → Nat) a + S4000x128.size a ≤ S4000x128.size a
  h_S4000x128 : 0 < S4000x128.numel
  concatenates_S4000x256_S4000x256_S4000x128_S4000x640_d1 : Shape.Concatenates [S4000x256, S4000x256, S4000x128] S4000x640 1
  inb_S256x640_S256x640_0_0 : ∀ a, (![0, 0] : Fin 2 → Nat) a + S256x640.size a ≤ S256x640.size a
  h_S256x640 : 0 < S256x640.numel
  shapeCasts_S256x640_S256x640 : S256x640.ShapeCasts S256x640
  transposes_S256x640_p1_0_S640x256 : S256x640.Transposes [1, 0] S640x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  transposes_S256x256_p1_0_S256x256 : S256x256.Transposes [1, 0] S256x256
  slices_S2x1024x256_S1x1024x256_0_0_0 : S2x1024x256.Slices ![0, 0, 0] S1x1024x256
  shapeCasts_S1x1024x256_S1024x256 : S1x1024x256.ShapeCasts S1024x256
  slices_S2x1024_S1x1024_0_0 : S2x1024.Slices ![0, 0] S1x1024
  shapeCasts_S1x1024_S1024 : S1x1024.ShapeCasts S1024
  shapeCasts_S1024_S1x1024 : S1024.ShapeCasts S1x1024
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  transposes_S1024x256_p1_0_S256x1024 : S1024x256.Transposes [1, 0] S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2000x1024 : S1x1024.Broadcasts S2000x1024
  slices_S2000x1024_o0_0_S2000x256 : S2000x1024.Slices ![0, 0] S2000x256
  slices_S2000x1024_o0_256_S2000x256 : S2000x1024.Slices ![0, 256] S2000x256
  slices_S2000x1024_o0_512_S2000x256 : S2000x1024.Slices ![0, 512] S2000x256
  slices_S2000x1024_o0_768_S2000x256 : S2000x1024.Slices ![0, 768] S2000x256
  slices_S2x256x640_S1x256x640_1_0_0 : S2x256x640.Slices ![1, 0, 0] S1x256x640
  slices_S2x256_S1x256_1_0 : S2x256.Slices ![1, 0] S1x256
  slices_S2x256x256_S1x256x256_1_0_0 : S2x256x256.Slices ![1, 0, 0] S1x256x256
  slices_S2x1024x256_S1x1024x256_1_0_0 : S2x1024x256.Slices ![1, 0, 0] S1x1024x256
  slices_S2x1024_S1x1024_1_0 : S2x1024.Slices ![1, 0] S1x1024
  broadcasts_S1x256_S2000x256 : S1x256.Broadcasts S2000x256
  reduces_S2000x256_S256 : S2000x256.Reduces [0] S256
  gather_S20000x256_S320000x1_S320000x256_1_0_n_n_0_1_1256_wf : GatherDims.WF S20000x256 S320000x1 S320000x256 [1] [0] [] [0] [] 1 ![1, 256]
  dot_S4000x640_S640x256_S4000x256_1_0_0_1_n_n_wf : DotDims.WF S4000x640 S640x256 S4000x256 [1] [0] [0] [1] [] []
  dot_S4000x256_S256x256_S4000x256_1_0_0_1_n_n_wf : DotDims.WF S4000x256 S256x256 S4000x256 [1] [0] [0] [1] [] []
  scatter_S20000x256_S320000x1_S320000x256_1_0_0_1_wf : ScatterDims.WF S20000x256 S320000x1 S320000x256 [1] [0] [0] 1
  dot_S2000x256_S256x1024_S2000x1024_1_0_0_1_n_n_wf : DotDims.WF S2000x256 S256x1024 S2000x1024 [1] [0] [0] [1] [] []
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S320000x256.size a
  hwx0_0 : ∀ i : grid0.Coords, EltTy.bits .f32 = 32 ∨ (Rect.block (s := S320000x256) S4000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x256.size a ≤ S320000x256.size a
  hwx0_1 : ∀ i : grid0.Coords, EltTy.bits .f32 = 32 ∨ (Rect.block (s := S320000x256) S4000x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S320000x128.size a
  hwx0_2 : ∀ i : grid0.Coords, EltTy.bits .f32 = 32 ∨ (Rect.block (s := S320000x128) S4000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x640.size a ≤ S256x640.size a
  hwx0_3 : ∀ i : grid0.Coords, EltTy.bits .f32 = 32 ∨ (Rect.block (s := S256x640) S256x640.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x256.size a ≤ S320000x256.size a
  hwx0_7 : ∀ i : grid0.Coords, EltTy.bits .f32 = 32 ∨ (Rect.block (s := S320000x256) S4000x256.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S20000x256.size a
  hwx1_0 : ∀ i : grid1.Coords, EltTy.bits .f32 = 32 ∨ (Rect.block (s := S20000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S20000x256.size a
  hwx1_1 : ∀ i : grid1.Coords, EltTy.bits .f32 = 32 ∨ (Rect.block (s := S20000x256) S2000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S20000x256.size a
  hwx1_2 : ∀ i : grid1.Coords, EltTy.bits .f32 = 32 ∨ (Rect.block (s := S20000x256) S2000x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x256.size a ≤ S1024x256.size a
  hwx1_3 : ∀ i : grid1.Coords, EltTy.bits .f32 = 32 ∨ (Rect.block (s := S1024x256) S1024x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024x256.size a ≤ S1024x256.size a
  hwx1_4 : ∀ i : grid1.Coords, EltTy.bits .f32 = 32 ∨ (Rect.block (s := S1024x256) S1024x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1024.size a ≤ S1x1024.size a
  hwx1_5 : ∀ i : grid1.Coords, EltTy.bits .f32 = 32 ∨ (Rect.block (s := S1x1024) S1x1024.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1024.size a ≤ S1x1024.size a
  hwx1_6 : ∀ i : grid1.Coords, EltTy.bits .f32 = 32 ∨ (Rect.block (s := S1x1024) S1x1024.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x256.size a ≤ S20000x256.size a
  hwx1_7 : ∀ i : grid1.Coords, EltTy.bits .f32 = 32 ∨ (Rect.block (s := S20000x256) S2000x256.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x256.size a ≤ S20000x256.size a
  hwx1_8 : ∀ i : grid1.Coords, EltTy.bits .f32 = 32 ∨ (Rect.block (s := S20000x256) S2000x256.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x256.size a ≤ S320000x256.size a
  hwx2_0 : ∀ i : grid2.Coords, EltTy.bits .f32 = 32 ∨ (Rect.block (s := S320000x256) S4000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x256.size a ≤ S320000x256.size a
  hwx2_1 : ∀ i : grid2.Coords, EltTy.bits .f32 = 32 ∨ (Rect.block (s := S320000x256) S4000x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x128.size a ≤ S320000x128.size a
  hwx2_2 : ∀ i : grid2.Coords, EltTy.bits .f32 = 32 ∨ (Rect.block (s := S320000x128) S4000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x640.size a ≤ S256x640.size a
  hwx2_3 : ∀ i : grid2.Coords, EltTy.bits .f32 = 32 ∨ (Rect.block (s := S256x640) S256x640.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x256.size a ≤ S256x256.size a
  hwx2_5 : ∀ i : grid2.Coords, EltTy.bits .f32 = 32 ∨ (Rect.block (s := S256x256) S256x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x256.size a
  hwx2_6 : ∀ i : grid2.Coords, EltTy.bits .f32 = 32 ∨ (Rect.block (s := S1x256) S1x256.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S4000x256.size a ≤ S320000x256.size a
  hwx2_7 : ∀ i : grid2.Coords, EltTy.bits .f32 = 32 ∨ (Rect.block (s := S320000x256) S4000x256.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S20000x256.size a
  hwx3_0 : ∀ i : grid3.Coords, EltTy.bits .f32 = 32 ∨ (Rect.block (s := S20000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S20000x256.size a
  hwx3_1 : ∀ i : grid3.Coords, EltTy.bits .f32 = 32 ∨ (Rect.block (s := S20000x256) S2000x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x256.size a ≤ S20000x256.size a
  hwx3_2 : ∀ i : grid3.Coords, EltTy.bits .f32 = 32 ∨ (Rect.block (s := S20000x256) S2000x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1024x256.size a ≤ S1024x256.size a
  hwx3_3 : ∀ i : grid3.Coords, EltTy.bits .f32 = 32 ∨ (Rect.block (s := S1024x256) S1024x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1024x256.size a ≤ S1024x256.size a
  hwx3_4 : ∀ i : grid3.Coords, EltTy.bits .f32 = 32 ∨ (Rect.block (s := S1024x256) S1024x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x1024.size a ≤ S1x1024.size a
  hwx3_5 : ∀ i : grid3.Coords, EltTy.bits .f32 = 32 ∨ (Rect.block (s := S1x1024) S1x1024.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x1024.size a ≤ S1x1024.size a
  hwx3_6 : ∀ i : grid3.Coords, EltTy.bits .f32 = 32 ∨ (Rect.block (s := S1x1024) S1x1024.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S2000x256.size a ≤ S20000x256.size a
  hwx3_7 : ∀ i : grid3.Coords, EltTy.bits .f32 = 32 ∨ (Rect.block (s := S20000x256) S2000x256.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S2000x256.size a ≤ S20000x256.size a
  hwx3_8 : ∀ i : grid3.Coords, EltTy.bits .f32 = 32 ∨ (Rect.block (s := S20000x256) S2000x256.size (cc3_transform_8 i) (hinb3_8 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S20000x256.size a
  hwx4_0 : ∀ i : grid4.Coords, EltTy.bits .f32 = 32 ∨ (Rect.block (s := S20000x256) S2000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x256.size a ≤ S256x256.size a
  hwx4_1 : ∀ i : grid4.Coords, EltTy.bits .f32 = 32 ∨ (Rect.block (s := S256x256) S256x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x256.size a ≤ S256x256.size a
  hwx4_3 : ∀ i : grid4.Coords, EltTy.bits .f32 = 32 ∨ (Rect.block (s := S256x256) S256x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x256.size a ≤ S1x256.size a
  hwx4_4 : ∀ i : grid4.Coords, EltTy.bits .f32 = 32 ∨ (Rect.block (s := S1x256) S1x256.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x256.size a ≤ S1x256.size a
  hwx4_5 : ∀ i : grid4.Coords, EltTy.bits .f32 = 32 ∨ (Rect.block (s := S1x256) S1x256.size (cc4_transform_5 i) (hinb4_5 i)).WholeWords (EltTy.packing .f32)

variable [Facts₀]

def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def dot_S4000x640_S640x256_S4000x256_1_0_0_1_n_n : DotDims S4000x640 S640x256 S4000x256 where
  lhsContracting := [1]
  rhsContracting := [0]
  lhsNonContracting := [0]
  rhsNonContracting := [1]
  lhsBatch := []
  rhsBatch := []
  wf := dot_S4000x640_S640x256_S4000x256_1_0_0_1_n_n_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def dot_S2000x256_S256x1024_S2000x1024_1_0_0_1_n_n : DotDims S2000x256 S256x1024 S2000x1024 where
  lhsContracting := [1]
  rhsContracting := [0]
  lhsNonContracting := [0]
  rhsNonContracting := [1]
  lhsBatch := []
  rhsBatch := []
  wf := dot_S2000x256_S256x1024_S2000x1024_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v5) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S4000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S256x640.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S4000x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S2000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v22) S1024x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S1024x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S1x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v30) S1x1024.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v31_0) S2000x256.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v31_1) S2000x256.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v32) S4000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S4000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg1) S4000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v35) S256x640.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v42) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v39) S256x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v43) S1x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v44) S4000x256.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v31_0) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v47) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v31_1) S2000x256.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v49) S1024x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v51) S1024x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v56) S1x1024.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v57) S1x1024.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v58_0) S2000x256.size cc3_transform_7 reads3_7 true false 2 stage3_7 sem3_7
    hrank3 hreads3_7 hinb3_7 nbuf3_7 (Memref.isWhole_whole _) hwx3_7 hstage3_7

abbrev win3_8 : Pipeline.Window sig grid3 :=
  Pipeline.Window.ofSpec (Memref.whole main_v58_1) S2000x256.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev win4_0 : Pipeline.Window sig grid4 :=
  Pipeline.Window.ofSpec (Memref.whole main_v58_0) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg11) S256x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v59) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg13) S256x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v60) S1x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v61) S1x256.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S20000x256 : Shape := ⟨2, ![20000, 256]⟩
abbrev S320000x128 : Shape := ⟨2, ![320000, 128]⟩
abbrev S2x320000 : Shape := ⟨2, ![2, 320000]⟩
abbrev S2x256x640 : Shape := ⟨3, ![2, 256, 640]⟩
abbrev S2x256 : Shape := ⟨2, ![2, 256]⟩
abbrev S2x256x256 : Shape := ⟨3, ![2, 256, 256]⟩
abbrev S2x1024x256 : Shape := ⟨3, ![2, 1024, 256]⟩
abbrev S2x1024 : Shape := ⟨2, ![2, 1024]⟩
abbrev S256x256 : Shape := ⟨2, ![256, 256]⟩
abbrev S256 : Shape := ⟨1, ![256]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x256 : Shape := ⟨2, ![320000, 256]⟩
abbrev S320000x640 : Shape := ⟨2, ![320000, 640]⟩
abbrev S1x256x640 : Shape := ⟨3, ![1, 256, 640]⟩
abbrev S256x640 : Shape := ⟨2, ![256, 640]⟩
abbrev S640x256 : Shape := ⟨2, ![640, 256]⟩
abbrev S1x256 : Shape := ⟨2, ![1, 256]⟩
abbrev S1x256x256 : Shape := ⟨3, ![1, 256, 256]⟩
abbrev S1x1024x256 : Shape := ⟨3, ![1, 1024, 256]⟩
abbrev S1024x256 : Shape := ⟨2, ![1024, 256]⟩
abbrev S256x1024 : Shape := ⟨2, ![256, 1024]⟩
abbrev S20000x1024 : Shape := ⟨2, ![20000, 1024]⟩
abbrev S1x1024 : Shape := ⟨2, ![1, 1024]⟩
abbrev S1024 : Shape := ⟨1, ![1024]⟩

abbrev nBuf : Space → Nat
  | .hbm => 236
  | .vmem => 0
  | .smem => 0
  | _ => 0

abbrev hbmTy0_0 (i : Nat) : BufTy := match i % 128 with
  | 0 => ⟨S20000x256, .f32⟩
  | 1 => ⟨S320000x128, .f32⟩
  | 2 => ⟨S2x320000, .i32⟩
  | 3 => ⟨S2x256x640, .f32⟩
  | 4 => ⟨S2x256, .f32⟩
  | 5 => ⟨S2x256x256, .f32⟩
  | 6 => ⟨S2x256, .f32⟩
  | 7 => ⟨S2x1024x256, .f32⟩
  | 8 => ⟨S2x1024x256, .f32⟩
  | 9 => ⟨S2x1024, .f32⟩
  | 10 => ⟨S2x1024, .f32⟩
  | 11 => ⟨S256x256, .f32⟩
  | 12 => ⟨S256, .f32⟩
  | 13 => ⟨S256x256, .f32⟩
  | 14 => ⟨S256, .f32⟩
  | 15 => ⟨S1x320000, .i32⟩
  | 16 => ⟨S320000, .i32⟩
  | 17 => ⟨S1x320000, .i32⟩
  | 18 => ⟨S320000, .i32⟩
  | 19 => ⟨S_, .f32⟩
  | 20 => ⟨S20000x256, .f32⟩
  | 21 => ⟨S_, .i32⟩
  | 22 => ⟨S320000, .i32⟩
  | 23 => ⟨S320000, .i1⟩
  | 24 => ⟨S_, .i32⟩
  | 25 => ⟨S320000, .i32⟩
  | 26 => ⟨S320000, .i32⟩
  | 27 => ⟨S320000, .i32⟩
  | 28 => ⟨S320000x1, .i32⟩
  | 29 => ⟨S320000x256, .f32⟩
  | 30 => ⟨S_, .i32⟩
  | 31 => ⟨S320000, .i32⟩
  | 32 => ⟨S320000, .i1⟩
  | 33 => ⟨S_, .i32⟩
  | 34 => ⟨S320000, .i32⟩
  | 35 => ⟨S320000, .i32⟩
  | 36 => ⟨S320000, .i32⟩
  | 37 => ⟨S320000x1, .i32⟩
  | 38 => ⟨S320000x256, .f32⟩
  | 39 => ⟨S320000x640, .f32⟩
  | 40 => ⟨S1x256x640, .f32⟩
  | 41 => ⟨S256x640, .f32⟩
  | 42 => ⟨S640x256, .f32⟩
  | 43 => ⟨S320000x256, .f32⟩
  | 44 => ⟨S1x256, .f32⟩
  | 45 => ⟨S256, .f32⟩
  | 46 => ⟨S1x256, .f32⟩
  | 47 => ⟨S320000x256, .f32⟩
  | 48 => ⟨S320000x256, .f32⟩
  | 49 => ⟨S_, .f32⟩
  | 50 => ⟨S320000x256, .f32⟩
  | 51 => ⟨S320000x256, .f32⟩
  | 52 => ⟨S1x256x256, .f32⟩
  | 53 => ⟨S256x256, .f32⟩
  | 54 => ⟨S256x256, .f32⟩
  | 55 => ⟨S320000x256, .f32⟩
  | 56 => ⟨S1x256, .f32⟩
  | 57 => ⟨S256, .f32⟩
  | 58 => ⟨S1x256, .f32⟩
  | 59 => ⟨S320000x256, .f32⟩
  | 60 => ⟨S320000x256, .f32⟩
  | 61 => ⟨S_, .f32⟩
  | 62 => ⟨S20000x256, .f32⟩
  | 63 => ⟨S320000x1, .i32⟩
  | 64 => ⟨S20000x256, .f32⟩
  | 65 => ⟨S1x1024x256, .f32⟩
  | 66 => ⟨S1024x256, .f32⟩
  | 67 => ⟨S256x1024, .f32⟩
  | 68 => ⟨S20000x1024, .f32⟩
  | 69 => ⟨S1x1024, .f32⟩
  | 70 => ⟨S1024, .f32⟩
  | 71 => ⟨S1x1024, .f32⟩
  | 72 => ⟨S20000x1024, .f32⟩
  | 73 => ⟨S20000x1024, .f32⟩
  | 74 => ⟨S1x1024x256, .f32⟩
  | 75 => ⟨S1024x256, .f32⟩
  | 76 => ⟨S256x1024, .f32⟩
  | 77 => ⟨S20000x1024, .f32⟩
  | 78 => ⟨S20000x1024, .f32⟩
  | 79 => ⟨S1x1024, .f32⟩
  | 80 => ⟨S1024, .f32⟩
  | 81 => ⟨S1x1024, .f32⟩
  | 82 => ⟨S20000x1024, .f32⟩
  | 83 => ⟨S20000x1024, .f32⟩
  | 84 => ⟨S20000x256, .f32⟩
  | 85 => ⟨S20000x256, .f32⟩
  | 86 => ⟨S20000x256, .f32⟩
  | 87 => ⟨S20000x256, .f32⟩
  | 88 => ⟨S20000x256, .f32⟩
  | 89 => ⟨S20000x256, .f32⟩
  | 90 => ⟨S_, .f32⟩
  | 91 => ⟨S20000x256, .f32⟩
  | 92 => ⟨S20000x256, .f32⟩
  | 93 => ⟨S_, .f32⟩
  | 94 => ⟨S20000x256, .f32⟩
  | 95 => ⟨S20000x256, .f32⟩
  | 96 => ⟨S20000x256, .f32⟩
  | 97 => ⟨S20000x256, .f32⟩
  | 98 => ⟨S20000x256, .f32⟩
  | 99 => ⟨S_, .f32⟩
  | 100 => ⟨S20000x256, .f32⟩
  | 101 => ⟨S20000x256, .f32⟩
  | 102 => ⟨S_, .f32⟩
  | 103 => ⟨S20000x256, .f32⟩
  | 104 => ⟨S20000x256, .f32⟩
  | 105 => ⟨S20000x256, .f32⟩
  | 106 => ⟨S20000x256, .f32⟩
  | 107 => ⟨S20000x256, .f32⟩
  | 108 => ⟨S20000x256, .f32⟩
  | 109 => ⟨S20000x256, .f32⟩
  | 110 => ⟨S_, .f32⟩
  | 111 => ⟨S20000x256, .f32⟩
  | 112 => ⟨S20000x256, .f32⟩
  | 113 => ⟨S_, .f32⟩
  | 114 => ⟨S20000x256, .f32⟩
  | 115 => ⟨S20000x256, .f32⟩
  | 116 => ⟨S20000x256, .f32⟩
  | 117 => ⟨S20000x256, .f32⟩
  | 118 => ⟨S_, .i32⟩
  | 119 => ⟨S320000, .i32⟩
  | 120 => ⟨S320000, .i1⟩
  | 121 => ⟨S_, .i32⟩
  | 122 => ⟨S320000, .i32⟩
  | 123 => ⟨S320000, .i32⟩
  | 124 => ⟨S320000, .i32⟩
  | 125 => ⟨S320000x1, .i32⟩
  | 126 => ⟨S320000x256, .f32⟩
  | 127 => ⟨S_, .i32⟩
  | _ => ⟨S20000x256, .f32⟩

abbrev hbmTy0_1 (i : Nat) : BufTy := match i % 128 with
  | 0 => ⟨S320000, .i32⟩
  | 1 => ⟨S320000, .i1⟩
  | 2 => ⟨S_, .i32⟩
  | 3 => ⟨S320000, .i32⟩
  | 4 => ⟨S320000, .i32⟩
  | 5 => ⟨S320000, .i32⟩
  | 6 => ⟨S320000x1, .i32⟩
  | 7 => ⟨S320000x256, .f32⟩
  | 8 => ⟨S320000x640, .f32⟩
  | 9 => ⟨S1x256x640, .f32⟩
  | 10 => ⟨S256x640, .f32⟩
  | 11 => ⟨S640x256, .f32⟩
  | 12 => ⟨S320000x256, .f32⟩
  | 13 => ⟨S1x256, .f32⟩
  | 14 => ⟨S256, .f32⟩
  | 15 => ⟨S1x256, .f32⟩
  | 16 => ⟨S320000x256, .f32⟩
  | 17 => ⟨S320000x256, .f32⟩
  | 18 => ⟨S_, .f32⟩
  | 19 => ⟨S320000x256, .f32⟩
  | 20 => ⟨S320000x256, .f32⟩
  | 21 => ⟨S1x256x256, .f32⟩
  | 22 => ⟨S256x256, .f32⟩
  | 23 => ⟨S256x256, .f32⟩
  | 24 => ⟨S320000x256, .f32⟩
  | 25 => ⟨S1x256, .f32⟩
  | 26 => ⟨S256, .f32⟩
  | 27 => ⟨S1x256, .f32⟩
  | 28 => ⟨S320000x256, .f32⟩
  | 29 => ⟨S320000x256, .f32⟩
  | 30 => ⟨S_, .f32⟩
  | 31 => ⟨S20000x256, .f32⟩
  | 32 => ⟨S320000x1, .i32⟩
  | 33 => ⟨S20000x256, .f32⟩
  | 34 => ⟨S1x1024x256, .f32⟩
  | 35 => ⟨S1024x256, .f32⟩
  | 36 => ⟨S256x1024, .f32⟩
  | 37 => ⟨S20000x1024, .f32⟩
  | 38 => ⟨S1x1024, .f32⟩
  | 39 => ⟨S1024, .f32⟩
  | 40 => ⟨S1x1024, .f32⟩
  | 41 => ⟨S20000x1024, .f32⟩
  | 42 => ⟨S20000x1024, .f32⟩
  | 43 => ⟨S1x1024x256, .f32⟩
  | 44 => ⟨S1024x256, .f32⟩
  | 45 => ⟨S256x1024, .f32⟩
  | 46 => ⟨S20000x1024, .f32⟩
  | 47 => ⟨S20000x1024, .f32⟩
  | 48 => ⟨S1x1024, .f32⟩
  | 49 => ⟨S1024, .f32⟩
  | 50 => ⟨S1x1024, .f32⟩
  | 51 => ⟨S20000x1024, .f32⟩
  | 52 => ⟨S20000x1024, .f32⟩
  | 53 => ⟨S20000x256, .f32⟩
  | 54 => ⟨S20000x256, .f32⟩
  | 55 => ⟨S20000x256, .f32⟩
  | 56 => ⟨S20000x256, .f32⟩
  | 57 => ⟨S20000x256, .f32⟩
  | 58 => ⟨S20000x256, .f32⟩
  | 59 => ⟨S_, .f32⟩
  | 60 => ⟨S20000x256, .f32⟩
  | 61 => ⟨S20000x256, .f32⟩
  | 62 => ⟨S_, .f32⟩
  | 63 => ⟨S20000x256, .f32⟩
  | 64 => ⟨S20000x256, .f32⟩
  | 65 => ⟨S20000x256, .f32⟩
  | 66 => ⟨S20000x256, .f32⟩
  | 67 => ⟨S20000x256, .f32⟩
  | 68 => ⟨S_, .f32⟩
  | 69 => ⟨S20000x256, .f32⟩
  | 70 => ⟨S20000x256, .f32⟩
  | 71 => ⟨S_, .f32⟩
  | 72 => ⟨S20000x256, .f32⟩
  | 73 => ⟨S20000x256, .f32⟩
  | 74 => ⟨S20000x256, .f32⟩
  | 75 => ⟨S20000x256, .f32⟩
  | 76 => ⟨S20000x256, .f32⟩
  | 77 => ⟨S20000x256, .f32⟩
  | 78 => ⟨S20000x256, .f32⟩
  | 79 => ⟨S_, .f32⟩
  | 80 => ⟨S20000x256, .f32⟩
  | 81 => ⟨S20000x256, .f32⟩
  | 82 => ⟨S_, .f32⟩
  | 83 => ⟨S20000x256, .f32⟩
  | 84 => ⟨S20000x256, .f32⟩
  | 85 => ⟨S20000x256, .f32⟩
  | 86 => ⟨S20000x256, .f32⟩
  | 87 => ⟨S256x256, .f32⟩
  | 88 => ⟨S20000x256, .f32⟩
  | 89 => ⟨S1x256, .f32⟩
  | 90 => ⟨S20000x256, .f32⟩
  | 91 => ⟨S20000x256, .f32⟩
  | 92 => ⟨S20000x256, .f32⟩
  | 93 => ⟨S20000x256, .f32⟩
  | 94 => ⟨S_, .f32⟩
  | 95 => ⟨S20000x256, .f32⟩
  | 96 => ⟨S20000x256, .f32⟩
  | 97 => ⟨S_, .f32⟩
  | 98 => ⟨S20000x256, .f32⟩
  | 99 => ⟨S20000x256, .f32⟩
  | 100 => ⟨S256x256, .f32⟩
  | 101 => ⟨S20000x256, .f32⟩
  | 102 => ⟨S1x256, .f32⟩
  | 103 => ⟨S20000x256, .f32⟩
  | 104 => ⟨S20000x256, .f32⟩
  | 105 => ⟨S20000x256, .f32⟩
  | 106 => ⟨S_, .f32⟩
  | 107 => ⟨S256, .f32⟩
  | _ => ⟨S20000x256, .f32⟩

abbrev hbmTy (i : Nat) : BufTy := match i / 128 with
  | 0 => hbmTy0_0 i
  | 1 => hbmTy0_1 i
  | _ => ⟨S20000x256, .f32⟩

abbrev bufTy : (tb : Table) → Fin (tcTables nBuf tb) → BufTy
  | .hbm, ⟨i, _⟩ => hbmTy i
  | _, _ => ⟨S20000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_c : Ref sig .tc := ⟨.hbm, 21, rfl⟩
abbrev main_v5 : Ref sig .tc := ⟨.hbm, 22, rfl⟩
abbrev main_v6 : Ref sig .tc := ⟨.hbm, 23, rfl⟩
abbrev main_c_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_c_1 : Ref sig .tc := ⟨.hbm, 30, rfl⟩
abbrev main_v12 : Ref sig .tc := ⟨.hbm, 31, rfl⟩
abbrev main_v13 : Ref sig .tc := ⟨.hbm, 32, rfl⟩
abbrev main_c_2 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_call0_cst : Ref sig .tc := ⟨.hbm, 49, rfl⟩
abbrev main_call0_v0 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_3 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_4 : Ref sig .tc := ⟨.hbm, 90, rfl⟩
abbrev main_v67 : Ref sig .tc := ⟨.hbm, 91, rfl⟩
abbrev main_v68 : Ref sig .tc := ⟨.hbm, 92, rfl⟩
abbrev main_cst_5 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_6 : Ref sig .tc := ⟨.hbm, 99, rfl⟩
abbrev main_v74 : Ref sig .tc := ⟨.hbm, 100, rfl⟩
abbrev main_v75 : Ref sig .tc := ⟨.hbm, 101, rfl⟩
abbrev main_cst_7 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_8 : Ref sig .tc := ⟨.hbm, 110, rfl⟩
abbrev main_v83 : Ref sig .tc := ⟨.hbm, 111, rfl⟩
abbrev main_v84 : Ref sig .tc := ⟨.hbm, 112, rfl⟩
abbrev main_cst_9 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_c_10 : Ref sig .tc := ⟨.hbm, 118, rfl⟩
abbrev main_v89 : Ref sig .tc := ⟨.hbm, 119, rfl⟩
abbrev main_v90 : Ref sig .tc := ⟨.hbm, 120, rfl⟩
abbrev main_c_11 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_c_12 : Ref sig .tc := ⟨.hbm, 127, rfl⟩
abbrev main_v96 : Ref sig .tc := ⟨.hbm, 128, rfl⟩
abbrev main_v97 : Ref sig .tc := ⟨.hbm, 129, rfl⟩
abbrev main_c_13 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_call1_cst : Ref sig .tc := ⟨.hbm, 146, rfl⟩
abbrev main_call1_v0 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_cst_14 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_cst_15 : Ref sig .tc := ⟨.hbm, 187, rfl⟩
abbrev main_v151 : Ref sig .tc := ⟨.hbm, 188, rfl⟩
abbrev main_v152 : Ref sig .tc := ⟨.hbm, 189, rfl⟩
abbrev main_cst_16 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_cst_17 : Ref sig .tc := ⟨.hbm, 196, rfl⟩
abbrev main_v158 : Ref sig .tc := ⟨.hbm, 197, rfl⟩
abbrev main_v159 : Ref sig .tc := ⟨.hbm, 198, rfl⟩
abbrev main_cst_18 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_cst_19 : Ref sig .tc := ⟨.hbm, 207, rfl⟩
abbrev main_v167 : Ref sig .tc := ⟨.hbm, 208, rfl⟩
abbrev main_v168 : Ref sig .tc := ⟨.hbm, 209, rfl⟩
abbrev main_cst_20 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_v172 : Ref sig .tc := ⟨.hbm, 214, rfl⟩
abbrev main_v173 : Ref sig .tc := ⟨.hbm, 215, rfl⟩
abbrev main_v174 : Ref sig .tc := ⟨.hbm, 216, rfl⟩
abbrev main_v175 : Ref sig .tc := ⟨.hbm, 217, rfl⟩
abbrev main_v176 : Ref sig .tc := ⟨.hbm, 218, rfl⟩
abbrev main_v177 : Ref sig .tc := ⟨.hbm, 219, rfl⟩
abbrev main_v178 : Ref sig .tc := ⟨.hbm, 220, rfl⟩
abbrev main_v179 : Ref sig .tc := ⟨.hbm, 221, rfl⟩
abbrev main_cst_21 : Ref sig .tc := ⟨.hbm, 222, rfl⟩
abbrev main_v180 : Ref sig .tc := ⟨.hbm, 223, rfl⟩
abbrev main_v181 : Ref sig .tc := ⟨.hbm, 224, rfl⟩
abbrev main_cst_22 : Ref sig .tc := ⟨.hbm, 225, rfl⟩
abbrev main_v182 : Ref sig .tc := ⟨.hbm, 226, rfl⟩
abbrev main_v183 : Ref sig .tc := ⟨.hbm, 227, rfl⟩
abbrev main_v184 : Ref sig .tc := ⟨.hbm, 228, rfl⟩
abbrev main_v185 : Ref sig .tc := ⟨.hbm, 229, rfl⟩
abbrev main_v186 : Ref sig .tc := ⟨.hbm, 230, rfl⟩
abbrev main_v187 : Ref sig .tc := ⟨.hbm, 231, rfl⟩
abbrev main_v188 : Ref sig .tc := ⟨.hbm, 232, rfl⟩
abbrev main_v189 : Ref sig .tc := ⟨.hbm, 233, rfl⟩
abbrev main_cst_23 : Ref sig .tc := ⟨.hbm, 234, rfl⟩
abbrev main_v190 : Ref sig .tc := ⟨.hbm, 235, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S20000x256 : S_.BroadcastsInDim S20000x256 (![] : Fin 0 → Fin S20000x256.rank)
  bcast_S_S320000 : S_.BroadcastsInDim S320000 (![] : Fin 0 → Fin S320000.rank)
  bcast_S320000_S320000x1_0 : S320000.BroadcastsInDim S320000x1 (![0] : Fin 1 → Fin S320000x1.rank)
  concatenates_S320000x256_S320000x256_S320000x128_S320000x640_d1 : Shape.Concatenates [S320000x256, S320000x256, S320000x128] S320000x640 1
  slices_S2x256x640_S1x256x640_0_0_0 : S2x256x640.Slices ![0, 0, 0] S1x256x640
  shapeCasts_S1x256x640_S256x640 : S1x256x640.ShapeCasts S256x640
  transposes_S256x640_S640x256_1_0 : S256x640.Transposes [1, 0] S640x256
  slices_S2x256_S1x256_0_0 : S2x256.Slices ![0, 0] S1x256
  shapeCasts_S1x256_S256 : S1x256.ShapeCasts S256
  bcast_S256_S1x256_1 : S256.BroadcastsInDim S1x256 (![1] : Fin 1 → Fin S1x256.rank)
  bcast_S1x256_S320000x256_0_1 : S1x256.BroadcastsInDim S320000x256 (![0, 1] : Fin 2 → Fin S320000x256.rank)
  bcast_S_S320000x256 : S_.BroadcastsInDim S320000x256 (![] : Fin 0 → Fin S320000x256.rank)
  slices_S2x256x256_S1x256x256_0_0_0 : S2x256x256.Slices ![0, 0, 0] S1x256x256
  shapeCasts_S1x256x256_S256x256 : S1x256x256.ShapeCasts S256x256
  transposes_S256x256_S256x256_1_0 : S256x256.Transposes [1, 0] S256x256
  slices_S2x1024x256_S1x1024x256_0_0_0 : S2x1024x256.Slices ![0, 0, 0] S1x1024x256
  shapeCasts_S1x1024x256_S1024x256 : S1x1024x256.ShapeCasts S1024x256
  transposes_S1024x256_S256x1024_1_0 : S1024x256.Transposes [1, 0] S256x1024
  slices_S2x1024_S1x1024_0_0 : S2x1024.Slices ![0, 0] S1x1024
  shapeCasts_S1x1024_S1024 : S1x1024.ShapeCasts S1024
  bcast_S1024_S1x1024_1 : S1024.BroadcastsInDim S1x1024 (![1] : Fin 1 → Fin S1x1024.rank)
  bcast_S1x1024_S20000x1024_0_1 : S1x1024.BroadcastsInDim S20000x1024 (![0, 1] : Fin 2 → Fin S20000x1024.rank)
  slices_S20000x1024_S20000x256_0_0 : S20000x1024.Slices ![0, 0] S20000x256
  slices_S20000x1024_S20000x256_0_256 : S20000x1024.Slices ![0, 256] S20000x256
  slices_S20000x1024_S20000x256_0_512 : S20000x1024.Slices ![0, 512] S20000x256
  slices_S20000x1024_S20000x256_0_768 : S20000x1024.Slices ![0, 768] S20000x256
  slices_S2x256x640_S1x256x640_1_0_0 : S2x256x640.Slices ![1, 0, 0] S1x256x640
  slices_S2x256_S1x256_1_0 : S2x256.Slices ![1, 0] S1x256
  slices_S2x256x256_S1x256x256_1_0_0 : S2x256x256.Slices ![1, 0, 0] S1x256x256
  slices_S2x1024x256_S1x1024x256_1_0_0 : S2x1024x256.Slices ![1, 0, 0] S1x1024x256
  slices_S2x1024_S1x1024_1_0 : S2x1024.Slices ![1, 0] S1x1024
  bcast_S1x256_S20000x256_0_1 : S1x256.BroadcastsInDim S20000x256 (![0, 1] : Fin 2 → Fin S20000x256.rank)
  reducesTo_S20000x256_S256_d0 : S20000x256.ReducesTo [0] S256
  h_S_ : 0 < S_.numel
  gather_S20000x256_S320000x1_S320000x256_1_0_n_n_0_1_1256_wf : GatherDims.WF S20000x256 S320000x1 S320000x256 [1] [0] [] [0] [] 1 ![1, 256]
  dot_S320000x640_S640x256_S320000x256_1_0_0_1_n_n_wf : DotDims.WF S320000x640 S640x256 S320000x256 [1] [0] [0] [1] [] []
  dot_S320000x256_S256x256_S320000x256_1_0_0_1_n_n_wf : DotDims.WF S320000x256 S256x256 S320000x256 [1] [0] [0] [1] [] []
  scatter_S20000x256_S320000x1_S320000x256_1_0_0_1_wf : ScatterDims.WF S20000x256 S320000x1 S320000x256 [1] [0] [0] 1
  dot_S20000x256_S256x1024_S20000x1024_1_0_0_1_n_n_wf : DotDims.WF S20000x256 S256x1024 S20000x1024 [1] [0] [0] [1] [] []
  dot_S20000x256_S256x256_S20000x256_1_0_0_1_n_n_wf : DotDims.WF S20000x256 S256x256 S20000x256 [1] [0] [0] [1] [] []

variable [Facts₀]

def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def dot_S320000x640_S640x256_S320000x256_1_0_0_1_n_n : DotDims S320000x640 S640x256 S320000x256 where
  lhsContracting := [1]
  rhsContracting := [0]
  lhsNonContracting := [0]
  rhsNonContracting := [1]
  lhsBatch := []
  rhsBatch := []
  wf := dot_S320000x640_S640x256_S320000x256_1_0_0_1_n_n_wf
def dot_S320000x256_S256x256_S320000x256_1_0_0_1_n_n : DotDims S320000x256 S256x256 S320000x256 where
  lhsContracting := [1]
  rhsContracting := [0]
  lhsNonContracting := [0]
  rhsNonContracting := [1]
  lhsBatch := []
  rhsBatch := []
  wf := dot_S320000x256_S256x256_S320000x256_1_0_0_1_n_n_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def dot_S20000x256_S256x1024_S20000x1024_1_0_0_1_n_n : DotDims S20000x256 S256x1024 S20000x1024 where
  lhsContracting := [1]
  rhsContracting := [0]
  lhsNonContracting := [0]
  rhsNonContracting := [1]
  lhsBatch := []
  rhsBatch := []
  wf := dot_S20000x256_S256x1024_S20000x1024_1_0_0_1_n_n_wf
def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf

class Facts : Prop extends Facts₀ where

variable [Facts]
-- ==== Proof.KernelRun.lean ====
/-
  The idealized kernel's run, with its result named.

  The whole program is five grid launches among stretches of host operations.  Every weakly fair
  execution terminates without a fault; afterwards each argument array is as launched, and the
  result array holds the contents the last boundary of the run assigns to it: the fold of the
  host stretches and of the launches' write-backs from the launch memory.  The value modules
  read that fold back, boundary by boundary, to a function of the arguments.
-/
import proofs.«114160_j24077586661654_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result array ends
    at the last boundary's contents, and every argument array ends as launched. -/
theorem run_result : θ_run defs (onTc (τ := τ) (main (F := F))) ⟨m, fun _ => 0, ρ⟩ (fun r => ∀ c : Dev nD,
      r.2.mem ((c.tc : Thread nD τ).loc main_v62) = W16 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v62 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c),
       (h c _ (mem_uc main_arg11 (by decide))).trans (W16_main_arg11 m ρ c),
       (h c _ (mem_uc main_arg12 (by decide))).trans (W16_main_arg12 m ρ c),
       (h c _ (mem_uc main_arg13 (by decide))).trans (W16_main_arg13 m ρ c),
       (h c _ (mem_uc main_arg14 (by decide))).trans (W16_main_arg14 m ρ c)⟩)

end Cert.KernelIdeal.Whole

end
-- ==== Proof.RowMaps.lean ====
/-
  The message-passing network, one ROW at a time, on the extended reals.

  Every stage of the network acts on rows independently: an edge's message is a function of the
  target node's row, the source node's row and the edge's attribute row; a node's new cell and hidden
  rows are functions of its old rows and its aggregated message row; the readout adds one term per
  node.  Both programs are read against these row maps, so the maps are stated once, over plain
  finite index types, with the contraction written as a finite sum.
-/
import Idealize.ShloMosaic.PureOps.Ideal
import Mathlib.Algebra.BigOperators.Fin

noncomputable section

namespace Cert.RowMaps

open Idealize.ShloMosaic

/-- The input row of an edge: the target node's 256 features, then the source node's 256 features,
    then the edge's 128 attributes, side by side. -/
def catRow (a b : Fin 256 → EReal) (e : Fin 128 → EReal) (k : Fin 640) : EReal :=
  if h : k.val < 256 then a ⟨k.val, h⟩
  else if h2 : k.val < 512 then b ⟨k.val - 256, by omega⟩
  else e ⟨k.val - 512, by have := k.isLt; omega⟩

/-- The hidden layer of the message network: `max (u · W₁ᵀ + b₁, 0)`. -/
def hiddenRow (u : Fin 640 → EReal) (W1 : Fin 256 → Fin 640 → EReal) (b1 : Fin 256 → EReal)
    (j : Fin 256) : EReal :=
  max ((∑ k : Fin 640, u k * W1 j k) + b1 j) 0

/-- An edge's message: `hidden · W₂ᵀ + b₂`. -/
def msgRow (u : Fin 640 → EReal) (W1 : Fin 256 → Fin 640 → EReal) (b1 : Fin 256 → EReal)
    (W2 : Fin 256 → Fin 256 → EReal) (b2 : Fin 256 → EReal) (d : Fin 256) : EReal :=
  (∑ j : Fin 256, hiddenRow u W1 b1 j * W2 d j) + b2 d

/-- A node's four gate pre-activations, 1024 side by side:
    `h · W_ihᵀ + b_ih + a · W_hhᵀ + b_hh`, added in that order. -/
def gateRow (h a : Fin 256 → EReal) (Wih Whh : Fin 1024 → Fin 256 → EReal)
    (bih bhh : Fin 1024 → EReal) (g : Fin 1024) : EReal :=
  (((∑ k : Fin 256, h k * Wih g k) + bih g) + (∑ k : Fin 256, a k * Whh g k)) + bhh g

/-- The new cell row: `σ(f) · c + σ(i) · tanh(g)`, the gates at columns `256 + d`, `d`, `512 + d`. -/
def cellRow (G : Fin 1024 → EReal) (c : Fin 256 → EReal) (d : Fin 256) : EReal :=
  Ideal.logistic (G ⟨256 + d.val, by have := d.isLt; omega⟩) * c d
    + Ideal.logistic (G ⟨d.val, by have := d.isLt; omega⟩)
      * Ideal.tanh (G ⟨512 + d.val, by have := d.isLt; omega⟩)

/-- The new hidden row: `σ(o) · tanh(c')`, the output gate at column `768 + d`. -/
def hidRow (G : Fin 1024 → EReal) (cn : Fin 256 → EReal) (d : Fin 256) : EReal :=
  Ideal.logistic (G ⟨768 + d.val, by have := d.isLt; omega⟩) * Ideal.tanh (cn d)

/-- One node's term of the gated readout: `σ(h · W_gᵀ + b_g) · (h · W_fᵀ + b_f)`. -/
def gatedRow (h : Fin 256 → EReal) (Wg Wf : Fin 256 → Fin 256 → EReal) (bg bf : Fin 256 → EReal)
    (g : Fin 256) : EReal :=
  Ideal.logistic ((∑ k : Fin 256, h k * Wg g k) + bg g) * ((∑ k : Fin 256, h k * Wf g k) + bf g)

end Cert.RowMaps

end
-- ==== Proof.RefStages.lean ====
/-
  The reference network, stage by stage, one ROW at a time.

  Each stage of the reference — an edge's message, a node's gate pre-activations, its new cell and
  hidden rows, the gated readout — is read at an index and identified with the corresponding row map
  of `Cert.RowMaps`.  The gathers and the scatter-adds are not opened: they stay as the stages they
  are, applied at an index.  Every weight is read through its slice, reshape and transpose down to
  the argument array; the sigmoid `1 / (1 + exp (-x))` is `Ideal.logistic x` by definition once the
  word of `1.0` is read as the extended real one.
-/
import proofs.«114160_j24077586661654_1_alg».proof.Proof.RefRead
import proofs.«114160_j24077586661654_1_alg».proof.Proof.RowMaps
import Idealize.ShloMosaic.Lib.Pipeline.Value
import Idealize.ShloMosaic.Lib.ValueIdx
import Idealize.ShloMosaic.Lib.ValueLayout
import Idealize.ShloMosaic.PureOps.Ideal.Laws
noncomputable section
open Idealize.ShloMosaic Idealize.ShloMosaic.TcCoe
open Idealize.ShloMosaic.ValueIdx
namespace Cert.ReferenceIdeal.Stages
open Cert.ReferenceIdeal Cert.ReferenceIdeal.ReadP Cert.RowMaps
variable (x0 : (⟨S20000x256, .f32⟩ : BufTy).Contents (Elt Ideal)) (x1 : (⟨S320000x128, .f32⟩ : BufTy).Contents (Elt Ideal)) (x2 : (⟨S2x320000, .i32⟩ : BufTy).Contents (Elt Ideal)) (x3 : (⟨S2x256x640, .f32⟩ : BufTy).Contents (Elt Ideal)) (x4 : (⟨S2x256, .f32⟩ : BufTy).Contents (Elt Ideal)) (x5 : (⟨S2x256x256, .f32⟩ : BufTy).Contents (Elt Ideal)) (x6 : (⟨S2x256, .f32⟩ : BufTy).Contents (Elt Ideal)) (x7 x8 : (⟨S2x1024x256, .f32⟩ : BufTy).Contents (Elt Ideal)) (x9 x10 : (⟨S2x1024, .f32⟩ : BufTy).Contents (Elt Ideal)) (x11 : (⟨S256x256, .f32⟩ : BufTy).Contents (Elt Ideal)) (x12 : (⟨S256, .f32⟩ : BufTy).Contents (Elt Ideal)) (x13 : (⟨S256x256, .f32⟩ : BufTy).Contents (Elt Ideal)) (x14 : (⟨S256, .f32⟩ : BufTy).Contents (Elt Ideal))

/-! ## Words and layout -/

/-- The word of `1.0` is the extended real one. -/
theorem one_f32 : Ideal.ofBits .f32 0x3F800000#32 = 1 := IdealRules.sign_bit.ideal_onePat .f32

/-- Three arrays of 256, 256 and 128 columns joined side by side, read at row `e`, column `k`:
    the joined row. -/
theorem concat_apply (A B : S320000x256.Idx → EReal) (C : S320000x128.Idx → EReal)
    (h : Shape.Concatenates [S320000x256, S320000x256, S320000x128] S320000x640 1)
    (e : Fin 320000) (k : Fin 640) :
    concatenate S320000x640 1 [⟨S320000x256, A⟩, ⟨S320000x256, B⟩, ⟨S320000x128, C⟩] h (ix2 e k) =
      catRow (fun k' => A (ix2 e k')) (fun k' => B (ix2 e k')) (fun k' => C (ix2 e k')) k := by
  unfold catRow
  split
  · next h1 =>
    exact concatenate_apply_piece (1 : Fin S320000x640.rank) ([⟨S320000x256, A⟩, ⟨S320000x256, B⟩, ⟨S320000x128, C⟩] : List ((s : Shape) × (s.Idx → EReal))) h (ix2 e k) 0 (by show (0 : Nat) < 3; omega) S320000x256 A rfl rfl 0 rfl
      (ix2 e ⟨k.val, h1⟩) (fun b hb => by match b with | ⟨0, _⟩ => rfl | ⟨1, _⟩ => exact absurd rfl hb)
      (by show 0 + k.val = k.val; omega)
  · next h1 =>
    split
    · next h2 =>
      exact concatenate_apply_piece (1 : Fin S320000x640.rank) ([⟨S320000x256, A⟩, ⟨S320000x256, B⟩, ⟨S320000x128, C⟩] : List ((s : Shape) × (s.Idx → EReal))) h (ix2 e k) 1 (by show (1 : Nat) < 3; omega) S320000x256 B rfl rfl 256 rfl
        (ix2 e ⟨k.val - 256, by omega⟩) (fun b hb => by match b with | ⟨0, _⟩ => rfl | ⟨1, _⟩ => exact absurd rfl hb)
        (by show 256 + (k.val - 256) = k.val; omega)
    · next h2 =>
      exact concatenate_apply_piece (1 : Fin S320000x640.rank) ([⟨S320000x256, A⟩, ⟨S320000x256, B⟩, ⟨S320000x128, C⟩] : List ((s : Shape) × (s.Idx → EReal))) h (ix2 e k) 2 (by show (2 : Nat) < 3; omega) S320000x128 C rfl rfl 512 rfl
        (ix2 e ⟨k.val - 512, by have := k.isLt; omega⟩) (fun b hb => by match b with | ⟨0, _⟩ => rfl | ⟨1, _⟩ => exact absurd rfl hb)
        (by show 512 + (k.val - 512) = k.val; omega)

/-! ## Step 0: the message network -/

/-- The joined input row of edge `e` in step 0. -/
theorem cat0 (e : Fin 320000) (k : Fin 640) :
    val_main_v19 (F := Ideal) x0 x1 x2 (ix2 e k) =
      catRow (fun k' => val_main_v11 (F := Ideal) x0 x2 (ix2 e k')) (fun k' => val_main_v18 (F := Ideal) x0 x2 (ix2 e k'))
        (fun k' => x1 (ix2 e k')) k := by
  unfold val_main_v19
  exact concat_apply _ _ _ _ e k

/-- The first layer's weight, sliced, reshaped and transposed, read back at the argument. -/
theorem w1_0 (k : Fin 640) (j : Fin 256) :
    val_main_v22 (F := Ideal) x3 (ix2 k j) = x3 (ix3 0 j k) := by
  rw [val_main_v22_apply, val_main_v21_apply, val_main_v20_apply]
  refine congrArg x3 (funext fun a => Fin.ext ?_)
  have hj := j.isLt
  have hk := k.isLt
  match a with
  | ⟨0, _⟩ => rfl
  | ⟨1, _⟩ => show (j.val * 640 + k.val) / 640 % 256 = j.val; omega
  | ⟨2, _⟩ => show (j.val * 640 + k.val) % 640 = k.val; omega

/-- The first layer's bias, broadcast over the edges, read back at the argument. -/
theorem b1_0 (e : Fin 320000) (j : Fin 256) :
    val_main_v27 (F := Ideal) x4 (ix2 e j) = x4 (ix2 0 j) := by
  rw [val_main_v27_apply, val_main_v26_apply, val_main_v25_apply, val_main_v24_apply]
  refine congrArg x4 (funext fun a => Fin.ext ?_)
  have hj := j.isLt
  match a with
  | ⟨0, _⟩ => rfl
  | ⟨1, _⟩ => show j.val % 256 = j.val; omega

/-- The zero the hidden layer is clamped against. -/
theorem zero0 (i : S320000x256.Idx) : val_main_call0_v0 (F := Ideal) i = 0 := by
  rw [val_main_call0_v0_apply, val_main_call0_cst_apply]
  exact Ideal.ofBits_zero_f32

theorem lidx23 (e : Fin 320000) (j : Fin 256) (k : Fin 640) : lidx_main_v23 (ix2 e j) k = ix2 e k :=
  funext fun a => by match a with | ⟨0, _⟩ => rfl | ⟨1, _⟩ => rfl
theorem ridx23 (e : Fin 320000) (j : Fin 256) (k : Fin 640) : ridx_main_v23 (ix2 e j) k = ix2 k j :=
  funext fun a => by match a with | ⟨0, _⟩ => rfl | ⟨1, _⟩ => rfl

/-- The hidden layer of the message network at edge `e` in step 0. -/
theorem relu0 (e : Fin 320000) (j : Fin 256) :
    val_main_v29 (F := Ideal) x0 x1 x2 x3 x4 (ix2 e j) =
      hiddenRow (catRow (fun k => val_main_v11 (F := Ideal) x0 x2 (ix2 e k)) (fun k => val_main_v18 (F := Ideal) x0 x2 (ix2 e k))
          (fun k => x1 (ix2 e k)))
        (fun j' k => x3 (ix3 0 j' k)) (fun j' => x4 (ix2 0 j')) j := by
  rw [val_main_v29_apply, val_main_v28_apply, val_main_v23_apply, zero0, b1_0]
  simp only [lidx23, ridx23, cat0, w1_0]
  rfl

/-- The second layer's weight read back at the argument. -/
theorem w2_0 (j d : Fin 256) :
    val_main_v32 (F := Ideal) x5 (ix2 j d) = x5 (ix3 0 d j) := by
  rw [val_main_v32_apply, val_main_v31_apply, val_main_v30_apply]
  refine congrArg x5 (funext fun a => Fin.ext ?_)
  have hj := j.isLt
  have hd := d.isLt
  match a with
  | ⟨0, _⟩ => rfl
  | ⟨1, _⟩ => show (d.val * 256 + j.val) / 256 % 256 = d.val; omega
  | ⟨2, _⟩ => show (d.val * 256 + j.val) % 256 = j.val; omega

/-- The second layer's bias read back at the argument. -/
theorem b2_0 (e : Fin 320000) (d : Fin 256) :
    val_main_v37 (F := Ideal) x6 (ix2 e d) = x6 (ix2 0 d) := by
  rw [val_main_v37_apply, val_main_v36_apply, val_main_v35_apply, val_main_v34_apply]
  refine congrArg x6 (funext fun a => Fin.ext ?_)
  have hd := d.isLt
  match a with
  | ⟨0, _⟩ => rfl
  | ⟨1, _⟩ => show d.val % 256 = d.val; omega

theorem lidx33 (e : Fin 320000) (d : Fin 256) (k : Fin 256) : lidx_main_v33 (ix2 e d) k = ix2 e k :=
  funext fun a => by match a with | ⟨0, _⟩ => rfl | ⟨1, _⟩ => rfl
theorem ridx33 (e : Fin 320000) (d : Fin 256) (k : Fin 256) : ridx_main_v33 (ix2 e d) k = ix2 k d :=
  funext fun a => by match a with | ⟨0, _⟩ => rfl | ⟨1, _⟩ => rfl

/-- The message of edge `e` in step 0. -/
theorem msg0 (e : Fin 320000) (d : Fin 256) :
    val_main_v38 (F := Ideal) x0 x1 x2 x3 x4 x5 x6 (ix2 e d) =
      msgRow (catRow (fun k => val_main_v11 (F := Ideal) x0 x2 (ix2 e k)) (fun k => val_main_v18 (F := Ideal) x0 x2 (ix2 e k))
          (fun k => x1 (ix2 e k)))
        (fun j k => x3 (ix3 0 j k)) (fun j => x4 (ix2 0 j)) (fun d' j => x5 (ix3 0 d' j)) (fun d' => x6 (ix2 0 d')) d := by
  rw [val_main_v38_apply, val_main_v33_apply, b2_0]
  simp only [lidx33, ridx33, relu0, w2_0]
  rfl

/-! ## Step 0: the gates, the cell and the hidden row -/

/-- The sigmoid as the reference spells it, `1 / (1 + exp (-x))`, is the logistic function. -/
theorem sigmoid_eq (x : Ideal .f32) :
    FloatOps.hostDivf (F := Ideal) (FloatOps.ofBits .f32 0x3F800000#32)
        (FloatOps.addf (FloatOps.ofBits .f32 0x3F800000#32) (FloatOps.hostUnary .exp (FloatOps.hostNegf x))) =
      Ideal.logistic x := by
  show Ideal.div (Ideal.ofBits .f32 0x3F800000#32) (Ideal.ofBits .f32 0x3F800000#32 + Ideal.exp (-x)) = Ideal.logistic x
  rw [one_f32]
  rfl

/-- The input weight of the gates read back at the argument. -/
theorem wih_0 (k : Fin 256) (g : Fin 1024) :
    val_main_v44 (F := Ideal) x7 (ix2 k g) = x7 (ix3 0 g k) := by
  rw [val_main_v44_apply, val_main_v43_apply, val_main_v42_apply]
  refine congrArg x7 (funext fun a => Fin.ext ?_)
  have hg := g.isLt
  have hk := k.isLt
  match a with
  | ⟨0, _⟩ => rfl
  | ⟨1, _⟩ => show (g.val * 256 + k.val) / 256 % 1024 = g.val; omega
  | ⟨2, _⟩ => show (g.val * 256 + k.val) % 256 = k.val; omega

/-- The input bias of the gates read back at the argument. -/
theorem bih_0 (v : Fin 20000) (g : Fin 1024) :
    val_main_v49 (F := Ideal) x9 (ix2 v g) = x9 (ix2 0 g) := by
  rw [val_main_v49_apply, val_main_v48_apply, val_main_v47_apply, val_main_v46_apply]
  refine congrArg x9 (funext fun a => Fin.ext ?_)
  have hg := g.isLt
  match a with
  | ⟨0, _⟩ => rfl
  | ⟨1, _⟩ => show g.val % 1024 = g.val; omega

/-- The recurrent weight of the gates read back at the argument. -/
theorem whh_0 (k : Fin 256) (g : Fin 1024) :
    val_main_v53 (F := Ideal) x8 (ix2 k g) = x8 (ix3 0 g k) := by
  rw [val_main_v53_apply, val_main_v52_apply, val_main_v51_apply]
  refine congrArg x8 (funext fun a => Fin.ext ?_)
  have hg := g.isLt
  have hk := k.isLt
  match a with
  | ⟨0, _⟩ => rfl
  | ⟨1, _⟩ => show (g.val * 256 + k.val) / 256 % 1024 = g.val; omega
  | ⟨2, _⟩ => show (g.val * 256 + k.val) % 256 = k.val; omega

/-- The recurrent bias of the gates read back at the argument. -/
theorem bhh_0 (v : Fin 20000) (g : Fin 1024) :
    val_main_v59 (F := Ideal) x10 (ix2 v g) = x10 (ix2 0 g) := by
  rw [val_main_v59_apply, val_main_v58_apply, val_main_v57_apply, val_main_v56_apply]
  refine congrArg x10 (funext fun a => Fin.ext ?_)
  have hg := g.isLt
  match a with
  | ⟨0, _⟩ => rfl
  | ⟨1, _⟩ => show g.val % 1024 = g.val; omega

theorem lidx45 (v : Fin 20000) (g : Fin 1024) (k : Fin 256) : lidx_main_v45 (ix2 v g) k = ix2 v k :=
  funext fun a => by match a with | ⟨0, _⟩ => rfl | ⟨1, _⟩ => rfl
theorem ridx45 (v : Fin 20000) (g : Fin 1024) (k : Fin 256) : ridx_main_v45 (ix2 v g) k = ix2 k g :=
  funext fun a => by match a with | ⟨0, _⟩ => rfl | ⟨1, _⟩ => rfl
theorem lidx54 (v : Fin 20000) (g : Fin 1024) (k : Fin 256) : lidx_main_v54 (ix2 v g) k = ix2 v k :=
  funext fun a => by match a with | ⟨0, _⟩ => rfl | ⟨1, _⟩ => rfl
theorem ridx54 (v : Fin 20000) (g : Fin 1024) (k : Fin 256) : ridx_main_v54 (ix2 v g) k = ix2 k g :=
  funext fun a => by match a with | ⟨0, _⟩ => rfl | ⟨1, _⟩ => rfl

/-- The four gate pre-activations of node `v` in step 0: from its input row and its aggregated
    message row. -/
def gates0 (v : Fin 20000) : Fin 1024 → EReal :=
  gateRow (fun k => x0 (ix2 v k)) (fun k => val_main_v41 (F := Ideal) x0 x1 x2 x3 x4 x5 x6 (ix2 v k))
    (fun g k => x7 (ix3 0 g k)) (fun g k => x8 (ix3 0 g k)) (fun g => x9 (ix2 0 g)) (fun g => x10 (ix2 0 g))

/-- The reference's gate array in step 0, row by row. -/
theorem gate0 (v : Fin 20000) (g : Fin 1024) :
    val_main_v60 (F := Ideal) x0 x1 x2 x3 x4 x5 x6 x7 x8 x9 x10 (ix2 v g) = gates0 x0 x1 x2 x3 x4 x5 x6 x7 x8 x9 x10 v g := by
  rw [val_main_v60_apply, val_main_v55_apply, val_main_v50_apply, val_main_v45_apply, val_main_v54_apply, bih_0, bhh_0]
  simp only [lidx45, ridx45, lidx54, ridx54, wih_0, whh_0]
  rfl

theorem idx61 (v : Fin 20000) (d : Fin 256) :
    idx_main_v61 (ix2 v d) = ix2 v (⟨d.val, by have := d.isLt; omega⟩ : Fin 1024) :=
  funext fun a => by match a with | ⟨0, _⟩ => rfl | ⟨1, _⟩ => rfl
theorem idx62 (v : Fin 20000) (d : Fin 256) :
    idx_main_v62 (ix2 v d) = ix2 v (⟨256 + d.val, by have := d.isLt; omega⟩ : Fin 1024) :=
  funext fun a => by match a with | ⟨0, _⟩ => rfl | ⟨1, _⟩ => rfl
theorem idx63 (v : Fin 20000) (d : Fin 256) :
    idx_main_v63 (ix2 v d) = ix2 v (⟨512 + d.val, by have := d.isLt; omega⟩ : Fin 1024) :=
  funext fun a => by match a with | ⟨0, _⟩ => rfl | ⟨1, _⟩ => rfl
theorem idx64 (v : Fin 20000) (d : Fin 256) :
    idx_main_v64 (ix2 v d) = ix2 v (⟨768 + d.val, by have := d.isLt; omega⟩ : Fin 1024) :=
  funext fun a => by match a with | ⟨0, _⟩ => rfl | ⟨1, _⟩ => rfl

/-- The new cell row of node `v` after step 0 (the old cell is the zero array). -/
theorem cell0 (v : Fin 20000) (d : Fin 256) :
    val_main_v80 (F := Ideal) x0 x1 x2 x3 x4 x5 x6 x7 x8 x9 x10 (ix2 v d) =
      cellRow (gates0 x0 x1 x2 x3 x4 x5 x6 x7 x8 x9 x10 v) (fun d' => val_main_v4 (F := Ideal) (ix2 v d')) d := by
  rw [val_main_v80_apply, val_main_v71_apply, val_main_v70_apply, val_main_v69_apply, val_main_cst_5_apply,
    val_main_v68_apply, val_main_v67_apply, val_main_cst_4_apply, val_main_v66_apply, val_main_v65_apply,
    val_main_v62_apply, val_main_v79_apply, val_main_v77_apply, val_main_v76_apply, val_main_cst_7_apply,
    val_main_v75_apply, val_main_v74_apply, val_main_cst_6_apply, val_main_v73_apply, val_main_v72_apply,
    val_main_v61_apply, val_main_v78_apply, val_main_v63_apply, idx61, idx62, idx63, gate0, gate0, gate0,
    sigmoid_eq, sigmoid_eq]
  rfl

/-- The new hidden row of node `v` after step 0. -/
theorem hidden0 (v : Fin 20000) (d : Fin 256) :
    val_main_v88 (F := Ideal) x0 x1 x2 x3 x4 x5 x6 x7 x8 x9 x10 (ix2 v d) =
      hidRow (gates0 x0 x1 x2 x3 x4 x5 x6 x7 x8 x9 x10 v)
        (cellRow (gates0 x0 x1 x2 x3 x4 x5 x6 x7 x8 x9 x10 v) (fun d' => val_main_v4 (F := Ideal) (ix2 v d'))) d := by
  rw [val_main_v88_apply, val_main_v86_apply, val_main_v85_apply, val_main_cst_9_apply, val_main_v84_apply,
    val_main_v83_apply, val_main_cst_8_apply, val_main_v82_apply, val_main_v81_apply, val_main_v64_apply,
    val_main_v87_apply, idx64, gate0, sigmoid_eq, cell0]
  rfl

/-! ## Step 1: the message network -/

/-- The joined input row of edge `e` in step 1. -/
theorem cat1 (e : Fin 320000) (k : Fin 640) :
    val_main_v103 (F := Ideal) x0 x1 x2 x3 x4 x5 x6 x7 x8 x9 x10 (ix2 e k) =
      catRow (fun k' => val_main_v95 (F := Ideal) x0 x1 x2 x3 x4 x5 x6 x7 x8 x9 x10 (ix2 e k')) (fun k' => val_main_v102 (F := Ideal) x0 x1 x2 x3 x4 x5 x6 x7 x8 x9 x10 (ix2 e k'))
        (fun k' => x1 (ix2 e k')) k := by
  unfold val_main_v103
  exact concat_apply _ _ _ _ e k

/-- The first layer's weight of step 1 read back at the argument. -/
theorem w1_1 (k : Fin 640) (j : Fin 256) :
    val_main_v106 (F := Ideal) x3 (ix2 k j) = x3 (ix3 1 j k) := by
  rw [val_main_v106_apply, val_main_v105_apply, val_main_v104_apply]
  refine congrArg x3 (funext fun a => Fin.ext ?_)
  have hj := j.isLt
  have hk := k.isLt
  match a with
  | ⟨0, _⟩ => rfl
  | ⟨1, _⟩ => show (j.val * 640 + k.val) / 640 % 256 = j.val; omega
  | ⟨2, _⟩ => show (j.val * 640 + k.val) % 640 = k.val; omega

/-- The first layer's bias of step 1 read back at the argument. -/
theorem b1_1 (e : Fin 320000) (j : Fin 256) :
    val_main_v111 (F := Ideal) x4 (ix2 e j) = x4 (ix2 1 j) := by
  rw [val_main_v111_apply, val_main_v110_apply, val_main_v109_apply, val_main_v108_apply]
  refine congrArg x4 (funext fun a => Fin.ext ?_)
  have hj := j.isLt
  match a with
  | ⟨0, _⟩ => rfl
  | ⟨1, _⟩ => show j.val % 256 = j.val; omega

/-- The zero the hidden layer of step 1 is clamped against. -/
theorem zero1 (i : S320000x256.Idx) : val_main_call1_v0 (F := Ideal) i = 0 := by
  rw [val_main_call1_v0_apply, val_main_call1_cst_apply]
  exact Ideal.ofBits_zero_f32

theorem lidx107 (e : Fin 320000) (j : Fin 256) (k : Fin 640) : lidx_main_v107 (ix2 e j) k = ix2 e k :=
  funext fun a => by match a with | ⟨0, _⟩ => rfl | ⟨1, _⟩ => rfl
theorem ridx107 (e : Fin 320000) (j : Fin 256) (k : Fin 640) : ridx_main_v107 (ix2 e j) k = ix2 k j :=
  funext fun a => by match a with | ⟨0, _⟩ => rfl | ⟨1, _⟩ => rfl

/-- The hidden layer of the message network at edge `e` in step 1. -/
theorem relu1 (e : Fin 320000) (j : Fin 256) :
    val_main_v113 (F := Ideal) x0 x1 x2 x3 x4 x5 x6 x7 x8 x9 x10 (ix2 e j) =
      hiddenRow (catRow (fun k => val_main_v95 (F := Ideal) x0 x1 x2 x3 x4 x5 x6 x7 x8 x9 x10 (ix2 e k)) (fun k => val_main_v102 (F := Ideal) x0 x1 x2 x3 x4 x5 x6 x7 x8 x9 x10 (ix2 e k))
          (fun k => x1 (ix2 e k)))
        (fun j' k => x3 (ix3 1 j' k)) (fun j' => x4 (ix2 1 j')) j := by
  rw [val_main_v113_apply, val_main_v112_apply, val_main_v107_apply, zero1, b1_1]
  simp only [lidx107, ridx107, cat1, w1_1]
  rfl

/-- The second layer's weight of step 1 read back at the argument. -/
theorem w2_1 (j d : Fin 256) :
    val_main_v116 (F := Ideal) x5 (ix2 j d) = x5 (ix3 1 d j) := by
  rw [val_main_v116_apply, val_main_v115_apply, val_main_v114_apply]
  refine congrArg x5 (funext fun a => Fin.ext ?_)
  have hj := j.isLt
  have hd := d.isLt
  match a with
  | ⟨0, _⟩ => rfl
  | ⟨1, _⟩ => show (d.val * 256 + j.val) / 256 % 256 = d.val; omega
  | ⟨2, _⟩ => show (d.val * 256 + j.val) % 256 = j.val; omega

/-- The second layer's bias of step 1 read back at the argument. -/
theorem b2_1 (e : Fin 320000) (d : Fin 256) :
    val_main_v121 (F := Ideal) x6 (ix2 e d) = x6 (ix2 1 d) := by
  rw [val_main_v121_apply, val_main_v120_apply, val_main_v119_apply, val_main_v118_apply]
  refine congrArg x6 (funext fun a => Fin.ext ?_)
  have hd := d.isLt
  match a with
  | ⟨0, _⟩ => rfl
  | ⟨1, _⟩ => show d.val % 256 = d.val; omega

theorem lidx117 (e : Fin 320000) (d : Fin 256) (k : Fin 256) : lidx_main_v117 (ix2 e d) k = ix2 e k :=
  funext fun a => by match a with | ⟨0, _⟩ => rfl | ⟨1, _⟩ => rfl
theorem ridx117 (e : Fin 320000) (d : Fin 256) (k : Fin 256) : ridx_main_v117 (ix2 e d) k = ix2 k d :=
  funext fun a => by match a with | ⟨0, _⟩ => rfl | ⟨1, _⟩ => rfl

/-- The message of edge `e` in step 1. -/
theorem msg1 (e : Fin 320000) (d : Fin 256) :
    val_main_v122 (F := Ideal) x0 x1 x2 x3 x4 x5 x6 x7 x8 x9 x10 (ix2 e d) =
      msgRow (catRow (fun k => val_main_v95 (F := Ideal) x0 x1 x2 x3 x4 x5 x6 x7 x8 x9 x10 (ix2 e k)) (fun k => val_main_v102 (F := Ideal) x0 x1 x2 x3 x4 x5 x6 x7 x8 x9 x10 (ix2 e k))
          (fun k => x1 (ix2 e k)))
        (fun j k => x3 (ix3 1 j k)) (fun j => x4 (ix2 1 j)) (fun d' j => x5 (ix3 1 d' j)) (fun d' => x6 (ix2 1 d')) d := by
  rw [val_main_v122_apply, val_main_v117_apply, b2_1]
  simp only [lidx117, ridx117, relu1, w2_1]
  rfl

/-! ## Step 1: the gates, the cell and the hidden row -/

/-- The input weight of the gates of step 1 read back at the argument. -/
theorem wih_1 (k : Fin 256) (g : Fin 1024) :
    val_main_v128 (F := Ideal) x7 (ix2 k g) = x7 (ix3 1 g k) := by
  rw [val_main_v128_apply, val_main_v127_apply, val_main_v126_apply]
  refine congrArg x7 (funext fun a => Fin.ext ?_)
  have hg := g.isLt
  have hk := k.isLt
  match a with
  | ⟨0, _⟩ => rfl
  | ⟨1, _⟩ => show (g.val * 256 + k.val) / 256 % 1024 = g.val; omega
  | ⟨2, _⟩ => show (g.val * 256 + k.val) % 256 = k.val; omega

/-- The input bias of the gates of step 1 read back at the argument. -/
theorem bih_1 (v : Fin 20000) (g : Fin 1024) :
    val_main_v133 (F := Ideal) x9 (ix2 v g) = x9 (ix2 1 g) := by
  rw [val_main_v133_apply, val_main_v132_apply, val_main_v131_apply, val_main_v130_apply]
  refine congrArg x9 (funext fun a => Fin.ext ?_)
  have hg := g.isLt
  match a with
  | ⟨0, _⟩ => rfl
  | ⟨1, _⟩ => show g.val % 1024 = g.val; omega

/-- The recurrent weight of the gates of step 1 read back at the argument. -/
theorem whh_1 (k : Fin 256) (g : Fin 1024) :
    val_main_v137 (F := Ideal) x8 (ix2 k g) = x8 (ix3 1 g k) := by
  rw [val_main_v137_apply, val_main_v136_apply, val_main_v135_apply]
  refine congrArg x8 (funext fun a => Fin.ext ?_)
  have hg := g.isLt
  have hk := k.isLt
  match a with
  | ⟨0, _⟩ => rfl
  | ⟨1, _⟩ => show (g.val * 256 + k.val) / 256 % 1024 = g.val; omega
  | ⟨2, _⟩ => show (g.val * 256 + k.val) % 256 = k.val; omega

/-- The recurrent bias of the gates of step 1 read back at the argument. -/
theorem bhh_1 (v : Fin 20000) (g : Fin 1024) :
    val_main_v143 (F := Ideal) x10 (ix2 v g) = x10 (ix2 1 g) := by
  rw [val_main_v143_apply, val_main_v142_apply, val_main_v141_apply, val_main_v140_apply]
  refine congrArg x10 (funext fun a => Fin.ext ?_)
  have hg := g.isLt
  match a with
  | ⟨0, _⟩ => rfl
  | ⟨1, _⟩ => show g.val % 1024 = g.val; omega

theorem lidx129 (v : Fin 20000) (g : Fin 1024) (k : Fin 256) : lidx_main_v129 (ix2 v g) k = ix2 v k :=
  funext fun a => by match a with | ⟨0, _⟩ => rfl | ⟨1, _⟩ => rfl
theorem ridx129 (v : Fin 20000) (g : Fin 1024) (k : Fin 256) : ridx_main_v129 (ix2 v g) k = ix2 k g :=
  funext fun a => by match a with | ⟨0, _⟩ => rfl | ⟨1, _⟩ => rfl
theorem lidx138 (v : Fin 20000) (g : Fin 1024) (k : Fin 256) : lidx_main_v138 (ix2 v g) k = ix2 v k :=
  funext fun a => by match a with | ⟨0, _⟩ => rfl | ⟨1, _⟩ => rfl
theorem ridx138 (v : Fin 20000) (g : Fin 1024) (k : Fin 256) : ridx_main_v138 (ix2 v g) k = ix2 k g :=
  funext fun a => by match a with | ⟨0, _⟩ => rfl | ⟨1, _⟩ => rfl

/-- The four gate pre-activations of node `v` in step 1: from its hidden row after step 0 and its
    aggregated message row. -/
def gates1 (v : Fin 20000) : Fin 1024 → EReal :=
  gateRow (fun k => val_main_v88 (F := Ideal) x0 x1 x2 x3 x4 x5 x6 x7 x8 x9 x10 (ix2 v k)) (fun k => val_main_v125 (F := Ideal) x0 x1 x2 x3 x4 x5 x6 x7 x8 x9 x10 (ix2 v k))
    (fun g k => x7 (ix3 1 g k)) (fun g k => x8 (ix3 1 g k)) (fun g => x9 (ix2 1 g)) (fun g => x10 (ix2 1 g))

/-- The reference's gate array in step 1, row by row. -/
theorem gate1 (v : Fin 20000) (g : Fin 1024) :
    val_main_v144 (F := Ideal) x0 x1 x2 x3 x4 x5 x6 x7 x8 x9 x10 (ix2 v g) = gates1 x0 x1 x2 x3 x4 x5 x6 x7 x8 x9 x10 v g := by
  rw [val_main_v144_apply, val_main_v139_apply, val_main_v134_apply, val_main_v129_apply, val_main_v138_apply, bih_1, bhh_1]
  simp only [lidx129, ridx129, lidx138, ridx138, wih_1, whh_1]
  rfl

theorem idx145 (v : Fin 20000) (d : Fin 256) :
    idx_main_v145 (ix2 v d) = ix2 v (⟨d.val, by have := d.isLt; omega⟩ : Fin 1024) :=
  funext fun a => by match a with | ⟨0, _⟩ => rfl | ⟨1, _⟩ => rfl
theorem idx146 (v : Fin 20000) (d : Fin 256) :
    idx_main_v146 (ix2 v d) = ix2 v (⟨256 + d.val, by have := d.isLt; omega⟩ : Fin 1024) :=
  funext fun a => by match a with | ⟨0, _⟩ => rfl | ⟨1, _⟩ => rfl
theorem idx147 (v : Fin 20000) (d : Fin 256) :
    idx_main_v147 (ix2 v d) = ix2 v (⟨512 + d.val, by have := d.isLt; omega⟩ : Fin 1024) :=
  funext fun a => by match a with | ⟨0, _⟩ => rfl | ⟨1, _⟩ => rfl
theorem idx148 (v : Fin 20000) (d : Fin 256) :
    idx_main_v148 (ix2 v d) = ix2 v (⟨768 + d.val, by have := d.isLt; omega⟩ : Fin 1024) :=
  funext fun a => by match a with | ⟨0, _⟩ => rfl | ⟨1, _⟩ => rfl

/-- The new cell row of node `v` after step 1, from its cell row after step 0. -/
theorem cell1 (v : Fin 20000) (d : Fin 256) :
    val_main_v164 (F := Ideal) x0 x1 x2 x3 x4 x5 x6 x7 x8 x9 x10 (ix2 v d) =
      cellRow (gates1 x0 x1 x2 x3 x4 x5 x6 x7 x8 x9 x10 v) (fun d' => val_main_v80 (F := Ideal) x0 x1 x2 x3 x4 x5 x6 x7 x8 x9 x10 (ix2 v d')) d := by
  rw [val_main_v164_apply, val_main_v155_apply, val_main_v154_apply, val_main_v153_apply, val_main_cst_16_apply,
    val_main_v152_apply, val_main_v151_apply, val_main_cst_15_apply, val_main_v150_apply, val_main_v149_apply,
    val_main_v146_apply, val_main_v163_apply, val_main_v161_apply, val_main_v160_apply, val_main_cst_18_apply,
    val_main_v159_apply, val_main_v158_apply, val_main_cst_17_apply, val_main_v157_apply, val_main_v156_apply,
    val_main_v145_apply, val_main_v162_apply, val_main_v147_apply, idx145, idx146, idx147, gate1, gate1, gate1,
    sigmoid_eq, sigmoid_eq]
  rfl

/-- The new hidden row of node `v` after step 1. -/
theorem hidden1 (v : Fin 20000) (d : Fin 256) :
    val_main_v172 (F := Ideal) x0 x1 x2 x3 x4 x5 x6 x7 x8 x9 x10 (ix2 v d) =
      hidRow (gates1 x0 x1 x2 x3 x4 x5 x6 x7 x8 x9 x10 v)
        (cellRow (gates1 x0 x1 x2 x3 x4 x5 x6 x7 x8 x9 x10 v) (fun d' => val_main_v80 (F := Ideal) x0 x1 x2 x3 x4 x5 x6 x7 x8 x9 x10 (ix2 v d'))) d := by
  rw [val_main_v172_apply, val_main_v170_apply, val_main_v169_apply, val_main_cst_20_apply, val_main_v168_apply,
    val_main_v167_apply, val_main_cst_19_apply, val_main_v166_apply, val_main_v165_apply, val_main_v148_apply,
    val_main_v171_apply, idx148, gate1, sigmoid_eq, cell1]
  rfl

/-! ## The gated readout -/

/-- The gate weight of the readout, transposed, read back at the argument. -/
theorem wg_read (k g : Fin 256) : val_main_v173 (F := Ideal) x11 (ix2 k g) = x11 (ix2 g k) := by
  rw [val_main_v173_apply]
  exact congrArg x11 (funext fun a => by match a with | ⟨0, _⟩ => rfl | ⟨1, _⟩ => rfl)

/-- The gate bias of the readout, broadcast over the nodes, read back at the argument. -/
theorem bg_read (v : Fin 20000) (g : Fin 256) : val_main_v176 (F := Ideal) x12 (ix2 v g) = x12 (ix1 g) := by
  rw [val_main_v176_apply, val_main_v175_apply]
  exact congrArg x12 (funext fun a => by match a with | ⟨0, _⟩ => rfl)

/-- The feature weight of the readout, transposed, read back at the argument. -/
theorem wf_read (k g : Fin 256) : val_main_v184 (F := Ideal) x13 (ix2 k g) = x13 (ix2 g k) := by
  rw [val_main_v184_apply]
  exact congrArg x13 (funext fun a => by match a with | ⟨0, _⟩ => rfl | ⟨1, _⟩ => rfl)

/-- The feature bias of the readout, broadcast over the nodes, read back at the argument. -/
theorem bf_read (v : Fin 20000) (g : Fin 256) : val_main_v187 (F := Ideal) x14 (ix2 v g) = x14 (ix1 g) := by
  rw [val_main_v187_apply, val_main_v186_apply]
  exact congrArg x14 (funext fun a => by match a with | ⟨0, _⟩ => rfl)

theorem lidx174 (v : Fin 20000) (g k : Fin 256) : lidx_main_v174 (ix2 v g) k = ix2 v k :=
  funext fun a => by match a with | ⟨0, _⟩ => rfl | ⟨1, _⟩ => rfl
theorem ridx174 (v : Fin 20000) (g k : Fin 256) : ridx_main_v174 (ix2 v g) k = ix2 k g :=
  funext fun a => by match a with | ⟨0, _⟩ => rfl | ⟨1, _⟩ => rfl
theorem lidx185 (v : Fin 20000) (g k : Fin 256) : lidx_main_v185 (ix2 v g) k = ix2 v k :=
  funext fun a => by match a with | ⟨0, _⟩ => rfl | ⟨1, _⟩ => rfl
theorem ridx185 (v : Fin 20000) (g k : Fin 256) : ridx_main_v185 (ix2 v g) k = ix2 k g :=
  funext fun a => by match a with | ⟨0, _⟩ => rfl | ⟨1, _⟩ => rfl
theorem idx190 (g : Fin 256) (v : Fin 20000) : idx_main_v190 (ix1 g) v = ix2 v g :=
  funext fun a => by match a with | ⟨0, _⟩ => rfl | ⟨1, _⟩ => rfl

/-- One node's term of the readout. -/
theorem gated (v : Fin 20000) (g : Fin 256) :
    val_main_v189 (F := Ideal) x0 x1 x2 x3 x4 x5 x6 x7 x8 x9 x10 x11 x12 x13 x14 (ix2 v g) =
      gatedRow (fun k => val_main_v172 (F := Ideal) x0 x1 x2 x3 x4 x5 x6 x7 x8 x9 x10 (ix2 v k)) (fun g' k => x11 (ix2 g' k))
        (fun g' k => x13 (ix2 g' k)) (fun g' => x12 (ix1 g')) (fun g' => x14 (ix1 g')) g := by
  rw [val_main_v189_apply, val_main_v183_apply, val_main_v182_apply, val_main_cst_22_apply, val_main_v181_apply,
    val_main_v180_apply, val_main_cst_21_apply, val_main_v179_apply, val_main_v178_apply, sigmoid_eq,
    val_main_v177_apply, val_main_v174_apply, val_main_v188_apply, val_main_v185_apply, bg_read, bf_read]
  simp only [lidx174, ridx174, lidx185, ridx185, wg_read, wf_read]
  rfl

/-- The result: the sum over the nodes of their gated terms. -/
theorem readout (g : Fin 256) :
    val_main_v190 (F := Ideal) x0 x1 x2 x3 x4 x5 x6 x7 x8 x9 x10 x11 x12 x13 x14 (ix1 g) =
      ∑ v : Fin 20000, gatedRow (fun k => val_main_v172 (F := Ideal) x0 x1 x2 x3 x4 x5 x6 x7 x8 x9 x10 (ix2 v k)) (fun g' k => x11 (ix2 g' k))
        (fun g' k => x13 (ix2 g' k)) (fun g' => x12 (ix1 g')) (fun g' => x14 (ix1 g')) g := by
  rw [val_main_v190_apply, val_main_cst_23_apply, Ideal.ofBits_def, Ideal.ofBits_zero_f32, zero_add]
  exact Finset.sum_congr rfl fun v _ => by rw [idx190, gated]

end Cert.ReferenceIdeal.Stages
end
-- ==== Proof.RefWeights.lean ====
/-
  The reference's weights, biases and edge endpoints as it slices them per step, read back at the
  argument arrays.

  Each step's weight is the slice `[p : p + 1, …]` of a stacked argument, reshaped to drop the
  leading unit axis; read at an index it is the argument at step `p` and the same coordinates.  The
  initial cell is the zero array, and the two rows of the edge list are its sources and its targets.
-/
import proofs.«114160_j24077586661654_1_alg».proof.Proof.RefRead
import Idealize.ShloMosaic.Lib.Pipeline.Value
import Idealize.ShloMosaic.Lib.ValueIdx
import Idealize.ShloMosaic.Lib.ValueLayout
import Idealize.ShloMosaic.PureOps.Ideal.Laws
noncomputable section
open Idealize.ShloMosaic Idealize.ShloMosaic.TcCoe
open Idealize.ShloMosaic.ValueIdx
namespace Cert.ReferenceIdeal.Weights
open Cert.ReferenceIdeal Cert.ReferenceIdeal.ReadP
variable (x0 : (⟨S20000x256, .f32⟩ : BufTy).Contents (Elt Ideal)) (x1 : (⟨S320000x128, .f32⟩ : BufTy).Contents (Elt Ideal)) (x2 : (⟨S2x320000, .i32⟩ : BufTy).Contents (Elt Ideal)) (x3 : (⟨S2x256x640, .f32⟩ : BufTy).Contents (Elt Ideal)) (x4 : (⟨S2x256, .f32⟩ : BufTy).Contents (Elt Ideal)) (x5 : (⟨S2x256x256, .f32⟩ : BufTy).Contents (Elt Ideal)) (x6 : (⟨S2x256, .f32⟩ : BufTy).Contents (Elt Ideal)) (x7 x8 : (⟨S2x1024x256, .f32⟩ : BufTy).Contents (Elt Ideal)) (x9 x10 : (⟨S2x1024, .f32⟩ : BufTy).Contents (Elt Ideal)) (x11 : (⟨S256x256, .f32⟩ : BufTy).Contents (Elt Ideal)) (x12 : (⟨S256, .f32⟩ : BufTy).Contents (Elt Ideal)) (x13 : (⟨S256x256, .f32⟩ : BufTy).Contents (Elt Ideal)) (x14 : (⟨S256, .f32⟩ : BufTy).Contents (Elt Ideal))

/-! ## The message network's weights and biases -/

/-- The first layer's weight of step 0. -/
theorem w1 (j : Fin 256) (k : Fin 640) :
    val_main_v21 (F := Ideal) x3 (ix2 j k) = x3 (ix3 0 j k) := by
  rw [val_main_v21_apply, val_main_v20_apply]
  refine congrArg x3 (funext fun a => Fin.ext ?_)
  have hj := j.isLt
  have hk := k.isLt
  match a with
  | ⟨0, _⟩ => rfl
  | ⟨1, _⟩ => show (j.val * 640 + k.val) / 640 % 256 = j.val; omega
  | ⟨2, _⟩ => show (j.val * 640 + k.val) % 640 = k.val; omega

/-- The first layer's weight of step 1. -/
theorem w1' (j : Fin 256) (k : Fin 640) :
    val_main_v105 (F := Ideal) x3 (ix2 j k) = x3 (ix3 1 j k) := by
  rw [val_main_v105_apply, val_main_v104_apply]
  refine congrArg x3 (funext fun a => Fin.ext ?_)
  have hj := j.isLt
  have hk := k.isLt
  match a with
  | ⟨0, _⟩ => rfl
  | ⟨1, _⟩ => show (j.val * 640 + k.val) / 640 % 256 = j.val; omega
  | ⟨2, _⟩ => show (j.val * 640 + k.val) % 640 = k.val; omega

/-- The first layer's bias of step 0. -/
theorem b1 (j : Fin 256) :
    val_main_v25 (F := Ideal) x4 (ix1 j) = x4 (ix2 0 j) := by
  rw [val_main_v25_apply, val_main_v24_apply]
  refine congrArg x4 (funext fun a => Fin.ext ?_)
  have hj := j.isLt
  match a with
  | ⟨0, _⟩ => rfl
  | ⟨1, _⟩ => show j.val % 256 = j.val; omega

/-- The first layer's bias of step 1. -/
theorem b1' (j : Fin 256) :
    val_main_v109 (F := Ideal) x4 (ix1 j) = x4 (ix2 1 j) := by
  rw [val_main_v109_apply, val_main_v108_apply]
  refine congrArg x4 (funext fun a => Fin.ext ?_)
  have hj := j.isLt
  match a with
  | ⟨0, _⟩ => rfl
  | ⟨1, _⟩ => show j.val % 256 = j.val; omega

/-- The second layer's weight of step 0. -/
theorem w2 (d j : Fin 256) :
    val_main_v31 (F := Ideal) x5 (ix2 d j) = x5 (ix3 0 d j) := by
  rw [val_main_v31_apply, val_main_v30_apply]
  refine congrArg x5 (funext fun a => Fin.ext ?_)
  have hd := d.isLt
  have hj := j.isLt
  match a with
  | ⟨0, _⟩ => rfl
  | ⟨1, _⟩ => show (d.val * 256 + j.val) / 256 % 256 = d.val; omega
  | ⟨2, _⟩ => show (d.val * 256 + j.val) % 256 = j.val; omega

/-- The second layer's weight of step 1. -/
theorem w2' (d j : Fin 256) :
    val_main_v115 (F := Ideal) x5 (ix2 d j) = x5 (ix3 1 d j) := by
  rw [val_main_v115_apply, val_main_v114_apply]
  refine congrArg x5 (funext fun a => Fin.ext ?_)
  have hd := d.isLt
  have hj := j.isLt
  match a with
  | ⟨0, _⟩ => rfl
  | ⟨1, _⟩ => show (d.val * 256 + j.val) / 256 % 256 = d.val; omega
  | ⟨2, _⟩ => show (d.val * 256 + j.val) % 256 = j.val; omega

/-- The second layer's bias of step 0. -/
theorem b2 (d : Fin 256) :
    val_main_v35 (F := Ideal) x6 (ix1 d) = x6 (ix2 0 d) := by
  rw [val_main_v35_apply, val_main_v34_apply]
  refine congrArg x6 (funext fun a => Fin.ext ?_)
  have hd := d.isLt
  match a with
  | ⟨0, _⟩ => rfl
  | ⟨1, _⟩ => show d.val % 256 = d.val; omega

/-- The second layer's bias of step 1. -/
theorem b2' (d : Fin 256) :
    val_main_v119 (F := Ideal) x6 (ix1 d) = x6 (ix2 1 d) := by
  rw [val_main_v119_apply, val_main_v118_apply]
  refine congrArg x6 (funext fun a => Fin.ext ?_)
  have hd := d.isLt
  match a with
  | ⟨0, _⟩ => rfl
  | ⟨1, _⟩ => show d.val % 256 = d.val; omega

/-! ## The cell's weights and biases -/

/-- The input weight of the gates of step 0. -/
theorem wih (g : Fin 1024) (k : Fin 256) :
    val_main_v43 (F := Ideal) x7 (ix2 g k) = x7 (ix3 0 g k) := by
  rw [val_main_v43_apply, val_main_v42_apply]
  refine congrArg x7 (funext fun a => Fin.ext ?_)
  have hg := g.isLt
  have hk := k.isLt
  match a with
  | ⟨0, _⟩ => rfl
  | ⟨1, _⟩ => show (g.val * 256 + k.val) / 256 % 1024 = g.val; omega
  | ⟨2, _⟩ => show (g.val * 256 + k.val) % 256 = k.val; omega

/-- The input weight of the gates of step 1. -/
theorem wih' (g : Fin 1024) (k : Fin 256) :
    val_main_v127 (F := Ideal) x7 (ix2 g k) = x7 (ix3 1 g k) := by
  rw [val_main_v127_apply, val_main_v126_apply]
  refine congrArg x7 (funext fun a => Fin.ext ?_)
  have hg := g.isLt
  have hk := k.isLt
  match a with
  | ⟨0, _⟩ => rfl
  | ⟨1, _⟩ => show (g.val * 256 + k.val) / 256 % 1024 = g.val; omega
  | ⟨2, _⟩ => show (g.val * 256 + k.val) % 256 = k.val; omega

/-- The recurrent weight of the gates of step 0. -/
theorem whh (g : Fin 1024) (k : Fin 256) :
    val_main_v52 (F := Ideal) x8 (ix2 g k) = x8 (ix3 0 g k) := by
  rw [val_main_v52_apply, val_main_v51_apply]
  refine congrArg x8 (funext fun a => Fin.ext ?_)
  have hg := g.isLt
  have hk := k.isLt
  match a with
  | ⟨0, _⟩ => rfl
  | ⟨1, _⟩ => show (g.val * 256 + k.val) / 256 % 1024 = g.val; omega
  | ⟨2, _⟩ => show (g.val * 256 + k.val) % 256 = k.val; omega

/-- The recurrent weight of the gates of step 1. -/
theorem whh' (g : Fin 1024) (k : Fin 256) :
    val_main_v136 (F := Ideal) x8 (ix2 g k) = x8 (ix3 1 g k) := by
  rw [val_main_v136_apply, val_main_v135_apply]
  refine congrArg x8 (funext fun a => Fin.ext ?_)
  have hg := g.isLt
  have hk := k.isLt
  match a with
  | ⟨0, _⟩ => rfl
  | ⟨1, _⟩ => show (g.val * 256 + k.val) / 256 % 1024 = g.val; omega
  | ⟨2, _⟩ => show (g.val * 256 + k.val) % 256 = k.val; omega

/-- The input bias of the gates of step 0. -/
theorem bih (g : Fin 1024) :
    val_main_v47 (F := Ideal) x9 (ix1 g) = x9 (ix2 0 g) := by
  rw [val_main_v47_apply, val_main_v46_apply]
  refine congrArg x9 (funext fun a => Fin.ext ?_)
  have hg := g.isLt
  match a with
  | ⟨0, _⟩ => rfl
  | ⟨1, _⟩ => show g.val % 1024 = g.val; omega

/-- The input bias of the gates of step 1. -/
theorem bih' (g : Fin 1024) :
    val_main_v131 (F := Ideal) x9 (ix1 g) = x9 (ix2 1 g) := by
  rw [val_main_v131_apply, val_main_v130_apply]
  refine congrArg x9 (funext fun a => Fin.ext ?_)
  have hg := g.isLt
  match a with
  | ⟨0, _⟩ => rfl
  | ⟨1, _⟩ => show g.val % 1024 = g.val; omega

/-- The recurrent bias of the gates of step 0. -/
theorem bhh (g : Fin 1024) :
    val_main_v57 (F := Ideal) x10 (ix1 g) = x10 (ix2 0 g) := by
  rw [val_main_v57_apply, val_main_v56_apply]
  refine congrArg x10 (funext fun a => Fin.ext ?_)
  have hg := g.isLt
  match a with
  | ⟨0, _⟩ => rfl
  | ⟨1, _⟩ => show g.val % 1024 = g.val; omega

/-- The recurrent bias of the gates of step 1. -/
theorem bhh' (g : Fin 1024) :
    val_main_v141 (F := Ideal) x10 (ix1 g) = x10 (ix2 1 g) := by
  rw [val_main_v141_apply, val_main_v140_apply]
  refine congrArg x10 (funext fun a => Fin.ext ?_)
  have hg := g.isLt
  match a with
  | ⟨0, _⟩ => rfl
  | ⟨1, _⟩ => show g.val % 1024 = g.val; omega

/-! ## The initial cell and the edge endpoints -/

/-- The initial cell is zero everywhere. -/
theorem zero (i : S20000x256.Idx) : val_main_v4 (F := Ideal) i = 0 := by
  rw [val_main_v4_apply, val_main_cst_apply]
  exact Ideal.ofBits_zero_f32

/-- The targets of the edges: the second row of the edge list. -/
theorem idx_dst (e : Fin 320000) :
    val_main_v3 (F := Ideal) x2 (ix1 e) = x2 (ix2 1 e) := by
  rw [val_main_v3_apply, val_main_v2_apply]
  refine congrArg x2 (funext fun a => Fin.ext ?_)
  have he := e.isLt
  match a with
  | ⟨0, _⟩ => rfl
  | ⟨1, _⟩ => show e.val % 320000 = e.val; omega

/-- The sources of the edges: the first row of the edge list. -/
theorem idx_src (e : Fin 320000) :
    val_main_v1 (F := Ideal) x2 (ix1 e) = x2 (ix2 0 e) := by
  rw [val_main_v1_apply, val_main_v0_apply]
  refine congrArg x2 (funext fun a => Fin.ext ?_)
  have he := e.isLt
  match a with
  | ⟨0, _⟩ => rfl
  | ⟨1, _⟩ => show e.val % 320000 = e.val; omega

end Cert.ReferenceIdeal.Weights
end
-- ==== Proof.KMessages0.lean ====
/-
  The edge-message launch, read as one function of the arrays it finds.

  The launch runs the two-layer message network on 80 blocks of 4000 edge rows.  Each block's stored value is read one
  entry at a time against the row maps (a change of float format is the identity on the extended reals; a product into
  a zero accumulator is the plain finite sum; the joined input row is the three-way case split of the row map), each
  input block is read off its array at "block index × block size + coordinate inside the block", and since the 80
  row blocks tile the array, the array the launch leaves is the message row map of the arrays it found, row by row.
-/
import proofs.«114160_j24077586661654_1_alg».proof.Proof.Gen.KernelIdeal.Frame
import proofs.«114160_j24077586661654_1_alg».proof.Proof.RowMaps
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
noncomputable section
open Idealize.ShloMosaic Idealize.ShloMosaic.TcCoe Idealize.SL.Sem
open Idealize.ShloMosaic.Pipeline (Dat)
open Idealize.ShloMosaic.ValueIdx
namespace Cert.KernelIdeal.Messages0
open Cert.KernelIdeal Cert.KernelIdeal.Gen Cert.RowMaps

/-! ## The layer's layout operations and contractions, one entry at a time -/

/-- Three row blocks joined along the columns: an entry of row `r` comes from the piece its column falls in. -/
theorem cat_apply (a b : S4000x256.Idx → EReal) (e : S4000x128.Idx → EReal)
    (h : Shape.Concatenates [S4000x256, S4000x256, S4000x128] S4000x640 1) (r : Fin 4000) (k : Fin 640) :
    concatenate S4000x640 1 [⟨S4000x256, a⟩, ⟨S4000x256, b⟩, ⟨S4000x128, e⟩] h (ix2 r k)
      = catRow (fun k => a (ix2 r k)) (fun k => b (ix2 r k)) (fun k => e (ix2 r k)) k := by
  unfold catRow
  split_ifs with h1 h2
  · refine concatenate_apply_piece (t := S4000x640) (1 : Fin 2) [⟨S4000x256, a⟩, ⟨S4000x256, b⟩, ⟨S4000x128, e⟩] h (ix2 r k) 0 (by show (0 : Nat) < 3; omega) S4000x256 a rfl rfl 0 rfl
      (ix2 r ⟨k.val, h1⟩) (fun b hb => ?_) ?_
    · match b with
      | ⟨0, _⟩ => rfl
      | ⟨1, _⟩ => exact absurd rfl hb
    · show 0 + k.val = k.val; omega
  · refine concatenate_apply_piece (t := S4000x640) (1 : Fin 2) [⟨S4000x256, a⟩, ⟨S4000x256, b⟩, ⟨S4000x128, e⟩] h (ix2 r k) 1 (by show (1 : Nat) < 3; omega) S4000x256 b rfl rfl 256 rfl
      (ix2 r ⟨k.val - 256, by omega⟩) (fun b hb => ?_) ?_
    · match b with
      | ⟨0, _⟩ => rfl
      | ⟨1, _⟩ => exact absurd rfl hb
    · show 256 + (k.val - 256) = k.val; omega
  · refine concatenate_apply_piece (t := S4000x640) (1 : Fin 2) [⟨S4000x256, a⟩, ⟨S4000x256, b⟩, ⟨S4000x128, e⟩] h (ix2 r k) 2 (by show (2 : Nat) < 3; omega) S4000x128 e rfl rfl 512 rfl
      (ix2 r ⟨k.val - 512, by have := k.isLt; omega⟩) (fun b hb => ?_) ?_
    · match b with
      | ⟨0, _⟩ => rfl
      | ⟨1, _⟩ => exact absurd rfl hb
    · show 512 + (k.val - 512) = k.val; omega

/-- The first weight matrix transposed: entry (k, j) is the matrix's entry (j, k). -/
theorem tr1_apply (w : S256x640.Idx → EReal) (h : S256x640.Transposes [1, 0] S640x256) (k : Fin 640) (j : Fin 256) :
    transpose S640x256 [1, 0] w h (ix2 k j) = w (ix2 j k) :=
  transpose_apply [1, 0] w h (ix2 k j) (ix2 j k) fun b => by
    match b with
    | ⟨0, _⟩ => rfl
    | ⟨1, _⟩ => rfl

/-- The second weight matrix transposed. -/
theorem tr2_apply (w : S256x256.Idx → EReal) (h : S256x256.Transposes [1, 0] S256x256) (j d : Fin 256) :
    transpose S256x256 [1, 0] w h (ix2 j d) = w (ix2 d j) :=
  transpose_apply [1, 0] w h (ix2 j d) (ix2 d j) fun b => by
    match b with
    | ⟨0, _⟩ => rfl
    | ⟨1, _⟩ => rfl

/-- A bias row repeated down the rows. -/
theorem bias_apply (b : S1x256.Idx → EReal) (h : S1x256.Broadcasts S4000x256) (r : Fin 4000) (j : Fin 256) :
    broadcastTo S4000x256 b h (ix2 r j) = b (ix2 0 j) :=
  broadcastTo_apply b h (ix2 r j) (ix2 0 j) fun a => by
    match a with
    | ⟨0, _⟩ => rfl
    | ⟨1, _⟩ => rfl

theorem mm1_l0 (i : S4000x256.Idx) (q : (dot_S4000x640_S640x256_S4000x256_1_0_0_1_n_n).contr.Idx) : ((dot_S4000x640_S640x256_S4000x256_1_0_0_1_n_n).lhsIdx i q 0).val = (i 0).val := by
  unfold DotDims.lhsIdx
  rw [dif_neg (show ¬(0 : Fin S4000x640.rank) ∈ (dot_S4000x640_S640x256_S4000x256_1_0_0_1_n_n).lhsBatch by decide), dif_pos (show (0 : Fin S4000x640.rank) ∈ (dot_S4000x640_S640x256_S4000x256_1_0_0_1_n_n).lhsNonContracting by decide)]
  rfl
theorem mm1_l1 (i : S4000x256.Idx) (q : (dot_S4000x640_S640x256_S4000x256_1_0_0_1_n_n).contr.Idx) : ((dot_S4000x640_S640x256_S4000x256_1_0_0_1_n_n).lhsIdx i q 1).val = (q ⟨0, by decide⟩).val :=
  (dot_S4000x640_S640x256_S4000x256_1_0_0_1_n_n).lhsIdx_val_of_single rfl i q
theorem mm1_r0 (i : S4000x256.Idx) (q : (dot_S4000x640_S640x256_S4000x256_1_0_0_1_n_n).contr.Idx) : ((dot_S4000x640_S640x256_S4000x256_1_0_0_1_n_n).rhsIdx i q 0).val = (q ⟨0, by decide⟩).val :=
  (dot_S4000x640_S640x256_S4000x256_1_0_0_1_n_n).rhsIdx_val_of_single rfl i q
theorem mm1_r1 (i : S4000x256.Idx) (q : (dot_S4000x640_S640x256_S4000x256_1_0_0_1_n_n).contr.Idx) : ((dot_S4000x640_S640x256_S4000x256_1_0_0_1_n_n).rhsIdx i q 1).val = (i 1).val := by
  unfold DotDims.rhsIdx
  rw [dif_neg (show ¬(1 : Fin S640x256.rank) ∈ (dot_S4000x640_S640x256_S4000x256_1_0_0_1_n_n).rhsBatch by decide), dif_pos (show (1 : Fin S640x256.rank) ∈ (dot_S4000x640_S640x256_S4000x256_1_0_0_1_n_n).rhsNonContracting by decide)]
  rfl

/-- The first product, into a zero accumulator: row `r` of the left factor against column `j` of the right. -/
theorem mm1_apply (lhs : FVec Ideal S4000x640 .bf16) (rhs : FVec Ideal S640x256 .bf16) (r : Fin 4000) (j : Fin 256) :
    matmul dot_S4000x640_S640x256_S4000x256_1_0_0_1_n_n none lhs rhs (constant S4000x256 .f32 0x00000000#32) (ix2 r j)
      = ∑ k : Fin 640, lhs (ix2 r k) * rhs (ix2 k j) := by
  show FloatOps.matmul dot_S4000x640_S640x256_S4000x256_1_0_0_1_n_n none lhs rhs (constant S4000x256 .f32 0x00000000#32) (ix2 r j) = _
  rw [Ideal.matmul_constant_zero_apply, ← Equiv.sum_comp (contrEquiv1 dot_S4000x640_S640x256_S4000x256_1_0_0_1_n_n 640 rfl rfl).symm]
  refine Finset.sum_congr rfl fun k _ => ?_
  have hk := contrEquiv1_symm_val dot_S4000x640_S640x256_S4000x256_1_0_0_1_n_n 640 rfl rfl k
  have el : (dot_S4000x640_S640x256_S4000x256_1_0_0_1_n_n).lhsIdx (ix2 r j) ((contrEquiv1 dot_S4000x640_S640x256_S4000x256_1_0_0_1_n_n 640 rfl rfl).symm k) = ix2 r k := funext fun a => Fin.ext (by
    match a with
    | ⟨0, _⟩ => exact mm1_l0 _ _
    | ⟨1, _⟩ => exact (mm1_l1 _ _).trans hk)
  have er : (dot_S4000x640_S640x256_S4000x256_1_0_0_1_n_n).rhsIdx (ix2 r j) ((contrEquiv1 dot_S4000x640_S640x256_S4000x256_1_0_0_1_n_n 640 rfl rfl).symm k) = ix2 k j := funext fun a => Fin.ext (by
    match a with
    | ⟨0, _⟩ => exact (mm1_r0 _ _).trans hk
    | ⟨1, _⟩ => exact mm1_r1 _ _)
  rw [el, er]

theorem mm2_l0 (i : S4000x256.Idx) (q : (dot_S4000x256_S256x256_S4000x256_1_0_0_1_n_n).contr.Idx) : ((dot_S4000x256_S256x256_S4000x256_1_0_0_1_n_n).lhsIdx i q 0).val = (i 0).val := by
  unfold DotDims.lhsIdx
  rw [dif_neg (show ¬(0 : Fin S4000x256.rank) ∈ (dot_S4000x256_S256x256_S4000x256_1_0_0_1_n_n).lhsBatch by decide), dif_pos (show (0 : Fin S4000x256.rank) ∈ (dot_S4000x256_S256x256_S4000x256_1_0_0_1_n_n).lhsNonContracting by decide)]
  rfl
theorem mm2_l1 (i : S4000x256.Idx) (q : (dot_S4000x256_S256x256_S4000x256_1_0_0_1_n_n).contr.Idx) : ((dot_S4000x256_S256x256_S4000x256_1_0_0_1_n_n).lhsIdx i q 1).val = (q ⟨0, by decide⟩).val :=
  (dot_S4000x256_S256x256_S4000x256_1_0_0_1_n_n).lhsIdx_val_of_single rfl i q
theorem mm2_r0 (i : S4000x256.Idx) (q : (dot_S4000x256_S256x256_S4000x256_1_0_0_1_n_n).contr.Idx) : ((dot_S4000x256_S256x256_S4000x256_1_0_0_1_n_n).rhsIdx i q 0).val = (q ⟨0, by decide⟩).val :=
  (dot_S4000x256_S256x256_S4000x256_1_0_0_1_n_n).rhsIdx_val_of_single rfl i q
theorem mm2_r1 (i : S4000x256.Idx) (q : (dot_S4000x256_S256x256_S4000x256_1_0_0_1_n_n).contr.Idx) : ((dot_S4000x256_S256x256_S4000x256_1_0_0_1_n_n).rhsIdx i q 1).val = (i 1).val := by
  unfold DotDims.rhsIdx
  rw [dif_neg (show ¬(1 : Fin S256x256.rank) ∈ (dot_S4000x256_S256x256_S4000x256_1_0_0_1_n_n).rhsBatch by decide), dif_pos (show (1 : Fin S256x256.rank) ∈ (dot_S4000x256_S256x256_S4000x256_1_0_0_1_n_n).rhsNonContracting by decide)]
  rfl

/-- The second product, into a zero accumulator. -/
theorem mm2_apply (lhs : FVec Ideal S4000x256 .bf16) (rhs : FVec Ideal S256x256 .bf16) (r : Fin 4000) (j : Fin 256) :
    matmul dot_S4000x256_S256x256_S4000x256_1_0_0_1_n_n none lhs rhs (constant S4000x256 .f32 0x00000000#32) (ix2 r j)
      = ∑ k : Fin 256, lhs (ix2 r k) * rhs (ix2 k j) := by
  show FloatOps.matmul dot_S4000x256_S256x256_S4000x256_1_0_0_1_n_n none lhs rhs (constant S4000x256 .f32 0x00000000#32) (ix2 r j) = _
  rw [Ideal.matmul_constant_zero_apply, ← Equiv.sum_comp (contrEquiv1 dot_S4000x256_S256x256_S4000x256_1_0_0_1_n_n 256 rfl rfl).symm]
  refine Finset.sum_congr rfl fun k _ => ?_
  have hk := contrEquiv1_symm_val dot_S4000x256_S256x256_S4000x256_1_0_0_1_n_n 256 rfl rfl k
  have el : (dot_S4000x256_S256x256_S4000x256_1_0_0_1_n_n).lhsIdx (ix2 r j) ((contrEquiv1 dot_S4000x256_S256x256_S4000x256_1_0_0_1_n_n 256 rfl rfl).symm k) = ix2 r k := funext fun a => Fin.ext (by
    match a with
    | ⟨0, _⟩ => exact mm2_l0 _ _
    | ⟨1, _⟩ => exact (mm2_l1 _ _).trans hk)
  have er : (dot_S4000x256_S256x256_S4000x256_1_0_0_1_n_n).rhsIdx (ix2 r j) ((contrEquiv1 dot_S4000x256_S256x256_S4000x256_1_0_0_1_n_n 256 rfl rfl).symm k) = ix2 k j := funext fun a => Fin.ext (by
    match a with
    | ⟨0, _⟩ => exact (mm2_r0 _ _).trans hk
    | ⟨1, _⟩ => exact mm2_r1 _ _)
  rw [el, er]

/-! ## The body's stored value, one entry at a time -/

/-- Entry (r, d) of the block the body stores is the message row map of row `r` of the three input blocks and the
    layer's weights. Changes of float format are the identity on the extended reals, and a product into a zero
    accumulator is the plain sum. -/
theorem pay_apply (x0 x1 : Vec Ideal S4000x256 .f32) (x2 : Vec Ideal S4000x128 .f32) (x3 : Vec Ideal S256x640 .f32)
    (x4 : Vec Ideal S1x256 .f32) (x5 : Vec Ideal S256x256 .f32) (x6 : Vec Ideal S1x256 .f32) (r : Fin 4000) (d : Fin 256) :
    (k0_pay1 x0 x1 x2 x3 x4 x5 x6 : S4000x256.Idx → EReal) (ix2 r d)
      = msgRow (catRow (fun k => x0 (ix2 r k)) (fun k => x1 (ix2 r k)) (fun k => x2 (ix2 r k)))
          (fun j k => x3 (ix2 j k)) (fun j => x4 (ix2 0 j)) (fun d' j => x5 (ix2 d' j)) (fun d' => x6 (ix2 0 d')) d := by
  unfold k0_pay1
  dsimp only
  simp only [shapeCast_self]
  rw [addf_apply, mm2_apply, bias_apply]
  unfold msgRow
  refine congrArg (· + x6 (ix2 0 d)) (Finset.sum_congr rfl fun j _ => ?_)
  rw [tr2_apply, truncf_apply, truncf_apply, maximumf_apply, addf_apply, mm1_apply, bias_apply, broadcast_apply,
    Ideal.ofBits_def, Ideal.ofBits_zero_f32]
  unfold hiddenRow
  refine congrArg (· * x5 (ix2 d j)) (congrArg (max · 0) (congrArg (· + x4 (ix2 0 j)) (Finset.sum_congr rfl fun k _ => ?_)))
  rw [cat_apply, tr1_apply, truncf_apply]
  simp only [truncf_apply, shapeCast_self]

/-! ## The whole array the launch leaves

The grid has 80 points; point `t` works on edge rows `4000 t … 4000 t + 3999`: it reads those rows of the two gathered
node arrays and of the edge attributes, reads the four weight arrays whole, and writes those rows of the message array. -/

variable (V : (c : Dev nD) → (b : Ref sig .tc) → Buf (Elt Ideal) ((c : Thread nD τ).loc b))

/-- The message array as one function of the seven arrays: row by row, the message row map. -/
def msgArr (A0 A1 : S320000x256.Idx → EReal) (A2 : S320000x128.Idx → EReal) (W1 : S256x640.Idx → EReal)
    (B1 : S1x256.Idx → EReal) (W2 : S256x256.Idx → EReal) (B2 : S1x256.Idx → EReal) : S320000x256.Idx → EReal := fun i =>
  msgRow (catRow (fun k => A0 (ix2 (⟨(i 0).val, idx2_lt0 i⟩ : Fin 320000) k))
                 (fun k => A1 (ix2 (⟨(i 0).val, idx2_lt0 i⟩ : Fin 320000) k))
                 (fun k => A2 (ix2 (⟨(i 0).val, idx2_lt0 i⟩ : Fin 320000) k)))
    (fun j k => W1 (ix2 j k)) (fun j => B1 (ix2 0 j)) (fun d' j => W2 (ix2 d' j)) (fun d' => B2 (ix2 0 d'))
    (⟨(i 1).val, idx2_lt1 i⟩ : Fin 256)

theorem hz : (![0, 0] : Fin 2 → Nat) = fun _ => 0 := funext fun a => by fin_cases a <;> rfl

/-- The block indices of the three row-blocked inputs and of the output, decided over the grid: block `t` of the
    rows, the one block of the columns. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_7.index t (0 : Fin 2) = t.val ∧ win0_7.index t (1 : Fin 2) = 0 :=
  (by decide +kernel : ∀ t : Fin grid0.N, _)

/-- The weight windows hold their whole arrays at every point. -/
theorem idx_weights : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-! ### Each input block, read off its array -/

theorem blk0_apply (c : Dev nD) (t : Fin cfg0.N) (x : S4000x256.Idx) (k : S320000x256.Idx)
    (hk0 : (k 0).val = 4000 * t.val + (x 0).val) (hk1 : (k 1).val = (x 1).val) :
    (iblk0 V c 0 t : Vec Ideal S4000x256 .f32) x = (V c main_v5 : S320000x256.Idx → EReal) k := by
  obtain ⟨e0, e1, -⟩ := idx_rows t
  unfold iblk0
  rw [View.read_apply]
  show V c main_v5 _ = V c main_v5 _
  refine congrArg _ (funext fun a => Fin.ext ?_)
  match a with
  | ⟨0, _⟩ => show win0_0.index t 0 * 4000 + 1 * (x 0).val = (k 0).val; rw [e0, hk0]; omega
  | ⟨1, _⟩ => show win0_0.index t 1 * 256 + 1 * (x 1).val = (k 1).val; rw [e1, hk1]; omega

theorem blk1_apply (c : Dev nD) (t : Fin cfg0.N) (x : S4000x256.Idx) (k : S320000x256.Idx)
    (hk0 : (k 0).val = 4000 * t.val + (x 0).val) (hk1 : (k 1).val = (x 1).val) :
    (iblk0 V c 1 t : Vec Ideal S4000x256 .f32) x = (V c main_v6 : S320000x256.Idx → EReal) k := by
  obtain ⟨-, -, e0, e1, -⟩ := idx_rows t
  unfold iblk0
  rw [View.read_apply]
  show V c main_v6 _ = V c main_v6 _
  refine congrArg _ (funext fun a => Fin.ext ?_)
  match a with
  | ⟨0, _⟩ => show win0_1.index t 0 * 4000 + 1 * (x 0).val = (k 0).val; rw [e0, hk0]; omega
  | ⟨1, _⟩ => show win0_1.index t 1 * 256 + 1 * (x 1).val = (k 1).val; rw [e1, hk1]; omega

theorem blk2_apply (c : Dev nD) (t : Fin cfg0.N) (x : S4000x128.Idx) (k : S320000x128.Idx)
    (hk0 : (k 0).val = 4000 * t.val + (x 0).val) (hk1 : (k 1).val = (x 1).val) :
    (iblk0 V c 2 t : Vec Ideal S4000x128 .f32) x = (V c main_arg1 : S320000x128.Idx → EReal) k := by
  obtain ⟨-, -, -, -, e0, e1, -⟩ := idx_rows t
  unfold iblk0
  rw [View.read_apply]
  show V c main_arg1 _ = V c main_arg1 _
  refine congrArg _ (funext fun a => Fin.ext ?_)
  match a with
  | ⟨0, _⟩ => show win0_2.index t 0 * 4000 + 1 * (x 0).val = (k 0).val; rw [e0, hk0]; omega
  | ⟨1, _⟩ => show win0_2.index t 1 * 128 + 1 * (x 1).val = (k 1).val; rw [e1, hk1]; omega

theorem blk3_eq (c : Dev nD) (t : Fin cfg0.N) :
    (iblk0 V c 3 t : Vec Ideal S256x640 .f32) = (V c main_v8 : S256x640.Idx → EReal) := by
  obtain ⟨e0, e1, -⟩ := idx_weights t
  funext x
  unfold iblk0
  rw [View.read_apply]
  show V c main_v8 _ = V c main_v8 _
  refine congrArg _ (funext fun a => Fin.ext ?_)
  match a with
  | ⟨0, _⟩ => show win0_3.index t 0 * 256 + 1 * (x 0).val = (x 0).val; rw [e0]; omega
  | ⟨1, _⟩ => show win0_3.index t 1 * 640 + 1 * (x 1).val = (x 1).val; rw [e1]; omega

theorem blk4_eq (c : Dev nD) (t : Fin cfg0.N) :
    (iblk0 V c 4 t : Vec Ideal S1x256 .f32) = (V c main_v15 : S1x256.Idx → EReal) := by
  obtain ⟨-, -, e0, e1, -⟩ := idx_weights t
  funext x
  unfold iblk0
  rw [View.read_apply]
  show V c main_v15 _ = V c main_v15 _
  refine congrArg _ (funext fun a => Fin.ext ?_)
  match a with
  | ⟨0, _⟩ => show win0_4.index t 0 * 1 + 1 * (x 0).val = (x 0).val; rw [e0]; omega
  | ⟨1, _⟩ => show win0_4.index t 1 * 256 + 1 * (x 1).val = (x 1).val; rw [e1]; omega

theorem blk5_eq (c : Dev nD) (t : Fin cfg0.N) :
    (iblk0 V c 5 t : Vec Ideal S256x256 .f32) = (V c main_v12 : S256x256.Idx → EReal) := by
  obtain ⟨-, -, -, -, e0, e1, -⟩ := idx_weights t
  funext x
  unfold iblk0
  rw [View.read_apply]
  show V c main_v12 _ = V c main_v12 _
  refine congrArg _ (funext fun a => Fin.ext ?_)
  match a with
  | ⟨0, _⟩ => show win0_5.index t 0 * 256 + 1 * (x 0).val = (x 0).val; rw [e0]; omega
  | ⟨1, _⟩ => show win0_5.index t 1 * 256 + 1 * (x 1).val = (x 1).val; rw [e1]; omega

theorem blk6_eq (c : Dev nD) (t : Fin cfg0.N) :
    (iblk0 V c 6 t : Vec Ideal S1x256 .f32) = (V c main_v16 : S1x256.Idx → EReal) := by
  obtain ⟨-, -, -, -, -, -, e0, e1⟩ := idx_weights t
  funext x
  unfold iblk0
  rw [View.read_apply]
  show V c main_v16 _ = V c main_v16 _
  refine congrArg _ (funext fun a => Fin.ext ?_)
  match a with
  | ⟨0, _⟩ => show win0_6.index t 0 * 1 + 1 * (x 0).val = (x 0).val; rw [e0]; omega
  | ⟨1, _⟩ => show win0_6.index t 1 * 256 + 1 * (x 1).val = (x 1).val; rw [e1]; omega

/-! ### What one point writes back -/

/-- One entry of the stored block, when the three row blocks hold rows `4000 t …` of their arrays and the weight
    blocks are the weight arrays: the message array's entry in row `4000 t + (row in the block)`. -/
theorem point (A0 A1 : S320000x256.Idx → EReal) (A2 : S320000x128.Idx → EReal) (W1 : S256x640.Idx → EReal)
    (B1 : S1x256.Idx → EReal) (W2 : S256x256.Idx → EReal) (B2 : S1x256.Idx → EReal)
    (x0 x1 : Vec Ideal S4000x256 .f32) (x2 : Vec Ideal S4000x128 .f32) (x3 : Vec Ideal S256x640 .f32)
    (x4 : Vec Ideal S1x256 .f32) (x5 : Vec Ideal S256x256 .f32) (x6 : Vec Ideal S1x256 .f32) (t : ℕ)
    (h0 : ∀ (x : S4000x256.Idx) (k : S320000x256.Idx), (k 0).val = 4000 * t + (x 0).val → (k 1).val = (x 1).val → x0 x = A0 k)
    (h1 : ∀ (x : S4000x256.Idx) (k : S320000x256.Idx), (k 0).val = 4000 * t + (x 0).val → (k 1).val = (x 1).val → x1 x = A1 k)
    (h2 : ∀ (x : S4000x128.Idx) (k : S320000x128.Idx), (k 0).val = 4000 * t + (x 0).val → (k 1).val = (x 1).val → x2 x = A2 k)
    (h3 : x3 = W1) (h4 : x4 = B1) (h5 : x5 = W2) (h6 : x6 = B2)
    (y : S4000x256.Idx) (i : S320000x256.Idx) (hi0 : (i 0).val = 4000 * t + (y 0).val) (hi1 : (i 1).val = (y 1).val) :
    (k0_pay1 x0 x1 x2 x3 x4 x5 x6 : S4000x256.Idx → EReal) y = msgArr A0 A1 A2 W1 B1 W2 B2 i := by
  subst h3 h4 h5 h6
  obtain ⟨r, d, rfl⟩ : ∃ (r : Fin 4000) (d : Fin 256), y = ix2 r d := ⟨y 0, y 1, eq_ix2 y⟩
  rw [pay_apply]
  unfold msgArr
  have hd : (⟨(i 1).val, idx2_lt1 i⟩ : Fin 256) = d := Fin.ext hi1
  have e0 : (fun k : Fin 256 => x0 (ix2 r k)) = fun k => A0 (ix2 (⟨(i 0).val, idx2_lt0 i⟩ : Fin 320000) k) :=
    funext fun k => h0 _ _ hi0 rfl
  have e1 : (fun k : Fin 256 => x1 (ix2 r k)) = fun k => A1 (ix2 (⟨(i 0).val, idx2_lt0 i⟩ : Fin 320000) k) :=
    funext fun k => h1 _ _ hi0 rfl
  have e2 : (fun k : Fin 128 => x2 (ix2 r k)) = fun k => A2 (ix2 (⟨(i 0).val, idx2_lt0 i⟩ : Fin 320000) k) :=
    funext fun k => h2 _ _ hi0 rfl
  rw [hd, e0, e1, e2]

/-- What point `t` writes back is block `t` of the message array as a function of the arrays the launch found. -/
theorem flushed_eq (c : Dev nD) (t : Fin cfg0.N) :
    (dat0 V c).flushed 7 t = ((cfg0.win 7).blk t).view.read (Elt Ideal) (msgArr (V c main_v5) (V c main_v6) (V c main_arg1) (V c main_v8) (V c main_v15) (V c main_v12) (V c main_v16)) := by
  show (cfg0.win 7).cut (grid0.coords t) ((dat0 V c).after 7 t) = _
  rw [after0_7]
  unfold out0_7
  rw [View.canon_unit_zero hz]
  simp only [View.ld_unit_zero (S := S4000x256) hz, View.ld_unit_zero (S := S4000x128) hz,
    View.ld_unit_zero (S := S256x640) hz, View.ld_unit_zero (S := S1x256) hz, View.ld_unit_zero (S := S256x256) hz]
  obtain ⟨-, -, -, -, -, -, e0, e1⟩ := idx_rows t
  funext y
  show (k0_pay1 (iblk0 V c 0 t) (iblk0 V c 1 t) (iblk0 V c 2 t) (iblk0 V c 3 t) (iblk0 V c 4 t) (iblk0 V c 5 t) (iblk0 V c 6 t) : S4000x256.Idx → EReal) y
    = msgArr (V c main_v5) (V c main_v6) (V c main_arg1) (V c main_v8) (V c main_v15) (V c main_v12) (V c main_v16) (((cfg0.win 7).blk t).view.emb y)
  refine point (V c main_v5) (V c main_v6) (V c main_arg1) (V c main_v8) (V c main_v15) (V c main_v12) (V c main_v16)
    (iblk0 V c 0 t) (iblk0 V c 1 t) (iblk0 V c 2 t) (iblk0 V c 3 t) (iblk0 V c 4 t) (iblk0 V c 5 t) (iblk0 V c 6 t) t.val
    (blk0_apply V c t) (blk1_apply V c t) (blk2_apply V c t) (blk3_eq V c t) (blk4_eq V c t) (blk5_eq V c t) (blk6_eq V c t)
    y (((cfg0.win 7).blk t).view.emb y) ?_ ?_
  · show win0_7.index t 0 * 4000 + 1 * (y 0).val = 4000 * t.val + (y 0).val; rw [e0]; omega
  · show win0_7.index t 1 * 256 + 1 * (y 1).val = (y 1).val; rw [e1]; omega

/-! ### The blocks tile the array -/

/-- An index of the array is in point `t`'s block iff each coordinate is in the block's range on its axis. -/
theorem mem_blk (t : Fin cfg0.N) (i : S320000x256.Idx) :
    i ∈ ((cfg0.win 7).blk t).view.set ↔ ∀ a : Fin 2, win0_7.index t a * S4000x256.size a ≤ (i a).val ∧ (i a).val < win0_7.index t a * S4000x256.size a + S4000x256.size a := by
  show i ∈ ((View.whole main_v17).slice (win0_7.rect t)).set ↔ _
  rw [View.set_slice_whole, Rect.mem_set_unit]
  exact Iff.rfl

/-- Row `e` of the array is written by point `e / 4000`. -/
theorem cover (i : S320000x256.Idx) :
    ∃ t : Fin cfg0.N, (cfg0.win 7).flush t = true ∧ i ∈ ((cfg0.win 7).blk t).view.set := by
  have hi0 : (i 0).val < 320000 := idx2_lt0 i
  have hi1 : (i 1).val < 256 := idx2_lt1 i
  have hN : cfg0.N = 80 := N_0
  refine ⟨⟨(i 0).val / 4000, by rw [hN]; omega⟩, flush0_7 _, ?_⟩
  rw [mem_blk]
  obtain ⟨-, -, -, -, -, -, e0, e1⟩ := idx_rows ⟨(i 0).val / 4000, by rw [hN]; omega⟩
  intro a
  match a with
  | ⟨0, _⟩ =>
    show win0_7.index _ 0 * 4000 ≤ (i 0).val ∧ (i 0).val < win0_7.index _ 0 * 4000 + 4000
    rw [e0]; show (i 0).val / 4000 * 4000 ≤ (i 0).val ∧ (i 0).val < (i 0).val / 4000 * 4000 + 4000; omega
  | ⟨1, _⟩ =>
    show win0_7.index _ 1 * 256 ≤ (i 1).val ∧ (i 1).val < win0_7.index _ 1 * 256 + 256
    rw [e1]; omega

/-- After the launch the message array is the message row map of the arrays the launch found, row by row. -/
theorem final (c : Dev nD) : (dat0 V c).arrAt 7 cfg0.N = msgArr (V c main_v5) (V c main_v6) (V c main_arg1) (V c main_v8) (V c main_v15) (V c main_v12) (V c main_v16) :=
  (dat0 V c).arrAt_eq_of_cover 7 (msgArr (V c main_v5) (V c main_v6) (V c main_arg1) (V c main_v8) (V c main_v15) (V c main_v12) (V c main_v16)) (fun t _ => flushed_eq V c t) cover

/-- After the launch, entry (e, d) of the message array is the message row map of edge e's three input rows and the
    layer's weights, all read off the buffers as the launch found them. -/
theorem messages (c : Dev nD) (e : Fin 320000) (d : Fin 256) :
    ((dat0 (F := Ideal) V c).arrAt 7 cfg0.N : S320000x256.Idx → EReal) (ix2 e d) =
      msgRow (catRow (fun k => (V c main_v5 : S320000x256.Idx → EReal) (ix2 e k))
                     (fun k => (V c main_v6 : S320000x256.Idx → EReal) (ix2 e k))
                     (fun k => (V c main_arg1 : S320000x128.Idx → EReal) (ix2 e k)))
        (fun j k => (V c main_v8 : S256x640.Idx → EReal) (ix2 j k))
        (fun j => (V c main_v15 : S1x256.Idx → EReal) (ix2 0 j))
        (fun d' j => (V c main_v12 : S256x256.Idx → EReal) (ix2 d' j))
        (fun d' => (V c main_v16 : S1x256.Idx → EReal) (ix2 0 d')) d := by
  rw [final V c]
  rfl

end Cert.KernelIdeal.Messages0
end
-- ==== Proof.KMessages2.lean ====
/-
  The edge-message launch, read as one function of the arrays it finds.

  The launch runs the two-layer message network on 80 blocks of 4000 edge rows.  Each block's stored value is read one
  entry at a time against the row maps (a change of float format is the identity on the extended reals; a product into
  a zero accumulator is the plain finite sum; the joined input row is the three-way case split of the row map), each
  input block is read off its array at "block index × block size + coordinate inside the block", and since the 80
  row blocks tile the array, the array the launch leaves is the message row map of the arrays it found, row by row.
-/
import proofs.«114160_j24077586661654_1_alg».proof.Proof.Gen.KernelIdeal.Frame
import proofs.«114160_j24077586661654_1_alg».proof.Proof.RowMaps
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
noncomputable section
open Idealize.ShloMosaic Idealize.ShloMosaic.TcCoe Idealize.SL.Sem
open Idealize.ShloMosaic.Pipeline (Dat)
open Idealize.ShloMosaic.ValueIdx
namespace Cert.KernelIdeal.Messages2
open Cert.KernelIdeal Cert.KernelIdeal.Gen Cert.RowMaps

/-! ## The layer's layout operations and contractions, one entry at a time -/

/-- Three row blocks joined along the columns: an entry of row `r` comes from the piece its column falls in. -/
theorem cat_apply (a b : S4000x256.Idx → EReal) (e : S4000x128.Idx → EReal)
    (h : Shape.Concatenates [S4000x256, S4000x256, S4000x128] S4000x640 1) (r : Fin 4000) (k : Fin 640) :
    concatenate S4000x640 1 [⟨S4000x256, a⟩, ⟨S4000x256, b⟩, ⟨S4000x128, e⟩] h (ix2 r k)
      = catRow (fun k => a (ix2 r k)) (fun k => b (ix2 r k)) (fun k => e (ix2 r k)) k := by
  unfold catRow
  split_ifs with h1 h2
  · refine concatenate_apply_piece (t := S4000x640) (1 : Fin 2) [⟨S4000x256, a⟩, ⟨S4000x256, b⟩, ⟨S4000x128, e⟩] h (ix2 r k) 0 (by show (0 : Nat) < 3; omega) S4000x256 a rfl rfl 0 rfl
      (ix2 r ⟨k.val, h1⟩) (fun b hb => ?_) ?_
    · match b with
      | ⟨0, _⟩ => rfl
      | ⟨1, _⟩ => exact absurd rfl hb
    · show 0 + k.val = k.val; omega
  · refine concatenate_apply_piece (t := S4000x640) (1 : Fin 2) [⟨S4000x256, a⟩, ⟨S4000x256, b⟩, ⟨S4000x128, e⟩] h (ix2 r k) 1 (by show (1 : Nat) < 3; omega) S4000x256 b rfl rfl 256 rfl
      (ix2 r ⟨k.val - 256, by omega⟩) (fun b hb => ?_) ?_
    · match b with
      | ⟨0, _⟩ => rfl
      | ⟨1, _⟩ => exact absurd rfl hb
    · show 256 + (k.val - 256) = k.val; omega
  · refine concatenate_apply_piece (t := S4000x640) (1 : Fin 2) [⟨S4000x256, a⟩, ⟨S4000x256, b⟩, ⟨S4000x128, e⟩] h (ix2 r k) 2 (by show (2 : Nat) < 3; omega) S4000x128 e rfl rfl 512 rfl
      (ix2 r ⟨k.val - 512, by have := k.isLt; omega⟩) (fun b hb => ?_) ?_
    · match b with
      | ⟨0, _⟩ => rfl
      | ⟨1, _⟩ => exact absurd rfl hb
    · show 512 + (k.val - 512) = k.val; omega

/-- The first weight matrix transposed: entry (k, j) is the matrix's entry (j, k). -/
theorem tr1_apply (w : S256x640.Idx → EReal) (h : S256x640.Transposes [1, 0] S640x256) (k : Fin 640) (j : Fin 256) :
    transpose S640x256 [1, 0] w h (ix2 k j) = w (ix2 j k) :=
  transpose_apply [1, 0] w h (ix2 k j) (ix2 j k) fun b => by
    match b with
    | ⟨0, _⟩ => rfl
    | ⟨1, _⟩ => rfl

/-- The second weight matrix transposed. -/
theorem tr2_apply (w : S256x256.Idx → EReal) (h : S256x256.Transposes [1, 0] S256x256) (j d : Fin 256) :
    transpose S256x256 [1, 0] w h (ix2 j d) = w (ix2 d j) :=
  transpose_apply [1, 0] w h (ix2 j d) (ix2 d j) fun b => by
    match b with
    | ⟨0, _⟩ => rfl
    | ⟨1, _⟩ => rfl

/-- A bias row repeated down the rows. -/
theorem bias_apply (b : S1x256.Idx → EReal) (h : S1x256.Broadcasts S4000x256) (r : Fin 4000) (j : Fin 256) :
    broadcastTo S4000x256 b h (ix2 r j) = b (ix2 0 j) :=
  broadcastTo_apply b h (ix2 r j) (ix2 0 j) fun a => by
    match a with
    | ⟨0, _⟩ => rfl
    | ⟨1, _⟩ => rfl

theorem mm1_l0 (i : S4000x256.Idx) (q : (dot_S4000x640_S640x256_S4000x256_1_0_0_1_n_n).contr.Idx) : ((dot_S4000x640_S640x256_S4000x256_1_0_0_1_n_n).lhsIdx i q 0).val = (i 0).val := by
  unfold DotDims.lhsIdx
  rw [dif_neg (show ¬(0 : Fin S4000x640.rank) ∈ (dot_S4000x640_S640x256_S4000x256_1_0_0_1_n_n).lhsBatch by decide), dif_pos (show (0 : Fin S4000x640.rank) ∈ (dot_S4000x640_S640x256_S4000x256_1_0_0_1_n_n).lhsNonContracting by decide)]
  rfl
theorem mm1_l1 (i : S4000x256.Idx) (q : (dot_S4000x640_S640x256_S4000x256_1_0_0_1_n_n).contr.Idx) : ((dot_S4000x640_S640x256_S4000x256_1_0_0_1_n_n).lhsIdx i q 1).val = (q ⟨0, by decide⟩).val :=
  (dot_S4000x640_S640x256_S4000x256_1_0_0_1_n_n).lhsIdx_val_of_single rfl i q
theorem mm1_r0 (i : S4000x256.Idx) (q : (dot_S4000x640_S640x256_S4000x256_1_0_0_1_n_n).contr.Idx) : ((dot_S4000x640_S640x256_S4000x256_1_0_0_1_n_n).rhsIdx i q 0).val = (q ⟨0, by decide⟩).val :=
  (dot_S4000x640_S640x256_S4000x256_1_0_0_1_n_n).rhsIdx_val_of_single rfl i q
theorem mm1_r1 (i : S4000x256.Idx) (q : (dot_S4000x640_S640x256_S4000x256_1_0_0_1_n_n).contr.Idx) : ((dot_S4000x640_S640x256_S4000x256_1_0_0_1_n_n).rhsIdx i q 1).val = (i 1).val := by
  unfold DotDims.rhsIdx
  rw [dif_neg (show ¬(1 : Fin S640x256.rank) ∈ (dot_S4000x640_S640x256_S4000x256_1_0_0_1_n_n).rhsBatch by decide), dif_pos (show (1 : Fin S640x256.rank) ∈ (dot_S4000x640_S640x256_S4000x256_1_0_0_1_n_n).rhsNonContracting by decide)]
  rfl

/-- The first product, into a zero accumulator: row `r` of the left factor against column `j` of the right. -/
theorem mm1_apply (lhs : FVec Ideal S4000x640 .bf16) (rhs : FVec Ideal S640x256 .bf16) (r : Fin 4000) (j : Fin 256) :
    matmul dot_S4000x640_S640x256_S4000x256_1_0_0_1_n_n none lhs rhs (constant S4000x256 .f32 0x00000000#32) (ix2 r j)
      = ∑ k : Fin 640, lhs (ix2 r k) * rhs (ix2 k j) := by
  show FloatOps.matmul dot_S4000x640_S640x256_S4000x256_1_0_0_1_n_n none lhs rhs (constant S4000x256 .f32 0x00000000#32) (ix2 r j) = _
  rw [Ideal.matmul_constant_zero_apply, ← Equiv.sum_comp (contrEquiv1 dot_S4000x640_S640x256_S4000x256_1_0_0_1_n_n 640 rfl rfl).symm]
  refine Finset.sum_congr rfl fun k _ => ?_
  have hk := contrEquiv1_symm_val dot_S4000x640_S640x256_S4000x256_1_0_0_1_n_n 640 rfl rfl k
  have el : (dot_S4000x640_S640x256_S4000x256_1_0_0_1_n_n).lhsIdx (ix2 r j) ((contrEquiv1 dot_S4000x640_S640x256_S4000x256_1_0_0_1_n_n 640 rfl rfl).symm k) = ix2 r k := funext fun a => Fin.ext (by
    match a with
    | ⟨0, _⟩ => exact mm1_l0 _ _
    | ⟨1, _⟩ => exact (mm1_l1 _ _).trans hk)
  have er : (dot_S4000x640_S640x256_S4000x256_1_0_0_1_n_n).rhsIdx (ix2 r j) ((contrEquiv1 dot_S4000x640_S640x256_S4000x256_1_0_0_1_n_n 640 rfl rfl).symm k) = ix2 k j := funext fun a => Fin.ext (by
    match a with
    | ⟨0, _⟩ => exact (mm1_r0 _ _).trans hk
    | ⟨1, _⟩ => exact mm1_r1 _ _)
  rw [el, er]

theorem mm2_l0 (i : S4000x256.Idx) (q : (dot_S4000x256_S256x256_S4000x256_1_0_0_1_n_n).contr.Idx) : ((dot_S4000x256_S256x256_S4000x256_1_0_0_1_n_n).lhsIdx i q 0).val = (i 0).val := by
  unfold DotDims.lhsIdx
  rw [dif_neg (show ¬(0 : Fin S4000x256.rank) ∈ (dot_S4000x256_S256x256_S4000x256_1_0_0_1_n_n).lhsBatch by decide), dif_pos (show (0 : Fin S4000x256.rank) ∈ (dot_S4000x256_S256x256_S4000x256_1_0_0_1_n_n).lhsNonContracting by decide)]
  rfl
theorem mm2_l1 (i : S4000x256.Idx) (q : (dot_S4000x256_S256x256_S4000x256_1_0_0_1_n_n).contr.Idx) : ((dot_S4000x256_S256x256_S4000x256_1_0_0_1_n_n).lhsIdx i q 1).val = (q ⟨0, by decide⟩).val :=
  (dot_S4000x256_S256x256_S4000x256_1_0_0_1_n_n).lhsIdx_val_of_single rfl i q
theorem mm2_r0 (i : S4000x256.Idx) (q : (dot_S4000x256_S256x256_S4000x256_1_0_0_1_n_n).contr.Idx) : ((dot_S4000x256_S256x256_S4000x256_1_0_0_1_n_n).rhsIdx i q 0).val = (q ⟨0, by decide⟩).val :=
  (dot_S4000x256_S256x256_S4000x256_1_0_0_1_n_n).rhsIdx_val_of_single rfl i q
theorem mm2_r1 (i : S4000x256.Idx) (q : (dot_S4000x256_S256x256_S4000x256_1_0_0_1_n_n).contr.Idx) : ((dot_S4000x256_S256x256_S4000x256_1_0_0_1_n_n).rhsIdx i q 1).val = (i 1).val := by
  unfold DotDims.rhsIdx
  rw [dif_neg (show ¬(1 : Fin S256x256.rank) ∈ (dot_S4000x256_S256x256_S4000x256_1_0_0_1_n_n).rhsBatch by decide), dif_pos (show (1 : Fin S256x256.rank) ∈ (dot_S4000x256_S256x256_S4000x256_1_0_0_1_n_n).rhsNonContracting by decide)]
  rfl

/-- The second product, into a zero accumulator. -/
theorem mm2_apply (lhs : FVec Ideal S4000x256 .bf16) (rhs : FVec Ideal S256x256 .bf16) (r : Fin 4000) (j : Fin 256) :
    matmul dot_S4000x256_S256x256_S4000x256_1_0_0_1_n_n none lhs rhs (constant S4000x256 .f32 0x00000000#32) (ix2 r j)
      = ∑ k : Fin 256, lhs (ix2 r k) * rhs (ix2 k j) := by
  show FloatOps.matmul dot_S4000x256_S256x256_S4000x256_1_0_0_1_n_n none lhs rhs (constant S4000x256 .f32 0x00000000#32) (ix2 r j) = _
  rw [Ideal.matmul_constant_zero_apply, ← Equiv.sum_comp (contrEquiv1 dot_S4000x256_S256x256_S4000x256_1_0_0_1_n_n 256 rfl rfl).symm]
  refine Finset.sum_congr rfl fun k _ => ?_
  have hk := contrEquiv1_symm_val dot_S4000x256_S256x256_S4000x256_1_0_0_1_n_n 256 rfl rfl k
  have el : (dot_S4000x256_S256x256_S4000x256_1_0_0_1_n_n).lhsIdx (ix2 r j) ((contrEquiv1 dot_S4000x256_S256x256_S4000x256_1_0_0_1_n_n 256 rfl rfl).symm k) = ix2 r k := funext fun a => Fin.ext (by
    match a with
    | ⟨0, _⟩ => exact mm2_l0 _ _
    | ⟨1, _⟩ => exact (mm2_l1 _ _).trans hk)
  have er : (dot_S4000x256_S256x256_S4000x256_1_0_0_1_n_n).rhsIdx (ix2 r j) ((contrEquiv1 dot_S4000x256_S256x256_S4000x256_1_0_0_1_n_n 256 rfl rfl).symm k) = ix2 k j := funext fun a => Fin.ext (by
    match a with
    | ⟨0, _⟩ => exact (mm2_r0 _ _).trans hk
    | ⟨1, _⟩ => exact mm2_r1 _ _)
  rw [el, er]

/-! ## The body's stored value, one entry at a time -/

/-- Entry (r, d) of the block the body stores is the message row map of row `r` of the three input blocks and the
    layer's weights. Changes of float format are the identity on the extended reals, and a product into a zero
    accumulator is the plain sum. -/
theorem pay_apply (x0 x1 : Vec Ideal S4000x256 .f32) (x2 : Vec Ideal S4000x128 .f32) (x3 : Vec Ideal S256x640 .f32)
    (x4 : Vec Ideal S1x256 .f32) (x5 : Vec Ideal S256x256 .f32) (x6 : Vec Ideal S1x256 .f32) (r : Fin 4000) (d : Fin 256) :
    (k2_pay1 x0 x1 x2 x3 x4 x5 x6 : S4000x256.Idx → EReal) (ix2 r d)
      = msgRow (catRow (fun k => x0 (ix2 r k)) (fun k => x1 (ix2 r k)) (fun k => x2 (ix2 r k)))
          (fun j k => x3 (ix2 j k)) (fun j => x4 (ix2 0 j)) (fun d' j => x5 (ix2 d' j)) (fun d' => x6 (ix2 0 d')) d := by
  unfold k2_pay1
  dsimp only
  simp only [shapeCast_self]
  rw [addf_apply, mm2_apply, bias_apply]
  unfold msgRow
  refine congrArg (· + x6 (ix2 0 d)) (Finset.sum_congr rfl fun j _ => ?_)
  rw [tr2_apply, truncf_apply, truncf_apply, maximumf_apply, addf_apply, mm1_apply, bias_apply, broadcast_apply,
    Ideal.ofBits_def, Ideal.ofBits_zero_f32]
  unfold hiddenRow
  refine congrArg (· * x5 (ix2 d j)) (congrArg (max · 0) (congrArg (· + x4 (ix2 0 j)) (Finset.sum_congr rfl fun k _ => ?_)))
  rw [cat_apply, tr1_apply, truncf_apply]
  simp only [truncf_apply, shapeCast_self]

/-! ## The whole array the launch leaves

The grid has 80 points; point `t` works on edge rows `4000 t … 4000 t + 3999`: it reads those rows of the two gathered
node arrays and of the edge attributes, reads the four weight arrays whole, and writes those rows of the message array. -/

variable (V : (c : Dev nD) → (b : Ref sig .tc) → Buf (Elt Ideal) ((c : Thread nD τ).loc b))

/-- The message array as one function of the seven arrays: row by row, the message row map. -/
def msgArr (A0 A1 : S320000x256.Idx → EReal) (A2 : S320000x128.Idx → EReal) (W1 : S256x640.Idx → EReal)
    (B1 : S1x256.Idx → EReal) (W2 : S256x256.Idx → EReal) (B2 : S1x256.Idx → EReal) : S320000x256.Idx → EReal := fun i =>
  msgRow (catRow (fun k => A0 (ix2 (⟨(i 0).val, idx2_lt0 i⟩ : Fin 320000) k))
                 (fun k => A1 (ix2 (⟨(i 0).val, idx2_lt0 i⟩ : Fin 320000) k))
                 (fun k => A2 (ix2 (⟨(i 0).val, idx2_lt0 i⟩ : Fin 320000) k)))
    (fun j k => W1 (ix2 j k)) (fun j => B1 (ix2 0 j)) (fun d' j => W2 (ix2 d' j)) (fun d' => B2 (ix2 0 d'))
    (⟨(i 1).val, idx2_lt1 i⟩ : Fin 256)

theorem hz : (![0, 0] : Fin 2 → Nat) = fun _ => 0 := funext fun a => by fin_cases a <;> rfl

/-- The block indices of the three row-blocked inputs and of the output, decided over the grid: block `t` of the
    rows, the one block of the columns. -/
theorem idx_rows : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_7.index t (0 : Fin 2) = t.val ∧ win2_7.index t (1 : Fin 2) = 0 :=
  (by decide +kernel : ∀ t : Fin grid2.N, _)

/-- The weight windows hold their whole arrays at every point. -/
theorem idx_weights : ∀ t : Fin cfg2.N,
    win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0 :=
  (by decide +kernel : ∀ t : Fin grid2.N, _)

/-! ### Each input block, read off its array -/

theorem blk0_apply (c : Dev nD) (t : Fin cfg2.N) (x : S4000x256.Idx) (k : S320000x256.Idx)
    (hk0 : (k 0).val = 4000 * t.val + (x 0).val) (hk1 : (k 1).val = (x 1).val) :
    (iblk2 V c 0 t : Vec Ideal S4000x256 .f32) x = (V c main_v32 : S320000x256.Idx → EReal) k := by
  obtain ⟨e0, e1, -⟩ := idx_rows t
  unfold iblk2
  rw [View.read_apply]
  show V c main_v32 _ = V c main_v32 _
  refine congrArg _ (funext fun a => Fin.ext ?_)
  match a with
  | ⟨0, _⟩ => show win2_0.index t 0 * 4000 + 1 * (x 0).val = (k 0).val; rw [e0, hk0]; omega
  | ⟨1, _⟩ => show win2_0.index t 1 * 256 + 1 * (x 1).val = (k 1).val; rw [e1, hk1]; omega

theorem blk1_apply (c : Dev nD) (t : Fin cfg2.N) (x : S4000x256.Idx) (k : S320000x256.Idx)
    (hk0 : (k 0).val = 4000 * t.val + (x 0).val) (hk1 : (k 1).val = (x 1).val) :
    (iblk2 V c 1 t : Vec Ideal S4000x256 .f32) x = (V c main_v33 : S320000x256.Idx → EReal) k := by
  obtain ⟨-, -, e0, e1, -⟩ := idx_rows t
  unfold iblk2
  rw [View.read_apply]
  show V c main_v33 _ = V c main_v33 _
  refine congrArg _ (funext fun a => Fin.ext ?_)
  match a with
  | ⟨0, _⟩ => show win2_1.index t 0 * 4000 + 1 * (x 0).val = (k 0).val; rw [e0, hk0]; omega
  | ⟨1, _⟩ => show win2_1.index t 1 * 256 + 1 * (x 1).val = (k 1).val; rw [e1, hk1]; omega

theorem blk2_apply (c : Dev nD) (t : Fin cfg2.N) (x : S4000x128.Idx) (k : S320000x128.Idx)
    (hk0 : (k 0).val = 4000 * t.val + (x 0).val) (hk1 : (k 1).val = (x 1).val) :
    (iblk2 V c 2 t : Vec Ideal S4000x128 .f32) x = (V c main_arg1 : S320000x128.Idx → EReal) k := by
  obtain ⟨-, -, -, -, e0, e1, -⟩ := idx_rows t
  unfold iblk2
  rw [View.read_apply]
  show V c main_arg1 _ = V c main_arg1 _
  refine congrArg _ (funext fun a => Fin.ext ?_)
  match a with
  | ⟨0, _⟩ => show win2_2.index t 0 * 4000 + 1 * (x 0).val = (k 0).val; rw [e0, hk0]; omega
  | ⟨1, _⟩ => show win2_2.index t 1 * 128 + 1 * (x 1).val = (k 1).val; rw [e1, hk1]; omega

theorem blk3_eq (c : Dev nD) (t : Fin cfg2.N) :
    (iblk2 V c 3 t : Vec Ideal S256x640 .f32) = (V c main_v35 : S256x640.Idx → EReal) := by
  obtain ⟨e0, e1, -⟩ := idx_weights t
  funext x
  unfold iblk2
  rw [View.read_apply]
  show V c main_v35 _ = V c main_v35 _
  refine congrArg _ (funext fun a => Fin.ext ?_)
  match a with
  | ⟨0, _⟩ => show win2_3.index t 0 * 256 + 1 * (x 0).val = (x 0).val; rw [e0]; omega
  | ⟨1, _⟩ => show win2_3.index t 1 * 640 + 1 * (x 1).val = (x 1).val; rw [e1]; omega

theorem blk4_eq (c : Dev nD) (t : Fin cfg2.N) :
    (iblk2 V c 4 t : Vec Ideal S1x256 .f32) = (V c main_v42 : S1x256.Idx → EReal) := by
  obtain ⟨-, -, e0, e1, -⟩ := idx_weights t
  funext x
  unfold iblk2
  rw [View.read_apply]
  show V c main_v42 _ = V c main_v42 _
  refine congrArg _ (funext fun a => Fin.ext ?_)
  match a with
  | ⟨0, _⟩ => show win2_4.index t 0 * 1 + 1 * (x 0).val = (x 0).val; rw [e0]; omega
  | ⟨1, _⟩ => show win2_4.index t 1 * 256 + 1 * (x 1).val = (x 1).val; rw [e1]; omega

theorem blk5_eq (c : Dev nD) (t : Fin cfg2.N) :
    (iblk2 V c 5 t : Vec Ideal S256x256 .f32) = (V c main_v39 : S256x256.Idx → EReal) := by
  obtain ⟨-, -, -, -, e0, e1, -⟩ := idx_weights t
  funext x
  unfold iblk2
  rw [View.read_apply]
  show V c main_v39 _ = V c main_v39 _
  refine congrArg _ (funext fun a => Fin.ext ?_)
  match a with
  | ⟨0, _⟩ => show win2_5.index t 0 * 256 + 1 * (x 0).val = (x 0).val; rw [e0]; omega
  | ⟨1, _⟩ => show win2_5.index t 1 * 256 + 1 * (x 1).val = (x 1).val; rw [e1]; omega

theorem blk6_eq (c : Dev nD) (t : Fin cfg2.N) :
    (iblk2 V c 6 t : Vec Ideal S1x256 .f32) = (V c main_v43 : S1x256.Idx → EReal) := by
  obtain ⟨-, -, -, -, -, -, e0, e1⟩ := idx_weights t
  funext x
  unfold iblk2
  rw [View.read_apply]
  show V c main_v43 _ = V c main_v43 _
  refine congrArg _ (funext fun a => Fin.ext ?_)
  match a with
  | ⟨0, _⟩ => show win2_6.index t 0 * 1 + 1 * (x 0).val = (x 0).val; rw [e0]; omega
  | ⟨1, _⟩ => show win2_6.index t 1 * 256 + 1 * (x 1).val = (x 1).val; rw [e1]; omega

/-! ### What one point writes back -/

/-- One entry of the stored block, when the three row blocks hold rows `4000 t …` of their arrays and the weight
    blocks are the weight arrays: the message array's entry in row `4000 t + (row in the block)`. -/
theorem point (A0 A1 : S320000x256.Idx → EReal) (A2 : S320000x128.Idx → EReal) (W1 : S256x640.Idx → EReal)
    (B1 : S1x256.Idx → EReal) (W2 : S256x256.Idx → EReal) (B2 : S1x256.Idx → EReal)
    (x0 x1 : Vec Ideal S4000x256 .f32) (x2 : Vec Ideal S4000x128 .f32) (x3 : Vec Ideal S256x640 .f32)
    (x4 : Vec Ideal S1x256 .f32) (x5 : Vec Ideal S256x256 .f32) (x6 : Vec Ideal S1x256 .f32) (t : ℕ)
    (h0 : ∀ (x : S4000x256.Idx) (k : S320000x256.Idx), (k 0).val = 4000 * t + (x 0).val → (k 1).val = (x 1).val → x0 x = A0 k)
    (h1 : ∀ (x : S4000x256.Idx) (k : S320000x256.Idx), (k 0).val = 4000 * t + (x 0).val → (k 1).val = (x 1).val → x1 x = A1 k)
    (h2 : ∀ (x : S4000x128.Idx) (k : S320000x128.Idx), (k 0).val = 4000 * t + (x 0).val → (k 1).val = (x 1).val → x2 x = A2 k)
    (h3 : x3 = W1) (h4 : x4 = B1) (h5 : x5 = W2) (h6 : x6 = B2)
    (y : S4000x256.Idx) (i : S320000x256.Idx) (hi0 : (i 0).val = 4000 * t + (y 0).val) (hi1 : (i 1).val = (y 1).val) :
    (k2_pay1 x0 x1 x2 x3 x4 x5 x6 : S4000x256.Idx → EReal) y = msgArr A0 A1 A2 W1 B1 W2 B2 i := by
  subst h3 h4 h5 h6
  obtain ⟨r, d, rfl⟩ : ∃ (r : Fin 4000) (d : Fin 256), y = ix2 r d := ⟨y 0, y 1, eq_ix2 y⟩
  rw [pay_apply]
  unfold msgArr
  have hd : (⟨(i 1).val, idx2_lt1 i⟩ : Fin 256) = d := Fin.ext hi1
  have e0 : (fun k : Fin 256 => x0 (ix2 r k)) = fun k => A0 (ix2 (⟨(i 0).val, idx2_lt0 i⟩ : Fin 320000) k) :=
    funext fun k => h0 _ _ hi0 rfl
  have e1 : (fun k : Fin 256 => x1 (ix2 r k)) = fun k => A1 (ix2 (⟨(i 0).val, idx2_lt0 i⟩ : Fin 320000) k) :=
    funext fun k => h1 _ _ hi0 rfl
  have e2 : (fun k : Fin 128 => x2 (ix2 r k)) = fun k => A2 (ix2 (⟨(i 0).val, idx2_lt0 i⟩ : Fin 320000) k) :=
    funext fun k => h2 _ _ hi0 rfl
  rw [hd, e0, e1, e2]

/-- What point `t` writes back is block `t` of the message array as a function of the arrays the launch found. -/
theorem flushed_eq (c : Dev nD) (t : Fin cfg2.N) :
    (dat2 V c).flushed 7 t = ((cfg2.win 7).blk t).view.read (Elt Ideal) (msgArr (V c main_v32) (V c main_v33) (V c main_arg1) (V c main_v35) (V c main_v42) (V c main_v39) (V c main_v43)) := by
  show (cfg2.win 7).cut (grid2.coords t) ((dat2 V c).after 7 t) = _
  rw [after2_7]
  unfold out2_7
  rw [View.canon_unit_zero hz]
  simp only [View.ld_unit_zero (S := S4000x256) hz, View.ld_unit_zero (S := S4000x128) hz,
    View.ld_unit_zero (S := S256x640) hz, View.ld_unit_zero (S := S1x256) hz, View.ld_unit_zero (S := S256x256) hz]
  obtain ⟨-, -, -, -, -, -, e0, e1⟩ := idx_rows t
  funext y
  show (k2_pay1 (iblk2 V c 0 t) (iblk2 V c 1 t) (iblk2 V c 2 t) (iblk2 V c 3 t) (iblk2 V c 4 t) (iblk2 V c 5 t) (iblk2 V c 6 t) : S4000x256.Idx → EReal) y
    = msgArr (V c main_v32) (V c main_v33) (V c main_arg1) (V c main_v35) (V c main_v42) (V c main_v39) (V c main_v43) (((cfg2.win 7).blk t).view.emb y)
  refine point (V c main_v32) (V c main_v33) (V c main_arg1) (V c main_v35) (V c main_v42) (V c main_v39) (V c main_v43)
    (iblk2 V c 0 t) (iblk2 V c 1 t) (iblk2 V c 2 t) (iblk2 V c 3 t) (iblk2 V c 4 t) (iblk2 V c 5 t) (iblk2 V c 6 t) t.val
    (blk0_apply V c t) (blk1_apply V c t) (blk2_apply V c t) (blk3_eq V c t) (blk4_eq V c t) (blk5_eq V c t) (blk6_eq V c t)
    y (((cfg2.win 7).blk t).view.emb y) ?_ ?_
  · show win2_7.index t 0 * 4000 + 1 * (y 0).val = 4000 * t.val + (y 0).val; rw [e0]; omega
  · show win2_7.index t 1 * 256 + 1 * (y 1).val = (y 1).val; rw [e1]; omega

/-! ### The blocks tile the array -/

/-- An index of the array is in point `t`'s block iff each coordinate is in the block's range on its axis. -/
theorem mem_blk (t : Fin cfg2.N) (i : S320000x256.Idx) :
    i ∈ ((cfg2.win 7).blk t).view.set ↔ ∀ a : Fin 2, win2_7.index t a * S4000x256.size a ≤ (i a).val ∧ (i a).val < win2_7.index t a * S4000x256.size a + S4000x256.size a := by
  show i ∈ ((View.whole main_v44).slice (win2_7.rect t)).set ↔ _
  rw [View.set_slice_whole, Rect.mem_set_unit]
  exact Iff.rfl

/-- Row `e` of the array is written by point `e / 4000`. -/
theorem cover (i : S320000x256.Idx) :
    ∃ t : Fin cfg2.N, (cfg2.win 7).flush t = true ∧ i ∈ ((cfg2.win 7).blk t).view.set := by
  have hi0 : (i 0).val < 320000 := idx2_lt0 i
  have hi1 : (i 1).val < 256 := idx2_lt1 i
  have hN : cfg2.N = 80 := N_2
  refine ⟨⟨(i 0).val / 4000, by rw [hN]; omega⟩, flush2_7 _, ?_⟩
  rw [mem_blk]
  obtain ⟨-, -, -, -, -, -, e0, e1⟩ := idx_rows ⟨(i 0).val / 4000, by rw [hN]; omega⟩
  intro a
  match a with
  | ⟨0, _⟩ =>
    show win2_7.index _ 0 * 4000 ≤ (i 0).val ∧ (i 0).val < win2_7.index _ 0 * 4000 + 4000
    rw [e0]; show (i 0).val / 4000 * 4000 ≤ (i 0).val ∧ (i 0).val < (i 0).val / 4000 * 4000 + 4000; omega
  | ⟨1, _⟩ =>
    show win2_7.index _ 1 * 256 ≤ (i 1).val ∧ (i 1).val < win2_7.index _ 1 * 256 + 256
    rw [e1]; omega

/-- After the launch the message array is the message row map of the arrays the launch found, row by row. -/
theorem final (c : Dev nD) : (dat2 V c).arrAt 7 cfg2.N = msgArr (V c main_v32) (V c main_v33) (V c main_arg1) (V c main_v35) (V c main_v42) (V c main_v39) (V c main_v43) :=
  (dat2 V c).arrAt_eq_of_cover 7 (msgArr (V c main_v32) (V c main_v33) (V c main_arg1) (V c main_v35) (V c main_v42) (V c main_v39) (V c main_v43)) (fun t _ => flushed_eq V c t) cover

/-- After the launch, entry (e, d) of the message array is the message row map of edge e's three input rows and the
    layer's weights, all read off the buffers as the launch found them. -/
theorem messages (c : Dev nD) (e : Fin 320000) (d : Fin 256) :
    ((dat2 (F := Ideal) V c).arrAt 7 cfg2.N : S320000x256.Idx → EReal) (ix2 e d) =
      msgRow (catRow (fun k => (V c main_v32 : S320000x256.Idx → EReal) (ix2 e k))
                     (fun k => (V c main_v33 : S320000x256.Idx → EReal) (ix2 e k))
                     (fun k => (V c main_arg1 : S320000x128.Idx → EReal) (ix2 e k)))
        (fun j k => (V c main_v35 : S256x640.Idx → EReal) (ix2 j k))
        (fun j => (V c main_v42 : S1x256.Idx → EReal) (ix2 0 j))
        (fun d' j => (V c main_v39 : S256x256.Idx → EReal) (ix2 d' j))
        (fun d' => (V c main_v43 : S1x256.Idx → EReal) (ix2 0 d')) d := by
  rw [final V c]
  rfl

end Cert.KernelIdeal.Messages2
end
-- ==== Proof.KCell1.lean ====
/-
  The node update, kernel side, first step of the network.

  The launch runs over ten blocks of 2000 node rows.  At each block the body forms the four gate
  pre-activations of every row — the hidden row times the transposed input weights, plus the first bias,
  plus the aggregated-message row times the transposed message weights, plus the second bias, added in
  that order —, cuts them into four column blocks of 256, and writes the new cell block
  `σ(f) · c + σ(i) · tanh(g)` and the new hidden block `σ(o) · tanh(c')`.  Every entry of a block depends only on
  its own row of the three node-row blocks and on the whole weight and bias arrays, so each block the launch
  writes back is a block of ONE function of the arrays the launch found; the ten blocks tile the 20000 rows, so
  after the launch each output array is that function, row by row the row maps `cellRow` and `hidRow` of
  the gate row `gateRow`.
-/
import proofs.«114160_j24077586661654_1_alg».proof.Proof.Gen.KernelIdeal.Frame
import proofs.«114160_j24077586661654_1_alg».proof.Proof.RowMaps
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
noncomputable section
open Idealize.ShloMosaic Idealize.ShloMosaic.TcCoe Idealize.SL.Sem
open Idealize.ShloMosaic.Pipeline (Dat)
open Idealize.ShloMosaic.ValueIdx
namespace Cert.KernelIdeal.Cell1
open Cert.KernelIdeal Cert.KernelIdeal.Gen Cert.RowMaps

/-! ## The body's arithmetic, one row of a block at a time -/

section Payload
variable (x0 x1 x2 : Vec Ideal S2000x256 .f32) (x3 x4 : Vec Ideal S1024x256 .f32) (x5 x6 : Vec Ideal S1x1024 .f32)

theorem lhs_row (i : S2000x1024.Idx) (q : dot_S2000x256_S256x1024_S2000x1024_1_0_0_1_n_n.contr.Idx) :
    (dot_S2000x256_S256x1024_S2000x1024_1_0_0_1_n_n.lhsIdx i q 0).val = (i 0).val := by
  unfold DotDims.lhsIdx
  rw [dif_neg (show ¬(0 : Fin S2000x256.rank) ∈ dot_S2000x256_S256x1024_S2000x1024_1_0_0_1_n_n.lhsBatch by decide), dif_pos (show (0 : Fin S2000x256.rank) ∈ dot_S2000x256_S256x1024_S2000x1024_1_0_0_1_n_n.lhsNonContracting by decide)]
  rfl
theorem lhs_contr (i : S2000x1024.Idx) (q : dot_S2000x256_S256x1024_S2000x1024_1_0_0_1_n_n.contr.Idx) :
    (dot_S2000x256_S256x1024_S2000x1024_1_0_0_1_n_n.lhsIdx i q 1).val = (q ⟨0, by decide⟩).val :=
  dot_S2000x256_S256x1024_S2000x1024_1_0_0_1_n_n.lhsIdx_val_of_single rfl i q
theorem rhs_contr (i : S2000x1024.Idx) (q : dot_S2000x256_S256x1024_S2000x1024_1_0_0_1_n_n.contr.Idx) :
    (dot_S2000x256_S256x1024_S2000x1024_1_0_0_1_n_n.rhsIdx i q 0).val = (q ⟨0, by decide⟩).val :=
  dot_S2000x256_S256x1024_S2000x1024_1_0_0_1_n_n.rhsIdx_val_of_single rfl i q
theorem rhs_col (i : S2000x1024.Idx) (q : dot_S2000x256_S256x1024_S2000x1024_1_0_0_1_n_n.contr.Idx) :
    (dot_S2000x256_S256x1024_S2000x1024_1_0_0_1_n_n.rhsIdx i q 1).val = (i 1).val := by
  unfold DotDims.rhsIdx
  rw [dif_neg (show ¬(1 : Fin S256x1024.rank) ∈ dot_S2000x256_S256x1024_S2000x1024_1_0_0_1_n_n.rhsBatch by decide), dif_pos (show (1 : Fin S256x1024.rank) ∈ dot_S2000x256_S256x1024_S2000x1024_1_0_0_1_n_n.rhsNonContracting by decide)]
  rfl

/-- A block of rows times the transpose of a weight matrix, into a zero accumulator: entry (r, g) is the
    dot product of row r with the weight's row g. -/
theorem matmul_row (h : FVec Ideal S2000x256 .bf16) (W : FVec Ideal S1024x256 .bf16) (r : Fin 2000) (g : Fin 1024) :
    matmul dot_S2000x256_S256x1024_S2000x1024_1_0_0_1_n_n none h (transpose S256x1024 [1, 0] W transposes_S1024x256_p1_0_S256x1024) (constant S2000x1024 .f32 0x00000000#32) (ix2 r g)
      = ∑ k : Fin 256, h (ix2 r k) * W (ix2 g k) := by
  generalize hy : transpose S256x1024 [1, 0] W transposes_S1024x256_p1_0_S256x1024 = y
  show FloatOps.matmul _ _ _ _ _ _ = _
  rw [Ideal.matmul_constant_zero_apply, ← Equiv.sum_comp (contrEquiv1 dot_S2000x256_S256x1024_S2000x1024_1_0_0_1_n_n 256 rfl rfl).symm]
  refine Finset.sum_congr rfl fun k _ => ?_
  have hk := contrEquiv1_symm_val dot_S2000x256_S256x1024_S2000x1024_1_0_0_1_n_n 256 rfl rfl k
  have el : dot_S2000x256_S256x1024_S2000x1024_1_0_0_1_n_n.lhsIdx (ix2 r g) ((contrEquiv1 dot_S2000x256_S256x1024_S2000x1024_1_0_0_1_n_n 256 rfl rfl).symm k) = ix2 r k := funext fun a => Fin.ext (by
    match a with
    | ⟨0, _⟩ => exact lhs_row _ _
    | ⟨1, _⟩ => exact (lhs_contr _ _).trans hk)
  have er : dot_S2000x256_S256x1024_S2000x1024_1_0_0_1_n_n.rhsIdx (ix2 r g) ((contrEquiv1 dot_S2000x256_S256x1024_S2000x1024_1_0_0_1_n_n 256 rfl rfl).symm k) = ix2 k g := funext fun a => Fin.ext (by
    match a with
    | ⟨0, _⟩ => exact (rhs_contr _ _).trans hk
    | ⟨1, _⟩ => exact rhs_col _ _)
  rw [el, er, ← hy, transpose_ix2_apply]

/-- The gate pre-activations of a block: row r is `gateRow` of row r of the two feature blocks. -/
theorem pay1_apply (r : Fin 2000) (g : Fin 1024) :
    k1_pay1 x0 x1 x3 x4 x5 x6 (ix2 r g) = gateRow (fun k => x0 (ix2 r k)) (fun k => x1 (ix2 r k)) (fun g k => x3 (ix2 g k)) (fun g k => x4 (ix2 g k)) (fun g => x5 (ix2 0 g)) (fun g => x6 (ix2 0 g)) g := by
  unfold k1_pay1 gateRow
  dsimp only
  simp only [shapeCast_self]
  rw [addf_apply, addf_apply, addf_apply, matmul_row, matmul_row, broadcastTo_1b_ab_apply, broadcastTo_1b_ab_apply]
  rfl
end Payload

section Payload2
variable (x0 x1 x2 : Vec Ideal S2000x256 .f32) (x3 x4 : Vec Ideal S1024x256 .f32) (x5 x6 : Vec Ideal S1x1024 .f32)

/-- The logistic function of a vector, lane by lane. -/
theorem logistic_at {s : Shape} {φ : FTy} (a : FVec Ideal s φ) (i : s.Idx) : logistic a i = Ideal.logistic (a i) := rfl
/-- The hyperbolic tangent of a vector, lane by lane. -/
theorem tanh_at {s : Shape} {φ : FTy} (a : FVec Ideal s φ) (i : s.Idx) : tanh a i = Ideal.tanh (a i) := rfl

/-- The four column blocks of the gate pre-activations: column d of the block at offset o is column o + d. -/
theorem gate_i (X : FVec Ideal S2000x1024 .f32) (r : Fin 2000) (d : Fin 256) :
    extractStridedSlice S2000x256 ![0, 0] X slices_S2000x1024_o0_0_S2000x256 (ix2 r d) = X (ix2 r ⟨d.val, by have := d.isLt; omega⟩) :=
  slice2_axis1_apply 0 X _ r d ⟨d.val, by have := d.isLt; omega⟩ (Nat.zero_add _).symm
theorem gate_f (X : FVec Ideal S2000x1024 .f32) (r : Fin 2000) (d : Fin 256) :
    extractStridedSlice S2000x256 ![0, 256] X slices_S2000x1024_o0_256_S2000x256 (ix2 r d) = X (ix2 r ⟨256 + d.val, by have := d.isLt; omega⟩) :=
  slice2_axis1_apply 256 X _ r d ⟨256 + d.val, by have := d.isLt; omega⟩ rfl
theorem gate_g (X : FVec Ideal S2000x1024 .f32) (r : Fin 2000) (d : Fin 256) :
    extractStridedSlice S2000x256 ![0, 512] X slices_S2000x1024_o0_512_S2000x256 (ix2 r d) = X (ix2 r ⟨512 + d.val, by have := d.isLt; omega⟩) :=
  slice2_axis1_apply 512 X _ r d ⟨512 + d.val, by have := d.isLt; omega⟩ rfl
theorem gate_o (X : FVec Ideal S2000x1024 .f32) (r : Fin 2000) (d : Fin 256) :
    extractStridedSlice S2000x256 ![0, 768] X slices_S2000x1024_o0_768_S2000x256 (ix2 r d) = X (ix2 r ⟨768 + d.val, by have := d.isLt; omega⟩) :=
  slice2_axis1_apply 768 X _ r d ⟨768 + d.val, by have := d.isLt; omega⟩ rfl

/-- The new cell block: row r is `cellRow` of row r's gates and row r of the old cell block. -/
theorem pay2_apply (r : Fin 2000) (d : Fin 256) :
    k1_pay2 x0 x1 x3 x4 x5 x6 x2 (ix2 r d) =
      cellRow (gateRow (fun k => x0 (ix2 r k)) (fun k => x1 (ix2 r k)) (fun g k => x3 (ix2 g k)) (fun g k => x4 (ix2 g k)) (fun g => x5 (ix2 0 g)) (fun g => x6 (ix2 0 g)))
        (fun d' => x2 (ix2 r d')) d := by
  unfold k1_pay2 cellRow
  try dsimp only
  simp only [shapeCast_self]
  rw [addf_apply, mulf_apply, mulf_apply, logistic_at, logistic_at, tanh_at, gate_f, gate_i, gate_g,
    pay1_apply, pay1_apply, pay1_apply]

/-- The new hidden block: row r is `hidRow` of row r's gates and row r of the new cell block. -/
theorem pay3_apply (r : Fin 2000) (d : Fin 256) :
    k1_pay3 x0 x1 x3 x4 x5 x6 x2 (ix2 r d) =
      hidRow (gateRow (fun k => x0 (ix2 r k)) (fun k => x1 (ix2 r k)) (fun g k => x3 (ix2 g k)) (fun g k => x4 (ix2 g k)) (fun g => x5 (ix2 0 g)) (fun g => x6 (ix2 0 g)))
        (cellRow (gateRow (fun k => x0 (ix2 r k)) (fun k => x1 (ix2 r k)) (fun g k => x3 (ix2 g k)) (fun g k => x4 (ix2 g k)) (fun g => x5 (ix2 0 g)) (fun g => x6 (ix2 0 g)))
          (fun d' => x2 (ix2 r d'))) d := by
  unfold k1_pay3 hidRow
  try dsimp only
  rw [mulf_apply, logistic_at, tanh_at, gate_o, pay1_apply, pay2_apply]
end Payload2

/-! ## From blocks to arrays -/

variable (V : (c : Dev nD) → (b : Ref sig .tc) → Buf (Elt Ideal) ((c : Thread nD τ).loc b))

/-- Node v's gate pre-activations, off the buffers as the launch found them. -/
def gates (c : Dev nD) (v : Fin 20000) : Fin 1024 → EReal :=
  gateRow (fun k => (V c main_arg0 : S20000x256.Idx → EReal) (ix2 v k)) (fun k => (V c main_v20 : S20000x256.Idx → EReal) (ix2 v k))
    (fun g k => (V c main_v22 : S1024x256.Idx → EReal) (ix2 g k)) (fun g k => (V c main_v24 : S1024x256.Idx → EReal) (ix2 g k))
    (fun g => (V c main_v29 : S1x1024.Idx → EReal) (ix2 0 g)) (fun g => (V c main_v30 : S1x1024.Idx → EReal) (ix2 0 g))

theorem hz : (![0, 0] : Fin 2 → Nat) = fun _ => 0 := funext fun a => by fin_cases a <;> rfl

/-- The block index maps over the ten grid points: the node-row windows sit at row block t, the weights and
    biases at their one block, and every window at column block 0. -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = t.val ∧ win1_7.index t (1 : Fin 2) = 0)
    ∧ (win1_8.index t (0 : Fin 2) = t.val ∧ win1_8.index t (1 : Fin 2) = 0) :=
  (by decide +kernel : ∀ t : Fin grid1.N, _)

/-- The hidden-state input block at point t is rows 2000·t … 2000·t + 1999 of its array. -/
theorem iblk_h (c : Dev nD) (t : Fin cfg1.N) (r : Fin 2000) (k : Fin 256) (v : Fin 20000) (hv : v.val = 2000 * t.val + r.val) :
    (iblk1 V c 0 t : Vec Ideal S2000x256 .f32) (ix2 r k) = (V c main_arg0 : S20000x256.Idx → EReal) (ix2 v k) := by
  obtain ⟨⟨e0, e1⟩, -⟩ := idx_facts t
  unfold iblk1
  rw [View.read_apply]
  show (V c main_arg0 : S20000x256.Idx → EReal) _ = _
  congr 1
  funext a
  apply Fin.ext
  match a with
  | ⟨0, _⟩ => show win1_0.index t 0 * 2000 + 1 * r.val = v.val; rw [e0, hv]; omega
  | ⟨1, _⟩ => show win1_0.index t 1 * 256 + 1 * k.val = k.val; rw [e1]; omega

/-- The aggregated-message input block at point t, likewise. -/
theorem iblk_a (c : Dev nD) (t : Fin cfg1.N) (r : Fin 2000) (k : Fin 256) (v : Fin 20000) (hv : v.val = 2000 * t.val + r.val) :
    (iblk1 V c 1 t : Vec Ideal S2000x256 .f32) (ix2 r k) = (V c main_v20 : S20000x256.Idx → EReal) (ix2 v k) := by
  obtain ⟨-, ⟨e0, e1⟩, -⟩ := idx_facts t
  unfold iblk1
  rw [View.read_apply]
  show (V c main_v20 : S20000x256.Idx → EReal) _ = _
  congr 1
  funext a
  apply Fin.ext
  match a with
  | ⟨0, _⟩ => show win1_1.index t 0 * 2000 + 1 * r.val = v.val; rw [e0, hv]; omega
  | ⟨1, _⟩ => show win1_1.index t 1 * 256 + 1 * k.val = k.val; rw [e1]; omega

/-- The old-cell input block at point t, likewise. -/
theorem iblk_c (c : Dev nD) (t : Fin cfg1.N) (r : Fin 2000) (k : Fin 256) (v : Fin 20000) (hv : v.val = 2000 * t.val + r.val) :
    (iblk1 V c 2 t : Vec Ideal S2000x256 .f32) (ix2 r k) = (V c main_v4 : S20000x256.Idx → EReal) (ix2 v k) := by
  obtain ⟨-, -, ⟨e0, e1⟩, -⟩ := idx_facts t
  unfold iblk1
  rw [View.read_apply]
  show (V c main_v4 : S20000x256.Idx → EReal) _ = _
  congr 1
  funext a
  apply Fin.ext
  match a with
  | ⟨0, _⟩ => show win1_2.index t 0 * 2000 + 1 * r.val = v.val; rw [e0, hv]; omega
  | ⟨1, _⟩ => show win1_2.index t 1 * 256 + 1 * k.val = k.val; rw [e1]; omega

/-- The input-weight block is the whole weight matrix at every point. -/
theorem iblk_Wih (c : Dev nD) (t : Fin cfg1.N) (g : Fin 1024) (k : Fin 256) :
    (iblk1 V c 3 t : Vec Ideal S1024x256 .f32) (ix2 g k) = (V c main_v22 : S1024x256.Idx → EReal) (ix2 g k) := by
  obtain ⟨-, -, -, ⟨e0, e1⟩, -⟩ := idx_facts t
  unfold iblk1
  rw [View.read_apply]
  show (V c main_v22 : S1024x256.Idx → EReal) _ = _
  congr 1
  funext a
  apply Fin.ext
  match a with
  | ⟨0, _⟩ => show win1_3.index t 0 * 1024 + 1 * g.val = g.val; rw [e0]; omega
  | ⟨1, _⟩ => show win1_3.index t 1 * 256 + 1 * k.val = k.val; rw [e1]; omega

/-- The message-weight block is the whole weight matrix at every point. -/
theorem iblk_Whh (c : Dev nD) (t : Fin cfg1.N) (g : Fin 1024) (k : Fin 256) :
    (iblk1 V c 4 t : Vec Ideal S1024x256 .f32) (ix2 g k) = (V c main_v24 : S1024x256.Idx → EReal) (ix2 g k) := by
  obtain ⟨-, -, -, -, ⟨e0, e1⟩, -⟩ := idx_facts t
  unfold iblk1
  rw [View.read_apply]
  show (V c main_v24 : S1024x256.Idx → EReal) _ = _
  congr 1
  funext a
  apply Fin.ext
  match a with
  | ⟨0, _⟩ => show win1_4.index t 0 * 1024 + 1 * g.val = g.val; rw [e0]; omega
  | ⟨1, _⟩ => show win1_4.index t 1 * 256 + 1 * k.val = k.val; rw [e1]; omega

/-- The first bias block is the whole bias row at every point. -/
theorem iblk_bih (c : Dev nD) (t : Fin cfg1.N) (g : Fin 1024) :
    (iblk1 V c 5 t : Vec Ideal S1x1024 .f32) (ix2 0 g) = (V c main_v29 : S1x1024.Idx → EReal) (ix2 0 g) := by
  obtain ⟨-, -, -, -, -, ⟨e0, e1⟩, -⟩ := idx_facts t
  unfold iblk1
  rw [View.read_apply]
  show (V c main_v29 : S1x1024.Idx → EReal) _ = _
  congr 1
  funext a
  apply Fin.ext
  match a with
  | ⟨0, _⟩ => show win1_5.index t 0 * 1 + 1 * 0 = 0; rw [e0]
  | ⟨1, _⟩ => show win1_5.index t 1 * 1024 + 1 * g.val = g.val; rw [e1]; omega

/-- The second bias block is the whole bias row at every point. -/
theorem iblk_bhh (c : Dev nD) (t : Fin cfg1.N) (g : Fin 1024) :
    (iblk1 V c 6 t : Vec Ideal S1x1024 .f32) (ix2 0 g) = (V c main_v30 : S1x1024.Idx → EReal) (ix2 0 g) := by
  obtain ⟨-, -, -, -, -, -, ⟨e0, e1⟩, -⟩ := idx_facts t
  unfold iblk1
  rw [View.read_apply]
  show (V c main_v30 : S1x1024.Idx → EReal) _ = _
  congr 1
  funext a
  apply Fin.ext
  match a with
  | ⟨0, _⟩ => show win1_6.index t 0 * 1 + 1 * 0 = 0; rw [e0]
  | ⟨1, _⟩ => show win1_6.index t 1 * 1024 + 1 * g.val = g.val; rw [e1]; omega

/-- Row r of the gate pre-activations computed at point t is node 2000·t + r's. -/
theorem gates_point (c : Dev nD) (t : Fin cfg1.N) (r : Fin 2000) (v : Fin 20000) (hv : v.val = 2000 * t.val + r.val) :
    gateRow (fun k => (iblk1 V c 0 t : Vec Ideal S2000x256 .f32) (ix2 r k)) (fun k => (iblk1 V c 1 t : Vec Ideal S2000x256 .f32) (ix2 r k))
      (fun g k => (iblk1 V c 3 t : Vec Ideal S1024x256 .f32) (ix2 g k)) (fun g k => (iblk1 V c 4 t : Vec Ideal S1024x256 .f32) (ix2 g k))
      (fun g => (iblk1 V c 5 t : Vec Ideal S1x1024 .f32) (ix2 0 g)) (fun g => (iblk1 V c 6 t : Vec Ideal S1x1024 .f32) (ix2 0 g)) = gates V c v := by
  unfold gates
  rw [show (fun k => (iblk1 V c 0 t : Vec Ideal S2000x256 .f32) (ix2 r k)) = fun k => (V c main_arg0 : S20000x256.Idx → EReal) (ix2 v k) from funext fun k => iblk_h V c t r k v hv,
    show (fun k => (iblk1 V c 1 t : Vec Ideal S2000x256 .f32) (ix2 r k)) = fun k => (V c main_v20 : S20000x256.Idx → EReal) (ix2 v k) from funext fun k => iblk_a V c t r k v hv,
    show (fun g k => (iblk1 V c 3 t : Vec Ideal S1024x256 .f32) (ix2 g k)) = fun g k => (V c main_v22 : S1024x256.Idx → EReal) (ix2 g k) from funext fun g => funext fun k => iblk_Wih V c t g k,
    show (fun g k => (iblk1 V c 4 t : Vec Ideal S1024x256 .f32) (ix2 g k)) = fun g k => (V c main_v24 : S1024x256.Idx → EReal) (ix2 g k) from funext fun g => funext fun k => iblk_Whh V c t g k,
    show (fun g => (iblk1 V c 5 t : Vec Ideal S1x1024 .f32) (ix2 0 g)) = fun g => (V c main_v29 : S1x1024.Idx → EReal) (ix2 0 g) from funext fun g => iblk_bih V c t g,
    show (fun g => (iblk1 V c 6 t : Vec Ideal S1x1024 .f32) (ix2 0 g)) = fun g => (V c main_v30 : S1x1024.Idx → EReal) (ix2 0 g) from funext fun g => iblk_bhh V c t g]

/-- Row r of the new cell block computed at point t is node 2000·t + r's new cell row. -/
theorem cell_point (c : Dev nD) (t : Fin cfg1.N) (r : Fin 2000) (d : Fin 256) (v : Fin 20000) (hv : v.val = 2000 * t.val + r.val) :
    k1_pay2 (iblk1 V c 0 t) (iblk1 V c 1 t) (iblk1 V c 3 t) (iblk1 V c 4 t) (iblk1 V c 5 t) (iblk1 V c 6 t) (iblk1 V c 2 t) (ix2 r d)
      = cellRow (gates V c v) (fun d' => (V c main_v4 : S20000x256.Idx → EReal) (ix2 v d')) d := by
  refine (pay2_apply (iblk1 V c 0 t) (iblk1 V c 1 t) (iblk1 V c 2 t) (iblk1 V c 3 t) (iblk1 V c 4 t) (iblk1 V c 5 t) (iblk1 V c 6 t) r d).trans ?_
  rw [gates_point V c t r v hv,
    show (fun d' => (iblk1 V c 2 t : Vec Ideal S2000x256 .f32) (ix2 r d')) = fun d' => (V c main_v4 : S20000x256.Idx → EReal) (ix2 v d') from funext fun k => iblk_c V c t r k v hv]

/-- Row r of the new hidden block computed at point t is node 2000·t + r's new hidden row. -/
theorem hidden_point (c : Dev nD) (t : Fin cfg1.N) (r : Fin 2000) (d : Fin 256) (v : Fin 20000) (hv : v.val = 2000 * t.val + r.val) :
    k1_pay3 (iblk1 V c 0 t) (iblk1 V c 1 t) (iblk1 V c 3 t) (iblk1 V c 4 t) (iblk1 V c 5 t) (iblk1 V c 6 t) (iblk1 V c 2 t) (ix2 r d)
      = hidRow (gates V c v) (cellRow (gates V c v) (fun d' => (V c main_v4 : S20000x256.Idx → EReal) (ix2 v d'))) d := by
  refine (pay3_apply (iblk1 V c 0 t) (iblk1 V c 1 t) (iblk1 V c 2 t) (iblk1 V c 3 t) (iblk1 V c 4 t) (iblk1 V c 5 t) (iblk1 V c 6 t) r d).trans ?_
  rw [gates_point V c t r v hv,
    show (fun d' => (iblk1 V c 2 t : Vec Ideal S2000x256 .f32) (ix2 r d')) = fun d' => (V c main_v4 : S20000x256.Idx → EReal) (ix2 v d') from funext fun k => iblk_c V c t r k v hv]

/-- The new cell array as one function of the buffers the launch found: node v's new cell row at (v, d). -/
def cellArr (c : Dev nD) : S20000x256.Idx → EReal := fun i =>
  cellRow (gates V c ⟨(i 0).val, idx2_lt0 i⟩) (fun d' => (V c main_v4 : S20000x256.Idx → EReal) (ix2 ⟨(i 0).val, idx2_lt0 i⟩ d')) ⟨(i 1).val, idx2_lt1 i⟩

/-- The new hidden array as one function of the buffers the launch found: node v's new hidden row at (v, d). -/
def hidArr (c : Dev nD) : S20000x256.Idx → EReal := fun i =>
  hidRow (gates V c ⟨(i 0).val, idx2_lt0 i⟩)
    (cellRow (gates V c ⟨(i 0).val, idx2_lt0 i⟩) (fun d' => (V c main_v4 : S20000x256.Idx → EReal) (ix2 ⟨(i 0).val, idx2_lt0 i⟩ d'))) ⟨(i 1).val, idx2_lt1 i⟩

theorem cellArr_at (c : Dev nD) (i : S20000x256.Idx) (v : Fin 20000) (d : Fin 256) (h0 : (i 0).val = v.val) (h1 : (i 1).val = d.val) :
    cellArr V c i = cellRow (gates V c v) (fun d' => (V c main_v4 : S20000x256.Idx → EReal) (ix2 v d')) d := by
  obtain rfl : v = ⟨(i 0).val, idx2_lt0 i⟩ := Fin.ext h0.symm
  obtain rfl : d = ⟨(i 1).val, idx2_lt1 i⟩ := Fin.ext h1.symm
  rfl

theorem hidArr_at (c : Dev nD) (i : S20000x256.Idx) (v : Fin 20000) (d : Fin 256) (h0 : (i 0).val = v.val) (h1 : (i 1).val = d.val) :
    hidArr V c i = hidRow (gates V c v) (cellRow (gates V c v) (fun d' => (V c main_v4 : S20000x256.Idx → EReal) (ix2 v d'))) d := by
  obtain rfl : v = ⟨(i 0).val, idx2_lt0 i⟩ := Fin.ext h0.symm
  obtain rfl : d = ⟨(i 1).val, idx2_lt1 i⟩ := Fin.ext h1.symm
  rfl

/-- What the write-back of the new cell block takes from the staging buffer is the buffer, entry by entry. -/
theorem cut_cell (P : S2000x256.Idx → EReal) (t : Fin cfg1.N) (j : ((cfg1.win 8).xblock (grid1.coords t)).Idx) :
    (cfg1.win 8).cut (grid1.coords t) P j = P (ix2 (⟨(j 0).val, (j 0).isLt⟩ : Fin 2000) (⟨(j 1).val, (j 1).isLt⟩ : Fin 256)) := by
  show P _ = P _
  congr 1
  funext a
  match a with
  | ⟨0, _⟩ => rfl
  | ⟨1, _⟩ => rfl

/-- Likewise for the new hidden block. -/
theorem cut_hidden (P : S2000x256.Idx → EReal) (t : Fin cfg1.N) (j : ((cfg1.win 7).xblock (grid1.coords t)).Idx) :
    (cfg1.win 7).cut (grid1.coords t) P j = P (ix2 (⟨(j 0).val, (j 0).isLt⟩ : Fin 2000) (⟨(j 1).val, (j 1).isLt⟩ : Fin 256)) := by
  show P _ = P _
  congr 1
  funext a
  match a with
  | ⟨0, _⟩ => rfl
  | ⟨1, _⟩ => rfl

/-- What point t writes back to the new cell array is block t of `cellArr`. -/
theorem flushed_cell (c : Dev nD) (t : Fin cfg1.N) :
    (dat1 V c).flushed 8 t = ((cfg1.win 8).blk t).view.read (Elt Ideal) (cellArr V c) := by
  show (cfg1.win 8).cut (grid1.coords t) ((dat1 V c).after 8 t) = _
  rw [after1_8]
  unfold out1_8
  rw [View.canon_unit_zero hz]
  simp only [View.ld_unit_zero (S := S2000x256) hz, View.ld_unit_zero (S := S1024x256) hz, View.ld_unit_zero (S := S1x1024) hz]
  obtain ⟨-, -, -, -, -, -, -, -, ⟨e0, e1⟩⟩ := idx_facts t
  have ht : t.val < 10 := lt_of_lt_of_eq t.isLt N_1
  funext j
  have hj0 : (j 0).val < 2000 := (j 0).isLt
  rw [View.read_apply]
  refine (cut_cell _ t j).trans ?_
  refine (cell_point V c t _ _ ⟨2000 * t.val + (j 0).val, by omega⟩ rfl).trans ?_
  refine (cellArr_at V c _ _ _ ?_ ?_).symm
  · show win1_8.index t 0 * 2000 + 1 * (j 0).val = 2000 * t.val + (j 0).val; rw [e0]; omega
  · show win1_8.index t 1 * 256 + 1 * (j 1).val = (j 1).val; rw [e1]; omega

/-- What point t writes back to the new hidden array is block t of `hidArr`. -/
theorem flushed_hidden (c : Dev nD) (t : Fin cfg1.N) :
    (dat1 V c).flushed 7 t = ((cfg1.win 7).blk t).view.read (Elt Ideal) (hidArr V c) := by
  show (cfg1.win 7).cut (grid1.coords t) ((dat1 V c).after 7 t) = _
  rw [after1_7]
  unfold out1_7
  rw [View.canon_unit_zero hz]
  simp only [View.ld_unit_zero (S := S2000x256) hz, View.ld_unit_zero (S := S1024x256) hz, View.ld_unit_zero (S := S1x1024) hz]
  obtain ⟨-, -, -, -, -, -, -, ⟨e0, e1⟩, -⟩ := idx_facts t
  have ht : t.val < 10 := lt_of_lt_of_eq t.isLt N_1
  funext j
  have hj0 : (j 0).val < 2000 := (j 0).isLt
  rw [View.read_apply]
  refine (cut_hidden _ t j).trans ?_
  refine (hidden_point V c t _ _ ⟨2000 * t.val + (j 0).val, by omega⟩ rfl).trans ?_
  refine (hidArr_at V c _ _ _ ?_ ?_).symm
  · show win1_7.index t 0 * 2000 + 1 * (j 0).val = 2000 * t.val + (j 0).val; rw [e0]; omega
  · show win1_7.index t 1 * 256 + 1 * (j 1).val = (j 1).val; rw [e1]; omega

/-- An index of the cell array is in point t's block iff each coordinate is in the block's range on its axis. -/
theorem mem_blk_cell (t : Fin cfg1.N) (i : S20000x256.Idx) :
    i ∈ ((cfg1.win 8).blk t).view.set ↔ ∀ a : Fin 2, win1_8.index t a * S2000x256.size a ≤ (i a).val ∧ (i a).val < win1_8.index t a * S2000x256.size a + S2000x256.size a := by
  show i ∈ ((View.whole main_v31_1).slice (win1_8.rect t)).set ↔ _
  rw [View.set_slice_whole, Rect.mem_set_unit]
  exact Iff.rfl

/-- Likewise for the hidden array. -/
theorem mem_blk_hidden (t : Fin cfg1.N) (i : S20000x256.Idx) :
    i ∈ ((cfg1.win 7).blk t).view.set ↔ ∀ a : Fin 2, win1_7.index t a * S2000x256.size a ≤ (i a).val ∧ (i a).val < win1_7.index t a * S2000x256.size a + S2000x256.size a := by
  show i ∈ ((View.whole main_v31_0).slice (win1_7.rect t)).set ↔ _
  rw [View.set_slice_whole, Rect.mem_set_unit]
  exact Iff.rfl

/-- Row v of the cell array is written back by point v / 2000. -/
theorem cover_cell (i : S20000x256.Idx) : ∃ t : Fin cfg1.N, (cfg1.win 8).flush t = true ∧ i ∈ ((cfg1.win 8).blk t).view.set := by
  have hi0 : (i 0).val < 20000 := (i 0).isLt
  have hi1 : (i 1).val < 256 := (i 1).isLt
  have hN : cfg1.N = 10 := N_1
  refine ⟨⟨(i 0).val / 2000, by rw [hN]; omega⟩, flush1_8 _, ?_⟩
  obtain ⟨-, -, -, -, -, -, -, -, ⟨e0, e1⟩⟩ := idx_facts ⟨(i 0).val / 2000, by rw [hN]; omega⟩
  rw [mem_blk_cell]
  intro a
  match a with
  | ⟨0, _⟩ =>
    show win1_8.index _ 0 * 2000 ≤ (i 0).val ∧ (i 0).val < win1_8.index _ 0 * 2000 + 2000
    rw [e0]; show (i 0).val / 2000 * 2000 ≤ (i 0).val ∧ (i 0).val < (i 0).val / 2000 * 2000 + 2000; omega
  | ⟨1, _⟩ =>
    show win1_8.index _ 1 * 256 ≤ (i 1).val ∧ (i 1).val < win1_8.index _ 1 * 256 + 256
    rw [e1]; omega

/-- Row v of the hidden array is written back by point v / 2000. -/
theorem cover_hidden (i : S20000x256.Idx) : ∃ t : Fin cfg1.N, (cfg1.win 7).flush t = true ∧ i ∈ ((cfg1.win 7).blk t).view.set := by
  have hi0 : (i 0).val < 20000 := (i 0).isLt
  have hi1 : (i 1).val < 256 := (i 1).isLt
  have hN : cfg1.N = 10 := N_1
  refine ⟨⟨(i 0).val / 2000, by rw [hN]; omega⟩, flush1_7 _, ?_⟩
  obtain ⟨-, -, -, -, -, -, -, ⟨e0, e1⟩, -⟩ := idx_facts ⟨(i 0).val / 2000, by rw [hN]; omega⟩
  rw [mem_blk_hidden]
  intro a
  match a with
  | ⟨0, _⟩ =>
    show win1_7.index _ 0 * 2000 ≤ (i 0).val ∧ (i 0).val < win1_7.index _ 0 * 2000 + 2000
    rw [e0]; show (i 0).val / 2000 * 2000 ≤ (i 0).val ∧ (i 0).val < (i 0).val / 2000 * 2000 + 2000; omega
  | ⟨1, _⟩ =>
    show win1_7.index _ 1 * 256 ≤ (i 1).val ∧ (i 1).val < win1_7.index _ 1 * 256 + 256
    rw [e1]; omega

/-- After the launch the new cell array is `cellArr`. -/
theorem cell_array (c : Dev nD) : (dat1 (F := Ideal) V c).arrAt 8 cfg1.N = cellArr V c :=
  (dat1 V c).arrAt_eq_of_cover 8 (cellArr V c) (fun t _ => flushed_cell V c t) cover_cell

/-- After the launch the new hidden array is `hidArr`. -/
theorem hidden_array (c : Dev nD) : (dat1 (F := Ideal) V c).arrAt 7 cfg1.N = hidArr V c :=
  (dat1 V c).arrAt_eq_of_cover 7 (hidArr V c) (fun t _ => flushed_hidden V c t) cover_hidden

/-- After the launch, entry (v, d) of the new cell array. -/
theorem cell (c : Dev nD) (v : Fin 20000) (d : Fin 256) :
    ((dat1 (F := Ideal) V c).arrAt 8 cfg1.N : S20000x256.Idx → EReal) (ix2 v d) =
      cellRow (gates V c v) (fun d' => (V c main_v4 : S20000x256.Idx → EReal) (ix2 v d')) d :=
  (congrFun (cell_array V c) (ix2 v d)).trans (cellArr_at V c (ix2 v d) v d rfl rfl)

/-- After the launch, entry (v, d) of the new hidden array. -/
theorem hidden (c : Dev nD) (v : Fin 20000) (d : Fin 256) :
    ((dat1 (F := Ideal) V c).arrAt 7 cfg1.N : S20000x256.Idx → EReal) (ix2 v d) =
      hidRow (gates V c v) (cellRow (gates V c v) (fun d' => (V c main_v4 : S20000x256.Idx → EReal) (ix2 v d'))) d :=
  (congrFun (hidden_array V c) (ix2 v d)).trans (hidArr_at V c (ix2 v d) v d rfl rfl)

end Cert.KernelIdeal.Cell1
end
-- ==== Proof.KCell3.lean ====
/-
  The node update, kernel side, second step of the network.

  The launch runs over ten blocks of 2000 node rows.  At each block the body forms the four gate
  pre-activations of every row — the hidden row times the transposed input weights, plus the first bias,
  plus the aggregated-message row times the transposed message weights, plus the second bias, added in
  that order —, cuts them into four column blocks of 256, and writes the new cell block
  `σ(f) · c + σ(i) · tanh(g)` and the new hidden block `σ(o) · tanh(c')`.  Every entry of a block depends only on
  its own row of the three node-row blocks and on the whole weight and bias arrays, so each block the launch
  writes back is a block of ONE function of the arrays the launch found; the ten blocks tile the 20000 rows, so
  after the launch each output array is that function, row by row the row maps `cellRow` and `hidRow` of
  the gate row `gateRow`.
-/
import proofs.«114160_j24077586661654_1_alg».proof.Proof.Gen.KernelIdeal.Frame
import proofs.«114160_j24077586661654_1_alg».proof.Proof.RowMaps
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
noncomputable section
open Idealize.ShloMosaic Idealize.ShloMosaic.TcCoe Idealize.SL.Sem
open Idealize.ShloMosaic.Pipeline (Dat)
open Idealize.ShloMosaic.ValueIdx
namespace Cert.KernelIdeal.Cell3
open Cert.KernelIdeal Cert.KernelIdeal.Gen Cert.RowMaps

/-! ## The body's arithmetic, one row of a block at a time -/

section Payload
variable (x0 x1 x2 : Vec Ideal S2000x256 .f32) (x3 x4 : Vec Ideal S1024x256 .f32) (x5 x6 : Vec Ideal S1x1024 .f32)

theorem lhs_row (i : S2000x1024.Idx) (q : dot_S2000x256_S256x1024_S2000x1024_1_0_0_1_n_n.contr.Idx) :
    (dot_S2000x256_S256x1024_S2000x1024_1_0_0_1_n_n.lhsIdx i q 0).val = (i 0).val := by
  unfold DotDims.lhsIdx
  rw [dif_neg (show ¬(0 : Fin S2000x256.rank) ∈ dot_S2000x256_S256x1024_S2000x1024_1_0_0_1_n_n.lhsBatch by decide), dif_pos (show (0 : Fin S2000x256.rank) ∈ dot_S2000x256_S256x1024_S2000x1024_1_0_0_1_n_n.lhsNonContracting by decide)]
  rfl
theorem lhs_contr (i : S2000x1024.Idx) (q : dot_S2000x256_S256x1024_S2000x1024_1_0_0_1_n_n.contr.Idx) :
    (dot_S2000x256_S256x1024_S2000x1024_1_0_0_1_n_n.lhsIdx i q 1).val = (q ⟨0, by decide⟩).val :=
  dot_S2000x256_S256x1024_S2000x1024_1_0_0_1_n_n.lhsIdx_val_of_single rfl i q
theorem rhs_contr (i : S2000x1024.Idx) (q : dot_S2000x256_S256x1024_S2000x1024_1_0_0_1_n_n.contr.Idx) :
    (dot_S2000x256_S256x1024_S2000x1024_1_0_0_1_n_n.rhsIdx i q 0).val = (q ⟨0, by decide⟩).val :=
  dot_S2000x256_S256x1024_S2000x1024_1_0_0_1_n_n.rhsIdx_val_of_single rfl i q
theorem rhs_col (i : S2000x1024.Idx) (q : dot_S2000x256_S256x1024_S2000x1024_1_0_0_1_n_n.contr.Idx) :
    (dot_S2000x256_S256x1024_S2000x1024_1_0_0_1_n_n.rhsIdx i q 1).val = (i 1).val := by
  unfold DotDims.rhsIdx
  rw [dif_neg (show ¬(1 : Fin S256x1024.rank) ∈ dot_S2000x256_S256x1024_S2000x1024_1_0_0_1_n_n.rhsBatch by decide), dif_pos (show (1 : Fin S256x1024.rank) ∈ dot_S2000x256_S256x1024_S2000x1024_1_0_0_1_n_n.rhsNonContracting by decide)]
  rfl

/-- A block of rows times the transpose of a weight matrix, into a zero accumulator: entry (r, g) is the
    dot product of row r with the weight's row g. -/
theorem matmul_row (h : FVec Ideal S2000x256 .bf16) (W : FVec Ideal S1024x256 .bf16) (r : Fin 2000) (g : Fin 1024) :
    matmul dot_S2000x256_S256x1024_S2000x1024_1_0_0_1_n_n none h (transpose S256x1024 [1, 0] W transposes_S1024x256_p1_0_S256x1024) (constant S2000x1024 .f32 0x00000000#32) (ix2 r g)
      = ∑ k : Fin 256, h (ix2 r k) * W (ix2 g k) := by
  generalize hy : transpose S256x1024 [1, 0] W transposes_S1024x256_p1_0_S256x1024 = y
  show FloatOps.matmul _ _ _ _ _ _ = _
  rw [Ideal.matmul_constant_zero_apply, ← Equiv.sum_comp (contrEquiv1 dot_S2000x256_S256x1024_S2000x1024_1_0_0_1_n_n 256 rfl rfl).symm]
  refine Finset.sum_congr rfl fun k _ => ?_
  have hk := contrEquiv1_symm_val dot_S2000x256_S256x1024_S2000x1024_1_0_0_1_n_n 256 rfl rfl k
  have el : dot_S2000x256_S256x1024_S2000x1024_1_0_0_1_n_n.lhsIdx (ix2 r g) ((contrEquiv1 dot_S2000x256_S256x1024_S2000x1024_1_0_0_1_n_n 256 rfl rfl).symm k) = ix2 r k := funext fun a => Fin.ext (by
    match a with
    | ⟨0, _⟩ => exact lhs_row _ _
    | ⟨1, _⟩ => exact (lhs_contr _ _).trans hk)
  have er : dot_S2000x256_S256x1024_S2000x1024_1_0_0_1_n_n.rhsIdx (ix2 r g) ((contrEquiv1 dot_S2000x256_S256x1024_S2000x1024_1_0_0_1_n_n 256 rfl rfl).symm k) = ix2 k g := funext fun a => Fin.ext (by
    match a with
    | ⟨0, _⟩ => exact (rhs_contr _ _).trans hk
    | ⟨1, _⟩ => exact rhs_col _ _)
  rw [el, er, ← hy, transpose_ix2_apply]

/-- The gate pre-activations of a block: row r is `gateRow` of row r of the two feature blocks. -/
theorem pay1_apply (r : Fin 2000) (g : Fin 1024) :
    k3_pay1 x0 x1 x3 x4 x5 x6 (ix2 r g) = gateRow (fun k => x0 (ix2 r k)) (fun k => x1 (ix2 r k)) (fun g k => x3 (ix2 g k)) (fun g k => x4 (ix2 g k)) (fun g => x5 (ix2 0 g)) (fun g => x6 (ix2 0 g)) g := by
  unfold k3_pay1 gateRow
  dsimp only
  simp only [shapeCast_self]
  rw [addf_apply, addf_apply, addf_apply, matmul_row, matmul_row, broadcastTo_1b_ab_apply, broadcastTo_1b_ab_apply]
  rfl
end Payload

section Payload2
variable (x0 x1 x2 : Vec Ideal S2000x256 .f32) (x3 x4 : Vec Ideal S1024x256 .f32) (x5 x6 : Vec Ideal S1x1024 .f32)

/-- The logistic function of a vector, lane by lane. -/
theorem logistic_at {s : Shape} {φ : FTy} (a : FVec Ideal s φ) (i : s.Idx) : logistic a i = Ideal.logistic (a i) := rfl
/-- The hyperbolic tangent of a vector, lane by lane. -/
theorem tanh_at {s : Shape} {φ : FTy} (a : FVec Ideal s φ) (i : s.Idx) : tanh a i = Ideal.tanh (a i) := rfl

/-- The four column blocks of the gate pre-activations: column d of the block at offset o is column o + d. -/
theorem gate_i (X : FVec Ideal S2000x1024 .f32) (r : Fin 2000) (d : Fin 256) :
    extractStridedSlice S2000x256 ![0, 0] X slices_S2000x1024_o0_0_S2000x256 (ix2 r d) = X (ix2 r ⟨d.val, by have := d.isLt; omega⟩) :=
  slice2_axis1_apply 0 X _ r d ⟨d.val, by have := d.isLt; omega⟩ (Nat.zero_add _).symm
theorem gate_f (X : FVec Ideal S2000x1024 .f32) (r : Fin 2000) (d : Fin 256) :
    extractStridedSlice S2000x256 ![0, 256] X slices_S2000x1024_o0_256_S2000x256 (ix2 r d) = X (ix2 r ⟨256 + d.val, by have := d.isLt; omega⟩) :=
  slice2_axis1_apply 256 X _ r d ⟨256 + d.val, by have := d.isLt; omega⟩ rfl
theorem gate_g (X : FVec Ideal S2000x1024 .f32) (r : Fin 2000) (d : Fin 256) :
    extractStridedSlice S2000x256 ![0, 512] X slices_S2000x1024_o0_512_S2000x256 (ix2 r d) = X (ix2 r ⟨512 + d.val, by have := d.isLt; omega⟩) :=
  slice2_axis1_apply 512 X _ r d ⟨512 + d.val, by have := d.isLt; omega⟩ rfl
theorem gate_o (X : FVec Ideal S2000x1024 .f32) (r : Fin 2000) (d : Fin 256) :
    extractStridedSlice S2000x256 ![0, 768] X slices_S2000x1024_o0_768_S2000x256 (ix2 r d) = X (ix2 r ⟨768 + d.val, by have := d.isLt; omega⟩) :=
  slice2_axis1_apply 768 X _ r d ⟨768 + d.val, by have := d.isLt; omega⟩ rfl

/-- The new cell block: row r is `cellRow` of row r's gates and row r of the old cell block. -/
theorem pay2_apply (r : Fin 2000) (d : Fin 256) :
    k3_pay2 x0 x1 x3 x4 x5 x6 x2 (ix2 r d) =
      cellRow (gateRow (fun k => x0 (ix2 r k)) (fun k => x1 (ix2 r k)) (fun g k => x3 (ix2 g k)) (fun g k => x4 (ix2 g k)) (fun g => x5 (ix2 0 g)) (fun g => x6 (ix2 0 g)))
        (fun d' => x2 (ix2 r d')) d := by
  unfold k3_pay2 cellRow
  try dsimp only
  simp only [shapeCast_self]
  rw [addf_apply, mulf_apply, mulf_apply, logistic_at, logistic_at, tanh_at, gate_f, gate_i, gate_g,
    pay1_apply, pay1_apply, pay1_apply]

/-- The new hidden block: row r is `hidRow` of row r's gates and row r of the new cell block. -/
theorem pay3_apply (r : Fin 2000) (d : Fin 256) :
    k3_pay3 x0 x1 x3 x4 x5 x6 x2 (ix2 r d) =
      hidRow (gateRow (fun k => x0 (ix2 r k)) (fun k => x1 (ix2 r k)) (fun g k => x3 (ix2 g k)) (fun g k => x4 (ix2 g k)) (fun g => x5 (ix2 0 g)) (fun g => x6 (ix2 0 g)))
        (cellRow (gateRow (fun k => x0 (ix2 r k)) (fun k => x1 (ix2 r k)) (fun g k => x3 (ix2 g k)) (fun g k => x4 (ix2 g k)) (fun g => x5 (ix2 0 g)) (fun g => x6 (ix2 0 g)))
          (fun d' => x2 (ix2 r d'))) d := by
  unfold k3_pay3 hidRow
  try dsimp only
  rw [mulf_apply, logistic_at, tanh_at, gate_o, pay1_apply, pay2_apply]
end Payload2

/-! ## From blocks to arrays -/

variable (V : (c : Dev nD) → (b : Ref sig .tc) → Buf (Elt Ideal) ((c : Thread nD τ).loc b))

/-- Node v's gate pre-activations, off the buffers as the launch found them. -/
def gates (c : Dev nD) (v : Fin 20000) : Fin 1024 → EReal :=
  gateRow (fun k => (V c main_v31_0 : S20000x256.Idx → EReal) (ix2 v k)) (fun k => (V c main_v47 : S20000x256.Idx → EReal) (ix2 v k))
    (fun g k => (V c main_v49 : S1024x256.Idx → EReal) (ix2 g k)) (fun g k => (V c main_v51 : S1024x256.Idx → EReal) (ix2 g k))
    (fun g => (V c main_v56 : S1x1024.Idx → EReal) (ix2 0 g)) (fun g => (V c main_v57 : S1x1024.Idx → EReal) (ix2 0 g))

theorem hz : (![0, 0] : Fin 2 → Nat) = fun _ => 0 := funext fun a => by fin_cases a <;> rfl

/-- The block index maps over the ten grid points: the node-row windows sit at row block t, the weights and
    biases at their one block, and every window at column block 0. -/
theorem idx_facts : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = t.val ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = 0 ∧ win3_5.index t (1 : Fin 2) = 0)
    ∧ (win3_6.index t (0 : Fin 2) = 0 ∧ win3_6.index t (1 : Fin 2) = 0)
    ∧ (win3_7.index t (0 : Fin 2) = t.val ∧ win3_7.index t (1 : Fin 2) = 0)
    ∧ (win3_8.index t (0 : Fin 2) = t.val ∧ win3_8.index t (1 : Fin 2) = 0) :=
  (by decide +kernel : ∀ t : Fin grid3.N, _)

/-- The hidden-state input block at point t is rows 2000·t … 2000·t + 1999 of its array. -/
theorem iblk_h (c : Dev nD) (t : Fin cfg3.N) (r : Fin 2000) (k : Fin 256) (v : Fin 20000) (hv : v.val = 2000 * t.val + r.val) :
    (iblk3 V c 0 t : Vec Ideal S2000x256 .f32) (ix2 r k) = (V c main_v31_0 : S20000x256.Idx → EReal) (ix2 v k) := by
  obtain ⟨⟨e0, e1⟩, -⟩ := idx_facts t
  unfold iblk3
  rw [View.read_apply]
  show (V c main_v31_0 : S20000x256.Idx → EReal) _ = _
  congr 1
  funext a
  apply Fin.ext
  match a with
  | ⟨0, _⟩ => show win3_0.index t 0 * 2000 + 1 * r.val = v.val; rw [e0, hv]; omega
  | ⟨1, _⟩ => show win3_0.index t 1 * 256 + 1 * k.val = k.val; rw [e1]; omega

/-- The aggregated-message input block at point t, likewise. -/
theorem iblk_a (c : Dev nD) (t : Fin cfg3.N) (r : Fin 2000) (k : Fin 256) (v : Fin 20000) (hv : v.val = 2000 * t.val + r.val) :
    (iblk3 V c 1 t : Vec Ideal S2000x256 .f32) (ix2 r k) = (V c main_v47 : S20000x256.Idx → EReal) (ix2 v k) := by
  obtain ⟨-, ⟨e0, e1⟩, -⟩ := idx_facts t
  unfold iblk3
  rw [View.read_apply]
  show (V c main_v47 : S20000x256.Idx → EReal) _ = _
  congr 1
  funext a
  apply Fin.ext
  match a with
  | ⟨0, _⟩ => show win3_1.index t 0 * 2000 + 1 * r.val = v.val; rw [e0, hv]; omega
  | ⟨1, _⟩ => show win3_1.index t 1 * 256 + 1 * k.val = k.val; rw [e1]; omega

/-- The old-cell input block at point t, likewise. -/
theorem iblk_c (c : Dev nD) (t : Fin cfg3.N) (r : Fin 2000) (k : Fin 256) (v : Fin 20000) (hv : v.val = 2000 * t.val + r.val) :
    (iblk3 V c 2 t : Vec Ideal S2000x256 .f32) (ix2 r k) = (V c main_v31_1 : S20000x256.Idx → EReal) (ix2 v k) := by
  obtain ⟨-, -, ⟨e0, e1⟩, -⟩ := idx_facts t
  unfold iblk3
  rw [View.read_apply]
  show (V c main_v31_1 : S20000x256.Idx → EReal) _ = _
  congr 1
  funext a
  apply Fin.ext
  match a with
  | ⟨0, _⟩ => show win3_2.index t 0 * 2000 + 1 * r.val = v.val; rw [e0, hv]; omega
  | ⟨1, _⟩ => show win3_2.index t 1 * 256 + 1 * k.val = k.val; rw [e1]; omega

/-- The input-weight block is the whole weight matrix at every point. -/
theorem iblk_Wih (c : Dev nD) (t : Fin cfg3.N) (g : Fin 1024) (k : Fin 256) :
    (iblk3 V c 3 t : Vec Ideal S1024x256 .f32) (ix2 g k) = (V c main_v49 : S1024x256.Idx → EReal) (ix2 g k) := by
  obtain ⟨-, -, -, ⟨e0, e1⟩, -⟩ := idx_facts t
  unfold iblk3
  rw [View.read_apply]
  show (V c main_v49 : S1024x256.Idx → EReal) _ = _
  congr 1
  funext a
  apply Fin.ext
  match a with
  | ⟨0, _⟩ => show win3_3.index t 0 * 1024 + 1 * g.val = g.val; rw [e0]; omega
  | ⟨1, _⟩ => show win3_3.index t 1 * 256 + 1 * k.val = k.val; rw [e1]; omega

/-- The message-weight block is the whole weight matrix at every point. -/
theorem iblk_Whh (c : Dev nD) (t : Fin cfg3.N) (g : Fin 1024) (k : Fin 256) :
    (iblk3 V c 4 t : Vec Ideal S1024x256 .f32) (ix2 g k) = (V c main_v51 : S1024x256.Idx → EReal) (ix2 g k) := by
  obtain ⟨-, -, -, -, ⟨e0, e1⟩, -⟩ := idx_facts t
  unfold iblk3
  rw [View.read_apply]
  show (V c main_v51 : S1024x256.Idx → EReal) _ = _
  congr 1
  funext a
  apply Fin.ext
  match a with
  | ⟨0, _⟩ => show win3_4.index t 0 * 1024 + 1 * g.val = g.val; rw [e0]; omega
  | ⟨1, _⟩ => show win3_4.index t 1 * 256 + 1 * k.val = k.val; rw [e1]; omega

/-- The first bias block is the whole bias row at every point. -/
theorem iblk_bih (c : Dev nD) (t : Fin cfg3.N) (g : Fin 1024) :
    (iblk3 V c 5 t : Vec Ideal S1x1024 .f32) (ix2 0 g) = (V c main_v56 : S1x1024.Idx → EReal) (ix2 0 g) := by
  obtain ⟨-, -, -, -, -, ⟨e0, e1⟩, -⟩ := idx_facts t
  unfold iblk3
  rw [View.read_apply]
  show (V c main_v56 : S1x1024.Idx → EReal) _ = _
  congr 1
  funext a
  apply Fin.ext
  match a with
  | ⟨0, _⟩ => show win3_5.index t 0 * 1 + 1 * 0 = 0; rw [e0]
  | ⟨1, _⟩ => show win3_5.index t 1 * 1024 + 1 * g.val = g.val; rw [e1]; omega

/-- The second bias block is the whole bias row at every point. -/
theorem iblk_bhh (c : Dev nD) (t : Fin cfg3.N) (g : Fin 1024) :
    (iblk3 V c 6 t : Vec Ideal S1x1024 .f32) (ix2 0 g) = (V c main_v57 : S1x1024.Idx → EReal) (ix2 0 g) := by
  obtain ⟨-, -, -, -, -, -, ⟨e0, e1⟩, -⟩ := idx_facts t
  unfold iblk3
  rw [View.read_apply]
  show (V c main_v57 : S1x1024.Idx → EReal) _ = _
  congr 1
  funext a
  apply Fin.ext
  match a with
  | ⟨0, _⟩ => show win3_6.index t 0 * 1 + 1 * 0 = 0; rw [e0]
  | ⟨1, _⟩ => show win3_6.index t 1 * 1024 + 1 * g.val = g.val; rw [e1]; omega

/-- Row r of the gate pre-activations computed at point t is node 2000·t + r's. -/
theorem gates_point (c : Dev nD) (t : Fin cfg3.N) (r : Fin 2000) (v : Fin 20000) (hv : v.val = 2000 * t.val + r.val) :
    gateRow (fun k => (iblk3 V c 0 t : Vec Ideal S2000x256 .f32) (ix2 r k)) (fun k => (iblk3 V c 1 t : Vec Ideal S2000x256 .f32) (ix2 r k))
      (fun g k => (iblk3 V c 3 t : Vec Ideal S1024x256 .f32) (ix2 g k)) (fun g k => (iblk3 V c 4 t : Vec Ideal S1024x256 .f32) (ix2 g k))
      (fun g => (iblk3 V c 5 t : Vec Ideal S1x1024 .f32) (ix2 0 g)) (fun g => (iblk3 V c 6 t : Vec Ideal S1x1024 .f32) (ix2 0 g)) = gates V c v := by
  unfold gates
  rw [show (fun k => (iblk3 V c 0 t : Vec Ideal S2000x256 .f32) (ix2 r k)) = fun k => (V c main_v31_0 : S20000x256.Idx → EReal) (ix2 v k) from funext fun k => iblk_h V c t r k v hv,
    show (fun k => (iblk3 V c 1 t : Vec Ideal S2000x256 .f32) (ix2 r k)) = fun k => (V c main_v47 : S20000x256.Idx → EReal) (ix2 v k) from funext fun k => iblk_a V c t r k v hv,
    show (fun g k => (iblk3 V c 3 t : Vec Ideal S1024x256 .f32) (ix2 g k)) = fun g k => (V c main_v49 : S1024x256.Idx → EReal) (ix2 g k) from funext fun g => funext fun k => iblk_Wih V c t g k,
    show (fun g k => (iblk3 V c 4 t : Vec Ideal S1024x256 .f32) (ix2 g k)) = fun g k => (V c main_v51 : S1024x256.Idx → EReal) (ix2 g k) from funext fun g => funext fun k => iblk_Whh V c t g k,
    show (fun g => (iblk3 V c 5 t : Vec Ideal S1x1024 .f32) (ix2 0 g)) = fun g => (V c main_v56 : S1x1024.Idx → EReal) (ix2 0 g) from funext fun g => iblk_bih V c t g,
    show (fun g => (iblk3 V c 6 t : Vec Ideal S1x1024 .f32) (ix2 0 g)) = fun g => (V c main_v57 : S1x1024.Idx → EReal) (ix2 0 g) from funext fun g => iblk_bhh V c t g]

/-- Row r of the new cell block computed at point t is node 2000·t + r's new cell row. -/
theorem cell_point (c : Dev nD) (t : Fin cfg3.N) (r : Fin 2000) (d : Fin 256) (v : Fin 20000) (hv : v.val = 2000 * t.val + r.val) :
    k3_pay2 (iblk3 V c 0 t) (iblk3 V c 1 t) (iblk3 V c 3 t) (iblk3 V c 4 t) (iblk3 V c 5 t) (iblk3 V c 6 t) (iblk3 V c 2 t) (ix2 r d)
      = cellRow (gates V c v) (fun d' => (V c main_v31_1 : S20000x256.Idx → EReal) (ix2 v d')) d := by
  refine (pay2_apply (iblk3 V c 0 t) (iblk3 V c 1 t) (iblk3 V c 2 t) (iblk3 V c 3 t) (iblk3 V c 4 t) (iblk3 V c 5 t) (iblk3 V c 6 t) r d).trans ?_
  rw [gates_point V c t r v hv,
    show (fun d' => (iblk3 V c 2 t : Vec Ideal S2000x256 .f32) (ix2 r d')) = fun d' => (V c main_v31_1 : S20000x256.Idx → EReal) (ix2 v d') from funext fun k => iblk_c V c t r k v hv]

/-- Row r of the new hidden block computed at point t is node 2000·t + r's new hidden row. -/
theorem hidden_point (c : Dev nD) (t : Fin cfg3.N) (r : Fin 2000) (d : Fin 256) (v : Fin 20000) (hv : v.val = 2000 * t.val + r.val) :
    k3_pay3 (iblk3 V c 0 t) (iblk3 V c 1 t) (iblk3 V c 3 t) (iblk3 V c 4 t) (iblk3 V c 5 t) (iblk3 V c 6 t) (iblk3 V c 2 t) (ix2 r d)
      = hidRow (gates V c v) (cellRow (gates V c v) (fun d' => (V c main_v31_1 : S20000x256.Idx → EReal) (ix2 v d'))) d := by
  refine (pay3_apply (iblk3 V c 0 t) (iblk3 V c 1 t) (iblk3 V c 2 t) (iblk3 V c 3 t) (iblk3 V c 4 t) (iblk3 V c 5 t) (iblk3 V c 6 t) r d).trans ?_
  rw [gates_point V c t r v hv,
    show (fun d' => (iblk3 V c 2 t : Vec Ideal S2000x256 .f32) (ix2 r d')) = fun d' => (V c main_v31_1 : S20000x256.Idx → EReal) (ix2 v d') from funext fun k => iblk_c V c t r k v hv]

/-- The new cell array as one function of the buffers the launch found: node v's new cell row at (v, d). -/
def cellArr (c : Dev nD) : S20000x256.Idx → EReal := fun i =>
  cellRow (gates V c ⟨(i 0).val, idx2_lt0 i⟩) (fun d' => (V c main_v31_1 : S20000x256.Idx → EReal) (ix2 ⟨(i 0).val, idx2_lt0 i⟩ d')) ⟨(i 1).val, idx2_lt1 i⟩

/-- The new hidden array as one function of the buffers the launch found: node v's new hidden row at (v, d). -/
def hidArr (c : Dev nD) : S20000x256.Idx → EReal := fun i =>
  hidRow (gates V c ⟨(i 0).val, idx2_lt0 i⟩)
    (cellRow (gates V c ⟨(i 0).val, idx2_lt0 i⟩) (fun d' => (V c main_v31_1 : S20000x256.Idx → EReal) (ix2 ⟨(i 0).val, idx2_lt0 i⟩ d'))) ⟨(i 1).val, idx2_lt1 i⟩

theorem cellArr_at (c : Dev nD) (i : S20000x256.Idx) (v : Fin 20000) (d : Fin 256) (h0 : (i 0).val = v.val) (h1 : (i 1).val = d.val) :
    cellArr V c i = cellRow (gates V c v) (fun d' => (V c main_v31_1 : S20000x256.Idx → EReal) (ix2 v d')) d := by
  obtain rfl : v = ⟨(i 0).val, idx2_lt0 i⟩ := Fin.ext h0.symm
  obtain rfl : d = ⟨(i 1).val, idx2_lt1 i⟩ := Fin.ext h1.symm
  rfl

theorem hidArr_at (c : Dev nD) (i : S20000x256.Idx) (v : Fin 20000) (d : Fin 256) (h0 : (i 0).val = v.val) (h1 : (i 1).val = d.val) :
    hidArr V c i = hidRow (gates V c v) (cellRow (gates V c v) (fun d' => (V c main_v31_1 : S20000x256.Idx → EReal) (ix2 v d'))) d := by
  obtain rfl : v = ⟨(i 0).val, idx2_lt0 i⟩ := Fin.ext h0.symm
  obtain rfl : d = ⟨(i 1).val, idx2_lt1 i⟩ := Fin.ext h1.symm
  rfl

/-- What the write-back of the new cell block takes from the staging buffer is the buffer, entry by entry. -/
theorem cut_cell (P : S2000x256.Idx → EReal) (t : Fin cfg3.N) (j : ((cfg3.win 8).xblock (grid3.coords t)).Idx) :
    (cfg3.win 8).cut (grid3.coords t) P j = P (ix2 (⟨(j 0).val, (j 0).isLt⟩ : Fin 2000) (⟨(j 1).val, (j 1).isLt⟩ : Fin 256)) := by
  show P _ = P _
  congr 1
  funext a
  match a with
  | ⟨0, _⟩ => rfl
  | ⟨1, _⟩ => rfl

/-- Likewise for the new hidden block. -/
theorem cut_hidden (P : S2000x256.Idx → EReal) (t : Fin cfg3.N) (j : ((cfg3.win 7).xblock (grid3.coords t)).Idx) :
    (cfg3.win 7).cut (grid3.coords t) P j = P (ix2 (⟨(j 0).val, (j 0).isLt⟩ : Fin 2000) (⟨(j 1).val, (j 1).isLt⟩ : Fin 256)) := by
  show P _ = P _
  congr 1
  funext a
  match a with
  | ⟨0, _⟩ => rfl
  | ⟨1, _⟩ => rfl

/-- What point t writes back to the new cell array is block t of `cellArr`. -/
theorem flushed_cell (c : Dev nD) (t : Fin cfg3.N) :
    (dat3 V c).flushed 8 t = ((cfg3.win 8).blk t).view.read (Elt Ideal) (cellArr V c) := by
  show (cfg3.win 8).cut (grid3.coords t) ((dat3 V c).after 8 t) = _
  rw [after3_8]
  unfold out3_8
  rw [View.canon_unit_zero hz]
  simp only [View.ld_unit_zero (S := S2000x256) hz, View.ld_unit_zero (S := S1024x256) hz, View.ld_unit_zero (S := S1x1024) hz]
  obtain ⟨-, -, -, -, -, -, -, -, ⟨e0, e1⟩⟩ := idx_facts t
  have ht : t.val < 10 := lt_of_lt_of_eq t.isLt N_3
  funext j
  have hj0 : (j 0).val < 2000 := (j 0).isLt
  rw [View.read_apply]
  refine (cut_cell _ t j).trans ?_
  refine (cell_point V c t _ _ ⟨2000 * t.val + (j 0).val, by omega⟩ rfl).trans ?_
  refine (cellArr_at V c _ _ _ ?_ ?_).symm
  · show win3_8.index t 0 * 2000 + 1 * (j 0).val = 2000 * t.val + (j 0).val; rw [e0]; omega
  · show win3_8.index t 1 * 256 + 1 * (j 1).val = (j 1).val; rw [e1]; omega

/-- What point t writes back to the new hidden array is block t of `hidArr`. -/
theorem flushed_hidden (c : Dev nD) (t : Fin cfg3.N) :
    (dat3 V c).flushed 7 t = ((cfg3.win 7).blk t).view.read (Elt Ideal) (hidArr V c) := by
  show (cfg3.win 7).cut (grid3.coords t) ((dat3 V c).after 7 t) = _
  rw [after3_7]
  unfold out3_7
  rw [View.canon_unit_zero hz]
  simp only [View.ld_unit_zero (S := S2000x256) hz, View.ld_unit_zero (S := S1024x256) hz, View.ld_unit_zero (S := S1x1024) hz]
  obtain ⟨-, -, -, -, -, -, -, ⟨e0, e1⟩, -⟩ := idx_facts t
  have ht : t.val < 10 := lt_of_lt_of_eq t.isLt N_3
  funext j
  have hj0 : (j 0).val < 2000 := (j 0).isLt
  rw [View.read_apply]
  refine (cut_hidden _ t j).trans ?_
  refine (hidden_point V c t _ _ ⟨2000 * t.val + (j 0).val, by omega⟩ rfl).trans ?_
  refine (hidArr_at V c _ _ _ ?_ ?_).symm
  · show win3_7.index t 0 * 2000 + 1 * (j 0).val = 2000 * t.val + (j 0).val; rw [e0]; omega
  · show win3_7.index t 1 * 256 + 1 * (j 1).val = (j 1).val; rw [e1]; omega

/-- An index of the cell array is in point t's block iff each coordinate is in the block's range on its axis. -/
theorem mem_blk_cell (t : Fin cfg3.N) (i : S20000x256.Idx) :
    i ∈ ((cfg3.win 8).blk t).view.set ↔ ∀ a : Fin 2, win3_8.index t a * S2000x256.size a ≤ (i a).val ∧ (i a).val < win3_8.index t a * S2000x256.size a + S2000x256.size a := by
  show i ∈ ((View.whole main_v58_1).slice (win3_8.rect t)).set ↔ _
  rw [View.set_slice_whole, Rect.mem_set_unit]
  exact Iff.rfl

/-- Likewise for the hidden array. -/
theorem mem_blk_hidden (t : Fin cfg3.N) (i : S20000x256.Idx) :
    i ∈ ((cfg3.win 7).blk t).view.set ↔ ∀ a : Fin 2, win3_7.index t a * S2000x256.size a ≤ (i a).val ∧ (i a).val < win3_7.index t a * S2000x256.size a + S2000x256.size a := by
  show i ∈ ((View.whole main_v58_0).slice (win3_7.rect t)).set ↔ _
  rw [View.set_slice_whole, Rect.mem_set_unit]
  exact Iff.rfl

/-- Row v of the cell array is written back by point v / 2000. -/
theorem cover_cell (i : S20000x256.Idx) : ∃ t : Fin cfg3.N, (cfg3.win 8).flush t = true ∧ i ∈ ((cfg3.win 8).blk t).view.set := by
  have hi0 : (i 0).val < 20000 := (i 0).isLt
  have hi1 : (i 1).val < 256 := (i 1).isLt
  have hN : cfg3.N = 10 := N_3
  refine ⟨⟨(i 0).val / 2000, by rw [hN]; omega⟩, flush3_8 _, ?_⟩
  obtain ⟨-, -, -, -, -, -, -, -, ⟨e0, e1⟩⟩ := idx_facts ⟨(i 0).val / 2000, by rw [hN]; omega⟩
  rw [mem_blk_cell]
  intro a
  match a with
  | ⟨0, _⟩ =>
    show win3_8.index _ 0 * 2000 ≤ (i 0).val ∧ (i 0).val < win3_8.index _ 0 * 2000 + 2000
    rw [e0]; show (i 0).val / 2000 * 2000 ≤ (i 0).val ∧ (i 0).val < (i 0).val / 2000 * 2000 + 2000; omega
  | ⟨1, _⟩ =>
    show win3_8.index _ 1 * 256 ≤ (i 1).val ∧ (i 1).val < win3_8.index _ 1 * 256 + 256
    rw [e1]; omega

/-- Row v of the hidden array is written back by point v / 2000. -/
theorem cover_hidden (i : S20000x256.Idx) : ∃ t : Fin cfg3.N, (cfg3.win 7).flush t = true ∧ i ∈ ((cfg3.win 7).blk t).view.set := by
  have hi0 : (i 0).val < 20000 := (i 0).isLt
  have hi1 : (i 1).val < 256 := (i 1).isLt
  have hN : cfg3.N = 10 := N_3
  refine ⟨⟨(i 0).val / 2000, by rw [hN]; omega⟩, flush3_7 _, ?_⟩
  obtain ⟨-, -, -, -, -, -, -, ⟨e0, e1⟩, -⟩ := idx_facts ⟨(i 0).val / 2000, by rw [hN]; omega⟩
  rw [mem_blk_hidden]
  intro a
  match a with
  | ⟨0, _⟩ =>
    show win3_7.index _ 0 * 2000 ≤ (i 0).val ∧ (i 0).val < win3_7.index _ 0 * 2000 + 2000
    rw [e0]; show (i 0).val / 2000 * 2000 ≤ (i 0).val ∧ (i 0).val < (i 0).val / 2000 * 2000 + 2000; omega
  | ⟨1, _⟩ =>
    show win3_7.index _ 1 * 256 ≤ (i 1).val ∧ (i 1).val < win3_7.index _ 1 * 256 + 256
    rw [e1]; omega

/-- After the launch the new cell array is `cellArr`. -/
theorem cell_array (c : Dev nD) : (dat3 (F := Ideal) V c).arrAt 8 cfg3.N = cellArr V c :=
  (dat3 V c).arrAt_eq_of_cover 8 (cellArr V c) (fun t _ => flushed_cell V c t) cover_cell

/-- After the launch the new hidden array is `hidArr`. -/
theorem hidden_array (c : Dev nD) : (dat3 (F := Ideal) V c).arrAt 7 cfg3.N = hidArr V c :=
  (dat3 V c).arrAt_eq_of_cover 7 (hidArr V c) (fun t _ => flushed_hidden V c t) cover_hidden

/-- After the launch, entry (v, d) of the new cell array. -/
theorem cell (c : Dev nD) (v : Fin 20000) (d : Fin 256) :
    ((dat3 (F := Ideal) V c).arrAt 8 cfg3.N : S20000x256.Idx → EReal) (ix2 v d) =
      cellRow (gates V c v) (fun d' => (V c main_v31_1 : S20000x256.Idx → EReal) (ix2 v d')) d :=
  (congrFun (cell_array V c) (ix2 v d)).trans (cellArr_at V c (ix2 v d) v d rfl rfl)

/-- After the launch, entry (v, d) of the new hidden array. -/
theorem hidden (c : Dev nD) (v : Fin 20000) (d : Fin 256) :
    ((dat3 (F := Ideal) V c).arrAt 7 cfg3.N : S20000x256.Idx → EReal) (ix2 v d) =
      hidRow (gates V c v) (cellRow (gates V c v) (fun d' => (V c main_v31_1 : S20000x256.Idx → EReal) (ix2 v d'))) d :=
  (congrFun (hidden_array V c) (ix2 v d)).trans (hidArr_at V c (ix2 v d) v d rfl rfl)

end Cert.KernelIdeal.Cell3
end
-- ==== Proof.KReadout.lean ====
/-
  The readout launch, read as one function of the arrays it finds.

  The launch walks the 20000 nodes in 10 blocks of 2000 rows.  Each point computes, for its block, the gated readout
  term of every node row (a logistic gate times a linear feature, both through 256-wide contractions) and adds the
  block's column sums onto one result row of 256, which is zeroed at the first point, carried from point to point in
  its buffer, and written back once after the last point.  The stored value is read one column at a time against the
  row map; the running row is the sum over an initial segment of the nodes, by induction on the point; the one
  write-back covers the whole row.  Sums of extended reals are sums in a commutative monoid, so regrouping the nodes
  into blocks needs no finiteness.
-/
import proofs.«114160_j24077586661654_1_alg».proof.Proof.Gen.KernelIdeal.Frame
import proofs.«114160_j24077586661654_1_alg».proof.Proof.RowMaps
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
noncomputable section
open Idealize.ShloMosaic Idealize.ShloMosaic.TcCoe Idealize.SL.Sem
open Idealize.ShloMosaic.Pipeline (Dat)
open Idealize.ShloMosaic.ValueIdx
namespace Cert.KernelIdeal.Readout
open Cert.KernelIdeal Cert.KernelIdeal.Gen Cert.RowMaps

/-! ## The readout body's layout operations and contractions, one entry at a time -/

local notation "DR" => dot_S2000x256_S256x256_S2000x256_1_0_0_1_n_n

theorem mm_l0 (i : S2000x256.Idx) (q : (DR).contr.Idx) : ((DR).lhsIdx i q 0).val = (i 0).val := by
  unfold DotDims.lhsIdx
  rw [dif_neg (show ¬(0 : Fin S2000x256.rank) ∈ (DR).lhsBatch by decide), dif_pos (show (0 : Fin S2000x256.rank) ∈ (DR).lhsNonContracting by decide)]
  rfl
theorem mm_l1 (i : S2000x256.Idx) (q : (DR).contr.Idx) : ((DR).lhsIdx i q 1).val = (q ⟨0, by decide⟩).val :=
  (DR).lhsIdx_val_of_single rfl i q
theorem mm_r0 (i : S2000x256.Idx) (q : (DR).contr.Idx) : ((DR).rhsIdx i q 0).val = (q ⟨0, by decide⟩).val :=
  (DR).rhsIdx_val_of_single rfl i q
theorem mm_r1 (i : S2000x256.Idx) (q : (DR).contr.Idx) : ((DR).rhsIdx i q 1).val = (i 1).val := by
  unfold DotDims.rhsIdx
  rw [dif_neg (show ¬(1 : Fin S256x256.rank) ∈ (DR).rhsBatch by decide), dif_pos (show (1 : Fin S256x256.rank) ∈ (DR).rhsNonContracting by decide)]
  rfl

/-- A product of a [2000,256] block with a [256,256] matrix into a zero accumulator: row `p` of the left factor
    against column `q` of the right. -/
theorem mm_apply (l : FVec Ideal S2000x256 .bf16) (r : FVec Ideal S256x256 .bf16) (p : Fin 2000) (q : Fin 256) :
    matmul DR none l r (constant S2000x256 .f32 0x00000000#32) (ix2 p q) = ∑ k : Fin 256, l (ix2 p k) * r (ix2 k q) := by
  show FloatOps.matmul DR none l r (constant S2000x256 .f32 0x00000000#32) (ix2 p q) = _
  rw [Ideal.matmul_constant_zero_apply, ← Equiv.sum_comp (contrEquiv1 DR 256 rfl rfl).symm]
  refine Finset.sum_congr rfl fun k _ => ?_
  have hk := contrEquiv1_symm_val DR 256 rfl rfl k
  have el : (DR).lhsIdx (ix2 p q) ((contrEquiv1 DR 256 rfl rfl).symm k) = ix2 p k := funext fun a => Fin.ext (by
    match a with
    | ⟨0, _⟩ => exact mm_l0 _ _
    | ⟨1, _⟩ => exact (mm_l1 _ _).trans hk)
  have er : (DR).rhsIdx (ix2 p q) ((contrEquiv1 DR 256 rfl rfl).symm k) = ix2 k q := funext fun a => Fin.ext (by
    match a with
    | ⟨0, _⟩ => exact (mm_r0 _ _).trans hk
    | ⟨1, _⟩ => exact mm_r1 _ _)
  rw [el, er]

/-- A weight matrix transposed: entry (k, q) is the matrix's entry (q, k). -/
theorem tr_apply {α : Type} (w : S256x256.Idx → α) (h : S256x256.Transposes [1, 0] S256x256) (k q : Fin 256) :
    transpose S256x256 [1, 0] w h (ix2 k q) = w (ix2 q k) :=
  transpose_apply [1, 0] w h (ix2 k q) (ix2 q k) fun b => by
    match b with
    | ⟨0, _⟩ => rfl
    | ⟨1, _⟩ => rfl

/-- A bias row repeated down the 2000 rows. -/
theorem bc_apply {α : Type} (b : S1x256.Idx → α) (h : S1x256.Broadcasts S2000x256) (p : Fin 2000) (q : Fin 256) :
    broadcastTo S2000x256 b h (ix2 p q) = b (ix2 0 q) :=
  broadcastTo_apply b h (ix2 p q) (ix2 0 q) fun a => by
    match a with
    | ⟨0, _⟩ => rfl
    | ⟨1, _⟩ => rfl

/-- The logistic function acts entry by entry. -/
theorem logistic_apply {s : Shape} (v : FVec Ideal s .f32) (i : s.Idx) : logistic v i = Ideal.logistic (v i) := rfl

/-- The sum over the rows: column `g` of the result adds the entries (r, g) of the source. -/
theorem lift_row (h : S2000x256.Reduces [0] S256) (g : Fin 256) (r : Fin 2000) : h.lift (ix1 g) r = ix2 r g :=
  funext fun c => Fin.ext (by
    match c with
    | ⟨0, _⟩ => rfl
    | ⟨1, _⟩ => rfl)

/-- The zero block the first point stores. -/
theorem pay1_apply (g : Fin 256) : (k4_pay1 (F := Ideal) : S1x256.Idx → EReal) (ix2 0 g) = 0 := by
  unfold k4_pay1
  rw [broadcast_apply]
  exact Ideal.ofBits_zero_f32

/-- What a point stores into the result row: what the row held, plus the sum over the block's 2000 rows of the gated
    readout term. Changes of float format are the identity on the extended reals, a product into a zero accumulator is
    the plain finite sum, and the sum over the row axis is a finite sum. -/
theorem pay2_apply (x0 : Vec Ideal S2000x256 .f32) (x1 x3 : Vec Ideal S256x256 .f32) (x2 x4 xo : Vec Ideal S1x256 .f32) (g : Fin 256) :
    (k4_pay2 x0 x1 x3 x2 x4 xo : S1x256.Idx → EReal) (ix2 0 g)
      = xo (ix2 0 g) + ∑ r : Fin 2000, gatedRow (fun k => x0 (ix2 r k)) (fun g' k => x1 (ix2 g' k)) (fun g' k => x3 (ix2 g' k))
          (fun g' => x2 (ix2 0 g')) (fun g' => x4 (ix2 0 g')) g := by
  unfold k4_pay2
  dsimp only
  rw [addf_apply, shapeCast_self]
  refine congrArg (xo (ix2 0 g) + ·) ?_
  rw [shapeCast_apply _ _ (ix2 0 g) (ix1 g) (by
    rewrite [Shape.rowMajor_val_two, Shape.rowMajor_val_one]; show g.val = 0 * 256 + g.val; omega)]
  refine (Ideal.multiReduction_add_single _ _ _ _ _ (ix1 g)).trans ?_
  show ∑ r : Fin 2000, _ = ∑ r : Fin 2000, _
  refine Finset.sum_congr rfl fun r _ => ?_
  rw [lift_row _ g r]
  unfold gatedRow
  rw [mulf_apply, logistic_apply, addf_apply, addf_apply, mm_apply, mm_apply, bc_apply, bc_apply, shapeCast_self, shapeCast_self,
    shapeCast_self]
  simp only [truncf_apply]
  refine congrArg₂ (fun a b => Ideal.logistic (a + x2 (ix2 0 g)) * (b + x4 (ix2 0 g)))
    (Finset.sum_congr rfl fun k _ => ?_) (Finset.sum_congr rfl fun k _ => ?_)
  · rw [tr_apply, truncf_apply]
  · rw [tr_apply, truncf_apply]

theorem hz : (![0, 0] : Fin 2 → Nat) = fun _ => 0 := funext fun a => by fin_cases a <;> rfl

/-! ## The result row the launch leaves

The grid has 10 points; point `t` reads node rows `2000 t … 2000 t + 1999` of the hidden array and the four weight arrays
whole. The result row is zeroed at the first point, every point adds its block's sum of gated terms onto it, and the row
is written back once, after the last point. So the row ends as the sum over all 20000 nodes. -/

variable (V : (c : Dev nD) → (b : Ref sig .tc) → Buf (Elt Ideal) ((c : Thread nD τ).loc b))

/-- Node `v`'s gated readout term at column `g`, as a function on all naturals (zero past the last node), so that
    partial sums over initial segments of the nodes can be written over `Finset.range`. -/
def nodeTerm (H : S20000x256.Idx → EReal) (Wg Wf : S256x256.Idx → EReal) (Bg Bf : S1x256.Idx → EReal) (g : Fin 256)
    (v : ℕ) : EReal :=
  if h : v < 20000 then
    gatedRow (fun k => H (ix2 (⟨v, h⟩ : Fin 20000) k)) (fun g' k => Wg (ix2 g' k)) (fun g' k => Wf (ix2 g' k))
      (fun g' => Bg (ix2 0 g')) (fun g' => Bf (ix2 0 g')) g
  else 0

/-- The result row as one function of the five arrays: at column `g`, the sum of the gated term over all nodes. -/
def total (H : S20000x256.Idx → EReal) (Wg Wf : S256x256.Idx → EReal) (Bg Bf : S1x256.Idx → EReal) : S1x256.Idx → EReal :=
  fun i => ∑ v : Fin 20000, gatedRow (fun k => H (ix2 v k)) (fun g' k => Wg (ix2 g' k)) (fun g' k => Wf (ix2 g' k))
      (fun g' => Bg (ix2 0 g')) (fun g' => Bf (ix2 0 g')) (⟨(i 1).val, idx2_lt1 i⟩ : Fin 256)

theorem total_eq_range (H : S20000x256.Idx → EReal) (Wg Wf : S256x256.Idx → EReal) (Bg Bf : S1x256.Idx → EReal) (g : Fin 256) :
    total H Wg Wf Bg Bf (ix2 0 g) = ∑ v ∈ Finset.range 20000, nodeTerm H Wg Wf Bg Bf g v := by
  rw [Finset.sum_range]
  unfold total
  refine Finset.sum_congr rfl fun v _ => ?_
  unfold nodeTerm
  rw [dif_pos v.isLt]

/-- The block indices decided over the grid: the hidden array's window is at row block `t`; the four weight windows
    and the result row's window are at their one block. -/
theorem idx_in : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0 :=
  (by decide +kernel : ∀ t : Fin grid4.N, _)

theorem idx_out : ∀ t : Fin cfg4.N, win4_5.index t (0 : Fin 2) = 0 ∧ win4_5.index t (1 : Fin 2) = 0 :=
  (by decide +kernel : ∀ t : Fin grid4.N, _)

/-! ### Each input block, read off its array -/

theorem blk0_apply (c : Dev nD) (t : Fin cfg4.N) (x : S2000x256.Idx) (k : S20000x256.Idx)
    (hk0 : (k 0).val = 2000 * t.val + (x 0).val) (hk1 : (k 1).val = (x 1).val) :
    (iblk4 V c 0 t : Vec Ideal S2000x256 .f32) x = (V c main_v58_0 : S20000x256.Idx → EReal) k := by
  obtain ⟨e0, e1, -⟩ := idx_in t
  unfold iblk4
  rw [View.read_apply]
  show V c main_v58_0 _ = V c main_v58_0 _
  refine congrArg _ (funext fun a => Fin.ext ?_)
  match a with
  | ⟨0, _⟩ => show win4_0.index t 0 * 2000 + 1 * (x 0).val = (k 0).val; rw [e0, hk0]; omega
  | ⟨1, _⟩ => show win4_0.index t 1 * 256 + 1 * (x 1).val = (k 1).val; rw [e1, hk1]; omega

theorem blk1_eq (c : Dev nD) (t : Fin cfg4.N) :
    (iblk4 V c 1 t : Vec Ideal S256x256 .f32) = (V c main_arg11 : S256x256.Idx → EReal) := by
  obtain ⟨-, -, e0, e1, -⟩ := idx_in t
  funext x
  unfold iblk4
  rw [View.read_apply]
  show V c main_arg11 _ = V c main_arg11 _
  refine congrArg _ (funext fun a => Fin.ext ?_)
  match a with
  | ⟨0, _⟩ => show win4_1.index t 0 * 256 + 1 * (x 0).val = (x 0).val; rw [e0]; omega
  | ⟨1, _⟩ => show win4_1.index t 1 * 256 + 1 * (x 1).val = (x 1).val; rw [e1]; omega

theorem blk2_eq (c : Dev nD) (t : Fin cfg4.N) :
    (iblk4 V c 2 t : Vec Ideal S1x256 .f32) = (V c main_v59 : S1x256.Idx → EReal) := by
  obtain ⟨-, -, -, -, e0, e1, -⟩ := idx_in t
  funext x
  unfold iblk4
  rw [View.read_apply]
  show V c main_v59 _ = V c main_v59 _
  refine congrArg _ (funext fun a => Fin.ext ?_)
  match a with
  | ⟨0, _⟩ => show win4_2.index t 0 * 1 + 1 * (x 0).val = (x 0).val; rw [e0]; omega
  | ⟨1, _⟩ => show win4_2.index t 1 * 256 + 1 * (x 1).val = (x 1).val; rw [e1]; omega

theorem blk3_eq (c : Dev nD) (t : Fin cfg4.N) :
    (iblk4 V c 3 t : Vec Ideal S256x256 .f32) = (V c main_arg13 : S256x256.Idx → EReal) := by
  obtain ⟨-, -, -, -, -, -, e0, e1, -⟩ := idx_in t
  funext x
  unfold iblk4
  rw [View.read_apply]
  show V c main_arg13 _ = V c main_arg13 _
  refine congrArg _ (funext fun a => Fin.ext ?_)
  match a with
  | ⟨0, _⟩ => show win4_3.index t 0 * 256 + 1 * (x 0).val = (x 0).val; rw [e0]; omega
  | ⟨1, _⟩ => show win4_3.index t 1 * 256 + 1 * (x 1).val = (x 1).val; rw [e1]; omega

theorem blk4_eq (c : Dev nD) (t : Fin cfg4.N) :
    (iblk4 V c 4 t : Vec Ideal S1x256 .f32) = (V c main_v60 : S1x256.Idx → EReal) := by
  obtain ⟨-, -, -, -, -, -, -, -, e0, e1⟩ := idx_in t
  funext x
  unfold iblk4
  rw [View.read_apply]
  show V c main_v60 _ = V c main_v60 _
  refine congrArg _ (funext fun a => Fin.ext ?_)
  match a with
  | ⟨0, _⟩ => show win4_4.index t 0 * 1 + 1 * (x 0).val = (x 0).val; rw [e0]; omega
  | ⟨1, _⟩ => show win4_4.index t 1 * 256 + 1 * (x 1).val = (x 1).val; rw [e1]; omega

/-! ### One point's contribution -/

/-- What a point stores at column `g`, when its hidden block holds node rows `2000 t …` and its weight blocks are the
    weight arrays: what the row held there, plus the gated terms of the nodes `2000 t … 2000 t + 1999`. -/
theorem point (H : S20000x256.Idx → EReal) (Wg Wf : S256x256.Idx → EReal) (Bg Bf : S1x256.Idx → EReal)
    (x0 : Vec Ideal S2000x256 .f32) (x1 : Vec Ideal S256x256 .f32) (x2 : Vec Ideal S1x256 .f32)
    (x3 : Vec Ideal S256x256 .f32) (x4 : Vec Ideal S1x256 .f32) (t : ℕ) (ht : t < 10)
    (h0 : ∀ (x : S2000x256.Idx) (k : S20000x256.Idx), (k 0).val = 2000 * t + (x 0).val → (k 1).val = (x 1).val → x0 x = H k)
    (h1 : x1 = Wg) (h2 : x2 = Bg) (h3 : x3 = Wf) (h4 : x4 = Bf)
    (xo : Vec Ideal S1x256 .f32) (g : Fin 256) (s : EReal) (hs : xo (ix2 0 g) = s) :
    (k4_pay2 x0 x1 x3 x2 x4 xo : S1x256.Idx → EReal) (ix2 0 g)
      = s + ∑ r ∈ Finset.range 2000, nodeTerm H Wg Wf Bg Bf g (2000 * t + r) := by
  subst h1 h2 h3 h4
  rw [pay2_apply, hs, Finset.sum_range]
  refine congrArg (s + ·) (Finset.sum_congr rfl fun r _ => ?_)
  unfold nodeTerm
  have hr : 2000 * t + r.val < 20000 := by have := r.isLt; omega
  rw [dif_pos hr]
  have e0 : (fun k : Fin 256 => x0 (ix2 r k)) = fun k => H (ix2 (⟨2000 * t + r.val, hr⟩ : Fin 20000) k) :=
    funext fun k => h0 _ _ rfl rfl
  rw [e0]

/-! ### What each case of the body leaves in the result row's buffer -/

/-- At the first point the body stores zeros, then stores the zeros it reads back plus the block's sum. -/
theorem outA_eq (c : Dev nD) (i : grid4.Coords) (arg1 : Memref sig .tc .vmem S2000x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x256 .f32) (harg6 : arg6.IsWhole) (hc0 : cond4_0 i)
    (x0 : Vec Ideal S2000x256 .f32) (x1 : Vec Ideal S256x256 .f32) (x2 : Vec Ideal S1x256 .f32) (x3 : Vec Ideal S256x256 .f32) (x4 : Vec Ideal S1x256 .f32) :
    out4_A_5 c i arg1 harg1 arg2 harg2 arg3 harg3 arg4 harg4 arg5 harg5 arg6 harg6 hc0 x0 x1 x2 x3 x4 = k4_pay2 x0 x1 x3 x2 x4 (k4_pay1 (F := Ideal)) := by
  unfold out4_A_5
  rw [View.read_writes_eq_canon _ _ _ (cover4_A_5 c i arg1 harg1 arg2 harg2 arg3 harg3 arg4 harg4 arg5 harg5 arg6 harg6 hc0 x0 x1 x2 x3 x4)]
  unfold kernelRun4_A
  dsimp only
  try sl_unfold_words
  rw [View.canon_cons_unit_zero hz, View.readCov_unit_zero (S := S1x256) _ hz]
  simp only [View.readAt_eq_ld, harg1.read_unread, harg2.read_unread, harg3.read_unread, harg4.read_unread, harg5.read_unread,
    View.ld_unit_zero (S := S2000x256) hz, View.ld_unit_zero (S := S256x256) hz, View.ld_unit_zero (S := S1x256) hz]

/-- At a later point the body stores what the point before left plus the block's sum. -/
theorem outB_eq (c : Dev nD) (i : grid4.Coords) (arg1 : Memref sig .tc .vmem S2000x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x256 .f32) (harg6 : arg6.IsWhole) (hc0 : ¬cond4_0 i)
    (x0 : Vec Ideal S2000x256 .f32) (x1 : Vec Ideal S256x256 .f32) (x2 : Vec Ideal S1x256 .f32) (x3 : Vec Ideal S256x256 .f32) (x4 : Vec Ideal S1x256 .f32) (xo : Vec Ideal S1x256 .f32) :
    out4_B_5 c i arg1 harg1 arg2 harg2 arg3 harg3 arg4 harg4 arg5 harg5 arg6 harg6 hc0 x0 x1 x2 x3 x4 xo = k4_pay2 x0 x1 x3 x2 x4 xo := by
  unfold out4_B_5
  rw [View.read_writes_eq_canon _ _ _ (cover4_B_5 c i arg1 harg1 arg2 harg2 arg3 harg3 arg4 harg4 arg5 harg5 arg6 harg6 hc0 x0 x1 x2 x3 x4 xo)]
  unfold kernelRun4_B
  dsimp only
  try sl_unfold_words
  rw [View.canon_unit_zero hz]
  simp only [View.readAt_eq_ld, harg1.read_unread, harg2.read_unread, harg3.read_unread, harg4.read_unread, harg5.read_unread,
    harg6.read_unread, View.ld_unit_zero (S := S2000x256) hz, View.ld_unit_zero (S := S256x256) hz,
    View.ld_unit_zero (S := S1x256) hz]

/-! ### The running sum -/

/-- At the first point the row ends at the block's sum over zeros. -/
theorem step_A (c : Dev nD) (t : Fin cfg4.N) (h0 : t.val % 10 = 0) :
    outsAt4 V c t.val t.isLt
      = k4_pay2 (iblk4 V c 0 t) (iblk4 V c 1 t) (iblk4 V c 3 t) (iblk4 V c 2 t) (iblk4 V c 4 t) (k4_pay1 (F := Ideal)) :=
  (outsAt4_A V c t h0).trans
    (outA_eq c (grid4.coords t) (ms4_0 t) (hs4_0 t) (ms4_1 t) (hs4_1 t) (ms4_2 t) (hs4_2 t) (ms4_3 t) (hs4_3 t) (ms4_4 t) (hs4_4 t) (ms4_5 t) (hs4_5 t) ((hcond4_0 t).mpr h0) (iblk4 V c 0 t) (iblk4 V c 1 t) (iblk4 V c 2 t) (iblk4 V c 3 t) (iblk4 V c 4 t))

/-- At a later point the row ends at the block's sum over what the point before left. -/
theorem step_B (c : Dev nD) (t : Fin cfg4.N) (h0 : ¬t.val % 10 = 0) :
    outsAt4 V c t.val t.isLt
      = k4_pay2 (iblk4 V c 0 t) (iblk4 V c 1 t) (iblk4 V c 3 t) (iblk4 V c 2 t) (iblk4 V c 4 t)
          (outsAt4 V c (t.val - 1) (Nat.lt_of_le_of_lt (Nat.sub_le _ _) t.isLt)) :=
  (outsAt4_B V c t h0).trans
    (outB_eq c (grid4.coords t) (ms4_0 t) (hs4_0 t) (ms4_1 t) (hs4_1 t) (ms4_2 t) (hs4_2 t) (ms4_3 t) (hs4_3 t) (ms4_4 t) (hs4_4 t) (ms4_5 t) (hs4_5 t) (fun h => h0 ((hcond4_0 t).mp h)) (iblk4 V c 0 t) (iblk4 V c 1 t) (iblk4 V c 2 t) (iblk4 V c 3 t) (iblk4 V c 4 t)
      (outsAt4 V c (t.val - 1) (Nat.lt_of_le_of_lt (Nat.sub_le _ _) t.isLt)))

theorem val_A (c : Dev nD) (t : Fin cfg4.N) (h0 : t.val % 10 = 0) (g : Fin 256) :
    (outsAt4 V c t.val t.isLt : S1x256.Idx → EReal) (ix2 0 g)
      = 0 + ∑ r ∈ Finset.range 2000, nodeTerm (V c main_v58_0) (V c main_arg11) (V c main_arg13) (V c main_v59) (V c main_v60) g (2000 * t.val + r) := by
  have ht : t.val < 10 := lt_of_lt_of_eq t.isLt (show cfg4.N = 10 from N_4)
  rw [step_A V c t h0]
  exact point (V c main_v58_0) (V c main_arg11) (V c main_arg13) (V c main_v59) (V c main_v60) (iblk4 V c 0 t) (iblk4 V c 1 t) (iblk4 V c 2 t) (iblk4 V c 3 t) (iblk4 V c 4 t) t.val ht
    (blk0_apply V c t) (blk1_eq V c t) (blk2_eq V c t) (blk3_eq V c t) (blk4_eq V c t) (k4_pay1 (F := Ideal)) g 0 (pay1_apply g)

theorem val_B (c : Dev nD) (t : Fin cfg4.N) (h0 : ¬t.val % 10 = 0) (g : Fin 256) (s : EReal)
    (hs : (outsAt4 V c (t.val - 1) (Nat.lt_of_le_of_lt (Nat.sub_le _ _) t.isLt) : S1x256.Idx → EReal) (ix2 0 g) = s) :
    (outsAt4 V c t.val t.isLt : S1x256.Idx → EReal) (ix2 0 g)
      = s + ∑ r ∈ Finset.range 2000, nodeTerm (V c main_v58_0) (V c main_arg11) (V c main_arg13) (V c main_v59) (V c main_v60) g (2000 * t.val + r) := by
  have ht : t.val < 10 := lt_of_lt_of_eq t.isLt (show cfg4.N = 10 from N_4)
  rw [step_B V c t h0]
  exact point (V c main_v58_0) (V c main_arg11) (V c main_arg13) (V c main_v59) (V c main_v60) (iblk4 V c 0 t) (iblk4 V c 1 t) (iblk4 V c 2 t) (iblk4 V c 3 t) (iblk4 V c 4 t) t.val ht
    (blk0_apply V c t) (blk1_eq V c t) (blk2_eq V c t) (blk3_eq V c t) (blk4_eq V c t) (outsAt4 V c (t.val - 1) (Nat.lt_of_le_of_lt (Nat.sub_le _ _) t.isLt)) g s hs

/-- An initial segment of the nodes, one block longer: the shorter segment plus the new block. -/
theorem range_step (F : ℕ → EReal) (n : ℕ) :
    ∑ v ∈ Finset.range (2000 * (n + 1) + 2000), F v
      = ∑ v ∈ Finset.range (2000 * n + 2000), F v + ∑ r ∈ Finset.range 2000, F (2000 * (n + 1) + r) := by
  rw [Finset.sum_range_add, show 2000 * (n + 1) = 2000 * n + 2000 by omega]

/-- After point `n` the row holds, at column `g`, the gated terms of the nodes below `2000 (n + 1)`. -/
theorem acc_inv (c : Dev nD) (g : Fin 256) (n : ℕ) (hn : n < cfg4.N) :
    (outsAt4 V c n hn : S1x256.Idx → EReal) (ix2 0 g)
      = ∑ v ∈ Finset.range (2000 * n + 2000), nodeTerm (V c main_v58_0) (V c main_arg11) (V c main_arg13) (V c main_v59) (V c main_v60) g v := by
  have hN : cfg4.N = 10 := N_4
  induction n with
  | zero =>
    refine (val_A V c ⟨0, hn⟩ rfl g).trans ?_
    rw [zero_add]
    show ∑ r ∈ Finset.range 2000, nodeTerm (V c main_v58_0) (V c main_arg11) (V c main_arg13) (V c main_v59) (V c main_v60) g (2000 * 0 + r) = ∑ v ∈ Finset.range (2000 * 0 + 2000), nodeTerm (V c main_v58_0) (V c main_arg11) (V c main_arg13) (V c main_v59) (V c main_v60) g v
    simp only [Nat.mul_zero, Nat.zero_add]
  | succ n ih =>
    have hlt : n + 1 < 10 := lt_of_lt_of_eq hn hN
    rw [range_step]
    exact val_B V c ⟨n + 1, hn⟩ (by show ¬(n + 1) % 10 = 0; omega) g _ (ih (Nat.lt_of_succ_lt hn))

/-! ### The one write-back -/

/-- Two rows of 256 that agree column by column are equal: the row axis has one coordinate. -/
theorem row_ext (a b : S1x256.Idx → EReal) (h : ∀ g : Fin 256, a (ix2 0 g) = b (ix2 0 g)) : a = b :=
  funext fun y => by
    have hy : y = ix2 (0 : Fin 1) (y 1) := funext fun d => by
      match d with
      | ⟨0, _⟩ => exact Fin.ext (by have h0 : (y 0).val < 1 := idx2_lt0 y; show (y 0).val = 0; omega)
      | ⟨1, _⟩ => rfl
    rw [hy]
    exact h (y 1)

/-- The point that writes the row back is the last one, and by then the row holds the sum over all nodes; its block,
    at zero offsets and of the row's own size, is the whole row. -/
theorem flushed_eq (c : Dev nD) (t : Fin cfg4.N) (hf : (cfg4.win 5).flush t = true) :
    (dat4 V c).flushed 5 t = ((cfg4.win 5).blk t).view.read (Elt Ideal) (total (V c main_v58_0) (V c main_arg11) (V c main_arg13) (V c main_v59) (V c main_v60)) := by
  have hN : cfg4.N = 10 := N_4
  have h9 : 2000 * t.val + 2000 = 20000 := by have h := (flush4_5 t).mp hf; have := t.isLt; omega
  have hrow : (outsAt4 V c t.val t.isLt : S1x256.Idx → EReal) = total (V c main_v58_0) (V c main_arg11) (V c main_arg13) (V c main_v59) (V c main_v60) :=
    row_ext _ _ fun g => by rw [acc_inv V c g t.val t.isLt, total_eq_range, h9]
  obtain ⟨e0, e1⟩ := idx_out t
  have hz' : (fun a => win4_5.index t a * main_v61.ty.shape.size a) = fun _ => 0 := funext fun a => by
    match a with
    | ⟨0, _⟩ => show win4_5.index t 0 * 1 = 0; rw [e0]
    | ⟨1, _⟩ => show win4_5.index t 1 * 256 = 0; rw [e1]
  show (cfg4.win 5).cut (grid4.coords t) ((dat4 V c).after 5 t) = _
  rw [after4_5, hrow]
  exact (Memref.read_access_unit_zero (Elt Ideal) main_v61 hz' (fun a => by rw [congrFun hz' a]; simp)
    (total (V c main_v58_0) (V c main_arg11) (V c main_arg13) (V c main_v59) (V c main_v60))).symm

/-- An index of the row is in point `t`'s block iff each coordinate is in the block's range on its axis. -/
theorem mem_blk (t : Fin cfg4.N) (i : S1x256.Idx) :
    i ∈ ((cfg4.win 5).blk t).view.set ↔ ∀ a : Fin 2, win4_5.index t a * S1x256.size a ≤ (i a).val ∧ (i a).val < win4_5.index t a * S1x256.size a + S1x256.size a := by
  show i ∈ ((View.whole main_v61).slice (win4_5.rect t)).set ↔ _
  rw [View.set_slice_whole, Rect.mem_set_unit]
  exact Iff.rfl

/-- The last point's block is the whole row. -/
theorem cover (i : S1x256.Idx) :
    ∃ t : Fin cfg4.N, (cfg4.win 5).flush t = true ∧ i ∈ ((cfg4.win 5).blk t).view.set := by
  have hi0 : (i 0).val < 1 := idx2_lt0 i
  have hi1 : (i 1).val < 256 := idx2_lt1 i
  have hN : cfg4.N = 10 := N_4
  refine ⟨⟨9, by rw [hN]; omega⟩, (flush4_5 _).mpr rfl, ?_⟩
  rw [mem_blk]
  obtain ⟨e0, e1⟩ := idx_out ⟨9, by rw [hN]; omega⟩
  intro a
  match a with
  | ⟨0, _⟩ =>
    show win4_5.index _ 0 * 1 ≤ (i 0).val ∧ (i 0).val < win4_5.index _ 0 * 1 + 1
    rw [e0]; omega
  | ⟨1, _⟩ =>
    show win4_5.index _ 1 * 256 ≤ (i 1).val ∧ (i 1).val < win4_5.index _ 1 * 256 + 256
    rw [e1]; omega

/-- After the launch the result row is the sum of the gated term over all nodes, column by column. -/
theorem final (c : Dev nD) : (dat4 V c).arrAt 5 cfg4.N = total (V c main_v58_0) (V c main_arg11) (V c main_arg13) (V c main_v59) (V c main_v60) :=
  (dat4 V c).arrAt_eq_of_cover 5 (total (V c main_v58_0) (V c main_arg11) (V c main_arg13) (V c main_v59) (V c main_v60)) (fun t hf => flushed_eq V c t hf) cover

/-- After the launch, column `g` of the result row is the sum over all 20000 nodes of the gated readout term of the node's
    hidden row and the readout weights, all read off the buffers as the launch found them. -/
theorem readout_sum (c : Dev nD) (g : Fin 256) :
    ((dat4 (F := Ideal) V c).arrAt 5 cfg4.N : S1x256.Idx → EReal) (ix2 0 g) =
      ∑ v : Fin 20000, gatedRow (fun k => (V c main_v58_0 : S20000x256.Idx → EReal) (ix2 v k))
        (fun g' k => (V c main_arg11 : S256x256.Idx → EReal) (ix2 g' k)) (fun g' k => (V c main_arg13 : S256x256.Idx → EReal) (ix2 g' k))
        (fun g' => (V c main_v59 : S1x256.Idx → EReal) (ix2 0 g')) (fun g' => (V c main_v60 : S1x256.Idx → EReal) (ix2 0 g')) g := by
  rw [final V c]
  rfl

end Cert.KernelIdeal.Readout
end
-- ==== Proof.TakeRows.lean ====
/-
  A row lookup that fills out-of-range rows, when every index is in range.

  The kernel program looks node rows up by an index table with this recipe: a negative index counts
  from the end (20000 is added), the row at the index is read, and a row whose index falls outside
  [0, 19999] is replaced by a fill value.  When every index of the table is in [0, 20000) — signed —
  the recipe adds nothing and replaces nothing: the result is the plain row lookup at the indices.
-/
import proofs.«114160_j24077586661654_1_alg».proof.Proof.Gen.KernelIdeal
import Idealize.ShloMosaic.Lib.ReduceAll
import Idealize.ShloMosaic.Lib.ValueIdx

noncomputable section

namespace Cert.KernelIdeal.TakeRows

open Idealize.ShloMosaic Idealize.ShloMosaic.TcCoe
open Cert.KernelIdeal Cert.KernelIdeal.Facts₀ Cert.KernelIdeal.Facts

/-- A left fold by "and" from 1 over words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- A reduction by "and" of all-ones into an all-ones initial value is 1 everywhere. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  exact foldl_andi_ones x hx _

/-- A nonnegative signed word is not wrapped. -/
theorem wrap_nonneg (w : BitVec 32) (h0 : IntOp.cmpi .sge w 0#32 = 1#1) :
    Scalar.select (IntOp.cmpi .slt w 0#32) (IntOp.addi w 20000#32) w = w := by
  have e0 : (0#32 : BitVec 32).toInt = 0 := by decide
  have hz : IntOp.cmpi .slt w 0#32 = 0#1 := by
    apply ValueIdx.eq_zero_of_ne_one
    rw [IntOp.cmpi_slt]
    rw [IntOp.cmpi_sge] at h0
    omega
  rw [hz]
  exact ValueIdx.select_zero _ _

/-- A signed word in [0, 20000) passes the bounds test 0 ≤ w ≤ 19999. -/
theorem in_bounds (w : BitVec 32) (h0 : IntOp.cmpi .sge w 0#32 = 1#1) (h1 : IntOp.cmpi .slt w 20000#32 = 1#1) :
    IntOp.andi (IntOp.cmpi .sge w 0#32) (IntOp.cmpi .sle w 19999#32) = 1#1 := by
  rw [IntOp.andi_eq_one]
  refine ⟨h0, ?_⟩
  rw [IntOp.cmpi_sle]
  rw [IntOp.cmpi_slt] at h1
  have e1 : (20000#32 : BitVec 32).toInt = 20000 := by decide
  have e2 : (19999#32 : BitVec 32).toInt = 19999 := by decide
  omega

/-- The index with a negative one counted from the end. -/
def wrapIdx (idx : IVec S320000 32) : IVec S320000 32 :=
  select (cmpi .slt idx (broadcastInDim S320000 ![] bcast_S_S320000 (constantI S_ 32 0#32)))
    (addi idx (broadcastInDim S320000 ![] bcast_S_S320000 (constantI S_ 32 20000#32))) idx

/-- The wrapped indices as a column. -/
def idxCol (idx : IVec S320000 32) : IVec S320000x1 32 :=
  broadcastInDim S320000x1 ![0] bcast_S320000_S320000x1_0 (wrapIdx idx)

/-- Per looked-up row: is its index inside [0, 19999]? -/
def inBounds (idx : IVec S320000 32) : IVec S320000 1 :=
  Host.reduce IntOp.andi
    (andi (cmpi .sge (idxCol idx) (broadcastInDim S320000x1 ![] bcast_S_S320000x1 (constantI S_ 32 0#32)))
      (cmpi .sle (idxCol idx) (broadcastInDim S320000x1 ![0, 1] bcast_S1x1_S320000x1_0_1
        (broadcastInDim S1x1 ![1] bcast_S1_S1x1_1 (constantI S1 32 19999#32)))))
    (constantI S_ 1 1#1) reducesTo_S320000x1_S320000_d1 h_S_

/-- The lookup with out-of-range rows filled. -/
def takeRows {F : FTy → Type} [FloatOps F] (x : FVec F S20000x256 .f32) (idx : IVec S320000 32) : FVec F S320000x256 .f32 :=
  select (broadcastInDim S320000x256 ![0] bcast_S320000_S320000x256_0 (inBounds idx))
    (Host.gather gather_S20000x256_S320000x1_S320000x256_1_0_n_n_0_1_1256 x (idxCol idx))
    (broadcastInDim S320000x256 ![] bcast_S_S320000x256 (constant S_ .f32 0x7FC00000#32))

/-- With every index in [0, 20000) every row passes the bounds test. -/
theorem inBounds_one (idx : IVec S320000 32)
    (hr : ∀ e : S320000.Idx, IntOp.cmpi .sge (idx e) 0#32 = 1#1 ∧ IntOp.cmpi .slt (idx e) 20000#32 = 1#1) (k : S320000.Idx) :
    inBounds idx k = 1#1 := by
  unfold inBounds
  refine reduce_andi_ones _ _ _ _ (fun i' => ?_) (fun _ => rfl) k
  obtain ⟨k', hk'⟩ : ∃ k' : S320000.Idx, idxCol idx i' = wrapIdx idx k' := ⟨_, rfl⟩
  have hw : wrapIdx idx k' = idx k' := wrap_nonneg (idx k') (hr k').1
  show IntOp.andi (IntOp.cmpi .sge (idxCol idx i') 0#32) (IntOp.cmpi .sle (idxCol idx i') 19999#32) = 1#1
  rw [hk', hw]
  exact in_bounds _ (hr k').1 (hr k').2

/-- With every index in [0, 20000) the filled lookup is the plain lookup. -/
theorem takeRows_eq {F : FTy → Type} [FloatOps F] (x : FVec F S20000x256 .f32) (idx : IVec S320000 32)
    (hr : ∀ e : S320000.Idx, IntOp.cmpi .sge (idx e) 0#32 = 1#1 ∧ IntOp.cmpi .slt (idx e) 20000#32 = 1#1) :
    takeRows x idx = Host.gather gather_S20000x256_S320000x1_S320000x256_1_0_n_n_0_1_1256 x (idxCol idx) := by
  funext i
  unfold takeRows
  rw [ValueIdx.select_apply]
  obtain ⟨k, hk⟩ : ∃ k : S320000.Idx, broadcastInDim S320000x256 ![0] bcast_S320000_S320000x256_0 (inBounds idx) i = inBounds idx k := ⟨_, rfl⟩
  rw [hk, inBounds_one idx hr k]
  exact ValueIdx.select_one _ _

end Cert.KernelIdeal.TakeRows

end
-- ==== Proof.PreRange.lean ====
/-
  What the precondition says of the edge table.

  The precondition is a conjunction of one-bit tests, the last two of which say that every entry of
  the 2 × 320000 table of edge endpoints, read as a signed word, is at least 0 and below 20000: the
  endpoints name rows of the 20000-row node arrays.  Each test is an all-reduction by "and" of an
  elementwise comparison, so the conjunction being 1 gives each comparison at every entry.
-/
import proofs.«114160_j24077586661654_1_alg».proof.Defs
import proofs.«114160_j24077586661654_1_alg».proof.Proof.Gen.Pre_finite_inputs
import Idealize.ShloMosaic.Lib.ReduceAll
import Idealize.ShloMosaic.Lib.ValueIdx

noncomputable section

namespace Cert.EdgeRange

open Idealize.ShloMosaic Idealize.ShloMosaic.TcCoe Idealize.SL.Sem
open Cert.KernelIdeal

instance : Subsingleton Cert.Pre_finite_inputs.S_.Idx := ⟨fun a b => funext fun d => d.elim0⟩

variable [hPre : Cert.Pre_finite_inputs.Facts]

/-- Under the precondition every edge endpoint, signed, is in [0, 20000). -/
theorem endpoints_in_range (m : (ℓ : Loc nD τ sig) → Buf (Elt Ideal) ℓ) (h : Cert.Pre_KernelIdeal m) (c : Dev nD)
    (i : Cert.Pre_finite_inputs.S2x320000.Idx) :
    IntOp.cmpi .sge ((m ((c.tc : Thread nD τ).loc main_arg2) : IVec Cert.Pre_finite_inputs.S2x320000 32) i) 0#32 = 1#1
      ∧ IntOp.cmpi .slt ((m ((c.tc : Thread nD τ).loc main_arg2) : IVec Cert.Pre_finite_inputs.S2x320000 32) i) 20000#32 = 1#1 := by
  have e := congrFun (h c) ValueIdx.ix0
  unfold Cert.Pre_finite_inputs.fn Cert.Pre_finite_inputs.fn_part1 Cert.Pre_finite_inputs.fn_part2
    Cert.Pre_finite_inputs.fn_part3 Cert.Pre_finite_inputs.fn_part4 at e
  dsimp only at e
  simp only [andi, IntOp.andi_eq_one] at e
  obtain ⟨⟨-, hge⟩, hlt⟩ := e
  have h0 := Host.reduce_andi_all _ _ _ _ _ hge i
  have h1 := Host.reduce_andi_all _ _ _ _ _ hlt i
  exact ⟨h0, h1⟩

end Cert.EdgeRange

end
-- ==== Proof.Glue0.lean ====
import proofs.«114160_j24077586661654_1_alg».proof.Defs
import proofs.«114160_j24077586661654_1_alg».proof.Proof.Gen.KernelIdeal.Frame
import proofs.«114160_j24077586661654_1_alg».proof.Proof.Gen.Pre_finite_inputs
import proofs.«114160_j24077586661654_1_alg».proof.Proof.RefRead
import proofs.«114160_j24077586661654_1_alg».proof.Proof.RefWeights
import proofs.«114160_j24077586661654_1_alg».proof.Proof.TakeRows
import proofs.«114160_j24077586661654_1_alg».proof.Proof.PreRange
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import Idealize.ShloMosaic.Lib.Tactic

noncomputable section

open Idealize.ShloMosaic Idealize.ShloMosaic.TcCoe Idealize.SL.Sem Idealize.ShloMosaic.StableHlo
open Idealize.ShloMosaic.Pipeline (Dat)
open Idealize.ShloMosaic.ValueIdx

namespace Cert.KernelIdeal.Glue0

open Cert.KernelIdeal Cert.KernelIdeal.Gen
open Cert.ReferenceIdeal.ReadP (val_main_v1 val_main_v3 val_main_v4 val_main_v11 val_main_v18 val_main_v21 val_main_v25 val_main_v31 val_main_v35 val_main_v38 val_main_v41 val_main_v43 val_main_v47 val_main_v52 val_main_v57 val_main_v80 val_main_v88 val_main_v95 val_main_v102 val_main_v105 val_main_v109 val_main_v115 val_main_v119 val_main_v122 val_main_v125 val_main_v127 val_main_v131 val_main_v136 val_main_v141 val_main_v164 val_main_v172 val_main_v190)

variable (m : (ℓ : Loc nD τ sig) → Buf (Elt Ideal) ℓ) (ρ : Dev nD → PrngReg)

/-- A host stretch leaves a buffer it does not write as it was. -/
macro "stretch_keeps" ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

/-- The target endpoints (row 1 of the edge table) are in [0, 20000) under the precondition. -/
theorem dst_range (hpre : Cert.Pre_KernelIdeal m) (c : Dev nD) (e : S320000.Idx) :
    IntOp.cmpi .sge (val_main_v3 (F := Ideal) (m ((c.tc : Thread nD τ).loc main_arg2)) e) 0#32 = 1#1
      ∧ IntOp.cmpi .slt (val_main_v3 (F := Ideal) (m ((c.tc : Thread nD τ).loc main_arg2)) e) 20000#32 = 1#1 := by
  obtain ⟨e', rfl⟩ : ∃ e' : Fin 320000, e = ix1 e' := ⟨e 0, eq_ix1 e⟩
  rw [Cert.ReferenceIdeal.Weights.idx_dst]
  exact Cert.EdgeRange.endpoints_in_range m hpre c (ix2 1 e')

/-- The source endpoints (row 0 of the edge table) are in [0, 20000) under the precondition. -/
theorem src_range (hpre : Cert.Pre_KernelIdeal m) (c : Dev nD) (e : S320000.Idx) :
    IntOp.cmpi .sge (val_main_v1 (F := Ideal) (m ((c.tc : Thread nD τ).loc main_arg2)) e) 0#32 = 1#1
      ∧ IntOp.cmpi .slt (val_main_v1 (F := Ideal) (m ((c.tc : Thread nD τ).loc main_arg2)) e) 20000#32 = 1#1 := by
  obtain ⟨e', rfl⟩ : ∃ e' : Fin 320000, e = ix1 e' := ⟨e 0, eq_ix1 e⟩
  rw [Cert.ReferenceIdeal.Weights.idx_src]
  exact Cert.EdgeRange.endpoints_in_range m hpre c (ix2 0 e')

set_option maxRecDepth 200000 in
/-- Entering the first message launch, the target rows are the reference's target-row lookup. -/
theorem v4_dst (hpre : Cert.Pre_KernelIdeal m) (c : Dev nD) :
    (V4 m ρ c main_v5 : S320000x256.Idx → EReal) = val_main_v11 (F := Ideal) (m ((c.tc : Thread nD τ).loc main_arg0)) (m ((c.tc : Thread nD τ).loc main_arg2)) := by
  have h1 : W4 m ρ c (Proc.devRef .tc main_v5) = W2 m ρ c (Proc.devRef .tc main_v5) :=
    (show W4 m ρ c (Proc.devRef .tc main_v5) = W3 m ρ c (Proc.devRef .tc main_v5) by stretch_keeps hostOps0_3).trans
      (show W3 m ρ c (Proc.devRef .tc main_v5) = W2 m ρ c (Proc.devRef .tc main_v5) by stretch_keeps hostOps0_2)
  have h2 : (W2 m ρ c (Proc.devRef .tc main_v5) : S320000x256.Idx → EReal)
      = (TakeRows.takeRows (F := Ideal) (m ((c.tc : Thread nD τ).loc main_arg0)) (val_main_v3 (F := Ideal) (m ((c.tc : Thread nD τ).loc main_arg2))) : S320000x256.Idx → EReal) := by
    show StableHlo.after hostOps0_1 (W1 m ρ c) (Proc.devRef .tc main_v5) = _
    after_results_simp
    simp only [cast_eq]
    have hI : (fun i => shapeCast main_v3.ty.shape (extractStridedSlice S1x320000 ![1, 0] (W0 m ρ c (Proc.devRef .tc main_arg2)) slices_S2x320000_S1x320000_1_0) shapeCasts_S1x320000_S320000 i) = val_main_v3 (F := Ideal) (m ((c.tc : Thread nD τ).loc main_arg2)) := rfl
    simp only [hI]
    exact rfl
  refine h1.trans (h2.trans ?_)
  rw [TakeRows.takeRows_eq _ _ (dst_range m hpre c)]
  rfl

set_option maxRecDepth 200000 in
/-- Entering the first message launch, the source rows are the reference's source-row lookup. -/
theorem v4_src (hpre : Cert.Pre_KernelIdeal m) (c : Dev nD) :
    (V4 m ρ c main_v6 : S320000x256.Idx → EReal) = val_main_v18 (F := Ideal) (m ((c.tc : Thread nD τ).loc main_arg0)) (m ((c.tc : Thread nD τ).loc main_arg2)) := by
  have h1 : W4 m ρ c (Proc.devRef .tc main_v6) = W3 m ρ c (Proc.devRef .tc main_v6) := by stretch_keeps hostOps0_3
  have h2 : (W3 m ρ c (Proc.devRef .tc main_v6) : S320000x256.Idx → EReal)
      = (TakeRows.takeRows (F := Ideal) (m ((c.tc : Thread nD τ).loc main_arg0)) (val_main_v1 (F := Ideal) (m ((c.tc : Thread nD τ).loc main_arg2))) : S320000x256.Idx → EReal) := by
    show StableHlo.after hostOps0_2 (W2 m ρ c) (Proc.devRef .tc main_v6) = _
    after_results_simp
    simp only [cast_eq]
    have hI : (fun i => shapeCast main_v1.ty.shape (extractStridedSlice S1x320000 ![0, 0] (W0 m ρ c (Proc.devRef .tc main_arg2)) slices_S2x320000_S1x320000_0_0) shapeCasts_S1x320000_S320000 i) = val_main_v1 (F := Ideal) (m ((c.tc : Thread nD τ).loc main_arg2)) := rfl
    simp only [hI]
    exact rfl
  refine h1.trans (h2.trans ?_)
  rw [TakeRows.takeRows_eq _ _ (src_range m hpre c)]
  rfl

/-- The edge attributes are untouched before the first launch. -/
theorem v4_ea (c : Dev nD) : V4 m ρ c main_arg1 = (m ((c.tc : Thread nD τ).loc main_arg1)) :=
  calc W4 m ρ c (Proc.devRef .tc main_arg1)
    _ = W3 m ρ c (Proc.devRef .tc main_arg1) := by stretch_keeps hostOps0_3
    _ = W2 m ρ c (Proc.devRef .tc main_arg1) := by stretch_keeps hostOps0_2
    _ = W1 m ρ c (Proc.devRef .tc main_arg1) := by stretch_keeps hostOps0_1
    _ = W0 m ρ c (Proc.devRef .tc main_arg1) := by stretch_keeps hostOps0
    _ = _ := rfl

/-- The first layer's weight slices, as the reference slices them. -/
theorem v4_w1 (c : Dev nD) : (V4 m ρ c main_v8 : S256x640.Idx → EReal) = val_main_v21 (F := Ideal) (m ((c.tc : Thread nD τ).loc main_arg3)) := by
  show StableHlo.after hostOps0_3 (W3 m ρ c) (Proc.devRef .tc main_v8) = _
  after_results_simp
  rfl
theorem v4_w2 (c : Dev nD) : (V4 m ρ c main_v12 : S256x256.Idx → EReal) = val_main_v31 (F := Ideal) (m ((c.tc : Thread nD τ).loc main_arg5)) := by
  show StableHlo.after hostOps0_3 (W3 m ρ c) (Proc.devRef .tc main_v12) = _
  after_results_simp
  rfl
theorem v4_b1 (c : Dev nD) (j : Fin 256) : (V4 m ρ c main_v15 : S1x256.Idx → EReal) (ix2 0 j) = (m ((c.tc : Thread nD τ).loc main_arg4)) (ix2 0 j) := by
  have h : (V4 m ρ c main_v15 : S1x256.Idx → EReal) = shapeCast S1x256 (val_main_v25 (F := Ideal) (m ((c.tc : Thread nD τ).loc main_arg4))) shapeCasts_S256_S1x256 := by
    show StableHlo.after hostOps0_3 (W3 m ρ c) (Proc.devRef .tc main_v15) = _
    after_results_simp
    rfl
  rw [h, shapeCast_apply _ shapeCasts_S256_S1x256 (ix2 0 j) (ix1 j) (by
    rewrite [Shape.rowMajor_val_two, Shape.rowMajor_val_one]; show j.val = 0 * 256 + j.val; omega)]
  exact Cert.ReferenceIdeal.Weights.b1 _ j
theorem v4_b2 (c : Dev nD) (j : Fin 256) : (V4 m ρ c main_v16 : S1x256.Idx → EReal) (ix2 0 j) = (m ((c.tc : Thread nD τ).loc main_arg6)) (ix2 0 j) := by
  have h : (V4 m ρ c main_v16 : S1x256.Idx → EReal) = shapeCast S1x256 (val_main_v35 (F := Ideal) (m ((c.tc : Thread nD τ).loc main_arg6))) shapeCasts_S256_S1x256 := by
    show StableHlo.after hostOps0_3 (W3 m ρ c) (Proc.devRef .tc main_v16) = _
    after_results_simp
    rfl
  rw [h, shapeCast_apply _ shapeCasts_S256_S1x256 (ix2 0 j) (ix1 j) (by
    rewrite [Shape.rowMajor_val_two, Shape.rowMajor_val_one]; show j.val = 0 * 256 + j.val; omega)]
  exact Cert.ReferenceIdeal.Weights.b2 _ j

end Cert.KernelIdeal.Glue0
end
-- ==== Proof.Glue1.lean ====
import proofs.«114160_j24077586661654_1_alg».proof.Defs
import proofs.«114160_j24077586661654_1_alg».proof.Proof.Gen.KernelIdeal.Frame
import proofs.«114160_j24077586661654_1_alg».proof.Proof.Gen.Pre_finite_inputs
import proofs.«114160_j24077586661654_1_alg».proof.Proof.RefRead
import proofs.«114160_j24077586661654_1_alg».proof.Proof.RefWeights
import proofs.«114160_j24077586661654_1_alg».proof.Proof.TakeRows
import proofs.«114160_j24077586661654_1_alg».proof.Proof.PreRange
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import Idealize.ShloMosaic.Lib.Tactic

noncomputable section

open Idealize.ShloMosaic Idealize.ShloMosaic.TcCoe Idealize.SL.Sem Idealize.ShloMosaic.StableHlo
open Idealize.ShloMosaic.Pipeline (Dat)
open Idealize.ShloMosaic.ValueIdx

namespace Cert.KernelIdeal.Glue1

open Cert.KernelIdeal Cert.KernelIdeal.Gen
open Cert.ReferenceIdeal.ReadP (val_main_v1 val_main_v3 val_main_v4 val_main_v11 val_main_v18 val_main_v21 val_main_v25 val_main_v31 val_main_v35 val_main_v38 val_main_v41 val_main_v43 val_main_v47 val_main_v52 val_main_v57 val_main_v80 val_main_v88 val_main_v95 val_main_v102 val_main_v105 val_main_v109 val_main_v115 val_main_v119 val_main_v122 val_main_v125 val_main_v127 val_main_v131 val_main_v136 val_main_v141 val_main_v164 val_main_v172 val_main_v190)

variable (m : (ℓ : Loc nD τ sig) → Buf (Elt Ideal) ℓ) (ρ : Dev nD → PrngReg)

/-- A host stretch leaves a buffer it does not write as it was. -/
macro "stretch_keeps" ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

theorem w5_arg7 (c : Dev nD) : W5 m ρ c (Proc.devRef .tc main_arg7) = (m ((c.tc : Thread nD τ).loc main_arg7)) :=
  ((show W5 m ρ c (Proc.devRef .tc main_arg7) = W4 m ρ c (Proc.devRef .tc main_arg7) from W5_of_ne m ρ c main_arg7 (by decide)).trans ((show W4 m ρ c (Proc.devRef .tc main_arg7) = W3 m ρ c (Proc.devRef .tc main_arg7) by stretch_keeps hostOps0_3).trans ((show W3 m ρ c (Proc.devRef .tc main_arg7) = W2 m ρ c (Proc.devRef .tc main_arg7) by stretch_keeps hostOps0_2).trans ((show W2 m ρ c (Proc.devRef .tc main_arg7) = W1 m ρ c (Proc.devRef .tc main_arg7) by stretch_keeps hostOps0_1).trans (show W1 m ρ c (Proc.devRef .tc main_arg7) = W0 m ρ c (Proc.devRef .tc main_arg7) by stretch_keeps hostOps0)))))
theorem w5_arg8 (c : Dev nD) : W5 m ρ c (Proc.devRef .tc main_arg8) = (m ((c.tc : Thread nD τ).loc main_arg8)) :=
  ((show W5 m ρ c (Proc.devRef .tc main_arg8) = W4 m ρ c (Proc.devRef .tc main_arg8) from W5_of_ne m ρ c main_arg8 (by decide)).trans ((show W4 m ρ c (Proc.devRef .tc main_arg8) = W3 m ρ c (Proc.devRef .tc main_arg8) by stretch_keeps hostOps0_3).trans ((show W3 m ρ c (Proc.devRef .tc main_arg8) = W2 m ρ c (Proc.devRef .tc main_arg8) by stretch_keeps hostOps0_2).trans ((show W2 m ρ c (Proc.devRef .tc main_arg8) = W1 m ρ c (Proc.devRef .tc main_arg8) by stretch_keeps hostOps0_1).trans (show W1 m ρ c (Proc.devRef .tc main_arg8) = W0 m ρ c (Proc.devRef .tc main_arg8) by stretch_keeps hostOps0)))))
theorem w5_arg9 (c : Dev nD) : W5 m ρ c (Proc.devRef .tc main_arg9) = (m ((c.tc : Thread nD τ).loc main_arg9)) :=
  ((show W5 m ρ c (Proc.devRef .tc main_arg9) = W4 m ρ c (Proc.devRef .tc main_arg9) from W5_of_ne m ρ c main_arg9 (by decide)).trans ((show W4 m ρ c (Proc.devRef .tc main_arg9) = W3 m ρ c (Proc.devRef .tc main_arg9) by stretch_keeps hostOps0_3).trans ((show W3 m ρ c (Proc.devRef .tc main_arg9) = W2 m ρ c (Proc.devRef .tc main_arg9) by stretch_keeps hostOps0_2).trans ((show W2 m ρ c (Proc.devRef .tc main_arg9) = W1 m ρ c (Proc.devRef .tc main_arg9) by stretch_keeps hostOps0_1).trans (show W1 m ρ c (Proc.devRef .tc main_arg9) = W0 m ρ c (Proc.devRef .tc main_arg9) by stretch_keeps hostOps0)))))
theorem w5_arg10 (c : Dev nD) : W5 m ρ c (Proc.devRef .tc main_arg10) = (m ((c.tc : Thread nD τ).loc main_arg10)) :=
  ((show W5 m ρ c (Proc.devRef .tc main_arg10) = W4 m ρ c (Proc.devRef .tc main_arg10) from W5_of_ne m ρ c main_arg10 (by decide)).trans ((show W4 m ρ c (Proc.devRef .tc main_arg10) = W3 m ρ c (Proc.devRef .tc main_arg10) by stretch_keeps hostOps0_3).trans ((show W3 m ρ c (Proc.devRef .tc main_arg10) = W2 m ρ c (Proc.devRef .tc main_arg10) by stretch_keeps hostOps0_2).trans ((show W2 m ρ c (Proc.devRef .tc main_arg10) = W1 m ρ c (Proc.devRef .tc main_arg10) by stretch_keeps hostOps0_1).trans (show W1 m ρ c (Proc.devRef .tc main_arg10) = W0 m ρ c (Proc.devRef .tc main_arg10) by stretch_keeps hostOps0)))))

theorem w5_v3 (c : Dev nD) : (W5 m ρ c (Proc.devRef .tc main_v3) : S320000.Idx → BitVec 32) = val_main_v3 (F := Ideal) (m ((c.tc : Thread nD τ).loc main_arg2)) :=
  ((show W5 m ρ c (Proc.devRef .tc main_v3) = W4 m ρ c (Proc.devRef .tc main_v3) from W5_of_ne m ρ c main_v3 (by decide)).trans ((show W4 m ρ c (Proc.devRef .tc main_v3) = W3 m ρ c (Proc.devRef .tc main_v3) by stretch_keeps hostOps0_3).trans ((show W3 m ρ c (Proc.devRef .tc main_v3) = W2 m ρ c (Proc.devRef .tc main_v3) by stretch_keeps hostOps0_2).trans (show W2 m ρ c (Proc.devRef .tc main_v3) = W1 m ρ c (Proc.devRef .tc main_v3) by stretch_keeps hostOps0_1)))).trans (by
    show StableHlo.after hostOps0 (W0 m ρ c) (Proc.devRef .tc main_v3) = _
    after_results_simp
    rfl)

/-- Entering the first cell launch: the hidden rows are the node features, -/
theorem v6_h (c : Dev nD) : V6 m ρ c main_arg0 = (m ((c.tc : Thread nD τ).loc main_arg0)) :=
  ((show W6 m ρ c (Proc.devRef .tc main_arg0) = W5 m ρ c (Proc.devRef .tc main_arg0) by stretch_keeps hostOps1).trans ((show W5 m ρ c (Proc.devRef .tc main_arg0) = W4 m ρ c (Proc.devRef .tc main_arg0) from W5_of_ne m ρ c main_arg0 (by decide)).trans ((show W4 m ρ c (Proc.devRef .tc main_arg0) = W3 m ρ c (Proc.devRef .tc main_arg0) by stretch_keeps hostOps0_3).trans ((show W3 m ρ c (Proc.devRef .tc main_arg0) = W2 m ρ c (Proc.devRef .tc main_arg0) by stretch_keeps hostOps0_2).trans ((show W2 m ρ c (Proc.devRef .tc main_arg0) = W1 m ρ c (Proc.devRef .tc main_arg0) by stretch_keeps hostOps0_1).trans (show W1 m ρ c (Proc.devRef .tc main_arg0) = W0 m ρ c (Proc.devRef .tc main_arg0) by stretch_keeps hostOps0))))))
/-- the old cell is the zero array, -/
theorem v6_c (c : Dev nD) : (V6 m ρ c main_v4 : S20000x256.Idx → EReal) = val_main_v4 (F := Ideal) :=
  ((show W6 m ρ c (Proc.devRef .tc main_v4) = W5 m ρ c (Proc.devRef .tc main_v4) by stretch_keeps hostOps1).trans ((show W5 m ρ c (Proc.devRef .tc main_v4) = W4 m ρ c (Proc.devRef .tc main_v4) from W5_of_ne m ρ c main_v4 (by decide)).trans ((show W4 m ρ c (Proc.devRef .tc main_v4) = W3 m ρ c (Proc.devRef .tc main_v4) by stretch_keeps hostOps0_3).trans ((show W3 m ρ c (Proc.devRef .tc main_v4) = W2 m ρ c (Proc.devRef .tc main_v4) by stretch_keeps hostOps0_2).trans (show W2 m ρ c (Proc.devRef .tc main_v4) = W1 m ρ c (Proc.devRef .tc main_v4) by stretch_keeps hostOps0_1))))).trans (by
    show StableHlo.after hostOps0 (W0 m ρ c) (Proc.devRef .tc main_v4) = _
    after_results_simp
    rfl)
/-- the aggregated messages are the reference's scatter-add of the same messages at the same targets, -/
theorem v6_a (c : Dev nD)
    (h17 : (W5 m ρ c (Proc.devRef .tc main_v17) : S320000x256.Idx → EReal) = val_main_v38 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) :
    (V6 m ρ c main_v20 : S20000x256.Idx → EReal) = val_main_v41 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  show StableHlo.after hostOps1 (W5 m ρ c) (Proc.devRef .tc main_v20) = _
  after_results_simp
  simp only [h17, w5_v3 m ρ c]
  rfl
/-- and the cell's weights are the reference's slices. -/
theorem v6_wih (c : Dev nD) :
    (V6 m ρ c main_v22 : S1024x256.Idx → EReal) = val_main_v43 (F := Ideal) (m ((c.tc : Thread nD τ).loc main_arg7)) := by
  show StableHlo.after hostOps1 (W5 m ρ c) (Proc.devRef .tc main_v22) = _
  after_results_simp
  simp only [w5_arg7 m ρ c]
  rfl

theorem v6_whh (c : Dev nD) :
    (V6 m ρ c main_v24 : S1024x256.Idx → EReal) = val_main_v52 (F := Ideal) (m ((c.tc : Thread nD τ).loc main_arg8)) := by
  show StableHlo.after hostOps1 (W5 m ρ c) (Proc.devRef .tc main_v24) = _
  after_results_simp
  simp only [w5_arg8 m ρ c]
  rfl

theorem v6_bih (c : Dev nD) (j : Fin 1024) : (V6 m ρ c main_v29 : S1x1024.Idx → EReal) (ix2 0 j) = (m ((c.tc : Thread nD τ).loc main_arg9)) (ix2 0 j) := by
  have h : (V6 m ρ c main_v29 : S1x1024.Idx → EReal) = shapeCast S1x1024 (val_main_v47 (F := Ideal) (m ((c.tc : Thread nD τ).loc main_arg9))) shapeCasts_S1024_S1x1024 := by
    show StableHlo.after hostOps1 (W5 m ρ c) (Proc.devRef .tc main_v29) = _
    after_results_simp
    simp only [w5_arg9 m ρ c]
    rfl
  rw [h, shapeCast_apply _ shapeCasts_S1024_S1x1024 (ix2 0 j) (ix1 j) (by
    rewrite [Shape.rowMajor_val_two, Shape.rowMajor_val_one]; show j.val = 0 * 1024 + j.val; omega)]
  exact Cert.ReferenceIdeal.Weights.bih _ j

theorem v6_bhh (c : Dev nD) (j : Fin 1024) : (V6 m ρ c main_v30 : S1x1024.Idx → EReal) (ix2 0 j) = (m ((c.tc : Thread nD τ).loc main_arg10)) (ix2 0 j) := by
  have h : (V6 m ρ c main_v30 : S1x1024.Idx → EReal) = shapeCast S1x1024 (val_main_v57 (F := Ideal) (m ((c.tc : Thread nD τ).loc main_arg10))) shapeCasts_S1024_S1x1024 := by
    show StableHlo.after hostOps1 (W5 m ρ c) (Proc.devRef .tc main_v30) = _
    after_results_simp
    simp only [w5_arg10 m ρ c]
    rfl
  rw [h, shapeCast_apply _ shapeCasts_S1024_S1x1024 (ix2 0 j) (ix1 j) (by
    rewrite [Shape.rowMajor_val_two, Shape.rowMajor_val_one]; show j.val = 0 * 1024 + j.val; omega)]
  exact Cert.ReferenceIdeal.Weights.bhh _ j

end Cert.KernelIdeal.Glue1
end
-- ==== Proof.Glue2.lean ====
import proofs.«114160_j24077586661654_1_alg».proof.Defs
import proofs.«114160_j24077586661654_1_alg».proof.Proof.Gen.KernelIdeal.Frame
import proofs.«114160_j24077586661654_1_alg».proof.Proof.Gen.Pre_finite_inputs
import proofs.«114160_j24077586661654_1_alg».proof.Proof.RefRead
import proofs.«114160_j24077586661654_1_alg».proof.Proof.RefWeights
import proofs.«114160_j24077586661654_1_alg».proof.Proof.TakeRows
import proofs.«114160_j24077586661654_1_alg».proof.Proof.PreRange
import proofs.«114160_j24077586661654_1_alg».proof.Proof.Glue0
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import Idealize.ShloMosaic.Lib.Tactic

noncomputable section

open Idealize.ShloMosaic Idealize.ShloMosaic.TcCoe Idealize.SL.Sem Idealize.ShloMosaic.StableHlo
open Idealize.ShloMosaic.Pipeline (Dat)
open Idealize.ShloMosaic.ValueIdx

namespace Cert.KernelIdeal.Glue2

open Cert.KernelIdeal Cert.KernelIdeal.Gen
open Cert.ReferenceIdeal.ReadP (val_main_v1 val_main_v3 val_main_v4 val_main_v11 val_main_v18 val_main_v21 val_main_v25 val_main_v31 val_main_v35 val_main_v38 val_main_v41 val_main_v43 val_main_v47 val_main_v52 val_main_v57 val_main_v80 val_main_v88 val_main_v95 val_main_v102 val_main_v105 val_main_v109 val_main_v115 val_main_v119 val_main_v122 val_main_v125 val_main_v127 val_main_v131 val_main_v136 val_main_v141 val_main_v164 val_main_v172 val_main_v190)

variable (m : (ℓ : Loc nD τ sig) → Buf (Elt Ideal) ℓ) (ρ : Dev nD → PrngReg)

/-- A host stretch leaves a buffer it does not write as it was. -/
macro "stretch_keeps" ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

theorem w7_arg3 (c : Dev nD) : W7 m ρ c (Proc.devRef .tc main_arg3) = (m ((c.tc : Thread nD τ).loc main_arg3)) :=
  ((show W7 m ρ c (Proc.devRef .tc main_arg3) = W6 m ρ c (Proc.devRef .tc main_arg3) from W7_of_ne m ρ c main_arg3 (by decide)).trans ((show W6 m ρ c (Proc.devRef .tc main_arg3) = W5 m ρ c (Proc.devRef .tc main_arg3) by stretch_keeps hostOps1).trans ((show W5 m ρ c (Proc.devRef .tc main_arg3) = W4 m ρ c (Proc.devRef .tc main_arg3) from W5_of_ne m ρ c main_arg3 (by decide)).trans ((show W4 m ρ c (Proc.devRef .tc main_arg3) = W3 m ρ c (Proc.devRef .tc main_arg3) by stretch_keeps hostOps0_3).trans ((show W3 m ρ c (Proc.devRef .tc main_arg3) = W2 m ρ c (Proc.devRef .tc main_arg3) by stretch_keeps hostOps0_2).trans ((show W2 m ρ c (Proc.devRef .tc main_arg3) = W1 m ρ c (Proc.devRef .tc main_arg3) by stretch_keeps hostOps0_1).trans (show W1 m ρ c (Proc.devRef .tc main_arg3) = W0 m ρ c (Proc.devRef .tc main_arg3) by stretch_keeps hostOps0)))))))
theorem w7_arg4 (c : Dev nD) : W7 m ρ c (Proc.devRef .tc main_arg4) = (m ((c.tc : Thread nD τ).loc main_arg4)) :=
  ((show W7 m ρ c (Proc.devRef .tc main_arg4) = W6 m ρ c (Proc.devRef .tc main_arg4) from W7_of_ne m ρ c main_arg4 (by decide)).trans ((show W6 m ρ c (Proc.devRef .tc main_arg4) = W5 m ρ c (Proc.devRef .tc main_arg4) by stretch_keeps hostOps1).trans ((show W5 m ρ c (Proc.devRef .tc main_arg4) = W4 m ρ c (Proc.devRef .tc main_arg4) from W5_of_ne m ρ c main_arg4 (by decide)).trans ((show W4 m ρ c (Proc.devRef .tc main_arg4) = W3 m ρ c (Proc.devRef .tc main_arg4) by stretch_keeps hostOps0_3).trans ((show W3 m ρ c (Proc.devRef .tc main_arg4) = W2 m ρ c (Proc.devRef .tc main_arg4) by stretch_keeps hostOps0_2).trans ((show W2 m ρ c (Proc.devRef .tc main_arg4) = W1 m ρ c (Proc.devRef .tc main_arg4) by stretch_keeps hostOps0_1).trans (show W1 m ρ c (Proc.devRef .tc main_arg4) = W0 m ρ c (Proc.devRef .tc main_arg4) by stretch_keeps hostOps0)))))))
theorem w7_arg5 (c : Dev nD) : W7 m ρ c (Proc.devRef .tc main_arg5) = (m ((c.tc : Thread nD τ).loc main_arg5)) :=
  ((show W7 m ρ c (Proc.devRef .tc main_arg5) = W6 m ρ c (Proc.devRef .tc main_arg5) from W7_of_ne m ρ c main_arg5 (by decide)).trans ((show W6 m ρ c (Proc.devRef .tc main_arg5) = W5 m ρ c (Proc.devRef .tc main_arg5) by stretch_keeps hostOps1).trans ((show W5 m ρ c (Proc.devRef .tc main_arg5) = W4 m ρ c (Proc.devRef .tc main_arg5) from W5_of_ne m ρ c main_arg5 (by decide)).trans ((show W4 m ρ c (Proc.devRef .tc main_arg5) = W3 m ρ c (Proc.devRef .tc main_arg5) by stretch_keeps hostOps0_3).trans ((show W3 m ρ c (Proc.devRef .tc main_arg5) = W2 m ρ c (Proc.devRef .tc main_arg5) by stretch_keeps hostOps0_2).trans ((show W2 m ρ c (Proc.devRef .tc main_arg5) = W1 m ρ c (Proc.devRef .tc main_arg5) by stretch_keeps hostOps0_1).trans (show W1 m ρ c (Proc.devRef .tc main_arg5) = W0 m ρ c (Proc.devRef .tc main_arg5) by stretch_keeps hostOps0)))))))
theorem w7_arg6 (c : Dev nD) : W7 m ρ c (Proc.devRef .tc main_arg6) = (m ((c.tc : Thread nD τ).loc main_arg6)) :=
  ((show W7 m ρ c (Proc.devRef .tc main_arg6) = W6 m ρ c (Proc.devRef .tc main_arg6) from W7_of_ne m ρ c main_arg6 (by decide)).trans ((show W6 m ρ c (Proc.devRef .tc main_arg6) = W5 m ρ c (Proc.devRef .tc main_arg6) by stretch_keeps hostOps1).trans ((show W5 m ρ c (Proc.devRef .tc main_arg6) = W4 m ρ c (Proc.devRef .tc main_arg6) from W5_of_ne m ρ c main_arg6 (by decide)).trans ((show W4 m ρ c (Proc.devRef .tc main_arg6) = W3 m ρ c (Proc.devRef .tc main_arg6) by stretch_keeps hostOps0_3).trans ((show W3 m ρ c (Proc.devRef .tc main_arg6) = W2 m ρ c (Proc.devRef .tc main_arg6) by stretch_keeps hostOps0_2).trans ((show W2 m ρ c (Proc.devRef .tc main_arg6) = W1 m ρ c (Proc.devRef .tc main_arg6) by stretch_keeps hostOps0_1).trans (show W1 m ρ c (Proc.devRef .tc main_arg6) = W0 m ρ c (Proc.devRef .tc main_arg6) by stretch_keeps hostOps0)))))))

theorem w7_v3 (c : Dev nD) : (W7 m ρ c (Proc.devRef .tc main_v3) : S320000.Idx → BitVec 32) = val_main_v3 (F := Ideal) (m ((c.tc : Thread nD τ).loc main_arg2)) :=
  ((show W7 m ρ c (Proc.devRef .tc main_v3) = W6 m ρ c (Proc.devRef .tc main_v3) from W7_of_ne m ρ c main_v3 (by decide)).trans ((show W6 m ρ c (Proc.devRef .tc main_v3) = W5 m ρ c (Proc.devRef .tc main_v3) by stretch_keeps hostOps1).trans ((show W5 m ρ c (Proc.devRef .tc main_v3) = W4 m ρ c (Proc.devRef .tc main_v3) from W5_of_ne m ρ c main_v3 (by decide)).trans ((show W4 m ρ c (Proc.devRef .tc main_v3) = W3 m ρ c (Proc.devRef .tc main_v3) by stretch_keeps hostOps0_3).trans ((show W3 m ρ c (Proc.devRef .tc main_v3) = W2 m ρ c (Proc.devRef .tc main_v3) by stretch_keeps hostOps0_2).trans (show W2 m ρ c (Proc.devRef .tc main_v3) = W1 m ρ c (Proc.devRef .tc main_v3) by stretch_keeps hostOps0_1)))))).trans (by
    show StableHlo.after hostOps0 (W0 m ρ c) (Proc.devRef .tc main_v3) = _
    after_results_simp
    rfl)

theorem w7_v1 (c : Dev nD) : (W7 m ρ c (Proc.devRef .tc main_v1) : S320000.Idx → BitVec 32) = val_main_v1 (F := Ideal) (m ((c.tc : Thread nD τ).loc main_arg2)) :=
  ((show W7 m ρ c (Proc.devRef .tc main_v1) = W6 m ρ c (Proc.devRef .tc main_v1) from W7_of_ne m ρ c main_v1 (by decide)).trans ((show W6 m ρ c (Proc.devRef .tc main_v1) = W5 m ρ c (Proc.devRef .tc main_v1) by stretch_keeps hostOps1).trans ((show W5 m ρ c (Proc.devRef .tc main_v1) = W4 m ρ c (Proc.devRef .tc main_v1) from W5_of_ne m ρ c main_v1 (by decide)).trans ((show W4 m ρ c (Proc.devRef .tc main_v1) = W3 m ρ c (Proc.devRef .tc main_v1) by stretch_keeps hostOps0_3).trans ((show W3 m ρ c (Proc.devRef .tc main_v1) = W2 m ρ c (Proc.devRef .tc main_v1) by stretch_keeps hostOps0_2).trans (show W2 m ρ c (Proc.devRef .tc main_v1) = W1 m ρ c (Proc.devRef .tc main_v1) by stretch_keeps hostOps0_1)))))).trans (by
    show StableHlo.after hostOps0 (W0 m ρ c) (Proc.devRef .tc main_v1) = _
    after_results_simp
    rfl)

set_option maxRecDepth 100000 in
/-- Entering the second message launch: the target and source rows are the reference's lookups in the new hidden array, -/
theorem v10_dst (hpre : Cert.Pre_KernelIdeal m) (c : Dev nD)
    (h7h : (W7 m ρ c (Proc.devRef .tc main_v31_0) : S20000x256.Idx → EReal) = val_main_v88 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) :
    (V10 m ρ c main_v32 : S320000x256.Idx → EReal) = val_main_v95 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  have h1 : W10 m ρ c (Proc.devRef .tc main_v32) = W8 m ρ c (Proc.devRef .tc main_v32) :=
    ((show W10 m ρ c (Proc.devRef .tc main_v32) = W9 m ρ c (Proc.devRef .tc main_v32) by stretch_keeps hostOps2_2).trans (show W9 m ρ c (Proc.devRef .tc main_v32) = W8 m ρ c (Proc.devRef .tc main_v32) by stretch_keeps hostOps2_1))
  have h2 : (W8 m ρ c (Proc.devRef .tc main_v32) : S320000x256.Idx → EReal)
      = (Cert.KernelIdeal.TakeRows.takeRows (F := Ideal) (val_main_v88 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) (val_main_v3 (F := Ideal) (m ((c.tc : Thread nD τ).loc main_arg2))) : S320000x256.Idx → EReal) := by
    show StableHlo.after hostOps2 (W7 m ρ c) (Proc.devRef .tc main_v32) = _
    after_results_simp
    simp only [h7h, w7_v3 m ρ c]
    simp only [cast_eq]
    exact rfl
  refine h1.trans (h2.trans ?_)
  rw [Cert.KernelIdeal.TakeRows.takeRows_eq _ _ (Cert.KernelIdeal.Glue0.dst_range m hpre c)]
  rfl

set_option maxRecDepth 100000 in
theorem v10_src (hpre : Cert.Pre_KernelIdeal m) (c : Dev nD)
    (h7h : (W7 m ρ c (Proc.devRef .tc main_v31_0) : S20000x256.Idx → EReal) = val_main_v88 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) :
    (V10 m ρ c main_v33 : S320000x256.Idx → EReal) = val_main_v102 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  have h1 : W10 m ρ c (Proc.devRef .tc main_v33) = W9 m ρ c (Proc.devRef .tc main_v33) :=
    (show W10 m ρ c (Proc.devRef .tc main_v33) = W9 m ρ c (Proc.devRef .tc main_v33) by stretch_keeps hostOps2_2)
  have h2 : (W9 m ρ c (Proc.devRef .tc main_v33) : S320000x256.Idx → EReal)
      = (Cert.KernelIdeal.TakeRows.takeRows (F := Ideal) (val_main_v88 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) (val_main_v1 (F := Ideal) (m ((c.tc : Thread nD τ).loc main_arg2))) : S320000x256.Idx → EReal) := by
    show StableHlo.after hostOps2_1 (W8 m ρ c) (Proc.devRef .tc main_v33) = _
    after_results_simp
    simp only [h7h, w7_v1 m ρ c]
    simp only [cast_eq]
    exact rfl
  refine h1.trans (h2.trans ?_)
  rw [Cert.KernelIdeal.TakeRows.takeRows_eq _ _ (Cert.KernelIdeal.Glue0.src_range m hpre c)]
  rfl

/-- the edge attributes are as launched, -/
theorem v10_ea (c : Dev nD) : V10 m ρ c main_arg1 = (m ((c.tc : Thread nD τ).loc main_arg1)) :=
  ((show W10 m ρ c (Proc.devRef .tc main_arg1) = W9 m ρ c (Proc.devRef .tc main_arg1) by stretch_keeps hostOps2_2).trans ((show W9 m ρ c (Proc.devRef .tc main_arg1) = W8 m ρ c (Proc.devRef .tc main_arg1) by stretch_keeps hostOps2_1).trans ((show W8 m ρ c (Proc.devRef .tc main_arg1) = W7 m ρ c (Proc.devRef .tc main_arg1) by stretch_keeps hostOps2).trans ((show W7 m ρ c (Proc.devRef .tc main_arg1) = W6 m ρ c (Proc.devRef .tc main_arg1) from W7_of_ne m ρ c main_arg1 (by decide)).trans ((show W6 m ρ c (Proc.devRef .tc main_arg1) = W5 m ρ c (Proc.devRef .tc main_arg1) by stretch_keeps hostOps1).trans ((show W5 m ρ c (Proc.devRef .tc main_arg1) = W4 m ρ c (Proc.devRef .tc main_arg1) from (W5_arr m ρ c 2).trans (((dat0 (V4 m ρ) c).arrAt_in 2 rfl _).trans (A_eq0 (V4 m ρ) c 2))).trans ((show W4 m ρ c (Proc.devRef .tc main_arg1) = W3 m ρ c (Proc.devRef .tc main_arg1) by stretch_keeps hostOps0_3).trans ((show W3 m ρ c (Proc.devRef .tc main_arg1) = W2 m ρ c (Proc.devRef .tc main_arg1) by stretch_keeps hostOps0_2).trans ((show W2 m ρ c (Proc.devRef .tc main_arg1) = W1 m ρ c (Proc.devRef .tc main_arg1) by stretch_keeps hostOps0_1).trans (show W1 m ρ c (Proc.devRef .tc main_arg1) = W0 m ρ c (Proc.devRef .tc main_arg1) by stretch_keeps hostOps0))))))))))
/-- and the second layer's weights are the reference's slices. -/
theorem v10_w1 (c : Dev nD) :
    (V10 m ρ c main_v35 : S256x640.Idx → EReal) = val_main_v105 (F := Ideal) (m ((c.tc : Thread nD τ).loc main_arg3)) := by
  show StableHlo.after hostOps2_2 (W9 m ρ c) (Proc.devRef .tc main_v35) = _
  after_results_simp
  simp only [w7_arg3 m ρ c]
  rfl

theorem v10_w2 (c : Dev nD) :
    (V10 m ρ c main_v39 : S256x256.Idx → EReal) = val_main_v115 (F := Ideal) (m ((c.tc : Thread nD τ).loc main_arg5)) := by
  show StableHlo.after hostOps2_2 (W9 m ρ c) (Proc.devRef .tc main_v39) = _
  after_results_simp
  simp only [w7_arg5 m ρ c]
  rfl

theorem v10_b1 (c : Dev nD) (j : Fin 256) : (V10 m ρ c main_v42 : S1x256.Idx → EReal) (ix2 0 j) = (m ((c.tc : Thread nD τ).loc main_arg4)) (ix2 1 j) := by
  have h : (V10 m ρ c main_v42 : S1x256.Idx → EReal) = shapeCast S1x256 (val_main_v109 (F := Ideal) (m ((c.tc : Thread nD τ).loc main_arg4))) shapeCasts_S256_S1x256 := by
    show StableHlo.after hostOps2_2 (W9 m ρ c) (Proc.devRef .tc main_v42) = _
    after_results_simp
    simp only [w7_arg4 m ρ c]
    rfl
  rw [h, shapeCast_apply _ shapeCasts_S256_S1x256 (ix2 0 j) (ix1 j) (by
    rewrite [Shape.rowMajor_val_two, Shape.rowMajor_val_one]; show j.val = 0 * 256 + j.val; omega)]
  exact Cert.ReferenceIdeal.Weights.b1' _ j

theorem v10_b2 (c : Dev nD) (j : Fin 256) : (V10 m ρ c main_v43 : S1x256.Idx → EReal) (ix2 0 j) = (m ((c.tc : Thread nD τ).loc main_arg6)) (ix2 1 j) := by
  have h : (V10 m ρ c main_v43 : S1x256.Idx → EReal) = shapeCast S1x256 (val_main_v119 (F := Ideal) (m ((c.tc : Thread nD τ).loc main_arg6))) shapeCasts_S256_S1x256 := by
    show StableHlo.after hostOps2_2 (W9 m ρ c) (Proc.devRef .tc main_v43) = _
    after_results_simp
    simp only [w7_arg6 m ρ c]
    rfl
  rw [h, shapeCast_apply _ shapeCasts_S256_S1x256 (ix2 0 j) (ix1 j) (by
    rewrite [Shape.rowMajor_val_two, Shape.rowMajor_val_one]; show j.val = 0 * 256 + j.val; omega)]
  exact Cert.ReferenceIdeal.Weights.b2' _ j

end Cert.KernelIdeal.Glue2
end
-- ==== Proof.Glue3.lean ====
import proofs.«114160_j24077586661654_1_alg».proof.Defs
import proofs.«114160_j24077586661654_1_alg».proof.Proof.Gen.KernelIdeal.Frame
import proofs.«114160_j24077586661654_1_alg».proof.Proof.Gen.Pre_finite_inputs
import proofs.«114160_j24077586661654_1_alg».proof.Proof.RefRead
import proofs.«114160_j24077586661654_1_alg».proof.Proof.RefWeights
import proofs.«114160_j24077586661654_1_alg».proof.Proof.TakeRows
import proofs.«114160_j24077586661654_1_alg».proof.Proof.PreRange
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import Idealize.ShloMosaic.Lib.Tactic

noncomputable section

open Idealize.ShloMosaic Idealize.ShloMosaic.TcCoe Idealize.SL.Sem Idealize.ShloMosaic.StableHlo
open Idealize.ShloMosaic.Pipeline (Dat)
open Idealize.ShloMosaic.ValueIdx

namespace Cert.KernelIdeal.Glue3

open Cert.KernelIdeal Cert.KernelIdeal.Gen
open Cert.ReferenceIdeal.ReadP (val_main_v1 val_main_v3 val_main_v4 val_main_v11 val_main_v18 val_main_v21 val_main_v25 val_main_v31 val_main_v35 val_main_v38 val_main_v41 val_main_v43 val_main_v47 val_main_v52 val_main_v57 val_main_v80 val_main_v88 val_main_v95 val_main_v102 val_main_v105 val_main_v109 val_main_v115 val_main_v119 val_main_v122 val_main_v125 val_main_v127 val_main_v131 val_main_v136 val_main_v141 val_main_v164 val_main_v172 val_main_v190)

variable (m : (ℓ : Loc nD τ sig) → Buf (Elt Ideal) ℓ) (ρ : Dev nD → PrngReg)

/-- A host stretch leaves a buffer it does not write as it was. -/
macro "stretch_keeps" ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

theorem w11_arg7 (c : Dev nD) : W11 m ρ c (Proc.devRef .tc main_arg7) = (m ((c.tc : Thread nD τ).loc main_arg7)) :=
  ((show W11 m ρ c (Proc.devRef .tc main_arg7) = W10 m ρ c (Proc.devRef .tc main_arg7) from W11_of_ne m ρ c main_arg7 (by decide)).trans ((show W10 m ρ c (Proc.devRef .tc main_arg7) = W9 m ρ c (Proc.devRef .tc main_arg7) by stretch_keeps hostOps2_2).trans ((show W9 m ρ c (Proc.devRef .tc main_arg7) = W8 m ρ c (Proc.devRef .tc main_arg7) by stretch_keeps hostOps2_1).trans ((show W8 m ρ c (Proc.devRef .tc main_arg7) = W7 m ρ c (Proc.devRef .tc main_arg7) by stretch_keeps hostOps2).trans ((show W7 m ρ c (Proc.devRef .tc main_arg7) = W6 m ρ c (Proc.devRef .tc main_arg7) from W7_of_ne m ρ c main_arg7 (by decide)).trans ((show W6 m ρ c (Proc.devRef .tc main_arg7) = W5 m ρ c (Proc.devRef .tc main_arg7) by stretch_keeps hostOps1).trans ((show W5 m ρ c (Proc.devRef .tc main_arg7) = W4 m ρ c (Proc.devRef .tc main_arg7) from W5_of_ne m ρ c main_arg7 (by decide)).trans ((show W4 m ρ c (Proc.devRef .tc main_arg7) = W3 m ρ c (Proc.devRef .tc main_arg7) by stretch_keeps hostOps0_3).trans ((show W3 m ρ c (Proc.devRef .tc main_arg7) = W2 m ρ c (Proc.devRef .tc main_arg7) by stretch_keeps hostOps0_2).trans ((show W2 m ρ c (Proc.devRef .tc main_arg7) = W1 m ρ c (Proc.devRef .tc main_arg7) by stretch_keeps hostOps0_1).trans (show W1 m ρ c (Proc.devRef .tc main_arg7) = W0 m ρ c (Proc.devRef .tc main_arg7) by stretch_keeps hostOps0)))))))))))
theorem w11_arg8 (c : Dev nD) : W11 m ρ c (Proc.devRef .tc main_arg8) = (m ((c.tc : Thread nD τ).loc main_arg8)) :=
  ((show W11 m ρ c (Proc.devRef .tc main_arg8) = W10 m ρ c (Proc.devRef .tc main_arg8) from W11_of_ne m ρ c main_arg8 (by decide)).trans ((show W10 m ρ c (Proc.devRef .tc main_arg8) = W9 m ρ c (Proc.devRef .tc main_arg8) by stretch_keeps hostOps2_2).trans ((show W9 m ρ c (Proc.devRef .tc main_arg8) = W8 m ρ c (Proc.devRef .tc main_arg8) by stretch_keeps hostOps2_1).trans ((show W8 m ρ c (Proc.devRef .tc main_arg8) = W7 m ρ c (Proc.devRef .tc main_arg8) by stretch_keeps hostOps2).trans ((show W7 m ρ c (Proc.devRef .tc main_arg8) = W6 m ρ c (Proc.devRef .tc main_arg8) from W7_of_ne m ρ c main_arg8 (by decide)).trans ((show W6 m ρ c (Proc.devRef .tc main_arg8) = W5 m ρ c (Proc.devRef .tc main_arg8) by stretch_keeps hostOps1).trans ((show W5 m ρ c (Proc.devRef .tc main_arg8) = W4 m ρ c (Proc.devRef .tc main_arg8) from W5_of_ne m ρ c main_arg8 (by decide)).trans ((show W4 m ρ c (Proc.devRef .tc main_arg8) = W3 m ρ c (Proc.devRef .tc main_arg8) by stretch_keeps hostOps0_3).trans ((show W3 m ρ c (Proc.devRef .tc main_arg8) = W2 m ρ c (Proc.devRef .tc main_arg8) by stretch_keeps hostOps0_2).trans ((show W2 m ρ c (Proc.devRef .tc main_arg8) = W1 m ρ c (Proc.devRef .tc main_arg8) by stretch_keeps hostOps0_1).trans (show W1 m ρ c (Proc.devRef .tc main_arg8) = W0 m ρ c (Proc.devRef .tc main_arg8) by stretch_keeps hostOps0)))))))))))
theorem w11_arg9 (c : Dev nD) : W11 m ρ c (Proc.devRef .tc main_arg9) = (m ((c.tc : Thread nD τ).loc main_arg9)) :=
  ((show W11 m ρ c (Proc.devRef .tc main_arg9) = W10 m ρ c (Proc.devRef .tc main_arg9) from W11_of_ne m ρ c main_arg9 (by decide)).trans ((show W10 m ρ c (Proc.devRef .tc main_arg9) = W9 m ρ c (Proc.devRef .tc main_arg9) by stretch_keeps hostOps2_2).trans ((show W9 m ρ c (Proc.devRef .tc main_arg9) = W8 m ρ c (Proc.devRef .tc main_arg9) by stretch_keeps hostOps2_1).trans ((show W8 m ρ c (Proc.devRef .tc main_arg9) = W7 m ρ c (Proc.devRef .tc main_arg9) by stretch_keeps hostOps2).trans ((show W7 m ρ c (Proc.devRef .tc main_arg9) = W6 m ρ c (Proc.devRef .tc main_arg9) from W7_of_ne m ρ c main_arg9 (by decide)).trans ((show W6 m ρ c (Proc.devRef .tc main_arg9) = W5 m ρ c (Proc.devRef .tc main_arg9) by stretch_keeps hostOps1).trans ((show W5 m ρ c (Proc.devRef .tc main_arg9) = W4 m ρ c (Proc.devRef .tc main_arg9) from W5_of_ne m ρ c main_arg9 (by decide)).trans ((show W4 m ρ c (Proc.devRef .tc main_arg9) = W3 m ρ c (Proc.devRef .tc main_arg9) by stretch_keeps hostOps0_3).trans ((show W3 m ρ c (Proc.devRef .tc main_arg9) = W2 m ρ c (Proc.devRef .tc main_arg9) by stretch_keeps hostOps0_2).trans ((show W2 m ρ c (Proc.devRef .tc main_arg9) = W1 m ρ c (Proc.devRef .tc main_arg9) by stretch_keeps hostOps0_1).trans (show W1 m ρ c (Proc.devRef .tc main_arg9) = W0 m ρ c (Proc.devRef .tc main_arg9) by stretch_keeps hostOps0)))))))))))
theorem w11_arg10 (c : Dev nD) : W11 m ρ c (Proc.devRef .tc main_arg10) = (m ((c.tc : Thread nD τ).loc main_arg10)) :=
  ((show W11 m ρ c (Proc.devRef .tc main_arg10) = W10 m ρ c (Proc.devRef .tc main_arg10) from W11_of_ne m ρ c main_arg10 (by decide)).trans ((show W10 m ρ c (Proc.devRef .tc main_arg10) = W9 m ρ c (Proc.devRef .tc main_arg10) by stretch_keeps hostOps2_2).trans ((show W9 m ρ c (Proc.devRef .tc main_arg10) = W8 m ρ c (Proc.devRef .tc main_arg10) by stretch_keeps hostOps2_1).trans ((show W8 m ρ c (Proc.devRef .tc main_arg10) = W7 m ρ c (Proc.devRef .tc main_arg10) by stretch_keeps hostOps2).trans ((show W7 m ρ c (Proc.devRef .tc main_arg10) = W6 m ρ c (Proc.devRef .tc main_arg10) from W7_of_ne m ρ c main_arg10 (by decide)).trans ((show W6 m ρ c (Proc.devRef .tc main_arg10) = W5 m ρ c (Proc.devRef .tc main_arg10) by stretch_keeps hostOps1).trans ((show W5 m ρ c (Proc.devRef .tc main_arg10) = W4 m ρ c (Proc.devRef .tc main_arg10) from W5_of_ne m ρ c main_arg10 (by decide)).trans ((show W4 m ρ c (Proc.devRef .tc main_arg10) = W3 m ρ c (Proc.devRef .tc main_arg10) by stretch_keeps hostOps0_3).trans ((show W3 m ρ c (Proc.devRef .tc main_arg10) = W2 m ρ c (Proc.devRef .tc main_arg10) by stretch_keeps hostOps0_2).trans ((show W2 m ρ c (Proc.devRef .tc main_arg10) = W1 m ρ c (Proc.devRef .tc main_arg10) by stretch_keeps hostOps0_1).trans (show W1 m ρ c (Proc.devRef .tc main_arg10) = W0 m ρ c (Proc.devRef .tc main_arg10) by stretch_keeps hostOps0)))))))))))

theorem w11_v3 (c : Dev nD) : (W11 m ρ c (Proc.devRef .tc main_v3) : S320000.Idx → BitVec 32) = val_main_v3 (F := Ideal) (m ((c.tc : Thread nD τ).loc main_arg2)) :=
  ((show W11 m ρ c (Proc.devRef .tc main_v3) = W10 m ρ c (Proc.devRef .tc main_v3) from W11_of_ne m ρ c main_v3 (by decide)).trans ((show W10 m ρ c (Proc.devRef .tc main_v3) = W9 m ρ c (Proc.devRef .tc main_v3) by stretch_keeps hostOps2_2).trans ((show W9 m ρ c (Proc.devRef .tc main_v3) = W8 m ρ c (Proc.devRef .tc main_v3) by stretch_keeps hostOps2_1).trans ((show W8 m ρ c (Proc.devRef .tc main_v3) = W7 m ρ c (Proc.devRef .tc main_v3) by stretch_keeps hostOps2).trans ((show W7 m ρ c (Proc.devRef .tc main_v3) = W6 m ρ c (Proc.devRef .tc main_v3) from W7_of_ne m ρ c main_v3 (by decide)).trans ((show W6 m ρ c (Proc.devRef .tc main_v3) = W5 m ρ c (Proc.devRef .tc main_v3) by stretch_keeps hostOps1).trans ((show W5 m ρ c (Proc.devRef .tc main_v3) = W4 m ρ c (Proc.devRef .tc main_v3) from W5_of_ne m ρ c main_v3 (by decide)).trans ((show W4 m ρ c (Proc.devRef .tc main_v3) = W3 m ρ c (Proc.devRef .tc main_v3) by stretch_keeps hostOps0_3).trans ((show W3 m ρ c (Proc.devRef .tc main_v3) = W2 m ρ c (Proc.devRef .tc main_v3) by stretch_keeps hostOps0_2).trans (show W2 m ρ c (Proc.devRef .tc main_v3) = W1 m ρ c (Proc.devRef .tc main_v3) by stretch_keeps hostOps0_1)))))))))).trans (by
    show StableHlo.after hostOps0 (W0 m ρ c) (Proc.devRef .tc main_v3) = _
    after_results_simp
    rfl)

/-- Entering the second cell launch: the hidden rows and the old cell are what the first cell launch left, -/
theorem v12_h (c : Dev nD)
    (h7h : (W7 m ρ c (Proc.devRef .tc main_v31_0) : S20000x256.Idx → EReal) = val_main_v88 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) :
    (V12 m ρ c main_v31_0 : S20000x256.Idx → EReal) = val_main_v88 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  ((show W12 m ρ c (Proc.devRef .tc main_v31_0) = W11 m ρ c (Proc.devRef .tc main_v31_0) by stretch_keeps hostOps3).trans ((show W11 m ρ c (Proc.devRef .tc main_v31_0) = W10 m ρ c (Proc.devRef .tc main_v31_0) from W11_of_ne m ρ c main_v31_0 (by decide)).trans ((show W10 m ρ c (Proc.devRef .tc main_v31_0) = W9 m ρ c (Proc.devRef .tc main_v31_0) by stretch_keeps hostOps2_2).trans ((show W9 m ρ c (Proc.devRef .tc main_v31_0) = W8 m ρ c (Proc.devRef .tc main_v31_0) by stretch_keeps hostOps2_1).trans (show W8 m ρ c (Proc.devRef .tc main_v31_0) = W7 m ρ c (Proc.devRef .tc main_v31_0) by stretch_keeps hostOps2))))).trans h7h
theorem v12_c (c : Dev nD)
    (h7c : (W7 m ρ c (Proc.devRef .tc main_v31_1) : S20000x256.Idx → EReal) = val_main_v80 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) :
    (V12 m ρ c main_v31_1 : S20000x256.Idx → EReal) = val_main_v80 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  ((show W12 m ρ c (Proc.devRef .tc main_v31_1) = W11 m ρ c (Proc.devRef .tc main_v31_1) by stretch_keeps hostOps3).trans ((show W11 m ρ c (Proc.devRef .tc main_v31_1) = W10 m ρ c (Proc.devRef .tc main_v31_1) from W11_of_ne m ρ c main_v31_1 (by decide)).trans ((show W10 m ρ c (Proc.devRef .tc main_v31_1) = W9 m ρ c (Proc.devRef .tc main_v31_1) by stretch_keeps hostOps2_2).trans ((show W9 m ρ c (Proc.devRef .tc main_v31_1) = W8 m ρ c (Proc.devRef .tc main_v31_1) by stretch_keeps hostOps2_1).trans (show W8 m ρ c (Proc.devRef .tc main_v31_1) = W7 m ρ c (Proc.devRef .tc main_v31_1) by stretch_keeps hostOps2))))).trans h7c
/-- the aggregated messages are the reference's scatter-add, -/
theorem v12_a (c : Dev nD)
    (h44 : (W11 m ρ c (Proc.devRef .tc main_v44) : S320000x256.Idx → EReal) = val_main_v122 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) :
    (V12 m ρ c main_v47 : S20000x256.Idx → EReal) = val_main_v125 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  show StableHlo.after hostOps3 (W11 m ρ c) (Proc.devRef .tc main_v47) = _
  after_results_simp
  simp only [h44, w11_v3 m ρ c]
  rfl
/-- and the cell's weights are the reference's slices. -/
theorem v12_wih (c : Dev nD) :
    (V12 m ρ c main_v49 : S1024x256.Idx → EReal) = val_main_v127 (F := Ideal) (m ((c.tc : Thread nD τ).loc main_arg7)) := by
  show StableHlo.after hostOps3 (W11 m ρ c) (Proc.devRef .tc main_v49) = _
  after_results_simp
  simp only [w11_arg7 m ρ c]
  rfl

theorem v12_whh (c : Dev nD) :
    (V12 m ρ c main_v51 : S1024x256.Idx → EReal) = val_main_v136 (F := Ideal) (m ((c.tc : Thread nD τ).loc main_arg8)) := by
  show StableHlo.after hostOps3 (W11 m ρ c) (Proc.devRef .tc main_v51) = _
  after_results_simp
  simp only [w11_arg8 m ρ c]
  rfl

theorem v12_bih (c : Dev nD) (j : Fin 1024) : (V12 m ρ c main_v56 : S1x1024.Idx → EReal) (ix2 0 j) = (m ((c.tc : Thread nD τ).loc main_arg9)) (ix2 1 j) := by
  have h : (V12 m ρ c main_v56 : S1x1024.Idx → EReal) = shapeCast S1x1024 (val_main_v131 (F := Ideal) (m ((c.tc : Thread nD τ).loc main_arg9))) shapeCasts_S1024_S1x1024 := by
    show StableHlo.after hostOps3 (W11 m ρ c) (Proc.devRef .tc main_v56) = _
    after_results_simp
    simp only [w11_arg9 m ρ c]
    rfl
  rw [h, shapeCast_apply _ shapeCasts_S1024_S1x1024 (ix2 0 j) (ix1 j) (by
    rewrite [Shape.rowMajor_val_two, Shape.rowMajor_val_one]; show j.val = 0 * 1024 + j.val; omega)]
  exact Cert.ReferenceIdeal.Weights.bih' _ j

theorem v12_bhh (c : Dev nD) (j : Fin 1024) : (V12 m ρ c main_v57 : S1x1024.Idx → EReal) (ix2 0 j) = (m ((c.tc : Thread nD τ).loc main_arg10)) (ix2 1 j) := by
  have h : (V12 m ρ c main_v57 : S1x1024.Idx → EReal) = shapeCast S1x1024 (val_main_v141 (F := Ideal) (m ((c.tc : Thread nD τ).loc main_arg10))) shapeCasts_S1024_S1x1024 := by
    show StableHlo.after hostOps3 (W11 m ρ c) (Proc.devRef .tc main_v57) = _
    after_results_simp
    simp only [w11_arg10 m ρ c]
    rfl
  rw [h, shapeCast_apply _ shapeCasts_S1024_S1x1024 (ix2 0 j) (ix1 j) (by
    rewrite [Shape.rowMajor_val_two, Shape.rowMajor_val_one]; show j.val = 0 * 1024 + j.val; omega)]
  exact Cert.ReferenceIdeal.Weights.bhh' _ j

end Cert.KernelIdeal.Glue3
end
-- ==== Proof.Glue4.lean ====
import proofs.«114160_j24077586661654_1_alg».proof.Defs
import proofs.«114160_j24077586661654_1_alg».proof.Proof.Gen.KernelIdeal.Frame
import proofs.«114160_j24077586661654_1_alg».proof.Proof.Gen.Pre_finite_inputs
import proofs.«114160_j24077586661654_1_alg».proof.Proof.RefRead
import proofs.«114160_j24077586661654_1_alg».proof.Proof.RefWeights
import proofs.«114160_j24077586661654_1_alg».proof.Proof.TakeRows
import proofs.«114160_j24077586661654_1_alg».proof.Proof.PreRange
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import Idealize.ShloMosaic.Lib.Tactic

noncomputable section

open Idealize.ShloMosaic Idealize.ShloMosaic.TcCoe Idealize.SL.Sem Idealize.ShloMosaic.StableHlo
open Idealize.ShloMosaic.Pipeline (Dat)
open Idealize.ShloMosaic.ValueIdx

namespace Cert.KernelIdeal.Glue4

open Cert.KernelIdeal Cert.KernelIdeal.Gen
open Cert.ReferenceIdeal.ReadP (val_main_v1 val_main_v3 val_main_v4 val_main_v11 val_main_v18 val_main_v21 val_main_v25 val_main_v31 val_main_v35 val_main_v38 val_main_v41 val_main_v43 val_main_v47 val_main_v52 val_main_v57 val_main_v80 val_main_v88 val_main_v95 val_main_v102 val_main_v105 val_main_v109 val_main_v115 val_main_v119 val_main_v122 val_main_v125 val_main_v127 val_main_v131 val_main_v136 val_main_v141 val_main_v164 val_main_v172 val_main_v190)

variable (m : (ℓ : Loc nD τ sig) → Buf (Elt Ideal) ℓ) (ρ : Dev nD → PrngReg)

/-- A host stretch leaves a buffer it does not write as it was. -/
macro "stretch_keeps" ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

theorem w13_arg12 (c : Dev nD) : W13 m ρ c (Proc.devRef .tc main_arg12) = (m ((c.tc : Thread nD τ).loc main_arg12)) :=
  ((show W13 m ρ c (Proc.devRef .tc main_arg12) = W12 m ρ c (Proc.devRef .tc main_arg12) from W13_of_ne m ρ c main_arg12 (by decide)).trans ((show W12 m ρ c (Proc.devRef .tc main_arg12) = W11 m ρ c (Proc.devRef .tc main_arg12) by stretch_keeps hostOps3).trans ((show W11 m ρ c (Proc.devRef .tc main_arg12) = W10 m ρ c (Proc.devRef .tc main_arg12) from W11_of_ne m ρ c main_arg12 (by decide)).trans ((show W10 m ρ c (Proc.devRef .tc main_arg12) = W9 m ρ c (Proc.devRef .tc main_arg12) by stretch_keeps hostOps2_2).trans ((show W9 m ρ c (Proc.devRef .tc main_arg12) = W8 m ρ c (Proc.devRef .tc main_arg12) by stretch_keeps hostOps2_1).trans ((show W8 m ρ c (Proc.devRef .tc main_arg12) = W7 m ρ c (Proc.devRef .tc main_arg12) by stretch_keeps hostOps2).trans ((show W7 m ρ c (Proc.devRef .tc main_arg12) = W6 m ρ c (Proc.devRef .tc main_arg12) from W7_of_ne m ρ c main_arg12 (by decide)).trans ((show W6 m ρ c (Proc.devRef .tc main_arg12) = W5 m ρ c (Proc.devRef .tc main_arg12) by stretch_keeps hostOps1).trans ((show W5 m ρ c (Proc.devRef .tc main_arg12) = W4 m ρ c (Proc.devRef .tc main_arg12) from W5_of_ne m ρ c main_arg12 (by decide)).trans ((show W4 m ρ c (Proc.devRef .tc main_arg12) = W3 m ρ c (Proc.devRef .tc main_arg12) by stretch_keeps hostOps0_3).trans ((show W3 m ρ c (Proc.devRef .tc main_arg12) = W2 m ρ c (Proc.devRef .tc main_arg12) by stretch_keeps hostOps0_2).trans ((show W2 m ρ c (Proc.devRef .tc main_arg12) = W1 m ρ c (Proc.devRef .tc main_arg12) by stretch_keeps hostOps0_1).trans (show W1 m ρ c (Proc.devRef .tc main_arg12) = W0 m ρ c (Proc.devRef .tc main_arg12) by stretch_keeps hostOps0)))))))))))))
theorem w13_arg14 (c : Dev nD) : W13 m ρ c (Proc.devRef .tc main_arg14) = (m ((c.tc : Thread nD τ).loc main_arg14)) :=
  ((show W13 m ρ c (Proc.devRef .tc main_arg14) = W12 m ρ c (Proc.devRef .tc main_arg14) from W13_of_ne m ρ c main_arg14 (by decide)).trans ((show W12 m ρ c (Proc.devRef .tc main_arg14) = W11 m ρ c (Proc.devRef .tc main_arg14) by stretch_keeps hostOps3).trans ((show W11 m ρ c (Proc.devRef .tc main_arg14) = W10 m ρ c (Proc.devRef .tc main_arg14) from W11_of_ne m ρ c main_arg14 (by decide)).trans ((show W10 m ρ c (Proc.devRef .tc main_arg14) = W9 m ρ c (Proc.devRef .tc main_arg14) by stretch_keeps hostOps2_2).trans ((show W9 m ρ c (Proc.devRef .tc main_arg14) = W8 m ρ c (Proc.devRef .tc main_arg14) by stretch_keeps hostOps2_1).trans ((show W8 m ρ c (Proc.devRef .tc main_arg14) = W7 m ρ c (Proc.devRef .tc main_arg14) by stretch_keeps hostOps2).trans ((show W7 m ρ c (Proc.devRef .tc main_arg14) = W6 m ρ c (Proc.devRef .tc main_arg14) from W7_of_ne m ρ c main_arg14 (by decide)).trans ((show W6 m ρ c (Proc.devRef .tc main_arg14) = W5 m ρ c (Proc.devRef .tc main_arg14) by stretch_keeps hostOps1).trans ((show W5 m ρ c (Proc.devRef .tc main_arg14) = W4 m ρ c (Proc.devRef .tc main_arg14) from W5_of_ne m ρ c main_arg14 (by decide)).trans ((show W4 m ρ c (Proc.devRef .tc main_arg14) = W3 m ρ c (Proc.devRef .tc main_arg14) by stretch_keeps hostOps0_3).trans ((show W3 m ρ c (Proc.devRef .tc main_arg14) = W2 m ρ c (Proc.devRef .tc main_arg14) by stretch_keeps hostOps0_2).trans ((show W2 m ρ c (Proc.devRef .tc main_arg14) = W1 m ρ c (Proc.devRef .tc main_arg14) by stretch_keeps hostOps0_1).trans (show W1 m ρ c (Proc.devRef .tc main_arg14) = W0 m ρ c (Proc.devRef .tc main_arg14) by stretch_keeps hostOps0)))))))))))))

/-- Entering the readout launch: the hidden rows are what the second cell launch left, -/
theorem v14_h (c : Dev nD)
    (h58 : (W13 m ρ c (Proc.devRef .tc main_v58_0) : S20000x256.Idx → EReal) = val_main_v172 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) :
    (V14 m ρ c main_v58_0 : S20000x256.Idx → EReal) = val_main_v172 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  (show W14 m ρ c (Proc.devRef .tc main_v58_0) = W13 m ρ c (Proc.devRef .tc main_v58_0) by stretch_keeps hostOps4).trans h58
/-- the two weight matrices are as launched, -/
theorem v14_wg (c : Dev nD) : V14 m ρ c main_arg11 = (m ((c.tc : Thread nD τ).loc main_arg11)) :=
  ((show W14 m ρ c (Proc.devRef .tc main_arg11) = W13 m ρ c (Proc.devRef .tc main_arg11) by stretch_keeps hostOps4).trans ((show W13 m ρ c (Proc.devRef .tc main_arg11) = W12 m ρ c (Proc.devRef .tc main_arg11) from W13_of_ne m ρ c main_arg11 (by decide)).trans ((show W12 m ρ c (Proc.devRef .tc main_arg11) = W11 m ρ c (Proc.devRef .tc main_arg11) by stretch_keeps hostOps3).trans ((show W11 m ρ c (Proc.devRef .tc main_arg11) = W10 m ρ c (Proc.devRef .tc main_arg11) from W11_of_ne m ρ c main_arg11 (by decide)).trans ((show W10 m ρ c (Proc.devRef .tc main_arg11) = W9 m ρ c (Proc.devRef .tc main_arg11) by stretch_keeps hostOps2_2).trans ((show W9 m ρ c (Proc.devRef .tc main_arg11) = W8 m ρ c (Proc.devRef .tc main_arg11) by stretch_keeps hostOps2_1).trans ((show W8 m ρ c (Proc.devRef .tc main_arg11) = W7 m ρ c (Proc.devRef .tc main_arg11) by stretch_keeps hostOps2).trans ((show W7 m ρ c (Proc.devRef .tc main_arg11) = W6 m ρ c (Proc.devRef .tc main_arg11) from W7_of_ne m ρ c main_arg11 (by decide)).trans ((show W6 m ρ c (Proc.devRef .tc main_arg11) = W5 m ρ c (Proc.devRef .tc main_arg11) by stretch_keeps hostOps1).trans ((show W5 m ρ c (Proc.devRef .tc main_arg11) = W4 m ρ c (Proc.devRef .tc main_arg11) from W5_of_ne m ρ c main_arg11 (by decide)).trans ((show W4 m ρ c (Proc.devRef .tc main_arg11) = W3 m ρ c (Proc.devRef .tc main_arg11) by stretch_keeps hostOps0_3).trans ((show W3 m ρ c (Proc.devRef .tc main_arg11) = W2 m ρ c (Proc.devRef .tc main_arg11) by stretch_keeps hostOps0_2).trans ((show W2 m ρ c (Proc.devRef .tc main_arg11) = W1 m ρ c (Proc.devRef .tc main_arg11) by stretch_keeps hostOps0_1).trans (show W1 m ρ c (Proc.devRef .tc main_arg11) = W0 m ρ c (Proc.devRef .tc main_arg11) by stretch_keeps hostOps0))))))))))))))
theorem v14_wf (c : Dev nD) : V14 m ρ c main_arg13 = (m ((c.tc : Thread nD τ).loc main_arg13)) :=
  ((show W14 m ρ c (Proc.devRef .tc main_arg13) = W13 m ρ c (Proc.devRef .tc main_arg13) by stretch_keeps hostOps4).trans ((show W13 m ρ c (Proc.devRef .tc main_arg13) = W12 m ρ c (Proc.devRef .tc main_arg13) from W13_of_ne m ρ c main_arg13 (by decide)).trans ((show W12 m ρ c (Proc.devRef .tc main_arg13) = W11 m ρ c (Proc.devRef .tc main_arg13) by stretch_keeps hostOps3).trans ((show W11 m ρ c (Proc.devRef .tc main_arg13) = W10 m ρ c (Proc.devRef .tc main_arg13) from W11_of_ne m ρ c main_arg13 (by decide)).trans ((show W10 m ρ c (Proc.devRef .tc main_arg13) = W9 m ρ c (Proc.devRef .tc main_arg13) by stretch_keeps hostOps2_2).trans ((show W9 m ρ c (Proc.devRef .tc main_arg13) = W8 m ρ c (Proc.devRef .tc main_arg13) by stretch_keeps hostOps2_1).trans ((show W8 m ρ c (Proc.devRef .tc main_arg13) = W7 m ρ c (Proc.devRef .tc main_arg13) by stretch_keeps hostOps2).trans ((show W7 m ρ c (Proc.devRef .tc main_arg13) = W6 m ρ c (Proc.devRef .tc main_arg13) from W7_of_ne m ρ c main_arg13 (by decide)).trans ((show W6 m ρ c (Proc.devRef .tc main_arg13) = W5 m ρ c (Proc.devRef .tc main_arg13) by stretch_keeps hostOps1).trans ((show W5 m ρ c (Proc.devRef .tc main_arg13) = W4 m ρ c (Proc.devRef .tc main_arg13) from W5_of_ne m ρ c main_arg13 (by decide)).trans ((show W4 m ρ c (Proc.devRef .tc main_arg13) = W3 m ρ c (Proc.devRef .tc main_arg13) by stretch_keeps hostOps0_3).trans ((show W3 m ρ c (Proc.devRef .tc main_arg13) = W2 m ρ c (Proc.devRef .tc main_arg13) by stretch_keeps hostOps0_2).trans ((show W2 m ρ c (Proc.devRef .tc main_arg13) = W1 m ρ c (Proc.devRef .tc main_arg13) by stretch_keeps hostOps0_1).trans (show W1 m ρ c (Proc.devRef .tc main_arg13) = W0 m ρ c (Proc.devRef .tc main_arg13) by stretch_keeps hostOps0))))))))))))))
/-- and the two biases are the launched vectors as rows. -/
theorem v14_bg (c : Dev nD) (g : Fin 256) : (V14 m ρ c main_v59 : S1x256.Idx → EReal) (ix2 0 g) = (m ((c.tc : Thread nD τ).loc main_arg12)) (ix1 g) := by
  have h : (V14 m ρ c main_v59 : S1x256.Idx → EReal) = shapeCast S1x256 (m ((c.tc : Thread nD τ).loc main_arg12)) shapeCasts_S256_S1x256 := by
    show StableHlo.after hostOps4 (W13 m ρ c) (Proc.devRef .tc main_v59) = _
    after_results_simp
    simp only [w13_arg12 m ρ c]
    rfl
  rw [h]
  exact shapeCast_apply _ shapeCasts_S256_S1x256 (ix2 0 g) (ix1 g) (by
    rewrite [Shape.rowMajor_val_two, Shape.rowMajor_val_one]; show g.val = 0 * 256 + g.val; omega)

theorem v14_bf (c : Dev nD) (g : Fin 256) : (V14 m ρ c main_v60 : S1x256.Idx → EReal) (ix2 0 g) = (m ((c.tc : Thread nD τ).loc main_arg14)) (ix1 g) := by
  have h : (V14 m ρ c main_v60 : S1x256.Idx → EReal) = shapeCast S1x256 (m ((c.tc : Thread nD τ).loc main_arg14)) shapeCasts_S256_S1x256 := by
    show StableHlo.after hostOps4 (W13 m ρ c) (Proc.devRef .tc main_v60) = _
    after_results_simp
    simp only [w13_arg14 m ρ c]
    rfl
  rw [h]
  exact shapeCast_apply _ shapeCasts_S256_S1x256 (ix2 0 g) (ix1 g) (by
    rewrite [Shape.rowMajor_val_two, Shape.rowMajor_val_one]; show g.val = 0 * 256 + g.val; omega)

/-- The program's result is the readout launch's [1,256] output as a vector. -/
theorem result_at (c : Dev nD) (g : Fin 256) :
    (W16 m ρ c (Proc.devRef .tc main_v62) : S256.Idx → EReal) (ix1 g) = (W15 m ρ c (Proc.devRef .tc main_v61) : S1x256.Idx → EReal) (ix2 0 g) := by
  have h : (W16 m ρ c (Proc.devRef .tc main_v62) : S256.Idx → EReal) = shapeCast S256 (W15 m ρ c (Proc.devRef .tc main_v61) : S1x256.Idx → EReal) shapeCasts_S1x256_S256 := by
    show StableHlo.after hostOps5 (W15 m ρ c) (Proc.devRef .tc main_v62) = _
    after_results_simp
    rfl
  rw [h]
  exact shapeCast_apply _ shapeCasts_S1x256_S256 (ix1 g) (ix2 0 g) (by
    rewrite [Shape.rowMajor_val_two, Shape.rowMajor_val_one]; show 0 * 256 + g.val = g.val; omega)
end Cert.KernelIdeal.Glue4
end
-- ==== Proof.Forward.lean ====
/-
  The idealized kernel program's result, boundary by boundary, is the reference's result.

  Going forward through the program, every array the kernel program computes is the reference's
  stage of the same name in its own program, as a function of the launch arguments: the edge rows
  looked up (under the precondition: every endpoint names a node), the messages launch by launch,
  their scatter-add, the cell and hidden arrays, and the gated readout.  Each launch's output is
  read row by row through the row maps on both sides; the host operations between launches are the
  same operations in both programs.
-/
import proofs.«114160_j24077586661654_1_alg».proof.Defs
import proofs.«114160_j24077586661654_1_alg».proof.Proof.Gen.KernelIdeal.Frame
import proofs.«114160_j24077586661654_1_alg».proof.Proof.Gen.Pre_finite_inputs
import proofs.«114160_j24077586661654_1_alg».proof.Proof.RowMaps
import proofs.«114160_j24077586661654_1_alg».proof.Proof.RefRead
import proofs.«114160_j24077586661654_1_alg».proof.Proof.RefStages
import proofs.«114160_j24077586661654_1_alg».proof.Proof.RefWeights
import proofs.«114160_j24077586661654_1_alg».proof.Proof.KMessages0
import proofs.«114160_j24077586661654_1_alg».proof.Proof.KMessages2
import proofs.«114160_j24077586661654_1_alg».proof.Proof.KCell1
import proofs.«114160_j24077586661654_1_alg».proof.Proof.KCell3
import proofs.«114160_j24077586661654_1_alg».proof.Proof.KReadout
import proofs.«114160_j24077586661654_1_alg».proof.Proof.Glue0
import proofs.«114160_j24077586661654_1_alg».proof.Proof.Glue1
import proofs.«114160_j24077586661654_1_alg».proof.Proof.Glue2
import proofs.«114160_j24077586661654_1_alg».proof.Proof.Glue3
import proofs.«114160_j24077586661654_1_alg».proof.Proof.Glue4
import Idealize.ShloMosaic.Lib.ValueIdx

noncomputable section

open Idealize.ShloMosaic Idealize.ShloMosaic.TcCoe Idealize.SL.Sem
open Idealize.ShloMosaic.ValueIdx

namespace Cert.KernelIdeal.Forward

open Cert.KernelIdeal Cert.KernelIdeal.Gen Cert.RowMaps
open Cert.ReferenceIdeal.ReadP (val_main_v4 val_main_v11 val_main_v18 val_main_v38 val_main_v41 val_main_v80 val_main_v88 val_main_v95 val_main_v102 val_main_v122 val_main_v125 val_main_v164 val_main_v172 val_main_v190)
open Cert.ReferenceIdeal (Stages.msg0 Stages.cell0 Stages.hidden0 Stages.msg1 Stages.cell1 Stages.hidden1 Stages.readout)

variable (m : (ℓ : Loc nD τ sig) → Buf (Elt Ideal) ℓ) (ρ : Dev nD → PrngReg)

/-- The first launch's messages are the reference's. -/
theorem msgs0 (hpre : Cert.Pre_KernelIdeal m) (c : Dev nD) :
    (W5 m ρ c (Proc.devRef .tc main_v17) : S320000x256.Idx → EReal) = val_main_v38 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (W5_arr m ρ c 7).trans ?_
  funext i
  obtain ⟨e, d, rfl⟩ : ∃ (e : Fin 320000) (d : Fin 256), i = ix2 e d := ⟨i 0, i 1, eq_ix2 i⟩
  rw [Cert.KernelIdeal.Messages0.messages (V4 m ρ) c e d, Cert.ReferenceIdeal.Stages.msg0 _ _ _ _ _ _ _ e d,
    Glue0.v4_dst m ρ hpre c, Glue0.v4_src m ρ hpre c, Glue0.v4_ea m ρ c, Glue0.v4_w1 m ρ c, Glue0.v4_w2 m ρ c]
  simp only [Cert.ReferenceIdeal.Weights.w1, Cert.ReferenceIdeal.Weights.w2, Glue0.v4_b1 m ρ c, Glue0.v4_b2 m ρ c]

/-- The first cell launch's gate rows are the reference's. -/
theorem gates1_eq (hpre : Cert.Pre_KernelIdeal m) (c : Dev nD) (v : Fin 20000) :
    Cert.KernelIdeal.Cell1.gates (V6 m ρ) c v = Cert.ReferenceIdeal.Stages.gates0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) v := by
  unfold Cert.KernelIdeal.Cell1.gates Cert.ReferenceIdeal.Stages.gates0
  rw [Glue1.v6_h m ρ c, Glue1.v6_a m ρ c (msgs0 m ρ hpre c), Glue1.v6_wih m ρ c, Glue1.v6_whh m ρ c]
  simp only [Cert.ReferenceIdeal.Weights.wih, Cert.ReferenceIdeal.Weights.whh, Glue1.v6_bih m ρ c, Glue1.v6_bhh m ρ c]

/-- The first cell launch's new cell array is the reference's. -/
theorem cell1_eq (hpre : Cert.Pre_KernelIdeal m) (c : Dev nD) :
    (W7 m ρ c (Proc.devRef .tc main_v31_1) : S20000x256.Idx → EReal) = val_main_v80 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  refine (W7_arr m ρ c 8).trans ?_
  funext i
  obtain ⟨v, d, rfl⟩ : ∃ (v : Fin 20000) (d : Fin 256), i = ix2 v d := ⟨i 0, i 1, eq_ix2 i⟩
  rw [Cert.KernelIdeal.Cell1.cell (V6 m ρ) c v d, Cert.ReferenceIdeal.Stages.cell0 _ _ _ _ _ _ _ _ _ _ _ v d,
    gates1_eq m ρ hpre c v, Glue1.v6_c m ρ c]

/-- The first cell launch's new hidden array is the reference's. -/
theorem hidden1_eq (hpre : Cert.Pre_KernelIdeal m) (c : Dev nD) :
    (W7 m ρ c (Proc.devRef .tc main_v31_0) : S20000x256.Idx → EReal) = val_main_v88 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  refine (W7_arr m ρ c 7).trans ?_
  funext i
  obtain ⟨v, d, rfl⟩ : ∃ (v : Fin 20000) (d : Fin 256), i = ix2 v d := ⟨i 0, i 1, eq_ix2 i⟩
  rw [Cert.KernelIdeal.Cell1.hidden (V6 m ρ) c v d, Cert.ReferenceIdeal.Stages.hidden0 _ _ _ _ _ _ _ _ _ _ _ v d,
    gates1_eq m ρ hpre c v, Glue1.v6_c m ρ c]

/-- The second launch's messages are the reference's. -/
theorem msgs2 (hpre : Cert.Pre_KernelIdeal m) (c : Dev nD) :
    (W11 m ρ c (Proc.devRef .tc main_v44) : S320000x256.Idx → EReal) = val_main_v122 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  refine (W11_arr m ρ c 7).trans ?_
  funext i
  obtain ⟨e, d, rfl⟩ : ∃ (e : Fin 320000) (d : Fin 256), i = ix2 e d := ⟨i 0, i 1, eq_ix2 i⟩
  rw [Cert.KernelIdeal.Messages2.messages (V10 m ρ) c e d, Cert.ReferenceIdeal.Stages.msg1 _ _ _ _ _ _ _ _ _ _ _ e d,
    Glue2.v10_dst m ρ hpre c (hidden1_eq m ρ hpre c), Glue2.v10_src m ρ hpre c (hidden1_eq m ρ hpre c), Glue2.v10_ea m ρ c,
    Glue2.v10_w1 m ρ c, Glue2.v10_w2 m ρ c]
  simp only [Cert.ReferenceIdeal.Weights.w1', Cert.ReferenceIdeal.Weights.w2', Glue2.v10_b1 m ρ c, Glue2.v10_b2 m ρ c]

/-- The second cell launch's gate rows are the reference's. -/
theorem gates3_eq (hpre : Cert.Pre_KernelIdeal m) (c : Dev nD) (v : Fin 20000) :
    Cert.KernelIdeal.Cell3.gates (V12 m ρ) c v = Cert.ReferenceIdeal.Stages.gates1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) v := by
  unfold Cert.KernelIdeal.Cell3.gates Cert.ReferenceIdeal.Stages.gates1
  rw [Glue3.v12_h m ρ c (hidden1_eq m ρ hpre c), Glue3.v12_a m ρ c (msgs2 m ρ hpre c), Glue3.v12_wih m ρ c, Glue3.v12_whh m ρ c]
  simp only [Cert.ReferenceIdeal.Weights.wih', Cert.ReferenceIdeal.Weights.whh', Glue3.v12_bih m ρ c, Glue3.v12_bhh m ρ c]

/-- The second cell launch's new hidden array is the reference's. -/
theorem hidden3_eq (hpre : Cert.Pre_KernelIdeal m) (c : Dev nD) :
    (W13 m ρ c (Proc.devRef .tc main_v58_0) : S20000x256.Idx → EReal) = val_main_v172 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  refine (W13_arr m ρ c 7).trans ?_
  funext i
  obtain ⟨v, d, rfl⟩ : ∃ (v : Fin 20000) (d : Fin 256), i = ix2 v d := ⟨i 0, i 1, eq_ix2 i⟩
  rw [Cert.KernelIdeal.Cell3.hidden (V12 m ρ) c v d, Cert.ReferenceIdeal.Stages.hidden1 _ _ _ _ _ _ _ _ _ _ _ v d,
    gates3_eq m ρ hpre c v, Glue3.v12_c m ρ c (cell1_eq m ρ hpre c)]

/-- The program's result array is the reference's result. -/
theorem result_eq (hpre : Cert.Pre_KernelIdeal m) (c : Dev nD) :
    (W16 m ρ c (Proc.devRef .tc main_v62) : S256.Idx → EReal) = val_main_v190 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  funext i
  obtain ⟨g, rfl⟩ : ∃ g : Fin 256, i = ix1 g := ⟨i 0, eq_ix1 i⟩
  rw [Glue4.result_at m ρ c g, Cert.ReferenceIdeal.Stages.readout _ _ _ _ _ _ _ _ _ _ _ _ _ _ _ g]
  refine ((congrFun (W15_arr m ρ c 5) (ix2 0 g)).trans ?_)
  rw [Cert.KernelIdeal.Readout.readout_sum (V14 m ρ) c g, Glue4.v14_h m ρ c (hidden3_eq m ρ hpre c), Glue4.v14_wg m ρ c, Glue4.v14_wf m ρ c]
  simp only [Glue4.v14_bg m ρ c, Glue4.v14_bf m ρ c]

end Cert.KernelIdeal.Forward

end
-- ==== Proof.RefRunSteps.lean ====
/-
  The reference program's run, read stage by stage.

  The reference is a straight line of 221 host operations.  Its run ends with every buffer at the fold of the
  operations' results over the launch contents.  That fold is read here in five consecutive stretches, cut where few
  values are live (after each round's aggregated messages and new hidden and cell arrays; the last stretch is the
  readout): at each cut, each value a later stretch reads is the read-back module's stage of the arguments' launch
  contents, and no operation writes an argument.  Composing the five stretches gives the result as the last stage.
-/
import proofs.«114160_j24077586661654_1_alg».proof.Proof.RefOps
import proofs.«114160_j24077586661654_1_alg».proof.Proof.RefRead
import Idealize.ShloMosaic.Lib.StableHlo.Run

noncomputable section

namespace Cert.ReferenceIdeal.Steps

open Cert.ReferenceIdeal Cert.ReferenceIdeal.Gen Idealize.ShloMosaic Idealize.ShloMosaic.TcCoe Idealize.SL.Sem Idealize.ShloMosaic.StableHlo
open Cert.ReferenceIdeal.ReadP (val_main_v1 val_main_v3 val_main_v4 val_main_v41 val_main_v80 val_main_v88 val_main_v125 val_main_v172 val_main_v190)

/-! ## The program cut into five consecutive stretches

The reference is two rounds of message passing followed by a readout. Its operations are cut where few values are
live: after the first round's aggregated messages, after its new hidden and cell arrays, after the second round's
aggregated messages, after its new hidden array; the last stretch is the readout. -/

section Stretches
variable {F : FTy → Type} [FloatOps F]

/-- Stretch 1: operations 0 to 49 of the program, in order. -/
abbrev chunk1 : List (HloOp τ sig (Elt F)) :=
  [ unary main_arg2 main_v0 ((extractStridedSlice S1x320000 ![0, 0] · slices_S2x320000_S1x320000_0_0) : (⟨S2x320000, .i32⟩ : BufTy).Contents (Elt F) → (⟨S1x320000, .i32⟩ : BufTy).Contents (Elt F)),
    reshape main_v0 main_v1 rfl shapeCasts_S1x320000_S320000,
    unary main_arg2 main_v2 ((extractStridedSlice S1x320000 ![1, 0] · slices_S2x320000_S1x320000_1_0) : (⟨S2x320000, .i32⟩ : BufTy).Contents (Elt F) → (⟨S1x320000, .i32⟩ : BufTy).Contents (Elt F)),
    reshape main_v2 main_v3 rfl shapeCasts_S1x320000_S320000,
    nullary main_cst (constant S_ .f32 0x00000000#32),
    unary main_cst main_v4 (broadcastInDim S20000x256 ![] bcast_S_S20000x256 : (⟨S_, .f32⟩ : BufTy).Contents (Elt F) → (⟨S20000x256, .f32⟩ : BufTy).Contents (Elt F)),
    nullary main_c (constantI S_ 32 0#32),
    unary main_c main_v5 (broadcastInDim S320000 ![] bcast_S_S320000 : (⟨S_, .i32⟩ : BufTy).Contents (Elt F) → (⟨S320000, .i32⟩ : BufTy).Contents (Elt F)),
    binary main_v3 main_v5 main_v6 (cmpi .slt : (⟨S320000, .i32⟩ : BufTy).Contents (Elt F) → (⟨S320000, .i32⟩ : BufTy).Contents (Elt F) → (⟨S320000, .i1⟩ : BufTy).Contents (Elt F)),
    nullary main_c_0 (constantI S_ 32 20000#32),
    unary main_c_0 main_v7 (broadcastInDim S320000 ![] bcast_S_S320000 : (⟨S_, .i32⟩ : BufTy).Contents (Elt F) → (⟨S320000, .i32⟩ : BufTy).Contents (Elt F)),
    binary main_v3 main_v7 main_v8 (addi : (⟨S320000, .i32⟩ : BufTy).Contents (Elt F) → (⟨S320000, .i32⟩ : BufTy).Contents (Elt F) → (⟨S320000, .i32⟩ : BufTy).Contents (Elt F)),
    ternary main_v6 main_v8 main_v3 main_v9 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v9 main_v10 (broadcastInDim S320000x1 ![0] bcast_S320000_S320000x1_0 : (⟨S320000, .i32⟩ : BufTy).Contents (Elt F) → (⟨S320000x1, .i32⟩ : BufTy).Contents (Elt F)),
    binary main_arg0 main_v10 main_v11 ((fun x i => Host.gather gather_S20000x256_S320000x1_S320000x256_1_0_n_n_0_1_1256 x i) : (⟨S20000x256, .f32⟩ : BufTy).Contents (Elt F) → (⟨S320000x1, .i32⟩ : BufTy).Contents (Elt F) → (⟨S320000x256, .f32⟩ : BufTy).Contents (Elt F)),
    nullary main_c_1 (constantI S_ 32 0#32),
    unary main_c_1 main_v12 (broadcastInDim S320000 ![] bcast_S_S320000 : (⟨S_, .i32⟩ : BufTy).Contents (Elt F) → (⟨S320000, .i32⟩ : BufTy).Contents (Elt F)),
    binary main_v1 main_v12 main_v13 (cmpi .slt : (⟨S320000, .i32⟩ : BufTy).Contents (Elt F) → (⟨S320000, .i32⟩ : BufTy).Contents (Elt F) → (⟨S320000, .i1⟩ : BufTy).Contents (Elt F)),
    nullary main_c_2 (constantI S_ 32 20000#32),
    unary main_c_2 main_v14 (broadcastInDim S320000 ![] bcast_S_S320000 : (⟨S_, .i32⟩ : BufTy).Contents (Elt F) → (⟨S320000, .i32⟩ : BufTy).Contents (Elt F)),
    binary main_v1 main_v14 main_v15 (addi : (⟨S320000, .i32⟩ : BufTy).Contents (Elt F) → (⟨S320000, .i32⟩ : BufTy).Contents (Elt F) → (⟨S320000, .i32⟩ : BufTy).Contents (Elt F)),
    ternary main_v13 main_v15 main_v1 main_v16 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v16 main_v17 (broadcastInDim S320000x1 ![0] bcast_S320000_S320000x1_0 : (⟨S320000, .i32⟩ : BufTy).Contents (Elt F) → (⟨S320000x1, .i32⟩ : BufTy).Contents (Elt F)),
    binary main_arg0 main_v17 main_v18 ((fun x i => Host.gather gather_S20000x256_S320000x1_S320000x256_1_0_n_n_0_1_1256 x i) : (⟨S20000x256, .f32⟩ : BufTy).Contents (Elt F) → (⟨S320000x1, .i32⟩ : BufTy).Contents (Elt F) → (⟨S320000x256, .f32⟩ : BufTy).Contents (Elt F)),
    nary ![main_v11, main_v18, main_arg1] main_v19 (fun u => concatenate S320000x640 1 [⟨S320000x256, u 0⟩, ⟨S320000x256, u 1⟩, ⟨S320000x128, u 2⟩] concatenates_S320000x256_S320000x256_S320000x128_S320000x640_d1),
    unary main_arg3 main_v20 ((extractStridedSlice S1x256x640 ![0, 0, 0] · slices_S2x256x640_S1x256x640_0_0_0) : (⟨S2x256x640, .f32⟩ : BufTy).Contents (Elt F) → (⟨S1x256x640, .f32⟩ : BufTy).Contents (Elt F)),
    reshape main_v20 main_v21 rfl shapeCasts_S1x256x640_S256x640,
    unary main_v21 main_v22 ((transpose S640x256 [1, 0] · transposes_S256x640_S640x256_1_0) : (⟨S256x640, .f32⟩ : BufTy).Contents (Elt F) → (⟨S640x256, .f32⟩ : BufTy).Contents (Elt F)),
    binary main_v19 main_v22 main_v23 ((fun l r => Host.dotGeneral dot_S320000x640_S640x256_S320000x256_1_0_0_1_n_n none l r) : (⟨S320000x640, .f32⟩ : BufTy).Contents (Elt F) → (⟨S640x256, .f32⟩ : BufTy).Contents (Elt F) → (⟨S320000x256, .f32⟩ : BufTy).Contents (Elt F)),
    unary main_arg4 main_v24 ((extractStridedSlice S1x256 ![0, 0] · slices_S2x256_S1x256_0_0) : (⟨S2x256, .f32⟩ : BufTy).Contents (Elt F) → (⟨S1x256, .f32⟩ : BufTy).Contents (Elt F)),
    reshape main_v24 main_v25 rfl shapeCasts_S1x256_S256,
    unary main_v25 main_v26 (broadcastInDim S1x256 ![1] bcast_S256_S1x256_1 : (⟨S256, .f32⟩ : BufTy).Contents (Elt F) → (⟨S1x256, .f32⟩ : BufTy).Contents (Elt F)),
    unary main_v26 main_v27 (broadcastInDim S320000x256 ![0, 1] bcast_S1x256_S320000x256_0_1 : (⟨S1x256, .f32⟩ : BufTy).Contents (Elt F) → (⟨S320000x256, .f32⟩ : BufTy).Contents (Elt F)),
    binary main_v23 main_v27 main_v28 (addf : (⟨S320000x256, .f32⟩ : BufTy).Contents (Elt F) → (⟨S320000x256, .f32⟩ : BufTy).Contents (Elt F) → (⟨S320000x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S320000x256, .f32⟩) main_call0_v0) (broadcastInDim S320000x256 ![] bcast_S_S320000x256),
    TRef.binary (TRef.of (T := ⟨S320000x256, .f32⟩) main_v28) (TRef.of (T := ⟨S320000x256, .f32⟩) main_call0_v0) (TRef.of (T := ⟨S320000x256, .f32⟩) main_v29) maximumf,
    unary main_arg5 main_v30 ((extractStridedSlice S1x256x256 ![0, 0, 0] · slices_S2x256x256_S1x256x256_0_0_0) : (⟨S2x256x256, .f32⟩ : BufTy).Contents (Elt F) → (⟨S1x256x256, .f32⟩ : BufTy).Contents (Elt F)),
    reshape main_v30 main_v31 rfl shapeCasts_S1x256x256_S256x256,
    unary main_v31 main_v32 ((transpose S256x256 [1, 0] · transposes_S256x256_S256x256_1_0) : (⟨S256x256, .f32⟩ : BufTy).Contents (Elt F) → (⟨S256x256, .f32⟩ : BufTy).Contents (Elt F)),
    binary main_v29 main_v32 main_v33 ((fun l r => Host.dotGeneral dot_S320000x256_S256x256_S320000x256_1_0_0_1_n_n none l r) : (⟨S320000x256, .f32⟩ : BufTy).Contents (Elt F) → (⟨S256x256, .f32⟩ : BufTy).Contents (Elt F) → (⟨S320000x256, .f32⟩ : BufTy).Contents (Elt F)),
    unary main_arg6 main_v34 ((extractStridedSlice S1x256 ![0, 0] · slices_S2x256_S1x256_0_0) : (⟨S2x256, .f32⟩ : BufTy).Contents (Elt F) → (⟨S1x256, .f32⟩ : BufTy).Contents (Elt F)),
    reshape main_v34 main_v35 rfl shapeCasts_S1x256_S256,
    unary main_v35 main_v36 (broadcastInDim S1x256 ![1] bcast_S256_S1x256_1 : (⟨S256, .f32⟩ : BufTy).Contents (Elt F) → (⟨S1x256, .f32⟩ : BufTy).Contents (Elt F)),
    unary main_v36 main_v37 (broadcastInDim S320000x256 ![0, 1] bcast_S1x256_S320000x256_0_1 : (⟨S1x256, .f32⟩ : BufTy).Contents (Elt F) → (⟨S320000x256, .f32⟩ : BufTy).Contents (Elt F)),
    binary main_v33 main_v37 main_v38 (addf : (⟨S320000x256, .f32⟩ : BufTy).Contents (Elt F) → (⟨S320000x256, .f32⟩ : BufTy).Contents (Elt F) → (⟨S320000x256, .f32⟩ : BufTy).Contents (Elt F)),
    nullary main_cst_3 (constant S_ .f32 0x00000000#32),
    unary main_cst_3 main_v39 (broadcastInDim S20000x256 ![] bcast_S_S20000x256 : (⟨S_, .f32⟩ : BufTy).Contents (Elt F) → (⟨S20000x256, .f32⟩ : BufTy).Contents (Elt F)),
    unary main_v3 main_v40 (broadcastInDim S320000x1 ![0] bcast_S320000_S320000x1_0 : (⟨S320000, .i32⟩ : BufTy).Contents (Elt F) → (⟨S320000x1, .i32⟩ : BufTy).Contents (Elt F)),
    ternary main_v39 main_v40 main_v38 main_v41 ((fun x i u => Host.scatterAdd scatter_S20000x256_S320000x1_S320000x256_1_0_0_1 x i u) : (⟨S20000x256, .f32⟩ : BufTy).Contents (Elt F) → (⟨S320000x1, .i32⟩ : BufTy).Contents (Elt F) → (⟨S320000x256, .f32⟩ : BufTy).Contents (Elt F) → (⟨S20000x256, .f32⟩ : BufTy).Contents (Elt F)) ]

/-- The buffers stretch 1 writes. -/
abbrev chunk1_W : List (Ref sig .tc) := [main_v0, main_v1, main_v2, main_v3, main_cst, main_v4, main_c, main_v5, main_v6, main_c_0, main_v7, main_v8, main_v9, main_v10, main_v11, main_c_1, main_v12, main_v13, main_c_2, main_v14, main_v15, main_v16, main_v17, main_v18, main_v19, main_v20, main_v21, main_v22, main_v23, main_v24, main_v25, main_v26, main_v27, main_v28, main_call0_cst, main_call0_v0, main_v29, main_v30, main_v31, main_v32, main_v33, main_v34, main_v35, main_v36, main_v37, main_v38, main_cst_3, main_v39, main_v40, main_v41]

theorem chunk1_writes : (chunk1 : List (HloOp τ sig (Elt F))).Forall fun op => op.writes ⊆ (chunk1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Stretch 2: operations 50 to 102 of the program, in order. -/
abbrev chunk2 : List (HloOp τ sig (Elt F)) :=
  [ unary main_arg7 main_v42 ((extractStridedSlice S1x1024x256 ![0, 0, 0] · slices_S2x1024x256_S1x1024x256_0_0_0) : (⟨S2x1024x256, .f32⟩ : BufTy).Contents (Elt F) → (⟨S1x1024x256, .f32⟩ : BufTy).Contents (Elt F)),
    reshape main_v42 main_v43 rfl shapeCasts_S1x1024x256_S1024x256,
    unary main_v43 main_v44 ((transpose S256x1024 [1, 0] · transposes_S1024x256_S256x1024_1_0) : (⟨S1024x256, .f32⟩ : BufTy).Contents (Elt F) → (⟨S256x1024, .f32⟩ : BufTy).Contents (Elt F)),
    binary main_arg0 main_v44 main_v45 ((fun l r => Host.dotGeneral dot_S20000x256_S256x1024_S20000x1024_1_0_0_1_n_n none l r) : (⟨S20000x256, .f32⟩ : BufTy).Contents (Elt F) → (⟨S256x1024, .f32⟩ : BufTy).Contents (Elt F) → (⟨S20000x1024, .f32⟩ : BufTy).Contents (Elt F)),
    unary main_arg9 main_v46 ((extractStridedSlice S1x1024 ![0, 0] · slices_S2x1024_S1x1024_0_0) : (⟨S2x1024, .f32⟩ : BufTy).Contents (Elt F) → (⟨S1x1024, .f32⟩ : BufTy).Contents (Elt F)),
    reshape main_v46 main_v47 rfl shapeCasts_S1x1024_S1024,
    unary main_v47 main_v48 (broadcastInDim S1x1024 ![1] bcast_S1024_S1x1024_1 : (⟨S1024, .f32⟩ : BufTy).Contents (Elt F) → (⟨S1x1024, .f32⟩ : BufTy).Contents (Elt F)),
    unary main_v48 main_v49 (broadcastInDim S20000x1024 ![0, 1] bcast_S1x1024_S20000x1024_0_1 : (⟨S1x1024, .f32⟩ : BufTy).Contents (Elt F) → (⟨S20000x1024, .f32⟩ : BufTy).Contents (Elt F)),
    binary main_v45 main_v49 main_v50 (addf : (⟨S20000x1024, .f32⟩ : BufTy).Contents (Elt F) → (⟨S20000x1024, .f32⟩ : BufTy).Contents (Elt F) → (⟨S20000x1024, .f32⟩ : BufTy).Contents (Elt F)),
    unary main_arg8 main_v51 ((extractStridedSlice S1x1024x256 ![0, 0, 0] · slices_S2x1024x256_S1x1024x256_0_0_0) : (⟨S2x1024x256, .f32⟩ : BufTy).Contents (Elt F) → (⟨S1x1024x256, .f32⟩ : BufTy).Contents (Elt F)),
    reshape main_v51 main_v52 rfl shapeCasts_S1x1024x256_S1024x256,
    unary main_v52 main_v53 ((transpose S256x1024 [1, 0] · transposes_S1024x256_S256x1024_1_0) : (⟨S1024x256, .f32⟩ : BufTy).Contents (Elt F) → (⟨S256x1024, .f32⟩ : BufTy).Contents (Elt F)),
    binary main_v41 main_v53 main_v54 ((fun l r => Host.dotGeneral dot_S20000x256_S256x1024_S20000x1024_1_0_0_1_n_n none l r) : (⟨S20000x256, .f32⟩ : BufTy).Contents (Elt F) → (⟨S256x1024, .f32⟩ : BufTy).Contents (Elt F) → (⟨S20000x1024, .f32⟩ : BufTy).Contents (Elt F)),
    binary main_v50 main_v54 main_v55 (addf : (⟨S20000x1024, .f32⟩ : BufTy).Contents (Elt F) → (⟨S20000x1024, .f32⟩ : BufTy).Contents (Elt F) → (⟨S20000x1024, .f32⟩ : BufTy).Contents (Elt F)),
    unary main_arg10 main_v56 ((extractStridedSlice S1x1024 ![0, 0] · slices_S2x1024_S1x1024_0_0) : (⟨S2x1024, .f32⟩ : BufTy).Contents (Elt F) → (⟨S1x1024, .f32⟩ : BufTy).Contents (Elt F)),
    reshape main_v56 main_v57 rfl shapeCasts_S1x1024_S1024,
    unary main_v57 main_v58 (broadcastInDim S1x1024 ![1] bcast_S1024_S1x1024_1 : (⟨S1024, .f32⟩ : BufTy).Contents (Elt F) → (⟨S1x1024, .f32⟩ : BufTy).Contents (Elt F)),
    unary main_v58 main_v59 (broadcastInDim S20000x1024 ![0, 1] bcast_S1x1024_S20000x1024_0_1 : (⟨S1x1024, .f32⟩ : BufTy).Contents (Elt F) → (⟨S20000x1024, .f32⟩ : BufTy).Contents (Elt F)),
    binary main_v55 main_v59 main_v60 (addf : (⟨S20000x1024, .f32⟩ : BufTy).Contents (Elt F) → (⟨S20000x1024, .f32⟩ : BufTy).Contents (Elt F) → (⟨S20000x1024, .f32⟩ : BufTy).Contents (Elt F)),
    unary main_v60 main_v61 ((extractStridedSlice S20000x256 ![0, 0] · slices_S20000x1024_S20000x256_0_0) : (⟨S20000x1024, .f32⟩ : BufTy).Contents (Elt F) → (⟨S20000x256, .f32⟩ : BufTy).Contents (Elt F)),
    unary main_v60 main_v62 ((extractStridedSlice S20000x256 ![0, 256] · slices_S20000x1024_S20000x256_0_256) : (⟨S20000x1024, .f32⟩ : BufTy).Contents (Elt F) → (⟨S20000x256, .f32⟩ : BufTy).Contents (Elt F)),
    unary main_v60 main_v63 ((extractStridedSlice S20000x256 ![0, 512] · slices_S20000x1024_S20000x256_0_512) : (⟨S20000x1024, .f32⟩ : BufTy).Contents (Elt F) → (⟨S20000x256, .f32⟩ : BufTy).Contents (Elt F)),
    unary main_v60 main_v64 ((extractStridedSlice S20000x256 ![0, 768] · slices_S20000x1024_S20000x256_0_768) : (⟨S20000x1024, .f32⟩ : BufTy).Contents (Elt F) → (⟨S20000x256, .f32⟩ : BufTy).Contents (Elt F)),
    unary main_v62 main_v65 (Host.negf : (⟨S20000x256, .f32⟩ : BufTy).Contents (Elt F) → (⟨S20000x256, .f32⟩ : BufTy).Contents (Elt F)),
    unary main_v65 main_v66 (Host.exp : (⟨S20000x256, .f32⟩ : BufTy).Contents (Elt F) → (⟨S20000x256, .f32⟩ : BufTy).Contents (Elt F)),
    nullary main_cst_4 (constant S_ .f32 0x3F800000#32),
    unary main_cst_4 main_v67 (broadcastInDim S20000x256 ![] bcast_S_S20000x256 : (⟨S_, .f32⟩ : BufTy).Contents (Elt F) → (⟨S20000x256, .f32⟩ : BufTy).Contents (Elt F)),
    binary main_v67 main_v66 main_v68 (addf : (⟨S20000x256, .f32⟩ : BufTy).Contents (Elt F) → (⟨S20000x256, .f32⟩ : BufTy).Contents (Elt F) → (⟨S20000x256, .f32⟩ : BufTy).Contents (Elt F)),
    nullary main_cst_5 (constant S_ .f32 0x3F800000#32),
    unary main_cst_5 main_v69 (broadcastInDim S20000x256 ![] bcast_S_S20000x256 : (⟨S_, .f32⟩ : BufTy).Contents (Elt F) → (⟨S20000x256, .f32⟩ : BufTy).Contents (Elt F)),
    binary main_v69 main_v68 main_v70 (Host.divf : (⟨S20000x256, .f32⟩ : BufTy).Contents (Elt F) → (⟨S20000x256, .f32⟩ : BufTy).Contents (Elt F) → (⟨S20000x256, .f32⟩ : BufTy).Contents (Elt F)),
    binary main_v70 main_v4 main_v71 (mulf : (⟨S20000x256, .f32⟩ : BufTy).Contents (Elt F) → (⟨S20000x256, .f32⟩ : BufTy).Contents (Elt F) → (⟨S20000x256, .f32⟩ : BufTy).Contents (Elt F)),
    unary main_v61 main_v72 (Host.negf : (⟨S20000x256, .f32⟩ : BufTy).Contents (Elt F) → (⟨S20000x256, .f32⟩ : BufTy).Contents (Elt F)),
    unary main_v72 main_v73 (Host.exp : (⟨S20000x256, .f32⟩ : BufTy).Contents (Elt F) → (⟨S20000x256, .f32⟩ : BufTy).Contents (Elt F)),
    nullary main_cst_6 (constant S_ .f32 0x3F800000#32),
    unary main_cst_6 main_v74 (broadcastInDim S20000x256 ![] bcast_S_S20000x256 : (⟨S_, .f32⟩ : BufTy).Contents (Elt F) → (⟨S20000x256, .f32⟩ : BufTy).Contents (Elt F)),
    binary main_v74 main_v73 main_v75 (addf : (⟨S20000x256, .f32⟩ : BufTy).Contents (Elt F) → (⟨S20000x256, .f32⟩ : BufTy).Contents (Elt F) → (⟨S20000x256, .f32⟩ : BufTy).Contents (Elt F)),
    nullary main_cst_7 (constant S_ .f32 0x3F800000#32),
    unary main_cst_7 main_v76 (broadcastInDim S20000x256 ![] bcast_S_S20000x256 : (⟨S_, .f32⟩ : BufTy).Contents (Elt F) → (⟨S20000x256, .f32⟩ : BufTy).Contents (Elt F)),
    binary main_v76 main_v75 main_v77 (Host.divf : (⟨S20000x256, .f32⟩ : BufTy).Contents (Elt F) → (⟨S20000x256, .f32⟩ : BufTy).Contents (Elt F) → (⟨S20000x256, .f32⟩ : BufTy).Contents (Elt F)),
    unary main_v63 main_v78 (Host.tanh : (⟨S20000x256, .f32⟩ : BufTy).Contents (Elt F) → (⟨S20000x256, .f32⟩ : BufTy).Contents (Elt F)),
    binary main_v77 main_v78 main_v79 (mulf : (⟨S20000x256, .f32⟩ : BufTy).Contents (Elt F) → (⟨S20000x256, .f32⟩ : BufTy).Contents (Elt F) → (⟨S20000x256, .f32⟩ : BufTy).Contents (Elt F)),
    binary main_v71 main_v79 main_v80 (addf : (⟨S20000x256, .f32⟩ : BufTy).Contents (Elt F) → (⟨S20000x256, .f32⟩ : BufTy).Contents (Elt F) → (⟨S20000x256, .f32⟩ : BufTy).Contents (Elt F)),
    unary main_v64 main_v81 (Host.negf : (⟨S20000x256, .f32⟩ : BufTy).Contents (Elt F) → (⟨S20000x256, .f32⟩ : BufTy).Contents (Elt F)),
    unary main_v81 main_v82 (Host.exp : (⟨S20000x256, .f32⟩ : BufTy).Contents (Elt F) → (⟨S20000x256, .f32⟩ : BufTy).Contents (Elt F)),
    nullary main_cst_8 (constant S_ .f32 0x3F800000#32),
    unary main_cst_8 main_v83 (broadcastInDim S20000x256 ![] bcast_S_S20000x256 : (⟨S_, .f32⟩ : BufTy).Contents (Elt F) → (⟨S20000x256, .f32⟩ : BufTy).Contents (Elt F)),
    binary main_v83 main_v82 main_v84 (addf : (⟨S20000x256, .f32⟩ : BufTy).Contents (Elt F) → (⟨S20000x256, .f32⟩ : BufTy).Contents (Elt F) → (⟨S20000x256, .f32⟩ : BufTy).Contents (Elt F)),
    nullary main_cst_9 (constant S_ .f32 0x3F800000#32),
    unary main_cst_9 main_v85 (broadcastInDim S20000x256 ![] bcast_S_S20000x256 : (⟨S_, .f32⟩ : BufTy).Contents (Elt F) → (⟨S20000x256, .f32⟩ : BufTy).Contents (Elt F)),
    binary main_v85 main_v84 main_v86 (Host.divf : (⟨S20000x256, .f32⟩ : BufTy).Contents (Elt F) → (⟨S20000x256, .f32⟩ : BufTy).Contents (Elt F) → (⟨S20000x256, .f32⟩ : BufTy).Contents (Elt F)),
    unary main_v80 main_v87 (Host.tanh : (⟨S20000x256, .f32⟩ : BufTy).Contents (Elt F) → (⟨S20000x256, .f32⟩ : BufTy).Contents (Elt F)),
    binary main_v86 main_v87 main_v88 (mulf : (⟨S20000x256, .f32⟩ : BufTy).Contents (Elt F) → (⟨S20000x256, .f32⟩ : BufTy).Contents (Elt F) → (⟨S20000x256, .f32⟩ : BufTy).Contents (Elt F)) ]

/-- The buffers stretch 2 writes. -/
abbrev chunk2_W : List (Ref sig .tc) := [main_v42, main_v43, main_v44, main_v45, main_v46, main_v47, main_v48, main_v49, main_v50, main_v51, main_v52, main_v53, main_v54, main_v55, main_v56, main_v57, main_v58, main_v59, main_v60, main_v61, main_v62, main_v63, main_v64, main_v65, main_v66, main_cst_4, main_v67, main_v68, main_cst_5, main_v69, main_v70, main_v71, main_v72, main_v73, main_cst_6, main_v74, main_v75, main_cst_7, main_v76, main_v77, main_v78, main_v79, main_v80, main_v81, main_v82, main_cst_8, main_v83, main_v84, main_cst_9, main_v85, main_v86, main_v87, main_v88]

theorem chunk2_writes : (chunk2 : List (HloOp τ sig (Elt F))).Forall fun op => op.writes ⊆ (chunk2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Stretch 3: operations 103 to 146 of the program, in order. -/
abbrev chunk3 : List (HloOp τ sig (Elt F)) :=
  [ nullary main_c_10 (constantI S_ 32 0#32),
    unary main_c_10 main_v89 (broadcastInDim S320000 ![] bcast_S_S320000 : (⟨S_, .i32⟩ : BufTy).Contents (Elt F) → (⟨S320000, .i32⟩ : BufTy).Contents (Elt F)),
    binary main_v3 main_v89 main_v90 (cmpi .slt : (⟨S320000, .i32⟩ : BufTy).Contents (Elt F) → (⟨S320000, .i32⟩ : BufTy).Contents (Elt F) → (⟨S320000, .i1⟩ : BufTy).Contents (Elt F)),
    nullary main_c_11 (constantI S_ 32 20000#32),
    unary main_c_11 main_v91 (broadcastInDim S320000 ![] bcast_S_S320000 : (⟨S_, .i32⟩ : BufTy).Contents (Elt F) → (⟨S320000, .i32⟩ : BufTy).Contents (Elt F)),
    binary main_v3 main_v91 main_v92 (addi : (⟨S320000, .i32⟩ : BufTy).Contents (Elt F) → (⟨S320000, .i32⟩ : BufTy).Contents (Elt F) → (⟨S320000, .i32⟩ : BufTy).Contents (Elt F)),
    ternary main_v90 main_v92 main_v3 main_v93 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v93 main_v94 (broadcastInDim S320000x1 ![0] bcast_S320000_S320000x1_0 : (⟨S320000, .i32⟩ : BufTy).Contents (Elt F) → (⟨S320000x1, .i32⟩ : BufTy).Contents (Elt F)),
    binary main_v88 main_v94 main_v95 ((fun x i => Host.gather gather_S20000x256_S320000x1_S320000x256_1_0_n_n_0_1_1256 x i) : (⟨S20000x256, .f32⟩ : BufTy).Contents (Elt F) → (⟨S320000x1, .i32⟩ : BufTy).Contents (Elt F) → (⟨S320000x256, .f32⟩ : BufTy).Contents (Elt F)),
    nullary main_c_12 (constantI S_ 32 0#32),
    unary main_c_12 main_v96 (broadcastInDim S320000 ![] bcast_S_S320000 : (⟨S_, .i32⟩ : BufTy).Contents (Elt F) → (⟨S320000, .i32⟩ : BufTy).Contents (Elt F)),
    binary main_v1 main_v96 main_v97 (cmpi .slt : (⟨S320000, .i32⟩ : BufTy).Contents (Elt F) → (⟨S320000, .i32⟩ : BufTy).Contents (Elt F) → (⟨S320000, .i1⟩ : BufTy).Contents (Elt F)),
    nullary main_c_13 (constantI S_ 32 20000#32),
    unary main_c_13 main_v98 (broadcastInDim S320000 ![] bcast_S_S320000 : (⟨S_, .i32⟩ : BufTy).Contents (Elt F) → (⟨S320000, .i32⟩ : BufTy).Contents (Elt F)),
    binary main_v1 main_v98 main_v99 (addi : (⟨S320000, .i32⟩ : BufTy).Contents (Elt F) → (⟨S320000, .i32⟩ : BufTy).Contents (Elt F) → (⟨S320000, .i32⟩ : BufTy).Contents (Elt F)),
    ternary main_v97 main_v99 main_v1 main_v100 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v100 main_v101 (broadcastInDim S320000x1 ![0] bcast_S320000_S320000x1_0 : (⟨S320000, .i32⟩ : BufTy).Contents (Elt F) → (⟨S320000x1, .i32⟩ : BufTy).Contents (Elt F)),
    binary main_v88 main_v101 main_v102 ((fun x i => Host.gather gather_S20000x256_S320000x1_S320000x256_1_0_n_n_0_1_1256 x i) : (⟨S20000x256, .f32⟩ : BufTy).Contents (Elt F) → (⟨S320000x1, .i32⟩ : BufTy).Contents (Elt F) → (⟨S320000x256, .f32⟩ : BufTy).Contents (Elt F)),
    nary ![main_v95, main_v102, main_arg1] main_v103 (fun u => concatenate S320000x640 1 [⟨S320000x256, u 0⟩, ⟨S320000x256, u 1⟩, ⟨S320000x128, u 2⟩] concatenates_S320000x256_S320000x256_S320000x128_S320000x640_d1),
    unary main_arg3 main_v104 ((extractStridedSlice S1x256x640 ![1, 0, 0] · slices_S2x256x640_S1x256x640_1_0_0) : (⟨S2x256x640, .f32⟩ : BufTy).Contents (Elt F) → (⟨S1x256x640, .f32⟩ : BufTy).Contents (Elt F)),
    reshape main_v104 main_v105 rfl shapeCasts_S1x256x640_S256x640,
    unary main_v105 main_v106 ((transpose S640x256 [1, 0] · transposes_S256x640_S640x256_1_0) : (⟨S256x640, .f32⟩ : BufTy).Contents (Elt F) → (⟨S640x256, .f32⟩ : BufTy).Contents (Elt F)),
    binary main_v103 main_v106 main_v107 ((fun l r => Host.dotGeneral dot_S320000x640_S640x256_S320000x256_1_0_0_1_n_n none l r) : (⟨S320000x640, .f32⟩ : BufTy).Contents (Elt F) → (⟨S640x256, .f32⟩ : BufTy).Contents (Elt F) → (⟨S320000x256, .f32⟩ : BufTy).Contents (Elt F)),
    unary main_arg4 main_v108 ((extractStridedSlice S1x256 ![1, 0] · slices_S2x256_S1x256_1_0) : (⟨S2x256, .f32⟩ : BufTy).Contents (Elt F) → (⟨S1x256, .f32⟩ : BufTy).Contents (Elt F)),
    reshape main_v108 main_v109 rfl shapeCasts_S1x256_S256,
    unary main_v109 main_v110 (broadcastInDim S1x256 ![1] bcast_S256_S1x256_1 : (⟨S256, .f32⟩ : BufTy).Contents (Elt F) → (⟨S1x256, .f32⟩ : BufTy).Contents (Elt F)),
    unary main_v110 main_v111 (broadcastInDim S320000x256 ![0, 1] bcast_S1x256_S320000x256_0_1 : (⟨S1x256, .f32⟩ : BufTy).Contents (Elt F) → (⟨S320000x256, .f32⟩ : BufTy).Contents (Elt F)),
    binary main_v107 main_v111 main_v112 (addf : (⟨S320000x256, .f32⟩ : BufTy).Contents (Elt F) → (⟨S320000x256, .f32⟩ : BufTy).Contents (Elt F) → (⟨S320000x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S320000x256, .f32⟩) main_call1_v0) (broadcastInDim S320000x256 ![] bcast_S_S320000x256),
    TRef.binary (TRef.of (T := ⟨S320000x256, .f32⟩) main_v112) (TRef.of (T := ⟨S320000x256, .f32⟩) main_call1_v0) (TRef.of (T := ⟨S320000x256, .f32⟩) main_v113) maximumf,
    unary main_arg5 main_v114 ((extractStridedSlice S1x256x256 ![1, 0, 0] · slices_S2x256x256_S1x256x256_1_0_0) : (⟨S2x256x256, .f32⟩ : BufTy).Contents (Elt F) → (⟨S1x256x256, .f32⟩ : BufTy).Contents (Elt F)),
    reshape main_v114 main_v115 rfl shapeCasts_S1x256x256_S256x256,
    unary main_v115 main_v116 ((transpose S256x256 [1, 0] · transposes_S256x256_S256x256_1_0) : (⟨S256x256, .f32⟩ : BufTy).Contents (Elt F) → (⟨S256x256, .f32⟩ : BufTy).Contents (Elt F)),
    binary main_v113 main_v116 main_v117 ((fun l r => Host.dotGeneral dot_S320000x256_S256x256_S320000x256_1_0_0_1_n_n none l r) : (⟨S320000x256, .f32⟩ : BufTy).Contents (Elt F) → (⟨S256x256, .f32⟩ : BufTy).Contents (Elt F) → (⟨S320000x256, .f32⟩ : BufTy).Contents (Elt F)),
    unary main_arg6 main_v118 ((extractStridedSlice S1x256 ![1, 0] · slices_S2x256_S1x256_1_0) : (⟨S2x256, .f32⟩ : BufTy).Contents (Elt F) → (⟨S1x256, .f32⟩ : BufTy).Contents (Elt F)),
    reshape main_v118 main_v119 rfl shapeCasts_S1x256_S256,
    unary main_v119 main_v120 (broadcastInDim S1x256 ![1] bcast_S256_S1x256_1 : (⟨S256, .f32⟩ : BufTy).Contents (Elt F) → (⟨S1x256, .f32⟩ : BufTy).Contents (Elt F)),
    unary main_v120 main_v121 (broadcastInDim S320000x256 ![0, 1] bcast_S1x256_S320000x256_0_1 : (⟨S1x256, .f32⟩ : BufTy).Contents (Elt F) → (⟨S320000x256, .f32⟩ : BufTy).Contents (Elt F)),
    binary main_v117 main_v121 main_v122 (addf : (⟨S320000x256, .f32⟩ : BufTy).Contents (Elt F) → (⟨S320000x256, .f32⟩ : BufTy).Contents (Elt F) → (⟨S320000x256, .f32⟩ : BufTy).Contents (Elt F)),
    nullary main_cst_14 (constant S_ .f32 0x00000000#32),
    unary main_cst_14 main_v123 (broadcastInDim S20000x256 ![] bcast_S_S20000x256 : (⟨S_, .f32⟩ : BufTy).Contents (Elt F) → (⟨S20000x256, .f32⟩ : BufTy).Contents (Elt F)),
    unary main_v3 main_v124 (broadcastInDim S320000x1 ![0] bcast_S320000_S320000x1_0 : (⟨S320000, .i32⟩ : BufTy).Contents (Elt F) → (⟨S320000x1, .i32⟩ : BufTy).Contents (Elt F)),
    ternary main_v123 main_v124 main_v122 main_v125 ((fun x i u => Host.scatterAdd scatter_S20000x256_S320000x1_S320000x256_1_0_0_1 x i u) : (⟨S20000x256, .f32⟩ : BufTy).Contents (Elt F) → (⟨S320000x1, .i32⟩ : BufTy).Contents (Elt F) → (⟨S320000x256, .f32⟩ : BufTy).Contents (Elt F) → (⟨S20000x256, .f32⟩ : BufTy).Contents (Elt F)) ]

/-- The buffers stretch 3 writes. -/
abbrev chunk3_W : List (Ref sig .tc) := [main_c_10, main_v89, main_v90, main_c_11, main_v91, main_v92, main_v93, main_v94, main_v95, main_c_12, main_v96, main_v97, main_c_13, main_v98, main_v99, main_v100, main_v101, main_v102, main_v103, main_v104, main_v105, main_v106, main_v107, main_v108, main_v109, main_v110, main_v111, main_v112, main_call1_cst, main_call1_v0, main_v113, main_v114, main_v115, main_v116, main_v117, main_v118, main_v119, main_v120, main_v121, main_v122, main_cst_14, main_v123, main_v124, main_v125]

theorem chunk3_writes : (chunk3 : List (HloOp τ sig (Elt F))).Forall fun op => op.writes ⊆ (chunk3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Stretch 4: operations 147 to 199 of the program, in order. -/
abbrev chunk4 : List (HloOp τ sig (Elt F)) :=
  [ unary main_arg7 main_v126 ((extractStridedSlice S1x1024x256 ![1, 0, 0] · slices_S2x1024x256_S1x1024x256_1_0_0) : (⟨S2x1024x256, .f32⟩ : BufTy).Contents (Elt F) → (⟨S1x1024x256, .f32⟩ : BufTy).Contents (Elt F)),
    reshape main_v126 main_v127 rfl shapeCasts_S1x1024x256_S1024x256,
    unary main_v127 main_v128 ((transpose S256x1024 [1, 0] · transposes_S1024x256_S256x1024_1_0) : (⟨S1024x256, .f32⟩ : BufTy).Contents (Elt F) → (⟨S256x1024, .f32⟩ : BufTy).Contents (Elt F)),
    binary main_v88 main_v128 main_v129 ((fun l r => Host.dotGeneral dot_S20000x256_S256x1024_S20000x1024_1_0_0_1_n_n none l r) : (⟨S20000x256, .f32⟩ : BufTy).Contents (Elt F) → (⟨S256x1024, .f32⟩ : BufTy).Contents (Elt F) → (⟨S20000x1024, .f32⟩ : BufTy).Contents (Elt F)),
    unary main_arg9 main_v130 ((extractStridedSlice S1x1024 ![1, 0] · slices_S2x1024_S1x1024_1_0) : (⟨S2x1024, .f32⟩ : BufTy).Contents (Elt F) → (⟨S1x1024, .f32⟩ : BufTy).Contents (Elt F)),
    reshape main_v130 main_v131 rfl shapeCasts_S1x1024_S1024,
    unary main_v131 main_v132 (broadcastInDim S1x1024 ![1] bcast_S1024_S1x1024_1 : (⟨S1024, .f32⟩ : BufTy).Contents (Elt F) → (⟨S1x1024, .f32⟩ : BufTy).Contents (Elt F)),
    unary main_v132 main_v133 (broadcastInDim S20000x1024 ![0, 1] bcast_S1x1024_S20000x1024_0_1 : (⟨S1x1024, .f32⟩ : BufTy).Contents (Elt F) → (⟨S20000x1024, .f32⟩ : BufTy).Contents (Elt F)),
    binary main_v129 main_v133 main_v134 (addf : (⟨S20000x1024, .f32⟩ : BufTy).Contents (Elt F) → (⟨S20000x1024, .f32⟩ : BufTy).Contents (Elt F) → (⟨S20000x1024, .f32⟩ : BufTy).Contents (Elt F)),
    unary main_arg8 main_v135 ((extractStridedSlice S1x1024x256 ![1, 0, 0] · slices_S2x1024x256_S1x1024x256_1_0_0) : (⟨S2x1024x256, .f32⟩ : BufTy).Contents (Elt F) → (⟨S1x1024x256, .f32⟩ : BufTy).Contents (Elt F)),
    reshape main_v135 main_v136 rfl shapeCasts_S1x1024x256_S1024x256,
    unary main_v136 main_v137 ((transpose S256x1024 [1, 0] · transposes_S1024x256_S256x1024_1_0) : (⟨S1024x256, .f32⟩ : BufTy).Contents (Elt F) → (⟨S256x1024, .f32⟩ : BufTy).Contents (Elt F)),
    binary main_v125 main_v137 main_v138 ((fun l r => Host.dotGeneral dot_S20000x256_S256x1024_S20000x1024_1_0_0_1_n_n none l r) : (⟨S20000x256, .f32⟩ : BufTy).Contents (Elt F) → (⟨S256x1024, .f32⟩ : BufTy).Contents (Elt F) → (⟨S20000x1024, .f32⟩ : BufTy).Contents (Elt F)),
    binary main_v134 main_v138 main_v139 (addf : (⟨S20000x1024, .f32⟩ : BufTy).Contents (Elt F) → (⟨S20000x1024, .f32⟩ : BufTy).Contents (Elt F) → (⟨S20000x1024, .f32⟩ : BufTy).Contents (Elt F)),
    unary main_arg10 main_v140 ((extractStridedSlice S1x1024 ![1, 0] · slices_S2x1024_S1x1024_1_0) : (⟨S2x1024, .f32⟩ : BufTy).Contents (Elt F) → (⟨S1x1024, .f32⟩ : BufTy).Contents (Elt F)),
    reshape main_v140 main_v141 rfl shapeCasts_S1x1024_S1024,
    unary main_v141 main_v142 (broadcastInDim S1x1024 ![1] bcast_S1024_S1x1024_1 : (⟨S1024, .f32⟩ : BufTy).Contents (Elt F) → (⟨S1x1024, .f32⟩ : BufTy).Contents (Elt F)),
    unary main_v142 main_v143 (broadcastInDim S20000x1024 ![0, 1] bcast_S1x1024_S20000x1024_0_1 : (⟨S1x1024, .f32⟩ : BufTy).Contents (Elt F) → (⟨S20000x1024, .f32⟩ : BufTy).Contents (Elt F)),
    binary main_v139 main_v143 main_v144 (addf : (⟨S20000x1024, .f32⟩ : BufTy).Contents (Elt F) → (⟨S20000x1024, .f32⟩ : BufTy).Contents (Elt F) → (⟨S20000x1024, .f32⟩ : BufTy).Contents (Elt F)),
    unary main_v144 main_v145 ((extractStridedSlice S20000x256 ![0, 0] · slices_S20000x1024_S20000x256_0_0) : (⟨S20000x1024, .f32⟩ : BufTy).Contents (Elt F) → (⟨S20000x256, .f32⟩ : BufTy).Contents (Elt F)),
    unary main_v144 main_v146 ((extractStridedSlice S20000x256 ![0, 256] · slices_S20000x1024_S20000x256_0_256) : (⟨S20000x1024, .f32⟩ : BufTy).Contents (Elt F) → (⟨S20000x256, .f32⟩ : BufTy).Contents (Elt F)),
    unary main_v144 main_v147 ((extractStridedSlice S20000x256 ![0, 512] · slices_S20000x1024_S20000x256_0_512) : (⟨S20000x1024, .f32⟩ : BufTy).Contents (Elt F) → (⟨S20000x256, .f32⟩ : BufTy).Contents (Elt F)),
    unary main_v144 main_v148 ((extractStridedSlice S20000x256 ![0, 768] · slices_S20000x1024_S20000x256_0_768) : (⟨S20000x1024, .f32⟩ : BufTy).Contents (Elt F) → (⟨S20000x256, .f32⟩ : BufTy).Contents (Elt F)),
    unary main_v146 main_v149 (Host.negf : (⟨S20000x256, .f32⟩ : BufTy).Contents (Elt F) → (⟨S20000x256, .f32⟩ : BufTy).Contents (Elt F)),
    unary main_v149 main_v150 (Host.exp : (⟨S20000x256, .f32⟩ : BufTy).Contents (Elt F) → (⟨S20000x256, .f32⟩ : BufTy).Contents (Elt F)),
    nullary main_cst_15 (constant S_ .f32 0x3F800000#32),
    unary main_cst_15 main_v151 (broadcastInDim S20000x256 ![] bcast_S_S20000x256 : (⟨S_, .f32⟩ : BufTy).Contents (Elt F) → (⟨S20000x256, .f32⟩ : BufTy).Contents (Elt F)),
    binary main_v151 main_v150 main_v152 (addf : (⟨S20000x256, .f32⟩ : BufTy).Contents (Elt F) → (⟨S20000x256, .f32⟩ : BufTy).Contents (Elt F) → (⟨S20000x256, .f32⟩ : BufTy).Contents (Elt F)),
    nullary main_cst_16 (constant S_ .f32 0x3F800000#32),
    unary main_cst_16 main_v153 (broadcastInDim S20000x256 ![] bcast_S_S20000x256 : (⟨S_, .f32⟩ : BufTy).Contents (Elt F) → (⟨S20000x256, .f32⟩ : BufTy).Contents (Elt F)),
    binary main_v153 main_v152 main_v154 (Host.divf : (⟨S20000x256, .f32⟩ : BufTy).Contents (Elt F) → (⟨S20000x256, .f32⟩ : BufTy).Contents (Elt F) → (⟨S20000x256, .f32⟩ : BufTy).Contents (Elt F)),
    binary main_v154 main_v80 main_v155 (mulf : (⟨S20000x256, .f32⟩ : BufTy).Contents (Elt F) → (⟨S20000x256, .f32⟩ : BufTy).Contents (Elt F) → (⟨S20000x256, .f32⟩ : BufTy).Contents (Elt F)),
    unary main_v145 main_v156 (Host.negf : (⟨S20000x256, .f32⟩ : BufTy).Contents (Elt F) → (⟨S20000x256, .f32⟩ : BufTy).Contents (Elt F)),
    unary main_v156 main_v157 (Host.exp : (⟨S20000x256, .f32⟩ : BufTy).Contents (Elt F) → (⟨S20000x256, .f32⟩ : BufTy).Contents (Elt F)),
    nullary main_cst_17 (constant S_ .f32 0x3F800000#32),
    unary main_cst_17 main_v158 (broadcastInDim S20000x256 ![] bcast_S_S20000x256 : (⟨S_, .f32⟩ : BufTy).Contents (Elt F) → (⟨S20000x256, .f32⟩ : BufTy).Contents (Elt F)),
    binary main_v158 main_v157 main_v159 (addf : (⟨S20000x256, .f32⟩ : BufTy).Contents (Elt F) → (⟨S20000x256, .f32⟩ : BufTy).Contents (Elt F) → (⟨S20000x256, .f32⟩ : BufTy).Contents (Elt F)),
    nullary main_cst_18 (constant S_ .f32 0x3F800000#32),
    unary main_cst_18 main_v160 (broadcastInDim S20000x256 ![] bcast_S_S20000x256 : (⟨S_, .f32⟩ : BufTy).Contents (Elt F) → (⟨S20000x256, .f32⟩ : BufTy).Contents (Elt F)),
    binary main_v160 main_v159 main_v161 (Host.divf : (⟨S20000x256, .f32⟩ : BufTy).Contents (Elt F) → (⟨S20000x256, .f32⟩ : BufTy).Contents (Elt F) → (⟨S20000x256, .f32⟩ : BufTy).Contents (Elt F)),
    unary main_v147 main_v162 (Host.tanh : (⟨S20000x256, .f32⟩ : BufTy).Contents (Elt F) → (⟨S20000x256, .f32⟩ : BufTy).Contents (Elt F)),
    binary main_v161 main_v162 main_v163 (mulf : (⟨S20000x256, .f32⟩ : BufTy).Contents (Elt F) → (⟨S20000x256, .f32⟩ : BufTy).Contents (Elt F) → (⟨S20000x256, .f32⟩ : BufTy).Contents (Elt F)),
    binary main_v155 main_v163 main_v164 (addf : (⟨S20000x256, .f32⟩ : BufTy).Contents (Elt F) → (⟨S20000x256, .f32⟩ : BufTy).Contents (Elt F) → (⟨S20000x256, .f32⟩ : BufTy).Contents (Elt F)),
    unary main_v148 main_v165 (Host.negf : (⟨S20000x256, .f32⟩ : BufTy).Contents (Elt F) → (⟨S20000x256, .f32⟩ : BufTy).Contents (Elt F)),
    unary main_v165 main_v166 (Host.exp : (⟨S20000x256, .f32⟩ : BufTy).Contents (Elt F) → (⟨S20000x256, .f32⟩ : BufTy).Contents (Elt F)),
    nullary main_cst_19 (constant S_ .f32 0x3F800000#32),
    unary main_cst_19 main_v167 (broadcastInDim S20000x256 ![] bcast_S_S20000x256 : (⟨S_, .f32⟩ : BufTy).Contents (Elt F) → (⟨S20000x256, .f32⟩ : BufTy).Contents (Elt F)),
    binary main_v167 main_v166 main_v168 (addf : (⟨S20000x256, .f32⟩ : BufTy).Contents (Elt F) → (⟨S20000x256, .f32⟩ : BufTy).Contents (Elt F) → (⟨S20000x256, .f32⟩ : BufTy).Contents (Elt F)),
    nullary main_cst_20 (constant S_ .f32 0x3F800000#32),
    unary main_cst_20 main_v169 (broadcastInDim S20000x256 ![] bcast_S_S20000x256 : (⟨S_, .f32⟩ : BufTy).Contents (Elt F) → (⟨S20000x256, .f32⟩ : BufTy).Contents (Elt F)),
    binary main_v169 main_v168 main_v170 (Host.divf : (⟨S20000x256, .f32⟩ : BufTy).Contents (Elt F) → (⟨S20000x256, .f32⟩ : BufTy).Contents (Elt F) → (⟨S20000x256, .f32⟩ : BufTy).Contents (Elt F)),
    unary main_v164 main_v171 (Host.tanh : (⟨S20000x256, .f32⟩ : BufTy).Contents (Elt F) → (⟨S20000x256, .f32⟩ : BufTy).Contents (Elt F)),
    binary main_v170 main_v171 main_v172 (mulf : (⟨S20000x256, .f32⟩ : BufTy).Contents (Elt F) → (⟨S20000x256, .f32⟩ : BufTy).Contents (Elt F) → (⟨S20000x256, .f32⟩ : BufTy).Contents (Elt F)) ]

/-- The buffers stretch 4 writes. -/
abbrev chunk4_W : List (Ref sig .tc) := [main_v126, main_v127, main_v128, main_v129, main_v130, main_v131, main_v132, main_v133, main_v134, main_v135, main_v136, main_v137, main_v138, main_v139, main_v140, main_v141, main_v142, main_v143, main_v144, main_v145, main_v146, main_v147, main_v148, main_v149, main_v150, main_cst_15, main_v151, main_v152, main_cst_16, main_v153, main_v154, main_v155, main_v156, main_v157, main_cst_17, main_v158, main_v159, main_cst_18, main_v160, main_v161, main_v162, main_v163, main_v164, main_v165, main_v166, main_cst_19, main_v167, main_v168, main_cst_20, main_v169, main_v170, main_v171, main_v172]

theorem chunk4_writes : (chunk4 : List (HloOp τ sig (Elt F))).Forall fun op => op.writes ⊆ (chunk4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Stretch 5: operations 200 to 220 of the program, in order. -/
abbrev chunk5 : List (HloOp τ sig (Elt F)) :=
  [ unary main_arg11 main_v173 ((transpose S256x256 [1, 0] · transposes_S256x256_S256x256_1_0) : (⟨S256x256, .f32⟩ : BufTy).Contents (Elt F) → (⟨S256x256, .f32⟩ : BufTy).Contents (Elt F)),
    binary main_v172 main_v173 main_v174 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)),
    unary main_arg12 main_v175 (broadcastInDim S1x256 ![1] bcast_S256_S1x256_1 : (⟨S256, .f32⟩ : BufTy).Contents (Elt F) → (⟨S1x256, .f32⟩ : BufTy).Contents (Elt F)),
    unary main_v175 main_v176 (broadcastInDim S20000x256 ![0, 1] bcast_S1x256_S20000x256_0_1 : (⟨S1x256, .f32⟩ : BufTy).Contents (Elt F) → (⟨S20000x256, .f32⟩ : BufTy).Contents (Elt F)),
    binary main_v174 main_v176 main_v177 (addf : (⟨S20000x256, .f32⟩ : BufTy).Contents (Elt F) → (⟨S20000x256, .f32⟩ : BufTy).Contents (Elt F) → (⟨S20000x256, .f32⟩ : BufTy).Contents (Elt F)),
    unary main_v177 main_v178 (Host.negf : (⟨S20000x256, .f32⟩ : BufTy).Contents (Elt F) → (⟨S20000x256, .f32⟩ : BufTy).Contents (Elt F)),
    unary main_v178 main_v179 (Host.exp : (⟨S20000x256, .f32⟩ : BufTy).Contents (Elt F) → (⟨S20000x256, .f32⟩ : BufTy).Contents (Elt F)),
    nullary main_cst_21 (constant S_ .f32 0x3F800000#32),
    unary main_cst_21 main_v180 (broadcastInDim S20000x256 ![] bcast_S_S20000x256 : (⟨S_, .f32⟩ : BufTy).Contents (Elt F) → (⟨S20000x256, .f32⟩ : BufTy).Contents (Elt F)),
    binary main_v180 main_v179 main_v181 (addf : (⟨S20000x256, .f32⟩ : BufTy).Contents (Elt F) → (⟨S20000x256, .f32⟩ : BufTy).Contents (Elt F) → (⟨S20000x256, .f32⟩ : BufTy).Contents (Elt F)),
    nullary main_cst_22 (constant S_ .f32 0x3F800000#32),
    unary main_cst_22 main_v182 (broadcastInDim S20000x256 ![] bcast_S_S20000x256 : (⟨S_, .f32⟩ : BufTy).Contents (Elt F) → (⟨S20000x256, .f32⟩ : BufTy).Contents (Elt F)),
    binary main_v182 main_v181 main_v183 (Host.divf : (⟨S20000x256, .f32⟩ : BufTy).Contents (Elt F) → (⟨S20000x256, .f32⟩ : BufTy).Contents (Elt F) → (⟨S20000x256, .f32⟩ : BufTy).Contents (Elt F)),
    unary main_arg13 main_v184 ((transpose S256x256 [1, 0] · transposes_S256x256_S256x256_1_0) : (⟨S256x256, .f32⟩ : BufTy).Contents (Elt F) → (⟨S256x256, .f32⟩ : BufTy).Contents (Elt F)),
    binary main_v172 main_v184 main_v185 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)),
    unary main_arg14 main_v186 (broadcastInDim S1x256 ![1] bcast_S256_S1x256_1 : (⟨S256, .f32⟩ : BufTy).Contents (Elt F) → (⟨S1x256, .f32⟩ : BufTy).Contents (Elt F)),
    unary main_v186 main_v187 (broadcastInDim S20000x256 ![0, 1] bcast_S1x256_S20000x256_0_1 : (⟨S1x256, .f32⟩ : BufTy).Contents (Elt F) → (⟨S20000x256, .f32⟩ : BufTy).Contents (Elt F)),
    binary main_v185 main_v187 main_v188 (addf : (⟨S20000x256, .f32⟩ : BufTy).Contents (Elt F) → (⟨S20000x256, .f32⟩ : BufTy).Contents (Elt F) → (⟨S20000x256, .f32⟩ : BufTy).Contents (Elt F)),
    binary main_v183 main_v188 main_v189 (mulf : (⟨S20000x256, .f32⟩ : BufTy).Contents (Elt F) → (⟨S20000x256, .f32⟩ : BufTy).Contents (Elt F) → (⟨S20000x256, .f32⟩ : BufTy).Contents (Elt F)),
    nullary main_cst_23 (constant S_ .f32 0x00000000#32),
    binary main_v189 main_cst_23 main_v190 ((fun x v => Host.reduceAdd x v reducesTo_S20000x256_S256_d0 h_S_) : (⟨S20000x256, .f32⟩ : BufTy).Contents (Elt F) → (⟨S_, .f32⟩ : BufTy).Contents (Elt F) → (⟨S256, .f32⟩ : BufTy).Contents (Elt F)) ]

/-- The buffers stretch 5 writes. -/
abbrev chunk5_W : List (Ref sig .tc) := [main_v173, main_v174, main_v175, main_v176, main_v177, main_v178, main_v179, main_cst_21, main_v180, main_v181, main_cst_22, main_v182, main_v183, main_v184, main_v185, main_v186, main_v187, main_v188, main_v189, main_cst_23, main_v190]

theorem chunk5_writes : (chunk5 : List (HloOp τ sig (Elt F))).Forall fun op => op.writes ⊆ (chunk5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Running two stretches in a row is running the first, then the second. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

end Stretches

/-! ## The buffer contents at each cut -/

variable (m : (ℓ : Loc nD τ sig) → Buf (Elt Ideal) ℓ)

/-- The contents at launch, and after each stretch. -/
def E0 (c : Dev nD) : Valuation τ sig (Elt Ideal) := launchContents m c
def E1 (c : Dev nD) : Valuation τ sig (Elt Ideal) := after chunk1 (E0 m c)
def E2 (c : Dev nD) : Valuation τ sig (Elt Ideal) := after chunk2 (E1 m c)
def E3 (c : Dev nD) : Valuation τ sig (Elt Ideal) := after chunk3 (E2 m c)
def E4 (c : Dev nD) : Valuation τ sig (Elt Ideal) := after chunk4 (E3 m c)
def E5 (c : Dev nD) : Valuation τ sig (Elt Ideal) := after chunk5 (E4 m c)

/-- A buffer a stretch does not write keeps its contents through it. -/
theorem E1_keep (c : Dev nD) (r : Ref sig .tc) (h : r ∉ chunk1_W) : E1 m c (Proc.devRef .tc r) = E0 m c (Proc.devRef .tc r) :=
  after_of_writes_sub chunk1 _ chunk1_writes h
theorem E2_keep (c : Dev nD) (r : Ref sig .tc) (h : r ∉ chunk2_W) : E2 m c (Proc.devRef .tc r) = E1 m c (Proc.devRef .tc r) :=
  after_of_writes_sub chunk2 _ chunk2_writes h
theorem E3_keep (c : Dev nD) (r : Ref sig .tc) (h : r ∉ chunk3_W) : E3 m c (Proc.devRef .tc r) = E2 m c (Proc.devRef .tc r) :=
  after_of_writes_sub chunk3 _ chunk3_writes h
theorem E4_keep (c : Dev nD) (r : Ref sig .tc) (h : r ∉ chunk4_W) : E4 m c (Proc.devRef .tc r) = E3 m c (Proc.devRef .tc r) :=
  after_of_writes_sub chunk4 _ chunk4_writes h
theorem E5_keep (c : Dev nD) (r : Ref sig .tc) (h : r ∉ chunk5_W) : E5 m c (Proc.devRef .tc r) = E4 m c (Proc.devRef .tc r) :=
  after_of_writes_sub chunk5 _ chunk5_writes h

/-- No operation writes an argument: at every cut each argument is as launched. -/
theorem E0_arg (c : Dev nD) (r : Ref sig .tc) : E0 m c (no_index (Proc.devRef .tc r)) = m ((c.tc : Thread nD τ).loc r) := rfl
theorem E1_arg0 (c : Dev nD) : E1 m c (no_index (Proc.devRef .tc main_arg0)) = m ((c.tc : Thread nD τ).loc main_arg0) := (E1_keep m c main_arg0 (by decide)).trans (E0_arg m c main_arg0)
theorem E2_arg0 (c : Dev nD) : E2 m c (no_index (Proc.devRef .tc main_arg0)) = m ((c.tc : Thread nD τ).loc main_arg0) := (E2_keep m c main_arg0 (by decide)).trans (E1_arg0 m c)
theorem E3_arg0 (c : Dev nD) : E3 m c (no_index (Proc.devRef .tc main_arg0)) = m ((c.tc : Thread nD τ).loc main_arg0) := (E3_keep m c main_arg0 (by decide)).trans (E2_arg0 m c)
theorem E4_arg0 (c : Dev nD) : E4 m c (no_index (Proc.devRef .tc main_arg0)) = m ((c.tc : Thread nD τ).loc main_arg0) := (E4_keep m c main_arg0 (by decide)).trans (E3_arg0 m c)
theorem E5_arg0 (c : Dev nD) : E5 m c (no_index (Proc.devRef .tc main_arg0)) = m ((c.tc : Thread nD τ).loc main_arg0) := (E5_keep m c main_arg0 (by decide)).trans (E4_arg0 m c)
theorem E1_arg1 (c : Dev nD) : E1 m c (no_index (Proc.devRef .tc main_arg1)) = m ((c.tc : Thread nD τ).loc main_arg1) := (E1_keep m c main_arg1 (by decide)).trans (E0_arg m c main_arg1)
theorem E2_arg1 (c : Dev nD) : E2 m c (no_index (Proc.devRef .tc main_arg1)) = m ((c.tc : Thread nD τ).loc main_arg1) := (E2_keep m c main_arg1 (by decide)).trans (E1_arg1 m c)
theorem E3_arg1 (c : Dev nD) : E3 m c (no_index (Proc.devRef .tc main_arg1)) = m ((c.tc : Thread nD τ).loc main_arg1) := (E3_keep m c main_arg1 (by decide)).trans (E2_arg1 m c)
theorem E4_arg1 (c : Dev nD) : E4 m c (no_index (Proc.devRef .tc main_arg1)) = m ((c.tc : Thread nD τ).loc main_arg1) := (E4_keep m c main_arg1 (by decide)).trans (E3_arg1 m c)
theorem E5_arg1 (c : Dev nD) : E5 m c (no_index (Proc.devRef .tc main_arg1)) = m ((c.tc : Thread nD τ).loc main_arg1) := (E5_keep m c main_arg1 (by decide)).trans (E4_arg1 m c)
theorem E1_arg2 (c : Dev nD) : E1 m c (no_index (Proc.devRef .tc main_arg2)) = m ((c.tc : Thread nD τ).loc main_arg2) := (E1_keep m c main_arg2 (by decide)).trans (E0_arg m c main_arg2)
theorem E2_arg2 (c : Dev nD) : E2 m c (no_index (Proc.devRef .tc main_arg2)) = m ((c.tc : Thread nD τ).loc main_arg2) := (E2_keep m c main_arg2 (by decide)).trans (E1_arg2 m c)
theorem E3_arg2 (c : Dev nD) : E3 m c (no_index (Proc.devRef .tc main_arg2)) = m ((c.tc : Thread nD τ).loc main_arg2) := (E3_keep m c main_arg2 (by decide)).trans (E2_arg2 m c)
theorem E4_arg2 (c : Dev nD) : E4 m c (no_index (Proc.devRef .tc main_arg2)) = m ((c.tc : Thread nD τ).loc main_arg2) := (E4_keep m c main_arg2 (by decide)).trans (E3_arg2 m c)
theorem E5_arg2 (c : Dev nD) : E5 m c (no_index (Proc.devRef .tc main_arg2)) = m ((c.tc : Thread nD τ).loc main_arg2) := (E5_keep m c main_arg2 (by decide)).trans (E4_arg2 m c)
theorem E1_arg3 (c : Dev nD) : E1 m c (no_index (Proc.devRef .tc main_arg3)) = m ((c.tc : Thread nD τ).loc main_arg3) := (E1_keep m c main_arg3 (by decide)).trans (E0_arg m c main_arg3)
theorem E2_arg3 (c : Dev nD) : E2 m c (no_index (Proc.devRef .tc main_arg3)) = m ((c.tc : Thread nD τ).loc main_arg3) := (E2_keep m c main_arg3 (by decide)).trans (E1_arg3 m c)
theorem E3_arg3 (c : Dev nD) : E3 m c (no_index (Proc.devRef .tc main_arg3)) = m ((c.tc : Thread nD τ).loc main_arg3) := (E3_keep m c main_arg3 (by decide)).trans (E2_arg3 m c)
theorem E4_arg3 (c : Dev nD) : E4 m c (no_index (Proc.devRef .tc main_arg3)) = m ((c.tc : Thread nD τ).loc main_arg3) := (E4_keep m c main_arg3 (by decide)).trans (E3_arg3 m c)
theorem E5_arg3 (c : Dev nD) : E5 m c (no_index (Proc.devRef .tc main_arg3)) = m ((c.tc : Thread nD τ).loc main_arg3) := (E5_keep m c main_arg3 (by decide)).trans (E4_arg3 m c)
theorem E1_arg4 (c : Dev nD) : E1 m c (no_index (Proc.devRef .tc main_arg4)) = m ((c.tc : Thread nD τ).loc main_arg4) := (E1_keep m c main_arg4 (by decide)).trans (E0_arg m c main_arg4)
theorem E2_arg4 (c : Dev nD) : E2 m c (no_index (Proc.devRef .tc main_arg4)) = m ((c.tc : Thread nD τ).loc main_arg4) := (E2_keep m c main_arg4 (by decide)).trans (E1_arg4 m c)
theorem E3_arg4 (c : Dev nD) : E3 m c (no_index (Proc.devRef .tc main_arg4)) = m ((c.tc : Thread nD τ).loc main_arg4) := (E3_keep m c main_arg4 (by decide)).trans (E2_arg4 m c)
theorem E4_arg4 (c : Dev nD) : E4 m c (no_index (Proc.devRef .tc main_arg4)) = m ((c.tc : Thread nD τ).loc main_arg4) := (E4_keep m c main_arg4 (by decide)).trans (E3_arg4 m c)
theorem E5_arg4 (c : Dev nD) : E5 m c (no_index (Proc.devRef .tc main_arg4)) = m ((c.tc : Thread nD τ).loc main_arg4) := (E5_keep m c main_arg4 (by decide)).trans (E4_arg4 m c)
theorem E1_arg5 (c : Dev nD) : E1 m c (no_index (Proc.devRef .tc main_arg5)) = m ((c.tc : Thread nD τ).loc main_arg5) := (E1_keep m c main_arg5 (by decide)).trans (E0_arg m c main_arg5)
theorem E2_arg5 (c : Dev nD) : E2 m c (no_index (Proc.devRef .tc main_arg5)) = m ((c.tc : Thread nD τ).loc main_arg5) := (E2_keep m c main_arg5 (by decide)).trans (E1_arg5 m c)
theorem E3_arg5 (c : Dev nD) : E3 m c (no_index (Proc.devRef .tc main_arg5)) = m ((c.tc : Thread nD τ).loc main_arg5) := (E3_keep m c main_arg5 (by decide)).trans (E2_arg5 m c)
theorem E4_arg5 (c : Dev nD) : E4 m c (no_index (Proc.devRef .tc main_arg5)) = m ((c.tc : Thread nD τ).loc main_arg5) := (E4_keep m c main_arg5 (by decide)).trans (E3_arg5 m c)
theorem E5_arg5 (c : Dev nD) : E5 m c (no_index (Proc.devRef .tc main_arg5)) = m ((c.tc : Thread nD τ).loc main_arg5) := (E5_keep m c main_arg5 (by decide)).trans (E4_arg5 m c)
theorem E1_arg6 (c : Dev nD) : E1 m c (no_index (Proc.devRef .tc main_arg6)) = m ((c.tc : Thread nD τ).loc main_arg6) := (E1_keep m c main_arg6 (by decide)).trans (E0_arg m c main_arg6)
theorem E2_arg6 (c : Dev nD) : E2 m c (no_index (Proc.devRef .tc main_arg6)) = m ((c.tc : Thread nD τ).loc main_arg6) := (E2_keep m c main_arg6 (by decide)).trans (E1_arg6 m c)
theorem E3_arg6 (c : Dev nD) : E3 m c (no_index (Proc.devRef .tc main_arg6)) = m ((c.tc : Thread nD τ).loc main_arg6) := (E3_keep m c main_arg6 (by decide)).trans (E2_arg6 m c)
theorem E4_arg6 (c : Dev nD) : E4 m c (no_index (Proc.devRef .tc main_arg6)) = m ((c.tc : Thread nD τ).loc main_arg6) := (E4_keep m c main_arg6 (by decide)).trans (E3_arg6 m c)
theorem E5_arg6 (c : Dev nD) : E5 m c (no_index (Proc.devRef .tc main_arg6)) = m ((c.tc : Thread nD τ).loc main_arg6) := (E5_keep m c main_arg6 (by decide)).trans (E4_arg6 m c)
theorem E1_arg7 (c : Dev nD) : E1 m c (no_index (Proc.devRef .tc main_arg7)) = m ((c.tc : Thread nD τ).loc main_arg7) := (E1_keep m c main_arg7 (by decide)).trans (E0_arg m c main_arg7)
theorem E2_arg7 (c : Dev nD) : E2 m c (no_index (Proc.devRef .tc main_arg7)) = m ((c.tc : Thread nD τ).loc main_arg7) := (E2_keep m c main_arg7 (by decide)).trans (E1_arg7 m c)
theorem E3_arg7 (c : Dev nD) : E3 m c (no_index (Proc.devRef .tc main_arg7)) = m ((c.tc : Thread nD τ).loc main_arg7) := (E3_keep m c main_arg7 (by decide)).trans (E2_arg7 m c)
theorem E4_arg7 (c : Dev nD) : E4 m c (no_index (Proc.devRef .tc main_arg7)) = m ((c.tc : Thread nD τ).loc main_arg7) := (E4_keep m c main_arg7 (by decide)).trans (E3_arg7 m c)
theorem E5_arg7 (c : Dev nD) : E5 m c (no_index (Proc.devRef .tc main_arg7)) = m ((c.tc : Thread nD τ).loc main_arg7) := (E5_keep m c main_arg7 (by decide)).trans (E4_arg7 m c)
theorem E1_arg8 (c : Dev nD) : E1 m c (no_index (Proc.devRef .tc main_arg8)) = m ((c.tc : Thread nD τ).loc main_arg8) := (E1_keep m c main_arg8 (by decide)).trans (E0_arg m c main_arg8)
theorem E2_arg8 (c : Dev nD) : E2 m c (no_index (Proc.devRef .tc main_arg8)) = m ((c.tc : Thread nD τ).loc main_arg8) := (E2_keep m c main_arg8 (by decide)).trans (E1_arg8 m c)
theorem E3_arg8 (c : Dev nD) : E3 m c (no_index (Proc.devRef .tc main_arg8)) = m ((c.tc : Thread nD τ).loc main_arg8) := (E3_keep m c main_arg8 (by decide)).trans (E2_arg8 m c)
theorem E4_arg8 (c : Dev nD) : E4 m c (no_index (Proc.devRef .tc main_arg8)) = m ((c.tc : Thread nD τ).loc main_arg8) := (E4_keep m c main_arg8 (by decide)).trans (E3_arg8 m c)
theorem E5_arg8 (c : Dev nD) : E5 m c (no_index (Proc.devRef .tc main_arg8)) = m ((c.tc : Thread nD τ).loc main_arg8) := (E5_keep m c main_arg8 (by decide)).trans (E4_arg8 m c)
theorem E1_arg9 (c : Dev nD) : E1 m c (no_index (Proc.devRef .tc main_arg9)) = m ((c.tc : Thread nD τ).loc main_arg9) := (E1_keep m c main_arg9 (by decide)).trans (E0_arg m c main_arg9)
theorem E2_arg9 (c : Dev nD) : E2 m c (no_index (Proc.devRef .tc main_arg9)) = m ((c.tc : Thread nD τ).loc main_arg9) := (E2_keep m c main_arg9 (by decide)).trans (E1_arg9 m c)
theorem E3_arg9 (c : Dev nD) : E3 m c (no_index (Proc.devRef .tc main_arg9)) = m ((c.tc : Thread nD τ).loc main_arg9) := (E3_keep m c main_arg9 (by decide)).trans (E2_arg9 m c)
theorem E4_arg9 (c : Dev nD) : E4 m c (no_index (Proc.devRef .tc main_arg9)) = m ((c.tc : Thread nD τ).loc main_arg9) := (E4_keep m c main_arg9 (by decide)).trans (E3_arg9 m c)
theorem E5_arg9 (c : Dev nD) : E5 m c (no_index (Proc.devRef .tc main_arg9)) = m ((c.tc : Thread nD τ).loc main_arg9) := (E5_keep m c main_arg9 (by decide)).trans (E4_arg9 m c)
theorem E1_arg10 (c : Dev nD) : E1 m c (no_index (Proc.devRef .tc main_arg10)) = m ((c.tc : Thread nD τ).loc main_arg10) := (E1_keep m c main_arg10 (by decide)).trans (E0_arg m c main_arg10)
theorem E2_arg10 (c : Dev nD) : E2 m c (no_index (Proc.devRef .tc main_arg10)) = m ((c.tc : Thread nD τ).loc main_arg10) := (E2_keep m c main_arg10 (by decide)).trans (E1_arg10 m c)
theorem E3_arg10 (c : Dev nD) : E3 m c (no_index (Proc.devRef .tc main_arg10)) = m ((c.tc : Thread nD τ).loc main_arg10) := (E3_keep m c main_arg10 (by decide)).trans (E2_arg10 m c)
theorem E4_arg10 (c : Dev nD) : E4 m c (no_index (Proc.devRef .tc main_arg10)) = m ((c.tc : Thread nD τ).loc main_arg10) := (E4_keep m c main_arg10 (by decide)).trans (E3_arg10 m c)
theorem E5_arg10 (c : Dev nD) : E5 m c (no_index (Proc.devRef .tc main_arg10)) = m ((c.tc : Thread nD τ).loc main_arg10) := (E5_keep m c main_arg10 (by decide)).trans (E4_arg10 m c)
theorem E1_arg11 (c : Dev nD) : E1 m c (no_index (Proc.devRef .tc main_arg11)) = m ((c.tc : Thread nD τ).loc main_arg11) := (E1_keep m c main_arg11 (by decide)).trans (E0_arg m c main_arg11)
theorem E2_arg11 (c : Dev nD) : E2 m c (no_index (Proc.devRef .tc main_arg11)) = m ((c.tc : Thread nD τ).loc main_arg11) := (E2_keep m c main_arg11 (by decide)).trans (E1_arg11 m c)
theorem E3_arg11 (c : Dev nD) : E3 m c (no_index (Proc.devRef .tc main_arg11)) = m ((c.tc : Thread nD τ).loc main_arg11) := (E3_keep m c main_arg11 (by decide)).trans (E2_arg11 m c)
theorem E4_arg11 (c : Dev nD) : E4 m c (no_index (Proc.devRef .tc main_arg11)) = m ((c.tc : Thread nD τ).loc main_arg11) := (E4_keep m c main_arg11 (by decide)).trans (E3_arg11 m c)
theorem E5_arg11 (c : Dev nD) : E5 m c (no_index (Proc.devRef .tc main_arg11)) = m ((c.tc : Thread nD τ).loc main_arg11) := (E5_keep m c main_arg11 (by decide)).trans (E4_arg11 m c)
theorem E1_arg12 (c : Dev nD) : E1 m c (no_index (Proc.devRef .tc main_arg12)) = m ((c.tc : Thread nD τ).loc main_arg12) := (E1_keep m c main_arg12 (by decide)).trans (E0_arg m c main_arg12)
theorem E2_arg12 (c : Dev nD) : E2 m c (no_index (Proc.devRef .tc main_arg12)) = m ((c.tc : Thread nD τ).loc main_arg12) := (E2_keep m c main_arg12 (by decide)).trans (E1_arg12 m c)
theorem E3_arg12 (c : Dev nD) : E3 m c (no_index (Proc.devRef .tc main_arg12)) = m ((c.tc : Thread nD τ).loc main_arg12) := (E3_keep m c main_arg12 (by decide)).trans (E2_arg12 m c)
theorem E4_arg12 (c : Dev nD) : E4 m c (no_index (Proc.devRef .tc main_arg12)) = m ((c.tc : Thread nD τ).loc main_arg12) := (E4_keep m c main_arg12 (by decide)).trans (E3_arg12 m c)
theorem E5_arg12 (c : Dev nD) : E5 m c (no_index (Proc.devRef .tc main_arg12)) = m ((c.tc : Thread nD τ).loc main_arg12) := (E5_keep m c main_arg12 (by decide)).trans (E4_arg12 m c)
theorem E1_arg13 (c : Dev nD) : E1 m c (no_index (Proc.devRef .tc main_arg13)) = m ((c.tc : Thread nD τ).loc main_arg13) := (E1_keep m c main_arg13 (by decide)).trans (E0_arg m c main_arg13)
theorem E2_arg13 (c : Dev nD) : E2 m c (no_index (Proc.devRef .tc main_arg13)) = m ((c.tc : Thread nD τ).loc main_arg13) := (E2_keep m c main_arg13 (by decide)).trans (E1_arg13 m c)
theorem E3_arg13 (c : Dev nD) : E3 m c (no_index (Proc.devRef .tc main_arg13)) = m ((c.tc : Thread nD τ).loc main_arg13) := (E3_keep m c main_arg13 (by decide)).trans (E2_arg13 m c)
theorem E4_arg13 (c : Dev nD) : E4 m c (no_index (Proc.devRef .tc main_arg13)) = m ((c.tc : Thread nD τ).loc main_arg13) := (E4_keep m c main_arg13 (by decide)).trans (E3_arg13 m c)
theorem E5_arg13 (c : Dev nD) : E5 m c (no_index (Proc.devRef .tc main_arg13)) = m ((c.tc : Thread nD τ).loc main_arg13) := (E5_keep m c main_arg13 (by decide)).trans (E4_arg13 m c)
theorem E1_arg14 (c : Dev nD) : E1 m c (no_index (Proc.devRef .tc main_arg14)) = m ((c.tc : Thread nD τ).loc main_arg14) := (E1_keep m c main_arg14 (by decide)).trans (E0_arg m c main_arg14)
theorem E2_arg14 (c : Dev nD) : E2 m c (no_index (Proc.devRef .tc main_arg14)) = m ((c.tc : Thread nD τ).loc main_arg14) := (E2_keep m c main_arg14 (by decide)).trans (E1_arg14 m c)
theorem E3_arg14 (c : Dev nD) : E3 m c (no_index (Proc.devRef .tc main_arg14)) = m ((c.tc : Thread nD τ).loc main_arg14) := (E3_keep m c main_arg14 (by decide)).trans (E2_arg14 m c)
theorem E4_arg14 (c : Dev nD) : E4 m c (no_index (Proc.devRef .tc main_arg14)) = m ((c.tc : Thread nD τ).loc main_arg14) := (E4_keep m c main_arg14 (by decide)).trans (E3_arg14 m c)
theorem E5_arg14 (c : Dev nD) : E5 m c (no_index (Proc.devRef .tc main_arg14)) = m ((c.tc : Thread nD τ).loc main_arg14) := (E5_keep m c main_arg14 (by decide)).trans (E4_arg14 m c)

/-! ## The live values at each cut

Each value that a later stretch reads is, at the cut, the read-back module's stage of the launch contents of the
arguments: inside a stretch by composing its operations' results over the facts at the cut before. -/

set_option maxRecDepth 8192 in
set_option maxHeartbeats 4000000 in
theorem E1_v1 (c : Dev nD) : E1 m c (no_index (Proc.devRef .tc main_v1)) = val_main_v1 (F := Ideal) (m ((c.tc : Thread nD τ).loc main_arg2)) := by
  unfold E1
  try simp only [chunk1]
  after_results_simp
  try dsimp only [Matrix.cons_val]
  try after_results_simp
  try simp only [E0_arg m c]
  rfl
set_option maxRecDepth 8192 in
set_option maxHeartbeats 4000000 in
theorem E1_v3 (c : Dev nD) : E1 m c (no_index (Proc.devRef .tc main_v3)) = val_main_v3 (F := Ideal) (m ((c.tc : Thread nD τ).loc main_arg2)) := by
  unfold E1
  try simp only [chunk1]
  after_results_simp
  try dsimp only [Matrix.cons_val]
  try after_results_simp
  try simp only [E0_arg m c]
  rfl
set_option maxRecDepth 8192 in
set_option maxHeartbeats 4000000 in
theorem E1_v4 (c : Dev nD) : E1 m c (no_index (Proc.devRef .tc main_v4)) = val_main_v4 (F := Ideal) := by
  unfold E1
  try simp only [chunk1]
  after_results_simp
  try dsimp only [Matrix.cons_val]
  try after_results_simp
  try simp only [E0_arg m c]
  rfl
set_option maxRecDepth 8192 in
set_option maxHeartbeats 4000000 in
theorem E1_v41 (c : Dev nD) : E1 m c (no_index (Proc.devRef .tc main_v41)) = val_main_v41 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold E1
  try simp only [chunk1]
  after_results_simp
  try dsimp only [Matrix.cons_val]
  try after_results_simp
  try simp only [E0_arg m c]
  rfl
theorem E2_v1 (c : Dev nD) : E2 m c (no_index (Proc.devRef .tc main_v1)) = val_main_v1 (F := Ideal) (m ((c.tc : Thread nD τ).loc main_arg2)) :=
  (E2_keep m c main_v1 (by decide)).trans (E1_v1 m c)
theorem E2_v3 (c : Dev nD) : E2 m c (no_index (Proc.devRef .tc main_v3)) = val_main_v3 (F := Ideal) (m ((c.tc : Thread nD τ).loc main_arg2)) :=
  (E2_keep m c main_v3 (by decide)).trans (E1_v3 m c)
set_option maxRecDepth 8192 in
set_option maxHeartbeats 4000000 in
theorem E2_v80 (c : Dev nD) : E2 m c (no_index (Proc.devRef .tc main_v80)) = val_main_v80 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  unfold E2
  try simp only [chunk2]
  after_results_simp
  try simp only [E1_v41 m c, E1_v4 m c, E1_arg0 m c, E1_arg7 m c, E1_arg8 m c, E1_arg9 m c, E1_arg10 m c]
  rfl
set_option maxRecDepth 8192 in
set_option maxHeartbeats 4000000 in
theorem E2_v88 (c : Dev nD) : E2 m c (no_index (Proc.devRef .tc main_v88)) = val_main_v88 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  unfold E2
  try simp only [chunk2]
  after_results_simp
  try simp only [E1_v41 m c, E1_v4 m c, E1_arg0 m c, E1_arg7 m c, E1_arg8 m c, E1_arg9 m c, E1_arg10 m c]
  rfl
theorem E3_v80 (c : Dev nD) : E3 m c (no_index (Proc.devRef .tc main_v80)) = val_main_v80 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  (E3_keep m c main_v80 (by decide)).trans (E2_v80 m c)
theorem E3_v88 (c : Dev nD) : E3 m c (no_index (Proc.devRef .tc main_v88)) = val_main_v88 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  (E3_keep m c main_v88 (by decide)).trans (E2_v88 m c)
set_option maxRecDepth 8192 in
set_option maxHeartbeats 4000000 in
theorem E3_v125 (c : Dev nD) : E3 m c (no_index (Proc.devRef .tc main_v125)) = val_main_v125 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  unfold E3
  try simp only [chunk3]
  after_results_simp
  try dsimp only [Matrix.cons_val]
  try after_results_simp
  try simp only [E2_v1 m c, E2_v3 m c, E2_v88 m c, E2_arg1 m c, E2_arg3 m c, E2_arg4 m c, E2_arg5 m c, E2_arg6 m c]
  rfl
set_option maxRecDepth 8192 in
set_option maxHeartbeats 4000000 in
theorem E4_v172 (c : Dev nD) : E4 m c (no_index (Proc.devRef .tc main_v172)) = val_main_v172 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  unfold E4
  try simp only [chunk4]
  after_results_simp
  try simp only [E3_v88 m c, E3_v125 m c, E3_v80 m c, E3_arg7 m c, E3_arg8 m c, E3_arg9 m c, E3_arg10 m c]
  rfl
set_option maxRecDepth 8192 in
set_option maxHeartbeats 4000000 in
theorem E5_v190 (c : Dev nD) : E5 m c (no_index (Proc.devRef .tc main_v190)) = val_main_v190 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  unfold E5
  try simp only [chunk5]
  after_results_simp
  try simp only [E4_v172 m c, E4_arg11 m c, E4_arg12 m c, E4_arg13 m c, E4_arg14 m c]
  rfl

/-! ## The run -/

section Split
variable {F : FTy → Type} [FloatOps F]
set_option maxRecDepth 8192 in
set_option maxHeartbeats 4000000 in
/-- The program's operations are the five stretches in a row. -/
theorem ops_split : (OpsP.ops : List (HloOp τ sig (Elt F))) = chunk1 ++ (chunk2 ++ (chunk3 ++ (chunk4 ++ chunk5))) := rfl
end Split

/-- The contents after the whole program are the contents after the fifth stretch. -/
theorem after_ops (c : Dev nD) : after (OpsP.ops (F := Ideal)) (launchContents m c) = E5 m c := by
  rw [ops_split, after_append, after_append, after_append, after_append]
  rfl

/-- On every device, from any memory with zero counters: every weakly fair execution of the reference terminates with its
    result at the read-back module's last stage of the arguments' launch contents, and the arguments unchanged. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v190) = Cert.ReferenceIdeal.ReadP.val_main_v190 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c main_v190).trans ((congrFun (after_ops m c) _).trans (E5_v190 m c)),
      (h c main_arg0).trans ((congrFun (after_ops m c) _).trans (E5_arg0 m c)),
      (h c main_arg1).trans ((congrFun (after_ops m c) _).trans (E5_arg1 m c)),
      (h c main_arg2).trans ((congrFun (after_ops m c) _).trans (E5_arg2 m c)),
      (h c main_arg3).trans ((congrFun (after_ops m c) _).trans (E5_arg3 m c)),
      (h c main_arg4).trans ((congrFun (after_ops m c) _).trans (E5_arg4 m c)),
      (h c main_arg5).trans ((congrFun (after_ops m c) _).trans (E5_arg5 m c)),
      (h c main_arg6).trans ((congrFun (after_ops m c) _).trans (E5_arg6 m c)),
      (h c main_arg7).trans ((congrFun (after_ops m c) _).trans (E5_arg7 m c)),
      (h c main_arg8).trans ((congrFun (after_ops m c) _).trans (E5_arg8 m c)),
      (h c main_arg9).trans ((congrFun (after_ops m c) _).trans (E5_arg9 m c)),
      (h c main_arg10).trans ((congrFun (after_ops m c) _).trans (E5_arg10 m c)),
      (h c main_arg11).trans ((congrFun (after_ops m c) _).trans (E5_arg11 m c)),
      (h c main_arg12).trans ((congrFun (after_ops m c) _).trans (E5_arg12 m c)),
      (h c main_arg13).trans ((congrFun (after_ops m c) _).trans (E5_arg13 m c)),
      (h c main_arg14).trans ((congrFun (after_ops m c) _).trans (E5_arg14 m c))⟩)
    (run_seq OpsP.scopedRefs_eq OpsP.scopedSems_eq defs main (fun _ => OpsP.ops) OpsP.main_eq (fun _ => OpsP.ops_sub) m ρ)

end Cert.ReferenceIdeal.Steps
end
-- ==== Proof.lean ====
/-
  The certificate of the message-passing network: the kernel program against its plain reference.

  The kernel program runs two propagation steps — look the target and source rows of every edge up,
  run the per-edge two-layer message network as a launch over blocks of 4000 edges, scatter-add the
  messages into their target nodes, update every node's cell and hidden rows as a launch over blocks
  of 2000 nodes — and then a gated readout launch that accumulates one [1,256] row over the blocks of
  nodes.  The reference does the same with whole-array operations.  On the extended reals a change of
  float format is the identity, a block product into zeros is the plain sum over the contracted axis,
  and a sum over 20000 nodes is the sum of its ten blocks' sums, so the two programs compute one
  function of the launch arguments — provided every edge endpoint names a node: the kernel program's
  row lookup fills a row whose index is out of range, the reference's clamps the index, and the two
  differ outside [0, 20000); the precondition confines the endpoints to that range.

  The three frames: the two kernel programs' are the generated frame certificates; the reference's is
  its run with the result dropped.  The idealization ledger is empty.  The value claim pairs the
  kernel program's run (its result array at the last boundary's contents, read back to the reference's
  last stage of the launch arguments) with the reference's run (its result at that same stage).
-/
import proofs.«114160_j24077586661654_1_alg».proof.Defs
import proofs.«114160_j24077586661654_1_alg».proof.Proof.Gen.Kernel
import proofs.«114160_j24077586661654_1_alg».proof.Proof.Gen.Kernel.Frame
import proofs.«114160_j24077586661654_1_alg».proof.Proof.Gen.KernelIdeal
import proofs.«114160_j24077586661654_1_alg».proof.Proof.Gen.KernelIdeal.Frame
import proofs.«114160_j24077586661654_1_alg».proof.Proof.Gen.ReferenceIdeal
import proofs.«114160_j24077586661654_1_alg».proof.Proof.Gen.Pre_finite_inputs
import proofs.«114160_j24077586661654_1_alg».proof.Proof.KernelRun
import proofs.«114160_j24077586661654_1_alg».proof.Proof.Forward
import proofs.«114160_j24077586661654_1_alg».proof.Proof.RefRunSteps
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_reference : Cert.frame_ReferenceIdeal := fun m ρ _ =>
  (θ_run Cert.ReferenceIdeal.defs _ _).mono (fun _ h c => (h c).2) (Cert.ReferenceIdeal.Steps.run m ρ)

/-- The ideal pass recorded no rewrite. -/
theorem preserves : Cert.preserves_Kernel_KernelIdeal := trivial

/-- From memories agreeing on the arguments both programs run, and end with one result: the
    reference's last stage of the launch arguments. -/
theorem algebraic : Cert.algebraic_KernelIdeal_ReferenceIdeal := by
  intro m ρ m' ρ' hpre hagree
  refine ⟨fun c => Cert.KernelIdeal.Gen.W16 m ρ c (Proc.devRef .tc Cert.KernelIdeal.main_v62),
    Cert.KernelIdeal.Whole.run_result (F := Ideal) m ρ, ?_⟩
  refine (θ_run Cert.ReferenceIdeal.defs _ _).mono (fun _ h c => ⟨(h c).1.trans ?_, (h c).2⟩)
    (Cert.ReferenceIdeal.Steps.run m' ρ')
  obtain ⟨e0, e1, e2, e3, e4, e5, e6, e7, e8, e9, e10, e11, e12, e13, e14⟩ := hagree c
  rw [e0, e1, e2, e3, e4, e5, e6, e7, e8, e9, e10, e11, e12, e13, e14]
  exact (Cert.KernelIdeal.Forward.result_eq m ρ hpre c).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
